-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v93) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S800000x16 : Shape := ⟨2, ![800000, 16]⟩
abbrev S144x128 : Shape := ⟨2, ![144, 128]⟩
abbrev S128 : Shape := ⟨1, ![128]⟩
abbrev S128x128 : Shape := ⟨2, ![128, 128]⟩
abbrev S192x128 : Shape := ⟨2, ![192, 128]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S800000x16 : S_.BroadcastsInDim S800000x16 (![] : Fin 0 → Fin S800000x16.rank)
  reducesTo_S800000x16_S_d0_1 : S800000x16.ReducesTo [0, 1] S_
  bcast_S_S144x128 : S_.BroadcastsInDim S144x128 (![] : Fin 0 → Fin S144x128.rank)
  reducesTo_S144x128_S_d0_1 : S144x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S192x128 : S_.BroadcastsInDim S192x128 (![] : Fin 0 → Fin S192x128.rank)
  reducesTo_S192x128_S_d0_1 : S192x128.ReducesTo [0, 1] S_

variable [Facts]

def fn_part4 {F : FTy → Type} [FloatOps F] (main_arg15 : FVec F S128x128 .f32) (main_arg16 : FVec F S128 .f32) (main_v63 : IVec S_ 1) (main_v67 : IVec S_ 1) : IVec S_ 1 :=
  let main_v68 : IVec S_ 1 := andi main_v63 main_v67
  let main_v69 : FVec F S128x128 .f32 := Host.absf main_arg15
  let main_cst_26 : FVec F S_ .f32 := constant S_ .f32 0x7F800000#32
  let main_v70 : FVec F S128x128 .f32 := broadcastInDim S128x128 ![] bcast_S_S128x128 main_cst_26
  let main_v71 : IVec S128x128 1 := cmpf .olt main_v69 main_v70
  let main_c_27 : IVec S_ 1 := constantI S_ 1 1#1
  let main_v72 : IVec S_ 1 := (fun x v => Host.reduce IntOp.andi x v reducesTo_S128x128_S_d0_1 h_S_) main_v71 main_c_27
  let main_v73 : IVec S_ 1 := andi main_v68 main_v72
  let main_v74 : FVec F S128 .f32 := Host.absf main_arg16
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  main_v78

def fn_part3 {F : FTy → Type} [FloatOps F] (main_arg12 : FVec F S128 .f32) (main_arg13 : FVec F S128 .f32) (main_arg14 : FVec F S128 .f32) (main_arg15 : FVec F S128x128 .f32) (main_arg16 : FVec F S128 .f32) (main_v48 : IVec S_ 1) (main_v49 : FVec F S192x128 .f32) (main_v50 : FVec F S192x128 .f32) : IVec S_ 1 :=
  let main_v51 : IVec S192x128 1 := cmpf .olt main_v49 main_v50
  let main_c_19 : IVec S_ 1 := constantI S_ 1 1#1
  let main_v52 : IVec S_ 1 := (fun x v => Host.reduce IntOp.andi x v reducesTo_S192x128_S_d0_1 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg13
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128 .f32 := Host.absf main_arg14
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg15 main_arg16 main_v63 main_v67

def fn_part2 {F : FTy → Type} [FloatOps F] (main_arg8 : FVec F S128 .f32) (main_arg9 : FVec F S128x128 .f32) (main_arg10 : FVec F S128 .f32) (main_arg11 : FVec F S192x128 .f32) (main_arg12 : FVec F S128 .f32) (main_arg13 : FVec F S128 .f32) (main_arg14 : FVec F S128 .f32) (main_arg15 : FVec F S128x128 .f32) (main_arg16 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg9
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S192x128 .f32 := Host.absf main_arg11
  let main_cst_18 : FVec F S_ .f32 := constant S_ .f32 0x7F800000#32
  let main_v50 : FVec F S192x128 .f32 := broadcastInDim S192x128 ![] bcast_S_S192x128 main_cst_18
  fn_part3 (F := F) main_arg12 main_arg13 main_arg14 main_arg15 main_arg16 main_v48 main_v49 main_v50

def fn_part1 {F : FTy → Type} [FloatOps F] (main_arg5 : FVec F S128 .f32) (main_arg6 : FVec F S128 .f32) (main_arg7 : FVec F S128x128 .f32) (main_arg8 : FVec F S128 .f32) (main_arg9 : FVec F S128x128 .f32) (main_arg10 : FVec F S128 .f32) (main_arg11 : FVec F S192x128 .f32) (main_arg12 : FVec F S128 .f32) (main_arg13 : FVec F S128 .f32) (main_arg14 : FVec F S128 .f32) (main_arg15 : FVec F S128x128 .f32) (main_arg16 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_arg10 main_arg11 main_arg12 main_arg13 main_arg14 main_arg15 main_arg16 main_v33

def fn {F : FTy → Type} [FloatOps F] (main_arg0 : FVec F S50000x64 .f32) (main_arg1 : IVec S2x800000 32) (main_arg2 : FVec F S800000x16 .f32) (main_arg3 : FVec F S144x128 .f32) (main_arg4 : FVec F S128 .f32) (main_arg5 : FVec F S128 .f32) (main_arg6 : FVec F S128 .f32) (main_arg7 : FVec F S128x128 .f32) (main_arg8 : FVec F S128 .f32) (main_arg9 : FVec F S128x128 .f32) (main_arg10 : FVec F S128 .f32) (main_arg11 : FVec F S192x128 .f32) (main_arg12 : FVec F S128 .f32) (main_arg13 : FVec F S128 .f32) (main_arg14 : FVec F S128 .f32) (main_arg15 : FVec F S128x128 .f32) (main_arg16 : FVec F S128 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S800000x16 .f32 := Host.absf main_arg2
  let main_cst_0 : FVec F S_ .f32 := constant S_ .f32 0x7F800000#32
  let main_v5 : FVec F S800000x16 .f32 := broadcastInDim S800000x16 ![] bcast_S_S800000x16 main_cst_0
  let main_v6 : IVec S800000x16 1 := cmpf .olt main_v4 main_v5
  let main_c_1 : IVec S_ 1 := constantI S_ 1 1#1
  let main_v7 : IVec S_ 1 := (fun x v => Host.reduce IntOp.andi x v reducesTo_S800000x16_S_d0_1 h_S_) main_v6 main_c_1
  let main_v8 : IVec S_ 1 := andi main_v3 main_v7
  let main_v9 : FVec F S144x128 .f32 := Host.absf main_arg3
  let main_cst_2 : FVec F S_ .f32 := constant S_ .f32 0x7F800000#32
  let main_v10 : FVec F S144x128 .f32 := broadcastInDim S144x128 ![] bcast_S_S144x128 main_cst_2
  let main_v11 : IVec S144x128 1 := cmpf .olt main_v9 main_v10
  let main_c_3 : IVec S_ 1 := constantI S_ 1 1#1
  let main_v12 : IVec S_ 1 := (fun x v => Host.reduce IntOp.andi x v reducesTo_S144x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_arg12 main_arg13 main_arg14 main_arg15 main_arg16 main_v13 main_v16
-- ==== Kernel.lean ====
abbrev S50000x64 : Shape := ⟨2, ![50000, 64]⟩
abbrev S2x800000 : Shape := ⟨2, ![2, 800000]⟩
abbrev S800000x16 : Shape := ⟨2, ![800000, 16]⟩
abbrev S144x128 : Shape := ⟨2, ![144, 128]⟩
abbrev S128 : Shape := ⟨1, ![128]⟩
abbrev S128x128 : Shape := ⟨2, ![128, 128]⟩
abbrev S192x128 : Shape := ⟨2, ![192, 128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x64 : Shape := ⟨2, ![800000, 64]⟩
abbrev S1x128 : Shape := ⟨2, ![1, 128]⟩
abbrev S3200x64 : Shape := ⟨2, ![3200, 64]⟩
abbrev S3200x16 : Shape := ⟨2, ![3200, 16]⟩
abbrev S64x128 : Shape := ⟨2, ![64, 128]⟩
abbrev S16x128 : Shape := ⟨2, ![16, 128]⟩
abbrev S3200x128 : Shape := ⟨2, ![3200, 128]⟩
abbrev S800000x128 : Shape := ⟨2, ![800000, 128]⟩
abbrev S50000x128 : Shape := ⟨2, ![50000, 128]⟩
abbrev S5000x64 : Shape := ⟨2, ![5000, 64]⟩
abbrev S5000x128 : Shape := ⟨2, ![5000, 128]⟩

abbrev nBuf : Space → Nat
  | .hbm => 74
  | .vmem => 50
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S800000x16, .f32⟩
  | .hbm, ⟨3, _⟩ => ⟨S144x128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S192x128, .f32⟩
  | .hbm, ⟨12, _⟩ => ⟨S128, .f32⟩
  | .hbm, ⟨13, _⟩ => ⟨S128, .f32⟩
  | .hbm, ⟨14, _⟩ => ⟨S128, .f32⟩
  | .hbm, ⟨15, _⟩ => ⟨S128x128, .f32⟩
  | .hbm, ⟨16, _⟩ => ⟨S128, .f32⟩
  | .hbm, ⟨17, _⟩ => ⟨S1x800000, .i32⟩
  | .hbm, ⟨18, _⟩ => ⟨S800000, .i32⟩
  | .hbm, ⟨19, _⟩ => ⟨S1x800000, .i32⟩
  | .hbm, ⟨20, _⟩ => ⟨S800000, .i32⟩
  | .hbm, ⟨21, _⟩ => ⟨S_, .i32⟩
  | .hbm, ⟨22, _⟩ => ⟨S800000, .i32⟩
  | .hbm, ⟨23, _⟩ => ⟨S800000, .i1⟩
  | .hbm, ⟨24, _⟩ => ⟨S_, .i32⟩
  | .hbm, ⟨25, _⟩ => ⟨S800000, .i32⟩
  | .hbm, ⟨26, _⟩ => ⟨S800000, .i32⟩
  | .hbm, ⟨27, _⟩ => ⟨S800000, .i32⟩
  | .hbm, ⟨28, _⟩ => ⟨S800000x1, .i32⟩
  | .hbm, ⟨29, _⟩ => ⟨S800000x64, .f32⟩
  | .hbm, ⟨30, _⟩ => ⟨S_, .i32⟩
  | .hbm, ⟨31, _⟩ => ⟨S800000, .i32⟩
  | .hbm, ⟨32, _⟩ => ⟨S800000, .i1⟩
  | .hbm, ⟨33, _⟩ => ⟨S_, .i32⟩
  | .hbm, ⟨34, _⟩ => ⟨S800000, .i32⟩
  | .hbm, ⟨35, _⟩ => ⟨S800000, .i32⟩
  | .hbm, ⟨36, _⟩ => ⟨S800000, .i32⟩
  | .hbm, ⟨37, _⟩ => ⟨S800000x1, .i32⟩
  | .hbm, ⟨38, _⟩ => ⟨S800000x64, .f32⟩
  | .hbm, ⟨39, _⟩ => ⟨S1x128, .f32⟩
  | .hbm, ⟨40, _⟩ => ⟨S1x128, .f32⟩
  | .hbm, ⟨41, _⟩ => ⟨S1x128, .f32⟩
  | .hbm, ⟨42, _⟩ => ⟨S1x128, .f32⟩
  | .hbm, ⟨43, _⟩ => ⟨S1x128, .f32⟩
  | .hbm, ⟨44, _⟩ => ⟨S1x128, .f32⟩
  | .hbm, ⟨45, _⟩ => ⟨S1x128, .f32⟩
  | .hbm, ⟨46, _⟩ => ⟨S_, .f32⟩
  | .hbm, ⟨47, _⟩ => ⟨S1x128, .f32⟩
  | .hbm, ⟨48, _⟩ => ⟨S1x128, .f32⟩
  | .hbm, ⟨49, _⟩ => ⟨S_, .f32⟩
  | .hbm, ⟨50, _⟩ => ⟨S1x128, .f32⟩
  | .hbm, ⟨51, _⟩ => ⟨S1x128, .f32⟩
  | .hbm, ⟨52, _⟩ => ⟨S1x128, .f32⟩
  | .hbm, ⟨53, _⟩ => ⟨S1x128, .f32⟩
  | .hbm, ⟨54, _⟩ => ⟨S800000x128, .f32⟩
  | .hbm, ⟨55, _⟩ => ⟨S_, .f32⟩
  | .hbm, ⟨56, _⟩ => ⟨S50000x128, .f32⟩
  | .hbm, ⟨57, _⟩ => ⟨S800000x1, .i32⟩
  | .hbm, ⟨58, _⟩ => ⟨S50000x128, .f32⟩
  | .hbm, ⟨59, _⟩ => ⟨S1x128, .f32⟩
  | .hbm, ⟨60, _⟩ => ⟨S1x128, .f32⟩
  | .hbm, ⟨61, _⟩ => ⟨S1x128, .f32⟩
  | .hbm, ⟨62, _⟩ => ⟨S1x128, .f32⟩
  | .hbm, ⟨63, _⟩ => ⟨S1x128, .f32⟩
  | .hbm, ⟨64, _⟩ => ⟨S1x128, .f32⟩
  | .hbm, ⟨65, _⟩ => ⟨S_, .f32⟩
  | .hbm, ⟨66, _⟩ => ⟨S1x128, .f32⟩
  | .hbm, ⟨67, _⟩ => ⟨S1x128, .f32⟩
  | .hbm, ⟨68, _⟩ => ⟨S_, .f32⟩
  | .hbm, ⟨69, _⟩ => ⟨S1x128, .f32⟩
  | .hbm, ⟨70, _⟩ => ⟨S1x128, .f32⟩
  | .hbm, ⟨71, _⟩ => ⟨S1x128, .f32⟩
  | .hbm, ⟨72, _⟩ => ⟨S1x128, .f32⟩
  | .hbm, ⟨73, _⟩ => ⟨S50000x128, .f32⟩
  | .local _ .vmem, ⟨0, _⟩ => ⟨S3200x64, .f32⟩
  | .local _ .vmem, ⟨1, _⟩ => ⟨S3200x64, .f32⟩
  | .local _ .vmem, ⟨2, _⟩ => ⟨S3200x64, .f32⟩
  | .local _ .vmem, ⟨3, _⟩ => ⟨S3200x64, .f32⟩
  | .local _ .vmem, ⟨4, _⟩ => ⟨S3200x16, .f32⟩
  | .local _ .vmem, ⟨5, _⟩ => ⟨S3200x16, .f32⟩
  | .local _ .vmem, ⟨6, _⟩ => ⟨S144x128, .f32⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S3200x64, .f32⟩
  | .local _ .vmem, ⟨11, _⟩ => ⟨S3200x64, .f32⟩
  | .local _ .vmem, ⟨12, _⟩ => ⟨S3200x64, .f32⟩
  | .local _ .vmem, ⟨13, _⟩ => ⟨S3200x64, .f32⟩
  | .local _ .vmem, ⟨14, _⟩ => ⟨S3200x16, .f32⟩
  | .local _ .vmem, ⟨15, _⟩ => ⟨S3200x16, .f32⟩
  | .local _ .vmem, ⟨16, _⟩ => ⟨S144x128, .f32⟩
  | .local _ .vmem, ⟨17, _⟩ => ⟨S1x128, .f32⟩
  | .local _ .vmem, ⟨18, _⟩ => ⟨S1x128, .f32⟩
  | .local _ .vmem, ⟨19, _⟩ => ⟨S1x128, .f32⟩
  | .local _ .vmem, ⟨20, _⟩ => ⟨S1x128, .f32⟩
  | .local _ .vmem, ⟨21, _⟩ => ⟨S1x128, .f32⟩
  | .local _ .vmem, ⟨22, _⟩ => ⟨S128x128, .f32⟩
  | .local _ .vmem, ⟨23, _⟩ => ⟨S1x128, .f32⟩
  | .local _ .vmem, ⟨24, _⟩ => ⟨S128x128, .f32⟩
  | .local _ .vmem, ⟨25, _⟩ => ⟨S1x128, .f32⟩
  | .local _ .vmem, ⟨26, _⟩ => ⟨S3200x128, .f32⟩
  | .local _ .vmem, ⟨27, _⟩ => ⟨S3200x128, .f32⟩
  | .local _ .vmem, ⟨28, _⟩ => ⟨S5000x64, .f32⟩
  | .local _ .vmem, ⟨29, _⟩ => ⟨S5000x64, .f32⟩
  | .local _ .vmem, ⟨30, _⟩ => ⟨S5000x128, .f32⟩
  | .local _ .vmem, ⟨31, _⟩ => ⟨S5000x128, .f32⟩
  | .local _ .vmem, ⟨32, _⟩ => ⟨S192x128, .f32⟩
  | .local _ .vmem, ⟨33, _⟩ => ⟨S1x128, .f32⟩
  | .local _ .vmem, ⟨34, _⟩ => ⟨S1x128, .f32⟩
  | .local _ .vmem, ⟨35, _⟩ => ⟨S1x128, .f32⟩
  | .local _ .vmem, ⟨36, _⟩ => ⟨S5000x64, .f32⟩
  | .local _ .vmem, ⟨37, _⟩ => ⟨S5000x64, .f32⟩
  | .local _ .vmem, ⟨38, _⟩ => ⟨S5000x128, .f32⟩
  | .local _ .vmem, ⟨39, _⟩ => ⟨S5000x128, .f32⟩
  | .local _ .vmem, ⟨40, _⟩ => ⟨S192x128, .f32⟩
  | .local _ .vmem, ⟨41, _⟩ => ⟨S1x128, .f32⟩
  | .local _ .vmem, ⟨42, _⟩ => ⟨S1x128, .f32⟩
  | .local _ .vmem, ⟨43, _⟩ => ⟨S1x128, .f32⟩
  | .local _ .vmem, ⟨44, _⟩ => ⟨S1x128, .f32⟩
  | .local _ .vmem, ⟨45, _⟩ => ⟨S1x128, .f32⟩
  | .local _ .vmem, ⟨46, _⟩ => ⟨S128x128, .f32⟩
  | .local _ .vmem, ⟨47, _⟩ => ⟨S1x128, .f32⟩
  | .local _ .vmem, ⟨48, _⟩ => ⟨S5000x128, .f32⟩
  | .local _ .vmem, ⟨49, _⟩ => ⟨S5000x128, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | _, _ => false

abbrev semScoped : Fin 0 → Bool
  | ⟨_, h⟩ => absurd h (Nat.not_lt_zero _)

abbrev dmaSemScoped : Fin 50 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | _ => false

abbrev sig : RefSig :=
  ofTc nBuf bufTy 0 50 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_c : Ref sig .tc := ⟨.hbm, 21, rfl⟩
abbrev main_v4 : Ref sig .tc := ⟨.hbm, 22, rfl⟩
abbrev main_v5 : Ref sig .tc := ⟨.hbm, 23, rfl⟩
abbrev main_c_0 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_c_1 : Ref sig .tc := ⟨.hbm, 30, rfl⟩
abbrev main_v11 : Ref sig .tc := ⟨.hbm, 31, rfl⟩
abbrev main_v12 : Ref sig .tc := ⟨.hbm, 32, rfl⟩
abbrev main_c_2 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23_0 : Ref sig .tc := ⟨.hbm, 44, rfl⟩
abbrev main_v23_1 : Ref sig .tc := ⟨.hbm, 45, rfl⟩
abbrev main_cst : Ref sig .tc := ⟨.hbm, 46, rfl⟩
abbrev main_v24 : Ref sig .tc := ⟨.hbm, 47, rfl⟩
abbrev main_v25 : Ref sig .tc := ⟨.hbm, 48, rfl⟩
abbrev main_cst_3 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_cst_4 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38_0 : Ref sig .tc := ⟨.hbm, 63, rfl⟩
abbrev main_v38_1 : Ref sig .tc := ⟨.hbm, 64, rfl⟩
abbrev main_cst_5 : Ref sig .tc := ⟨.hbm, 65, rfl⟩
abbrev main_v39 : Ref sig .tc := ⟨.hbm, 66, rfl⟩
abbrev main_v40 : Ref sig .tc := ⟨.hbm, 67, rfl⟩
abbrev main_cst_6 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg6_0 : Ref sig .tc := ⟨.vmem, 19, rfl⟩
abbrev cc1_stg7_0 : Ref sig .tc := ⟨.vmem, 20, rfl⟩
abbrev cc1_stg8_0 : Ref sig .tc := ⟨.vmem, 21, rfl⟩
abbrev cc1_stg9_0 : Ref sig .tc := ⟨.vmem, 22, rfl⟩
abbrev cc1_stg10_0 : Ref sig .tc := ⟨.vmem, 23, rfl⟩
abbrev cc1_stg11_0 : Ref sig .tc := ⟨.vmem, 24, rfl⟩
abbrev cc1_stg12_0 : Ref sig .tc := ⟨.vmem, 25, rfl⟩
abbrev cc1_stg13_0 : Ref sig .tc := ⟨.vmem, 26, rfl⟩
abbrev cc1_stg13_1 : Ref sig .tc := ⟨.vmem, 27, rfl⟩
abbrev cc2_stg0_0 : Ref sig .tc := ⟨.vmem, 28, rfl⟩
abbrev cc2_stg0_1 : Ref sig .tc := ⟨.vmem, 29, rfl⟩
abbrev cc2_stg1_0 : Ref sig .tc := ⟨.vmem, 30, rfl⟩
abbrev cc2_stg1_1 : Ref sig .tc := ⟨.vmem, 31, rfl⟩
abbrev cc2_stg2_0 : Ref sig .tc := ⟨.vmem, 32, rfl⟩
abbrev cc2_stg3_0 : Ref sig .tc := ⟨.vmem, 33, rfl⟩
abbrev cc2_stg4_0 : Ref sig .tc := ⟨.vmem, 34, rfl⟩
abbrev cc2_stg5_0 : Ref sig .tc := ⟨.vmem, 35, rfl⟩
abbrev cc3_stg0_0 : Ref sig .tc := ⟨.vmem, 36, rfl⟩
abbrev cc3_stg0_1 : Ref sig .tc := ⟨.vmem, 37, rfl⟩
abbrev cc3_stg1_0 : Ref sig .tc := ⟨.vmem, 38, rfl⟩
abbrev cc3_stg1_1 : Ref sig .tc := ⟨.vmem, 39, rfl⟩
abbrev cc3_stg2_0 : Ref sig .tc := ⟨.vmem, 40, rfl⟩
abbrev cc3_stg3_0 : Ref sig .tc := ⟨.vmem, 41, rfl⟩
abbrev cc3_stg4_0 : Ref sig .tc := ⟨.vmem, 42, rfl⟩
abbrev cc3_stg5_0 : Ref sig .tc := ⟨.vmem, 43, rfl⟩
abbrev cc3_stg6_0 : Ref sig .tc := ⟨.vmem, 44, rfl⟩
abbrev cc3_stg7_0 : Ref sig .tc := ⟨.vmem, 45, rfl⟩
abbrev cc3_stg8_0 : Ref sig .tc := ⟨.vmem, 46, rfl⟩
abbrev cc3_stg9_0 : Ref sig .tc := ⟨.vmem, 47, rfl⟩
abbrev cc3_stg10_0 : Ref sig .tc := ⟨.vmem, 48, rfl⟩
abbrev cc3_stg10_1 : Ref sig .tc := ⟨.vmem, 49, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem4_0 : DmaSem sig := 17
abbrev cc1_sem5_0 : DmaSem sig := 18
abbrev cc1_sem6_0 : DmaSem sig := 19
abbrev cc1_sem7_0 : DmaSem sig := 20
abbrev cc1_sem8_0 : DmaSem sig := 21
abbrev cc1_sem9_0 : DmaSem sig := 22
abbrev cc1_sem10_0 : DmaSem sig := 23
abbrev cc1_sem11_0 : DmaSem sig := 24
abbrev cc1_sem12_0 : DmaSem sig := 25
abbrev cc1_sem13_0 : DmaSem sig := 26
abbrev cc1_sem13_1 : DmaSem sig := 27
abbrev cc2_sem0_0 : DmaSem sig := 28
abbrev cc2_sem0_1 : DmaSem sig := 29
abbrev cc2_sem1_0 : DmaSem sig := 30
abbrev cc2_sem1_1 : DmaSem sig := 31
abbrev cc2_sem2_0 : DmaSem sig := 32
abbrev cc2_sem3_0 : DmaSem sig := 33
abbrev cc2_sem4_0 : DmaSem sig := 34
abbrev cc2_sem5_0 : DmaSem sig := 35
abbrev cc3_sem0_0 : DmaSem sig := 36
abbrev cc3_sem0_1 : DmaSem sig := 37
abbrev cc3_sem1_0 : DmaSem sig := 38
abbrev cc3_sem1_1 : DmaSem sig := 39
abbrev cc3_sem2_0 : DmaSem sig := 40
abbrev cc3_sem3_0 : DmaSem sig := 41
abbrev cc3_sem4_0 : DmaSem sig := 42
abbrev cc3_sem5_0 : DmaSem sig := 43
abbrev cc3_sem6_0 : DmaSem sig := 44
abbrev cc3_sem7_0 : DmaSem sig := 45
abbrev cc3_sem8_0 : DmaSem sig := 46
abbrev cc3_sem9_0 : DmaSem sig := 47
abbrev cc3_sem10_0 : DmaSem sig := 48
abbrev cc3_sem10_1 : DmaSem sig := 49

abbrev nD : Nat := 1
abbrev τ : Topo := Topo.v7x

variable {F : FTy → Type} [FloatOps F]

abbrev grid0 : Pipeline.Grid := ⟨1, ![250], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S3200x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3200x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3200x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S144x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev grid1 : Pipeline.Grid := ⟨1, ![250], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S3200x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S3200x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S3200x16 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S144x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S128x128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x128 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S128x128 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S1x128 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 2 → Memref sig .tc .vmem S3200x128 .f32 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S192x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_10 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S192x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S1x128 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S128x128 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 1 → Memref sig .tc .vmem S1x128 .f32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false]

abbrev stage3_10 : Fin 2 → Memref sig .tc .vmem S5000x128 .f32 := fun | 0 => Memref.whole cc3_stg10_0 | 1 => Memref.whole cc3_stg10_1 | ⟨_ + 2, h⟩ => absurd h (Nat.not_lt.2 (Nat.le_add_left _ _))
abbrev sem3_10 : Fin 2 → DmaSem sig := fun | 0 => cc3_sem10_0 | 1 => cc3_sem10_1 | ⟨_ + 2, h⟩ => absurd h (Nat.not_lt.2 (Nat.le_add_left _ _))
abbrev reads3_10 : Fin grid3.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  shapeCasts_S128_S1x128 : S128.ShapeCasts S1x128
  inb_S1x128_S1x128_0_0 : ∀ a, (![0, 0] : Fin 2 → Nat) a + S1x128.size a ≤ S1x128.size a
  h_S1x128 : 0 < S1x128.numel
  inb_S144x128_S144x128_0_0 : ∀ a, (![0, 0] : Fin 2 → Nat) a + S144x128.size a ≤ S144x128.size a
  h_S144x128 : 0 < S144x128.numel
  slices_S144x128_o0_0_S64x128 : S144x128.Slices ![0, 0] S64x128
  bitsLt_bf16_f32 : FTy.bits .bf16 < FTy.bits .f32
  slices_S144x128_o64_0_S64x128 : S144x128.Slices ![64, 0] S64x128
  slices_S144x128_o128_0_S16x128 : S144x128.Slices ![128, 0] S16x128
  inb_S3200x64_S3200x64_0_0 : ∀ a, (![0, 0] : Fin 2 → Nat) a + S3200x64.size a ≤ S3200x64.size a
  h_S3200x64 : 0 < S3200x64.numel
  shapeCasts_S3200x64_S3200x64 : S3200x64.ShapeCasts S3200x64
  inb_S3200x16_S3200x16_0_0 : ∀ a, (![0, 0] : Fin 2 → Nat) a + S3200x16.size a ≤ S3200x16.size a
  h_S3200x16 : 0 < S3200x16.numel
  shapeCasts_S1x128_S1x128 : S1x128.ShapeCasts S1x128
  broadcasts_S1x128_S3200x128 : S1x128.Broadcasts S3200x128
  reduces_S3200x128_S128 : S3200x128.Reduces [0] S128
  bcast_S_S1x128 : S_.BroadcastsInDim S1x128 (![] : Fin 0 → Fin S1x128.rank)
  inb_S128x128_S128x128_0_0 : ∀ a, (![0, 0] : Fin 2 → Nat) a + S128x128.size a ≤ S128x128.size a
  h_S128x128 : 0 < S128x128.numel
  inb_S3200x128_S3200x128_0_0 : ∀ a, (![0, 0] : Fin 2 → Nat) a + S3200x128.size a ≤ S3200x128.size a
  h_S3200x128 : 0 < S3200x128.numel
  bcast_S_S50000x128 : S_.BroadcastsInDim S50000x128 (![] : Fin 0 → Fin S50000x128.rank)
  inb_S192x128_S192x128_0_0 : ∀ a, (![0, 0] : Fin 2 → Nat) a + S192x128.size a ≤ S192x128.size a
  h_S192x128 : 0 < S192x128.numel
  slices_S192x128_o0_0_S64x128 : S192x128.Slices ![0, 0] S64x128
  slices_S192x128_o64_0_S128x128 : S192x128.Slices ![64, 0] S128x128
  inb_S5000x64_S5000x64_0_0 : ∀ a, (![0, 0] : Fin 2 → Nat) a + S5000x64.size a ≤ S5000x64.size a
  h_S5000x64 : 0 < S5000x64.numel
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  broadcasts_S1x128_S5000x128 : S1x128.Broadcasts S5000x128
  reduces_S5000x128_S128 : S5000x128.Reduces [0] S128
  gather_S50000x64_S800000x1_S800000x64_1_0_n_n_0_1_164_wf : GatherDims.WF S50000x64 S800000x1 S800000x64 [1] [0] [] [0] [] 1 ![1, 64]
  dot_S3200x64_S64x128_S3200x128_1_0_0_1_n_n_wf : DotDims.WF S3200x64 S64x128 S3200x128 [1] [0] [0] [1] [] []
  dot_S3200x16_S16x128_S3200x128_1_0_0_1_n_n_wf : DotDims.WF S3200x16 S16x128 S3200x128 [1] [0] [0] [1] [] []
  dot_S3200x128_S128x128_S3200x128_1_0_0_1_n_n_wf : DotDims.WF S3200x128 S128x128 S3200x128 [1] [0] [0] [1] [] []
  scatter_S50000x128_S800000x1_S800000x128_1_0_0_1_wf : ScatterDims.WF S50000x128 S800000x1 S800000x128 [1] [0] [0] 1
  dot_S5000x64_S64x128_S5000x128_1_0_0_1_n_n_wf : DotDims.WF S5000x64 S64x128 S5000x128 [1] [0] [0] [1] [] []
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3200x64.size a ≤ S800000x64.size a
  hwx0_0 : ∀ i : grid0.Coords, EltTy.bits .f32 = 32 ∨ (Rect.block (s := S800000x64) S3200x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3200x64.size a ≤ S800000x64.size a
  hwx0_1 : ∀ i : grid0.Coords, EltTy.bits .f32 = 32 ∨ (Rect.block (s := S800000x64) S3200x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S3200x16.size a ≤ S800000x16.size a
  hwx0_2 : ∀ i : grid0.Coords, EltTy.bits .f32 = 32 ∨ (Rect.block (s := S800000x16) S3200x16.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S144x128.size a ≤ S144x128.size a
  hwx0_3 : ∀ i : grid0.Coords, EltTy.bits .f32 = 32 ∨ (Rect.block (s := S144x128) S144x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S3200x64.size a ≤ S800000x64.size a
  hwx1_0 : ∀ i : grid1.Coords, EltTy.bits .f32 = 32 ∨ (Rect.block (s := S800000x64) S3200x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S3200x64.size a ≤ S800000x64.size a
  hwx1_1 : ∀ i : grid1.Coords, EltTy.bits .f32 = 32 ∨ (Rect.block (s := S800000x64) S3200x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S3200x16.size a ≤ S800000x16.size a
  hwx1_2 : ∀ i : grid1.Coords, EltTy.bits .f32 = 32 ∨ (Rect.block (s := S800000x16) S3200x16.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S144x128.size a ≤ S144x128.size a
  hwx1_3 : ∀ i : grid1.Coords, EltTy.bits .f32 = 32 ∨ (Rect.block (s := S144x128) S144x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x128.size a ≤ S1x128.size a
  hwx1_7 : ∀ i : grid1.Coords, EltTy.bits .f32 = 32 ∨ (Rect.block (s := S1x128) S1x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x128.size a ≤ S1x128.size a
  hwx1_8 : ∀ i : grid1.Coords, EltTy.bits .f32 = 32 ∨ (Rect.block (s := S1x128) S1x128.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S128x128.size a ≤ S128x128.size a
  hwx1_9 : ∀ i : grid1.Coords, EltTy.bits .f32 = 32 ∨ (Rect.block (s := S128x128) S128x128.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S1x128.size a ≤ S1x128.size a
  hwx1_10 : ∀ i : grid1.Coords, EltTy.bits .f32 = 32 ∨ (Rect.block (s := S1x128) S1x128.size (cc1_transform_10 i) (hinb1_10 i)).WholeWords (EltTy.packing .f32)
  hstage1_11 : ∀ j, (stage1_11 j).IsWhole
  nbuf1_11 : grid1.bufCount reads1_11 true = 1
  hreads1_11 : ∀ i i' : grid1.Coords, (∀ a, reads1_11 a = true → i a = i' a) → cc1_transform_11 i = cc1_transform_11 i'
  hinb1_11 : ∀ (i : grid1.Coords) a, (cc1_transform_11 i a + 1) * S128x128.size a ≤ S128x128.size a
  hwx1_11 : ∀ i : grid1.Coords, EltTy.bits .f32 = 32 ∨ (Rect.block (s := S128x128) S128x128.size (cc1_transform_11 i) (hinb1_11 i)).WholeWords (EltTy.packing .f32)
  hstage1_12 : ∀ j, (stage1_12 j).IsWhole
  nbuf1_12 : grid1.bufCount reads1_12 true = 1
  hreads1_12 : ∀ i i' : grid1.Coords, (∀ a, reads1_12 a = true → i a = i' a) → cc1_transform_12 i = cc1_transform_12 i'
  hinb1_12 : ∀ (i : grid1.Coords) a, (cc1_transform_12 i a + 1) * S1x128.size a ≤ S1x128.size a
  hwx1_12 : ∀ i : grid1.Coords, EltTy.bits .f32 = 32 ∨ (Rect.block (s := S1x128) S1x128.size (cc1_transform_12 i) (hinb1_12 i)).WholeWords (EltTy.packing .f32)
  hstage1_13 : ∀ j, (stage1_13 j).IsWhole
  nbuf1_13 : grid1.bufCount reads1_13 false = 2
  hreads1_13 : ∀ i i' : grid1.Coords, (∀ a, reads1_13 a = true → i a = i' a) → cc1_transform_13 i = cc1_transform_13 i'
  hinb1_13 : ∀ (i : grid1.Coords) a, (cc1_transform_13 i a + 1) * S3200x128.size a ≤ S800000x128.size a
  hwx1_13 : ∀ i : grid1.Coords, EltTy.bits .f32 = 32 ∨ (Rect.block (s := S800000x128) S3200x128.size (cc1_transform_13 i) (hinb1_13 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S192x128.size a ≤ S192x128.size a
  hwx2_2 : ∀ i : grid2.Coords, EltTy.bits .f32 = 32 ∨ (Rect.block (s := S192x128) S192x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S50000x64.size a
  hwx3_0 : ∀ i : grid3.Coords, EltTy.bits .f32 = 32 ∨ (Rect.block (s := S50000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S50000x128.size a
  hwx3_1 : ∀ i : grid3.Coords, EltTy.bits .f32 = 32 ∨ (Rect.block (s := S50000x128) S5000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S192x128.size a ≤ S192x128.size a
  hwx3_2 : ∀ i : grid3.Coords, EltTy.bits .f32 = 32 ∨ (Rect.block (s := S192x128) S192x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x128.size a ≤ S1x128.size a
  hwx3_5 : ∀ i : grid3.Coords, EltTy.bits .f32 = 32 ∨ (Rect.block (s := S1x128) S1x128.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x128.size a ≤ S1x128.size a
  hwx3_6 : ∀ i : grid3.Coords, EltTy.bits .f32 = 32 ∨ (Rect.block (s := S1x128) S1x128.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S1x128.size a ≤ S1x128.size a
  hwx3_7 : ∀ i : grid3.Coords, EltTy.bits .f32 = 32 ∨ (Rect.block (s := S1x128) S1x128.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S128x128.size a ≤ S128x128.size a
  hwx3_8 : ∀ i : grid3.Coords, EltTy.bits .f32 = 32 ∨ (Rect.block (s := S128x128) S128x128.size (cc3_transform_8 i) (hinb3_8 i)).WholeWords (EltTy.packing .f32)
  hstage3_9 : ∀ j, (stage3_9 j).IsWhole
  nbuf3_9 : grid3.bufCount reads3_9 true = 1
  hreads3_9 : ∀ i i' : grid3.Coords, (∀ a, reads3_9 a = true → i a = i' a) → cc3_transform_9 i = cc3_transform_9 i'
  hinb3_9 : ∀ (i : grid3.Coords) a, (cc3_transform_9 i a + 1) * S1x128.size a ≤ S1x128.size a
  hwx3_9 : ∀ i : grid3.Coords, EltTy.bits .f32 = 32 ∨ (Rect.block (s := S1x128) S1x128.size (cc3_transform_9 i) (hinb3_9 i)).WholeWords (EltTy.packing .f32)
  hstage3_10 : ∀ j, (stage3_10 j).IsWhole
  nbuf3_10 : grid3.bufCount reads3_10 false = 2
  hreads3_10 : ∀ i i' : grid3.Coords, (∀ a, reads3_10 a = true → i a = i' a) → cc3_transform_10 i = cc3_transform_10 i'
  hinb3_10 : ∀ (i : grid3.Coords) a, (cc3_transform_10 i a + 1) * S5000x128.size a ≤ S50000x128.size a
  hwx3_10 : ∀ i : grid3.Coords, EltTy.bits .f32 = 32 ∨ (Rect.block (s := S50000x128) S5000x128.size (cc3_transform_10 i) (hinb3_10 i)).WholeWords (EltTy.packing .f32)

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S3200x64_S64x128_S3200x128_1_0_0_1_n_n : DotDims S3200x64 S64x128 S3200x128 where
  lhsContracting := [1]
  rhsContracting := [0]
  lhsNonContracting := [0]
  rhsNonContracting := [1]
  lhsBatch := []
  rhsBatch := []
  wf := dot_S3200x64_S64x128_S3200x128_1_0_0_1_n_n_wf
def dot_S3200x16_S16x128_S3200x128_1_0_0_1_n_n : DotDims S3200x16 S16x128 S3200x128 where
  lhsContracting := [1]
  rhsContracting := [0]
  lhsNonContracting := [0]
  rhsNonContracting := [1]
  lhsBatch := []
  rhsBatch := []
  wf := dot_S3200x16_S16x128_S3200x128_1_0_0_1_n_n_wf
def dot_S3200x128_S128x128_S3200x128_1_0_0_1_n_n : DotDims S3200x128 S128x128 S3200x128 where
  lhsContracting := [1]
  rhsContracting := [0]
  lhsNonContracting := [0]
  rhsNonContracting := [1]
  lhsBatch := []
  rhsBatch := []
  wf := dot_S3200x128_S128x128_S3200x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v10) S3200x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S3200x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S3200x16.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S144x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v18) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v23_0) S1x128.size cc0_transform_5 reads0_5 true true 1 stage0_5 sem0_5
    hrank0 hreads0_5 hinb0_5 nbuf0_5 (Memref.isWhole_whole _) hwx0_5 hstage0_5

abbrev win0_6 : Pipeline.Window sig grid0 :=
  Pipeline.Window.ofSpec (Memref.whole main_v23_1) S1x128.size cc0_transform_6 reads0_6 true true 1 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v10) S3200x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17) S3200x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S3200x16.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg3) S144x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v18) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v25) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v29) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v19) S1x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v20) S1x128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_arg7) S128x128.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v21) S1x128.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_arg9) S128x128.size cc1_transform_11 reads1_11 false true 1 stage1_11 sem1_11
    hrank1 hreads1_11 hinb1_11 nbuf1_11 (Memref.isWhole_whole _) hwx1_11 hstage1_11

abbrev win1_12 : Pipeline.Window sig grid1 :=
  Pipeline.Window.ofSpec (Memref.whole main_v22) S1x128.size cc1_transform_12 reads1_12 false true 1 stage1_12 sem1_12
    hrank1 hreads1_12 hinb1_12 nbuf1_12 (Memref.isWhole_whole _) hwx1_12 hstage1_12

abbrev win1_13 : Pipeline.Window sig grid1 :=
  Pipeline.Window.ofSpec (Memref.whole main_v30) S3200x128.size cc1_transform_13 reads1_13 true false 2 stage1_13 sem1_13
    hrank1 hreads1_13 hinb1_13 nbuf1_13 (Memref.isWhole_whole _) hwx1_13 hstage1_13

abbrev win1 : Fin 14 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | 13 => win1_13 | ⟨_ + 14, h⟩ => absurd h (Nat.not_lt.2 (Nat.le_add_left _ _))
abbrev spec1 : Fin 14 → Pipeline.WinSpec sig grid1.rank := fun w => (win1 w).toWinSpec

abbrev win2_0 : Pipeline.Window sig grid2 :=
  Pipeline.Window.ofSpec (Memref.whole main_arg0) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v33) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg11) S192x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v34) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v38_0) S1x128.size cc2_transform_4 reads2_4 true true 1 stage2_4 sem2_4
    hrank2 hreads2_4 hinb2_4 nbuf2_4 (Memref.isWhole_whole _) hwx2_4 hstage2_4

abbrev win2_5 : Pipeline.Window sig grid2 :=
  Pipeline.Window.ofSpec (Memref.whole main_v38_1) S1x128.size cc2_transform_5 reads2_5 true true 1 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_arg0) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v33) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg11) S192x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v34) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v40) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v44) S1x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v35) S1x128.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v36) S1x128.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_arg15) S128x128.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_v37) S1x128.size cc3_transform_9 reads3_9 false true 1 stage3_9 sem3_9
    hrank3 hreads3_9 hinb3_9 nbuf3_9 (Memref.isWhole_whole _) hwx3_9 hstage3_9

abbrev win3_10 : Pipeline.Window sig grid3 :=
  Pipeline.Window.ofSpec (Memref.whole main_v45) S5000x128.size cc3_transform_10 reads3_10 true false 2 stage3_10 sem3_10
    hrank3 hreads3_10 hinb3_10 nbuf3_10 (Memref.isWhole_whole _) hwx3_10 hstage3_10

abbrev win3 : Fin 11 → Pipeline.Window sig grid3 := fun | 0 => win3_0 | 1 => win3_1 | 2 => win3_2 | 3 => win3_3 | 4 => win3_4 | 5 => win3_5 | 6 => win3_6 | 7 => win3_7 | 8 => win3_8 | 9 => win3_9 | 10 => win3_10 | ⟨_ + 11, h⟩ => absurd h (Nat.not_lt.2 (Nat.le_add_left _ _))
abbrev spec3 : Fin 11 → Pipeline.WinSpec sig grid3.rank := fun w => (win3 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S800000x16 : Shape := ⟨2, ![800000, 16]⟩
abbrev S144x128 : Shape := ⟨2, ![144, 128]⟩
abbrev S128 : Shape := ⟨1, ![128]⟩
abbrev S128x128 : Shape := ⟨2, ![128, 128]⟩
abbrev S192x128 : Shape := ⟨2, ![192, 128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x64 : Shape := ⟨2, ![800000, 64]⟩
abbrev S800000x144 : Shape := ⟨2, ![800000, 144]⟩
abbrev S800000x128 : Shape := ⟨2, ![800000, 128]⟩
abbrev S1x128 : Shape := ⟨2, ![1, 128]⟩
abbrev S50000x128 : Shape := ⟨2, ![50000, 128]⟩
abbrev S50000x192 : Shape := ⟨2, ![50000, 192]⟩

abbrev nBuf : Space → Nat
  | .hbm => 132
  | .vmem => 0
  | .smem => 0
  | _ => 0

abbrev hbmTy0_0 (i : Nat) : BufTy := match i % 128 with
  | 0 => ⟨S50000x64, .f32⟩
  | 1 => ⟨S2x800000, .i32⟩
  | 2 => ⟨S800000x16, .f32⟩
  | 3 => ⟨S144x128, .f32⟩
  | 4 => ⟨S128, .f32⟩
  | 5 => ⟨S128, .f32⟩
  | 6 => ⟨S128, .f32⟩
  | 7 => ⟨S128x128, .f32⟩
  | 8 => ⟨S128, .f32⟩
  | 9 => ⟨S128x128, .f32⟩
  | 10 => ⟨S128, .f32⟩
  | 11 => ⟨S192x128, .f32⟩
  | 12 => ⟨S128, .f32⟩
  | 13 => ⟨S128, .f32⟩
  | 14 => ⟨S128, .f32⟩
  | 15 => ⟨S128x128, .f32⟩
  | 16 => ⟨S128, .f32⟩
  | 17 => ⟨S1x800000, .i32⟩
  | 18 => ⟨S800000, .i32⟩
  | 19 => ⟨S1x800000, .i32⟩
  | 20 => ⟨S800000, .i32⟩
  | 21 => ⟨S_, .i32⟩
  | 22 => ⟨S800000, .i32⟩
  | 23 => ⟨S800000, .i1⟩
  | 24 => ⟨S_, .i32⟩
  | 25 => ⟨S800000, .i32⟩
  | 26 => ⟨S800000, .i32⟩
  | 27 => ⟨S800000, .i32⟩
  | 28 => ⟨S800000x1, .i32⟩
  | 29 => ⟨S800000x64, .f32⟩
  | 30 => ⟨S_, .i32⟩
  | 31 => ⟨S800000, .i32⟩
  | 32 => ⟨S800000, .i1⟩
  | 33 => ⟨S_, .i32⟩
  | 34 => ⟨S800000, .i32⟩
  | 35 => ⟨S800000, .i32⟩
  | 36 => ⟨S800000, .i32⟩
  | 37 => ⟨S800000x1, .i32⟩
  | 38 => ⟨S800000x64, .f32⟩
  | 39 => ⟨S800000x144, .f32⟩
  | 40 => ⟨S800000x128, .f32⟩
  | 41 => ⟨S1x128, .f32⟩
  | 42 => ⟨S800000x128, .f32⟩
  | 43 => ⟨S800000x128, .f32⟩
  | 44 => ⟨S_, .f32⟩
  | 45 => ⟨S128, .f32⟩
  | 46 => ⟨S1x128, .f32⟩
  | 47 => ⟨S_, .f32⟩
  | 48 => ⟨S1x128, .f32⟩
  | 49 => ⟨S1x128, .f32⟩
  | 50 => ⟨S800000x128, .f32⟩
  | 51 => ⟨S800000x128, .f32⟩
  | 52 => ⟨S800000x128, .f32⟩
  | 53 => ⟨S_, .f32⟩
  | 54 => ⟨S128, .f32⟩
  | 55 => ⟨S1x128, .f32⟩
  | 56 => ⟨S_, .f32⟩
  | 57 => ⟨S1x128, .f32⟩
  | 58 => ⟨S1x128, .f32⟩
  | 59 => ⟨S800000x128, .f32⟩
  | 60 => ⟨S800000x128, .f32⟩
  | 61 => ⟨S_, .f32⟩
  | 62 => ⟨S1x128, .f32⟩
  | 63 => ⟨S1x128, .f32⟩
  | 64 => ⟨S1x128, .f32⟩
  | 65 => ⟨S800000x128, .f32⟩
  | 66 => ⟨S800000x128, .f32⟩
  | 67 => ⟨S1x128, .f32⟩
  | 68 => ⟨S800000x128, .f32⟩
  | 69 => ⟨S800000x128, .f32⟩
  | 70 => ⟨S1x128, .f32⟩
  | 71 => ⟨S800000x128, .f32⟩
  | 72 => ⟨S800000x128, .f32⟩
  | 73 => ⟨S_, .f32⟩
  | 74 => ⟨S800000x128, .f32⟩
  | 75 => ⟨S800000x128, .f32⟩
  | 76 => ⟨S800000x128, .f32⟩
  | 77 => ⟨S1x128, .f32⟩
  | 78 => ⟨S800000x128, .f32⟩
  | 79 => ⟨S800000x128, .f32⟩
  | 80 => ⟨S800000x128, .f32⟩
  | 81 => ⟨S1x128, .f32⟩
  | 82 => ⟨S800000x128, .f32⟩
  | 83 => ⟨S800000x128, .f32⟩
  | 84 => ⟨S_, .f32⟩
  | 85 => ⟨S800000x128, .f32⟩
  | 86 => ⟨S800000x128, .f32⟩
  | 87 => ⟨S_, .f32⟩
  | 88 => ⟨S50000x128, .f32⟩
  | 89 => ⟨S800000x1, .i32⟩
  | 90 => ⟨S50000x128, .f32⟩
  | 91 => ⟨S50000x192, .f32⟩
  | 92 => ⟨S50000x128, .f32⟩
  | 93 => ⟨S1x128, .f32⟩
  | 94 => ⟨S50000x128, .f32⟩
  | 95 => ⟨S50000x128, .f32⟩
  | 96 => ⟨S_, .f32⟩
  | 97 => ⟨S128, .f32⟩
  | 98 => ⟨S1x128, .f32⟩
  | 99 => ⟨S_, .f32⟩
  | 100 => ⟨S1x128, .f32⟩
  | 101 => ⟨S1x128, .f32⟩
  | 102 => ⟨S50000x128, .f32⟩
  | 103 => ⟨S50000x128, .f32⟩
  | 104 => ⟨S50000x128, .f32⟩
  | 105 => ⟨S_, .f32⟩
  | 106 => ⟨S128, .f32⟩
  | 107 => ⟨S1x128, .f32⟩
  | 108 => ⟨S_, .f32⟩
  | 109 => ⟨S1x128, .f32⟩
  | 110 => ⟨S1x128, .f32⟩
  | 111 => ⟨S50000x128, .f32⟩
  | 112 => ⟨S50000x128, .f32⟩
  | 113 => ⟨S_, .f32⟩
  | 114 => ⟨S1x128, .f32⟩
  | 115 => ⟨S1x128, .f32⟩
  | 116 => ⟨S1x128, .f32⟩
  | 117 => ⟨S50000x128, .f32⟩
  | 118 => ⟨S50000x128, .f32⟩
  | 119 => ⟨S1x128, .f32⟩
  | 120 => ⟨S50000x128, .f32⟩
  | 121 => ⟨S50000x128, .f32⟩
  | 122 => ⟨S1x128, .f32⟩
  | 123 => ⟨S50000x128, .f32⟩
  | 124 => ⟨S50000x128, .f32⟩
  | 125 => ⟨S_, .f32⟩
  | 126 => ⟨S50000x128, .f32⟩
  | 127 => ⟨S50000x128, .f32⟩
  | _ => ⟨S50000x64, .f32⟩

abbrev hbmTy0_1 (i : Nat) : BufTy := match i % 128 with
  | 0 => ⟨S50000x128, .f32⟩
  | 1 => ⟨S1x128, .f32⟩
  | 2 => ⟨S50000x128, .f32⟩
  | 3 => ⟨S50000x128, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_c : Ref sig .tc := ⟨.hbm, 21, rfl⟩
abbrev main_v4 : Ref sig .tc := ⟨.hbm, 22, rfl⟩
abbrev main_v5 : Ref sig .tc := ⟨.hbm, 23, rfl⟩
abbrev main_c_0 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_c_1 : Ref sig .tc := ⟨.hbm, 30, rfl⟩
abbrev main_v11 : Ref sig .tc := ⟨.hbm, 31, rfl⟩
abbrev main_v12 : Ref sig .tc := ⟨.hbm, 32, rfl⟩
abbrev main_c_2 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_cst : Ref sig .tc := ⟨.hbm, 44, rfl⟩
abbrev main_v23 : Ref sig .tc := ⟨.hbm, 45, rfl⟩
abbrev main_v24 : Ref sig .tc := ⟨.hbm, 46, rfl⟩
abbrev main_cst_3 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_cst_4 : Ref sig .tc := ⟨.hbm, 53, rfl⟩
abbrev main_v30 : Ref sig .tc := ⟨.hbm, 54, rfl⟩
abbrev main_v31 : Ref sig .tc := ⟨.hbm, 55, rfl⟩
abbrev main_cst_5 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_cst_6 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_call0_cst : Ref sig .tc := ⟨.hbm, 73, rfl⟩
abbrev main_call0_v0 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_call1_cst : Ref sig .tc := ⟨.hbm, 84, rfl⟩
abbrev main_call1_v0 : Ref sig .tc := ⟨.hbm, 85, rfl⟩
abbrev main_v56 : Ref sig .tc := ⟨.hbm, 86, rfl⟩
abbrev main_cst_7 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_cst_8 : Ref sig .tc := ⟨.hbm, 96, rfl⟩
abbrev main_v65 : Ref sig .tc := ⟨.hbm, 97, rfl⟩
abbrev main_v66 : Ref sig .tc := ⟨.hbm, 98, rfl⟩
abbrev main_cst_9 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_cst_10 : Ref sig .tc := ⟨.hbm, 105, rfl⟩
abbrev main_v72 : Ref sig .tc := ⟨.hbm, 106, rfl⟩
abbrev main_v73 : Ref sig .tc := ⟨.hbm, 107, rfl⟩
abbrev main_cst_11 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_cst_12 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_call2_cst : Ref sig .tc := ⟨.hbm, 125, rfl⟩
abbrev main_call2_v0 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  concatenates_S800000x64_S800000x64_S800000x16_S800000x144_d1 : Shape.Concatenates [S800000x64, S800000x64, S800000x16] S800000x144 1
  bcast_S128_S1x128_1 : S128.BroadcastsInDim S1x128 (![1] : Fin 1 → Fin S1x128.rank)
  bcast_S1x128_S800000x128_0_1 : S1x128.BroadcastsInDim S800000x128 (![0, 1] : Fin 2 → Fin S800000x128.rank)
  reducesTo_S800000x128_S128_d0 : S800000x128.ReducesTo [0] S128
  h_S_ : 0 < S_.numel
  bcast_S_S1x128 : S_.BroadcastsInDim S1x128 (![] : Fin 0 → Fin S1x128.rank)
  bcast_S_S800000x128 : S_.BroadcastsInDim S800000x128 (![] : Fin 0 → Fin S800000x128.rank)
  bcast_S_S50000x128 : S_.BroadcastsInDim S50000x128 (![] : Fin 0 → Fin S50000x128.rank)
  concatenates_S50000x64_S50000x128_S50000x192_d1 : Shape.Concatenates [S50000x64, S50000x128] S50000x192 1
  bcast_S1x128_S50000x128_0_1 : S1x128.BroadcastsInDim S50000x128 (![0, 1] : Fin 2 → Fin S50000x128.rank)
  reducesTo_S50000x128_S128_d0 : S50000x128.ReducesTo [0] S128
  gather_S50000x64_S800000x1_S800000x64_1_0_n_n_0_1_164_wf : GatherDims.WF S50000x64 S800000x1 S800000x64 [1] [0] [] [0] [] 1 ![1, 64]
  dot_S800000x144_S144x128_S800000x128_1_0_0_1_n_n_wf : DotDims.WF S800000x144 S144x128 S800000x128 [1] [0] [0] [1] [] []
  dot_S800000x128_S128x128_S800000x128_1_0_0_1_n_n_wf : DotDims.WF S800000x128 S128x128 S800000x128 [1] [0] [0] [1] [] []
  scatter_S50000x128_S800000x1_S800000x128_1_0_0_1_wf : ScatterDims.WF S50000x128 S800000x1 S800000x128 [1] [0] [0] 1
  dot_S50000x192_S192x128_S50000x128_1_0_0_1_n_n_wf : DotDims.WF S50000x192 S192x128 S50000x128 [1] [0] [0] [1] [] []
  dot_S50000x128_S128x128_S50000x128_1_0_0_1_n_n_wf : DotDims.WF S50000x128 S128x128 S50000x128 [1] [0] [0] [1] [] []

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S800000x144_S144x128_S800000x128_1_0_0_1_n_n : DotDims S800000x144 S144x128 S800000x128 where
  lhsContracting := [1]
  rhsContracting := [0]
  lhsNonContracting := [0]
  rhsNonContracting := [1]
  lhsBatch := []
  rhsBatch := []
  wf := dot_S800000x144_S144x128_S800000x128_1_0_0_1_n_n_wf
def dot_S800000x128_S128x128_S800000x128_1_0_0_1_n_n : DotDims S800000x128 S128x128 S800000x128 where
  lhsContracting := [1]
  rhsContracting := [0]
  lhsNonContracting := [0]
  rhsNonContracting := [1]
  lhsBatch := []
  rhsBatch := []
  wf := dot_S800000x128_S128x128_S800000x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x192_S192x128_S50000x128_1_0_0_1_n_n : DotDims S50000x192 S192x128 S50000x128 where
  lhsContracting := [1]
  rhsContracting := [0]
  lhsNonContracting := [0]
  rhsNonContracting := [1]
  lhsBatch := []
  rhsBatch := []
  wf := dot_S50000x192_S192x128_S50000x128_1_0_0_1_n_n_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.LibDense.lean ====
/-
  Dense layers on the extended reals, over rank-2 arrays of any extents.

  `mm A B` is the matrix product, `(A B)(p, q) = ∑ k, A(p, k) · B(k, q)`; `act A S b` is the rectified affine layer
  `max (A S + b, 0)` with the bias `b` a one-row array added to every row; `row b` is a vector laid out as that one row.
  A dot product whose dimension numbers contract the left operand's columns with the right operand's rows, with no batch
  axis, read at an output index `(p, q)` sums over the contraction index; that index set is in bijection with the
  contracted extent, so the sum is `mm` at `(p, q)` — for the vector unit's matmul into a zero accumulator and for the
  host's dot product alike. The remaining lemmas read the layout operations that carry a bias (a vector cast or broadcast
  to one row, a row broadcast to all rows, a scalar zero broadcast everywhere) at an index.
-/
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.Dense

open Idealize.ShloMosaic Idealize.ShloMosaic.ValueIdx

/-- A rank-2 array of extended reals. -/
abbrev Mat (a b : ℕ) : Type := (⟨2, ![a, b]⟩ : Shape).Idx → EReal
/-- A rank-1 array of extended reals. -/
abbrev Row (a : ℕ) : Type := (⟨1, ![a]⟩ : Shape).Idx → EReal

/-- The first coordinate of a rank-2 index, typed by the extent itself. -/
abbrev c0 {a b : ℕ} (i : (⟨2, ![a, b]⟩ : Shape).Idx) : Fin a := ⟨(i 0).val, idx2_lt0 i⟩
/-- The second coordinate of a rank-2 index, typed by the extent itself. -/
abbrev c1 {a b : ℕ} (i : (⟨2, ![a, b]⟩ : Shape).Idx) : Fin b := ⟨(i 1).val, idx2_lt1 i⟩

/-- The matrix product on the extended reals. -/
def mm {M K N : ℕ} (A : Mat M K) (B : Mat K N) : Mat M N :=
  fun i => ∑ k : Fin K, A (ix2 (c0 i) k) * B (ix2 k (c1 i))

theorem mm_apply {M K N : ℕ} (A : Mat M K) (B : Mat K N) (p : Fin M) (q : Fin N) :
    mm A B (ix2 p q) = ∑ k : Fin K, A (ix2 p k) * B (ix2 k q) := rfl

/-- The rectified affine layer `max (A S + b, 0)`, the one-row bias `b` added to every row. -/
def act {M K N : ℕ} (A : Mat M K) (S : Mat K N) (b : Mat 1 N) : Mat M N :=
  fun i => max (mm A S i + b (ix2 (0 : Fin 1) (c1 i))) 0

theorem act_apply {M K N : ℕ} (A : Mat M K) (S : Mat K N) (b : Mat 1 N) (p : Fin M) (q : Fin N) :
    act A S b (ix2 p q) = max ((∑ k : Fin K, A (ix2 p k) * S (ix2 k q)) + b (ix2 (0 : Fin 1) q)) 0 := rfl

/-- A vector laid out as a one-row array. -/
def row {N : ℕ} (b : Row N) : Mat 1 N := fun i => b (ix1 (c1 i))

theorem row_apply {N : ℕ} (b : Row N) (u : Fin 1) (q : Fin N) : row b (ix2 u q) = b (ix1 q) := rfl

/-- A plain product's contraction sum at `(p, q)` is the sum over the contracted extent of `l(p, k) · r(k, q)`. -/
theorem plain_sum {M K N : ℕ} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (l : Mat M K) (r : Mat K N) (p : Fin M) (q : Fin N) :
    ∑ k : D.contr.Idx, l (D.lhsIdx (ix2 p q) k) * r (D.rhsIdx (ix2 p q) k) = ∑ k : Fin K, l (ix2 p k) * r (ix2 k q) := by
  obtain ⟨lc, rc, ln, rn, lb, rb, wf⟩ := D
  dsimp only at h1 h2 h3 h4 h5 h6
  subst h1 h2 h3 h4 h5 h6
  generalize hD : (⟨[1], [0], [0], [1], [], [], wf⟩ : DotDims ⟨2, ![M, K]⟩ ⟨2, ![K, N]⟩ ⟨2, ![M, N]⟩) = D
  have hr : D.contr.rank = 1 := by subst hD; rfl
  have hs : D.contr.size ⟨0, by omega⟩ = K := by subst hD; rfl
  rw [← Equiv.sum_comp (contrEquiv1 D K hr hs).symm]
  refine Finset.sum_congr rfl fun k _ => ?_
  have hk := contrEquiv1_symm_val D K hr hs k
  have hlc : D.lhsContracting = [1] := by subst hD; rfl
  have hrc : D.rhsContracting = [0] := by subst hD; rfl
  have el : D.lhsIdx (ix2 p q) ((contrEquiv1 D K hr hs).symm k) = ix2 p k := funext fun a => Fin.ext (by
    match a with
    | ⟨0, _⟩ =>
      subst hD
      rfl
    | ⟨1, _⟩ => exact (D.lhsIdx_val_of_single hlc _ _).trans hk)
  have er : D.rhsIdx (ix2 p q) ((contrEquiv1 D K hr hs).symm k) = ix2 k q := funext fun a => Fin.ext (by
    match a with
    | ⟨0, _⟩ => exact (D.rhsIdx_val_of_single hrc _ _).trans hk
    | ⟨1, _⟩ =>
      subst hD
      rfl)
  rw [el, er]

/-- The host's plain dot product is the matrix product. -/
theorem hostDot_eq_mm {M K N : ℕ} {φ₁ φ₂ : FTy} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (prec : Option ContractPrecision) (l : FVec Ideal ⟨2, ![M, K]⟩ φ₁) (r : FVec Ideal ⟨2, ![K, N]⟩ φ₂) :
    Host.dotGeneral (F := Ideal) D prec l r = mm l r := by
  funext i
  obtain ⟨p, q, rfl⟩ : ∃ (p : Fin M) (q : Fin N), i = ix2 p q := ⟨i 0, i 1, eq_ix2 i⟩
  exact (Ideal.dotGeneral_apply D prec .single l r (ix2 p q)).trans (plain_sum D h1 h2 h3 h4 h5 h6 l r p q)

/-- The vector unit's plain matmul into a zero accumulator is the matrix product. -/
theorem matmul_zero_eq_mm {M K N : ℕ} {φ₁ φ₂ : FTy} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (prec : Option ContractPrecision) (l : FVec Ideal ⟨2, ![M, K]⟩ φ₁) (r : FVec Ideal ⟨2, ![K, N]⟩ φ₂) :
    matmul (F := Ideal) D prec l r (constant ⟨2, ![M, N]⟩ .f32 0x00000000#32) = mm l r := by
  funext i
  obtain ⟨p, q, rfl⟩ : ∃ (p : Fin M) (q : Fin N), i = ix2 p q := ⟨i 0, i 1, eq_ix2 i⟩
  exact (Ideal.matmul_constant_zero_apply D prec l r (ix2 p q)).trans (plain_sum D h1 h2 h3 h4 h5 h6 l r p q)

/-- A one-row bias added to every row, then rectified. -/
def reluBias {M N : ℕ} (X : Mat M N) (b : Mat 1 N) : Mat M N := fun i => max (X i + b (ix2 (0 : Fin 1) (c1 i))) 0

theorem act_eq {M K N : ℕ} (A : Mat M K) (S : Mat K N) (b : Mat 1 N) : act A S b = reluBias (mm A S) b := rfl

/-- The vector unit's form: the row broadcast to every row, added, and the maximum with a zero splat. -/
theorem vecReluBias {M N : ℕ} (X : FVec Ideal ⟨2, ![M, N]⟩ .f32) (b : FVec Ideal ⟨2, ![1, N]⟩ .f32)
    (h : (⟨2, ![1, N]⟩ : Shape).Broadcasts ⟨2, ![M, N]⟩) :
    maximumf (addf X (broadcastTo ⟨2, ![M, N]⟩ b h)) (broadcast ⟨2, ![M, N]⟩ (Scalar.ofBits (F := Ideal) .f32 0x00000000#32))
      = reluBias X b := by
  funext i
  obtain ⟨p, q, rfl⟩ : ∃ (p : Fin M) (q : Fin N), i = ix2 p q := ⟨i 0, i 1, eq_ix2 i⟩
  show max (X (ix2 p q) + broadcastTo ⟨2, ![M, N]⟩ b h (ix2 p q)) (Ideal.ofBits .f32 0x00000000#32) = _
  rw [broadcastTo_1b_ab_apply, Ideal.ofBits_zero_f32]
  rfl

/-- The host's form: the vector broadcast to one row, that row to every row, added, and the maximum with a broadcast
    scalar zero. -/
theorem hostReluBias {M N : ℕ} (X : FVec Ideal ⟨2, ![M, N]⟩ .f32) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1])
    (h0 : (⟨0, ![]⟩ : Shape).BroadcastsInDim ⟨2, ![M, N]⟩ ![]) :
    maximumf (addf X (broadcastInDim ⟨2, ![M, N]⟩ ![0, 1] h2 (broadcastInDim ⟨2, ![1, N]⟩ ![1] h1 b)))
        (broadcastInDim ⟨2, ![M, N]⟩ ![] h0 (constant (F := Ideal) ⟨0, ![]⟩ .f32 0x00000000#32))
      = reluBias X (row b) := by
  funext i
  obtain ⟨p, q, rfl⟩ : ∃ (p : Fin M) (q : Fin N), i = ix2 p q := ⟨i 0, i 1, eq_ix2 i⟩
  show max (X (ix2 p q) + broadcastInDim ⟨2, ![M, N]⟩ ![0, 1] h2 (broadcastInDim ⟨2, ![1, N]⟩ ![1] h1 b) (ix2 p q))
      (broadcastInDim ⟨2, ![M, N]⟩ ![] h0 (constant (F := Ideal) ⟨0, ![]⟩ .f32 0x00000000#32) (ix2 p q)) = _
  rw [broadcastInDim_apply ![0, 1] h2 _ (ix2 p q) (ix2 (0 : Fin 1) q) (fun a => by
        match a with
        | ⟨0, _⟩ => rfl
        | ⟨1, _⟩ =>
          show q.val = if N = 1 then 0 else q.val
          split
          · have := q.isLt; omega
          · rfl),
    broadcastInDim_apply ![1] h1 b (ix2 (0 : Fin 1) q) (ix1 q) (fun a => by
        match a with
        | ⟨0, _⟩ =>
          show q.val = if N = 1 then 0 else q.val
          split
          · have := q.isLt; omega
          · rfl),
    broadcastInDim_apply ![] h0 _ (ix2 p q) ix0 (fun a => a.elim0)]
  show max (X (ix2 p q) + b (ix1 q)) (Ideal.ofBits .f32 0x00000000#32) = _
  rw [Ideal.ofBits_zero_f32]
  rfl

/-- A vector cast to one row is that row. -/
theorem shapeCast_row {N : ℕ} (b : Row N) (h : (⟨1, ![N]⟩ : Shape).ShapeCasts ⟨2, ![1, N]⟩) :
    shapeCast ⟨2, ![1, N]⟩ b h = row b := by
  funext i
  obtain ⟨u, q, rfl⟩ : ∃ (u : Fin 1) (q : Fin N), i = ix2 u q := ⟨i 0, i 1, eq_ix2 i⟩
  exact shapeCast_a_1a_apply b h u q

/-- Rows of the layer's output depend on the same rows of the left operand only. -/
theorem mm_act_rows {M M' K N P : ℕ} (A : Mat M K) (A' : Mat M' K) (S : Mat K N) (b : Mat 1 N) (W : Mat N P)
    (p : Fin M) (p' : Fin M') (hA : ∀ k, A' (ix2 p' k) = A (ix2 p k)) (q : Fin P) :
    mm (act A' S b) W (ix2 p' q) = mm (act A S b) W (ix2 p q) := by
  simp only [mm_apply, act_apply, hA]

theorem act_rows {M M' K N : ℕ} (A : Mat M K) (A' : Mat M' K) (S : Mat K N) (b : Mat 1 N)
    (p : Fin M) (p' : Fin M') (hA : ∀ k, A' (ix2 p' k) = A (ix2 p k)) (q : Fin N) :
    act A' S b (ix2 p' q) = act A S b (ix2 p q) := by
  simp only [act_apply, hA]

theorem mm_rows {M M' K N : ℕ} (A : Mat M K) (A' : Mat M' K) (B : Mat K N)
    (p : Fin M) (p' : Fin M') (hA : ∀ k, A' (ix2 p' k) = A (ix2 p k)) (q : Fin N) :
    mm A' B (ix2 p' q) = mm A B (ix2 p q) := by
  simp only [mm_apply, hA]

end Cert.Dense

end
-- ==== Proof.LibBiasRow.lean ====
/-
  A one-row bias added to every row of a rank-2 array, on the extended reals, at any extents.

  `addRow X b` is `X(p, q) + b(0, q)`.  The vector unit spells it as the row broadcast along the rows and added; the
  host as the vector broadcast to one row, that row broadcast to every row, and added.  Both are `addRow`, the host's
  over the vector laid out as a row (`Cert.Dense.row`).  The entry at `(p, q)` depends on the entry of `X` there and
  on entry `q` of the bias only (`addRow_at`; `reluBias_at` for the rectified layer, `mm_at` for the matrix product, whose
  entry depends on one row of the left operand), which is what reading a block of rows against the whole array needs.
-/
import proofs.«139705_j25838523252951_1_alg».proof.Proof.LibDense

noncomputable section

namespace Cert.BiasRow

open Idealize.ShloMosaic Idealize.ShloMosaic.ValueIdx Cert.Dense

/-- A one-row array added to every row. -/
def addRow {M N : ℕ} (X : Mat M N) (b : Mat 1 N) : Mat M N := fun i => X i + b (ix2 (0 : Fin 1) (c1 i))

theorem addRow_apply {M N : ℕ} (X : Mat M N) (b : Mat 1 N) (p : Fin M) (q : Fin N) :
    addRow X b (ix2 p q) = X (ix2 p q) + b (ix2 (0 : Fin 1) q) := rfl

/-- The vector unit's form: the row broadcast to every row, added. -/
theorem vecAddRow {M N : ℕ} (X : FVec Ideal ⟨2, ![M, N]⟩ .f32) (b : FVec Ideal ⟨2, ![1, N]⟩ .f32)
    (h : (⟨2, ![1, N]⟩ : Shape).Broadcasts ⟨2, ![M, N]⟩) :
    addf X (broadcastTo ⟨2, ![M, N]⟩ b h) = addRow X b := by
  funext i
  obtain ⟨p, q, rfl⟩ : ∃ (p : Fin M) (q : Fin N), i = ix2 p q := ⟨i 0, i 1, eq_ix2 i⟩
  show X (ix2 p q) + broadcastTo ⟨2, ![M, N]⟩ b h (ix2 p q) = _
  rw [broadcastTo_1b_ab_apply]
  rfl

/-- The host's form: the vector broadcast to one row, that row to every row, added. -/
theorem hostAddRow {M N : ℕ} (X : FVec Ideal ⟨2, ![M, N]⟩ .f32) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1]) :
    addf X (broadcastInDim ⟨2, ![M, N]⟩ ![0, 1] h2 (broadcastInDim ⟨2, ![1, N]⟩ ![1] h1 b)) = addRow X (row b) := by
  funext i
  obtain ⟨p, q, rfl⟩ : ∃ (p : Fin M) (q : Fin N), i = ix2 p q := ⟨i 0, i 1, eq_ix2 i⟩
  show X (ix2 p q) + broadcastInDim ⟨2, ![M, N]⟩ ![0, 1] h2 (broadcastInDim ⟨2, ![1, N]⟩ ![1] h1 b) (ix2 p q) = _
  rw [broadcastInDim_apply ![0, 1] h2 _ (ix2 p q) (ix2 (0 : Fin 1) q) (fun a => by
        match a with
        | ⟨0, _⟩ => rfl
        | ⟨1, _⟩ =>
          show q.val = if N = 1 then 0 else q.val
          split
          · have := q.isLt; omega
          · rfl),
    broadcastInDim_apply ![1] h1 b (ix2 (0 : Fin 1) q) (ix1 q) (fun a => by
        match a with
        | ⟨0, _⟩ =>
          show q.val = if N = 1 then 0 else q.val
          split
          · have := q.isLt; omega
          · rfl)]
  rfl

/-- The biased array at an index depends on the entry there and on the bias of its column. -/
theorem addRow_at {M M' N N' : ℕ} (X : Mat M N) (b : Mat 1 N) (X' : Mat M' N') (b' : Mat 1 N')
    (j : (⟨2, ![M', N']⟩ : Shape).Idx) (i : (⟨2, ![M, N]⟩ : Shape).Idx)
    (hX : X' j = X i) (hb : b' (ix2 (0 : Fin 1) (c1 j)) = b (ix2 (0 : Fin 1) (c1 i))) :
    addRow X' b' j = addRow X b i := by
  unfold addRow; rw [hX, hb]

/-- The rectified bias layer at an index depends on the entry there and on the bias of its column. -/
theorem reluBias_at {M M' N N' : ℕ} (X : Mat M N) (b : Mat 1 N) (X' : Mat M' N') (b' : Mat 1 N')
    (j : (⟨2, ![M', N']⟩ : Shape).Idx) (i : (⟨2, ![M, N]⟩ : Shape).Idx)
    (hX : X' j = X i) (hb : b' (ix2 (0 : Fin 1) (c1 j)) = b (ix2 (0 : Fin 1) (c1 i))) :
    reluBias X' b' j = reluBias X b i := by
  unfold reluBias; rw [hX, hb]

/-- The matrix product at an index depends on one row of the left operand and one column of the right one. -/
theorem mm_at {M M' K N N' : ℕ} (A : Mat M K) (B : Mat K N) (A' : Mat M' K) (B' : Mat K N')
    (j : (⟨2, ![M', N']⟩ : Shape).Idx) (i : (⟨2, ![M, N]⟩ : Shape).Idx)
    (hA : ∀ k : Fin K, A' (ix2 (c0 j) k) = A (ix2 (c0 i) k))
    (hB : ∀ k : Fin K, B' (ix2 k (c1 j)) = B (ix2 k (c1 i))) : mm A' B' j = mm A B i :=
  Finset.sum_congr rfl fun k _ => by rw [hA k, hB k]

end Cert.BiasRow

end
-- ==== Proof.LibFoldSum.lean ====
/-
  Two facts about sums on a commutative monoid, used to read an output that is accumulated over consecutive grid points.

  A fold that starts at its first point from zero plus that point's share, and at each later point adds the point's share to
  what the point before left, holds after point j zero plus the sum of the shares of points 0 … j. And a sum over the A·B rows
  of an array is the sum over its A blocks of B consecutive rows of each block's sum. Both use only that addition is
  commutative and associative, so they hold on the extended reals with no finiteness.
-/
import Idealize.ShloMosaic.Lib.Pipeline.Value
import Idealize.ShloMosaic.Lib.ValueIdx

noncomputable section

namespace Cert.FoldSum

open Idealize.ShloMosaic Idealize.ShloMosaic.ValueIdx

/-- The fold over the points 0 … j, read at entry d, is zero plus the sum of the points' shares at d. -/
theorem accAt_sum {M : Type*} [AddCommMonoid M] {N c : ℕ}
    (a : (n : ℕ) → n < N → ((⟨1, ![c]⟩ : Shape).Idx → M))
    (g : (n : ℕ) → n < N → ((⟨1, ![c]⟩ : Shape).Idx → M) → ((⟨1, ![c]⟩ : Shape).Idx → M))
    (P : (n : ℕ) → n < N → Fin c → M)
    (ha : ∀ n h d, a n h (ix1 d) = 0 + P n h d)
    (hg : ∀ n h acc d, g n h acc (ix1 d) = acc (ix1 d) + P n h d)
    (j : ℕ) (h : 0 + j < N) (d : Fin c) :
    Pipeline.accAt a g 0 j h (ix1 d) = 0 + ∑ n : Fin (j + 1), P n.val (by have := n.isLt; omega) d := by
  have hP : ∀ (n n' : ℕ) (hn : n < N) (hn' : n' < N), n = n' → P n hn d = P n' hn' d := by
    intro n n' hn hn' e; subst e; rfl
  induction j with
  | zero =>
    rw [Pipeline.accAt_zero, ha, Fin.sum_univ_one]
    exact congrArg (0 + ·) (hP _ _ _ _ rfl)
  | succ j ih =>
    rw [Pipeline.accAt_succ, hg, ih (by omega), add_assoc]
    conv_rhs => rw [Fin.sum_univ_castSucc]
    refine congrArg (0 + ·) (congrArg₂ (· + ·) (Finset.sum_congr rfl fun n _ => hP _ _ _ _ rfl) (hP _ _ _ _ ?_))
    simp

/-- A sum over C = A·B rows is the sum over the A blocks of B consecutive rows of each block's sum. -/
theorem sum_blocks {M : Type*} [AddCommMonoid M] {A B C : ℕ} (hC : C = A * B) (f : Fin C → M) :
    ∑ i : Fin C, f i = ∑ n : Fin A, ∑ r : Fin B, f ⟨B * n.val + r.val, by
      subst hC
      have h1 := n.isLt
      have h2 := r.isLt
      calc B * n.val + r.val < B * n.val + B := by omega
        _ = B * (n.val + 1) := by ring
        _ ≤ B * A := Nat.mul_le_mul_left _ h1
        _ = A * B := Nat.mul_comm _ _⟩ := by
  subst hC
  rw [← Equiv.sum_comp finProdFinEquiv f, Fintype.sum_prod_type]
  refine Finset.sum_congr rfl fun n _ => Finset.sum_congr rfl fun r _ => congrArg f (Fin.ext ?_)
  simp only [finProdFinEquiv_apply_val]
  omega

end Cert.FoldSum

end
-- ==== Proof.LibMeanAffine.lean ====
import Mathlib.Data.EReal.Inv
import Mathlib.Algebra.BigOperators.Group.Finset.Basic
import Idealize.ShloMosaic.PureOps.Ideal

/-!
# The mean of affine images is the affine image of the mean

A graph layer averages, over the finite nonempty set `H` of edges arriving at a node, the messages of their
source nodes.  Applying the affine map `row ↦ (∑ l, row l · W l) + b` to every message before averaging gives
the same value as averaging the raw rows and applying the affine map once afterwards:

  `(∑_{e∈H} ((∑_l x e l · W l) + b)) / |H| = (∑_l ((∑_{e∈H} x e l) / |H|) · W l) + b`,

because `∑_{e∈H} ((∑_l x e l · W l) + b) = (∑_l (∑_{e∈H} x e l) · W l) + |H| · b` and `|H| ≥ 1`, so that
`max(|H|, 1) = |H| ≠ 0`.  On the extended reals distributivity fails at the infinities, so the data enter as
coercions of real numbers; every expression is then the coercion of a real expression and the identity is
proved over `ℝ`.  The quotient is the total quotient `Ideal.div`, which off a zero divisor is multiplication
by the inverse.
-/

noncomputable section

namespace Cert.MeanAffine

open Idealize.ShloMosaic

/-- The coercion `ℝ → EReal` commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Zero plus a sum of ones over `H` is the cardinality of `H`. -/
theorem count_eq {ε : Type*} (H : Finset ε) :
    (0 : EReal) + ∑ _e ∈ H, (1 : EReal) = ((H.card : ℝ) : EReal) := by
  rw [zero_add, ← EReal.coe_one, ← coe_sum, Finset.sum_const, nsmul_eq_mul, mul_one]

/-- A nonempty set has at least one element, so clamping its cardinality below by one changes nothing. -/
theorem max_count {ε : Type*} {H : Finset ε} (hH : H.Nonempty) :
    max ((H.card : ℝ) : EReal) 1 = ((H.card : ℝ) : EReal) := by
  apply max_eq_left
  have h1 : (1 : ℝ) ≤ (H.card : ℝ) := by exact_mod_cast Finset.one_le_card.mpr hH
  exact_mod_cast h1

/-- A family of extended reals none of which is infinite is the coercion of a family of reals. -/
theorem exists_real {ι : Type*} (f : ι → EReal) (h : ∀ i, f i ≠ ⊤ ∧ f i ≠ ⊥) :
    ∃ r : ι → ℝ, ∀ i, f i = (r i : EReal) :=
  ⟨fun i => (f i).toReal, fun i => (EReal.coe_toReal (h i).1 (h i).2).symm⟩

/-- The identity over the reals: dividing the sum of the affine images by `c = |H|` is the affine image of the
    sums divided by `c`. -/
theorem real_mean_affine {ε : Type*} {n : ℕ} (H : Finset ε) (hc : (H.card : ℝ) ≠ 0)
    (x : ε → Fin n → ℝ) (W : Fin n → ℝ) (b : ℝ) :
    (∑ e ∈ H, ((∑ l : Fin n, x e l * W l) + b)) * (1 / (H.card : ℝ))
      = (∑ l : Fin n, (∑ e ∈ H, x e l) * (1 / (H.card : ℝ)) * W l) + b := by
  rw [Finset.sum_add_distrib, Finset.sum_const, nsmul_eq_mul, Finset.sum_comm, add_mul]
  congr 1
  · rw [Finset.sum_mul]
    refine Finset.sum_congr rfl fun l _ => ?_
    rw [← Finset.sum_mul]
    ring
  · field_simp

/-- The mean over a nonempty edge set of the affine images of real rows equals the affine image of the
    mean row, with the total quotient and the count clamped below by one. -/
theorem mean_affine {ε : Type*} {n : ℕ} (H : Finset ε) (hH : H.Nonempty) (x : ε → Fin n → ℝ)
    (W : Fin n → ℝ) (b : ℝ) :
    Ideal.div ((0 : EReal) + ∑ e ∈ H, ((∑ l : Fin n, (x e l : EReal) * (W l : EReal)) + (b : EReal)))
        (max ((0 : EReal) + ∑ _e ∈ H, (1 : EReal)) 1)
      = (∑ l : Fin n, Ideal.div ((0 : EReal) + ∑ e ∈ H, (x e l : EReal))
          (max ((0 : EReal) + ∑ _e ∈ H, (1 : EReal)) 1) * (W l : EReal)) + (b : EReal) := by
  have hc : (H.card : ℝ) ≠ 0 := by exact_mod_cast (Finset.card_pos.mpr hH).ne'
  rw [count_eq, max_count hH]
  simp only [Ideal.div_coe hc, zero_add, ← EReal.coe_mul, ← coe_sum, ← EReal.coe_add]
  rw [real_mean_affine H hc]

/-- The same identity with the edge set given as the edges of a finite type that satisfy a predicate. -/
theorem mean_affine_filter {ε : Type*} {n : ℕ} [Fintype ε] [DecidableEq ε] (P : ε → Prop) [DecidablePred P]
    (hP : (Finset.univ.filter P).Nonempty) (x : ε → Fin n → ℝ) (W : Fin n → ℝ) (b : ℝ) :
    Ideal.div ((0 : EReal) + ∑ e ∈ Finset.univ.filter P,
          ((∑ l : Fin n, (x e l : EReal) * (W l : EReal)) + (b : EReal)))
        (max ((0 : EReal) + ∑ _e ∈ Finset.univ.filter P, (1 : EReal)) 1)
      = (∑ l : Fin n, Ideal.div ((0 : EReal) + ∑ e ∈ Finset.univ.filter P, (x e l : EReal))
          (max ((0 : EReal) + ∑ _e ∈ Finset.univ.filter P, (1 : EReal)) 1) * (W l : EReal)) + (b : EReal) :=
  mean_affine (Finset.univ.filter P) hP x W b

end Cert.MeanAffine
-- ==== Proof.LibGcnStats.lean ====
/-
  The algebra on the extended reals that joins two ways of writing a normalised graph convolution followed by
  batch statistics.

  First half. With `c = 1/√deg` the reciprocal square root of a node's degree `deg = 1 + (number of arriving edges)`,
  one program computes `c · (∑ₑ t e · d e + h · c) + b` and the other `∑ₑ t e · (d e · c) + h · (1/deg) + b`. They agree
  because `c` is a nonnegative finite number — for such a factor multiplication distributes over any sum of extended
  reals — and `c · c = 1/deg`. No finiteness of the messages `t e` or of `h` is needed.

  Second half. The mean of `N = A·B` numbers summed block by block is the mean of all of them, and the one-pass
  variance `max (E[y²] − μ², 0)` equals the two-pass variance `E[(y − μ)²]` when every `y` is a real number: both
  are coercions of real expressions, `∑ (y − μ)² = ∑ y² − N μ²` for `μ = (∑ y)/N`, and the common value is nonnegative.
-/
import Idealize.ShloMosaic.PureOps.Ideal
import Idealize.ShloMosaic.PureOps.Ideal.Laws
import proofs.«139705_j25838523252951_1_alg».proof.Proof.LibFoldSum
import proofs.«139705_j25838523252951_1_alg».proof.Proof.LibMeanAffine

noncomputable section

namespace Cert.GcnStats

open Idealize.ShloMosaic

/-! ### Extended reals that are real numbers -/

/-- An extended real that is the coercion of a real number. -/
def IsReal (a : EReal) : Prop := ∃ r : ℝ, a = (r : EReal)

theorem IsReal.add {a b : EReal} (ha : IsReal a) (hb : IsReal b) : IsReal (a + b) := by
  obtain ⟨x, rfl⟩ := ha
  obtain ⟨y, rfl⟩ := hb
  exact ⟨x + y, (EReal.coe_add x y).symm⟩

theorem IsReal.mul {a b : EReal} (ha : IsReal a) (hb : IsReal b) : IsReal (a * b) := by
  obtain ⟨x, rfl⟩ := ha
  obtain ⟨y, rfl⟩ := hb
  exact ⟨x * y, (EReal.coe_mul x y).symm⟩

theorem IsReal.sub {a b : EReal} (ha : IsReal a) (hb : IsReal b) : IsReal (a - b) := by
  obtain ⟨x, rfl⟩ := ha
  obtain ⟨y, rfl⟩ := hb
  exact ⟨x - y, (EReal.coe_sub x y).symm⟩

theorem isReal_zero : IsReal 0 := ⟨0, EReal.coe_zero.symm⟩

theorem isReal_one : IsReal 1 := ⟨1, EReal.coe_one.symm⟩

theorem isReal_coe (r : ℝ) : IsReal (r : EReal) := ⟨r, rfl⟩

/-- A finite sum of real numbers is a real number. -/
theorem isReal_sum {ι : Type*} (s : Finset ι) (f : ι → EReal) (h : ∀ i ∈ s, IsReal (f i)) :
    IsReal (∑ i ∈ s, f i) := by
  classical
  induction s using Finset.induction_on with
  | empty => rw [Finset.sum_empty]; exact isReal_zero
  | insert a s ha ih =>
    rw [Finset.sum_insert ha]
    exact (h a (Finset.mem_insert_self a s)).add (ih fun i hi => h i (Finset.mem_insert_of_mem hi))

/-! ### Two literals -/

/-- The pattern of `1.0` denotes the number one. -/
theorem ofBits_one : Ideal.ofBits .f32 0x3F800000#32 = (1 : EReal) := by
  simp [Ideal.ofBits, Ideal.ieee, -EReal.coe_mul]; norm_num

/-- The pattern of `100000.0`: exponent field 143, significand `2^23 + 0x435000 = 12800000`, and
    `12800000 · 2^(143 − 127 − 23) = 100000`. -/
theorem ofBits_1e5 : Ideal.ofBits .f32 0x47C35000#32 = ((100000 : ℝ) : EReal) := by
  simp [Ideal.ofBits, Ideal.ieee, -EReal.coe_mul]; norm_num

/-! ### The degree normalisation -/

/-- The degree `1 + (number of arriving edges)` is a positive real, so its reciprocal square root `c` is a nonnegative
    real number, `1/deg` is a real number, and `c · c = 1/deg`. -/
theorem deg_facts {ι : Type*} (S : Finset ι) (deg : EReal) (hdeg : deg = (0 + ∑ _e ∈ S, (1 : EReal)) + 1) :
    0 ≤ Ideal.rsqrt deg ∧ Ideal.rsqrt deg ≠ ⊤ ∧ IsReal (Ideal.rsqrt deg) ∧ IsReal (Ideal.div 1 deg) ∧
      Ideal.rsqrt deg * Ideal.rsqrt deg = Ideal.div 1 deg := by
  have hd : deg = (((S.card : ℝ) + 1 : ℝ) : EReal) := by
    rw [hdeg, Cert.MeanAffine.count_eq, EReal.coe_add, EReal.coe_one]
  have hpos : (0 : ℝ) < (S.card : ℝ) + 1 := by positivity
  have hrs : Ideal.rsqrt deg = (((Real.sqrt ((S.card : ℝ) + 1))⁻¹ : ℝ) : EReal) := by
    rw [hd, Ideal.rsqrt_coe, if_neg (not_lt.mpr hpos.le), if_neg hpos.ne']
  have hdv : Ideal.div 1 deg = ((1 / ((S.card : ℝ) + 1) : ℝ) : EReal) := by
    rw [hd, Ideal.div_coe hpos.ne', one_mul]
  refine ⟨?_, ?_, ?_, ?_, ?_⟩
  · rw [hrs]
    exact_mod_cast inv_nonneg.mpr (Real.sqrt_nonneg _)
  · rw [hrs]
    exact EReal.coe_ne_top _
  · rw [hrs]
    exact ⟨_, rfl⟩
  · rw [hdv]
    exact ⟨_, rfl⟩
  · rw [hrs, hdv, ← EReal.coe_mul]
    congr 1
    rw [← mul_inv, Real.mul_self_sqrt hpos.le, one_div]

/-- A nonnegative finite factor distributes over a finite sum of extended reals. -/
theorem mul_sum {ι : Type*} (s : Finset ι) (c : EReal) (h0 : 0 ≤ c) (ht : c ≠ ⊤) (f : ι → EReal) :
    c * ∑ e ∈ s, f e = ∑ e ∈ s, c * f e := by
  classical
  induction s using Finset.induction_on with
  | empty => simp
  | insert a s ha ih =>
    rw [Finset.sum_insert ha, Finset.sum_insert ha, EReal.left_distrib_of_nonneg_of_ne_top h0 ht, ih]

/-- One entry of the layer: the factor `c`, common to the edges arriving at the node, taken into the sum over those
    edges and into the self term, where `c · c = r`. -/
theorem y_entry {ι : Type*} (S : Finset ι) (c r : EReal) (h0 : 0 ≤ c) (ht : c ≠ ⊤) (hr : c * c = r)
    (t dS dG : ι → EReal) (hG : ∀ e ∈ S, dG e = c) (hp bq : EReal) :
    c * ((0 + ∑ e ∈ S, t e * dS e) + hp * c) + bq
      = ((0 + ∑ e ∈ S, t e * (dS e * dG e)) + hp * r) + bq := by
  rw [EReal.left_distrib_of_nonneg_of_ne_top h0 ht, zero_add, zero_add, mul_sum S c h0 ht, ← hr,
    mul_left_comm c hp c]
  congr 2
  refine Finset.sum_congr rfl fun e he => ?_
  rw [hG e he, mul_left_comm, mul_comm c (dS e)]

/-! ### Batch statistics from per-block partial sums -/

/-- A sum over the `N = A·B` rows is the sum over the `A` blocks of `B` consecutive rows of each block's sum, the row
    `r` of block `t` being row `B·t + r`. -/
theorem sum_by_blocks {A B N : ℕ} (hN : N = A * B) (blk : Fin A → Fin B → Fin N)
    (hblk : ∀ t r, (blk t r).val = B * t.val + r.val) (f : Fin N → EReal) :
    ∑ p : Fin N, f p = ∑ t : Fin A, ∑ r : Fin B, f (blk t r) := by
  rw [Cert.FoldSum.sum_blocks hN f]
  refine Finset.sum_congr rfl fun t _ => Finset.sum_congr rfl fun r _ => congrArg f (Fin.ext ?_)
  exact (hblk t r).symm

/-- The mean taken from per-block partial sums is the mean over all rows. -/
theorem mean_blocks {A B N : ℕ} (hN : N = A * B) (blk : Fin A → Fin B → Fin N)
    (hblk : ∀ t r, (blk t r).val = B * t.val + r.val) (y : Fin N → EReal) (n : EReal) :
    Ideal.div (0 + ∑ t : Fin A, (0 + ∑ r : Fin B, y (blk t r))) n = Ideal.div (0 + ∑ p : Fin N, y p) n := by
  rw [sum_by_blocks hN blk hblk y]
  simp only [zero_add]

/-- Over the reals, with `μ = (∑ z)/N`: `(∑ z²)/N − μ² = (∑ (z − μ)²)/N`. -/
theorem real_var {N : ℕ} (hpos : 0 < N) (z : Fin N → ℝ) (m : ℝ) (hm : m = (∑ p : Fin N, z p) * (1 / (N : ℝ))) :
    (∑ p : Fin N, z p * z p) * (1 / (N : ℝ)) - m * m = (∑ p : Fin N, (z p - m) * (z p - m)) * (1 / (N : ℝ)) := by
  have hN : (N : ℝ) ≠ 0 := by exact_mod_cast hpos.ne'
  have hs : ∑ p : Fin N, z p = (N : ℝ) * m := by rw [hm]; field_simp
  have h : ∀ p, (z p - m) * (z p - m) = z p * z p - 2 * m * z p + m * m := fun p => by ring
  simp only [h, Finset.sum_add_distrib, Finset.sum_sub_distrib, ← Finset.mul_sum, Finset.sum_const,
    Finset.card_univ, Fintype.card_fin, nsmul_eq_mul]
  rw [hs]
  field_simp
  ring

/-- The one-pass variance from per-block partial sums of squares, clamped below by zero, is the two-pass variance,
    when every entry is a real number. -/
theorem var_onepass {A B N : ℕ} (hN : N = A * B) (hpos : 0 < N) (blk : Fin A → Fin B → Fin N)
    (hblk : ∀ t r, (blk t r).val = B * t.val + r.val) (y : Fin N → EReal) (hy : ∀ p, IsReal (y p))
    (n : EReal) (hn : n = ((N : ℝ) : EReal)) (mu : EReal) (hmu : mu = Ideal.div (0 + ∑ p : Fin N, y p) n) :
    max (Ideal.div (0 + ∑ t : Fin A, (0 + ∑ r : Fin B, y (blk t r) * y (blk t r))) n - mu * mu) 0
      = Ideal.div (0 + ∑ p : Fin N, (y p - mu) * (y p - mu)) n := by
  have hNr : (N : ℝ) ≠ 0 := by exact_mod_cast hpos.ne'
  choose z hz using hy
  have hmu' : mu = (((∑ p : Fin N, z p) * (1 / (N : ℝ)) : ℝ) : EReal) := by
    rw [hmu, hn, Ideal.div_coe hNr, zero_add]
    simp only [hz, ← Cert.MeanAffine.coe_sum, ← EReal.coe_mul]
  have hL : (0 + ∑ t : Fin A, (0 + ∑ r : Fin B, y (blk t r) * y (blk t r)))
      = ((∑ p : Fin N, z p * z p : ℝ) : EReal) := by
    simp only [zero_add]
    rw [← sum_by_blocks hN blk hblk (fun p => y p * y p)]
    simp only [hz, ← EReal.coe_mul, ← Cert.MeanAffine.coe_sum]
  rw [hL, hn, Ideal.div_coe hNr, Ideal.div_coe hNr, hmu', zero_add]
  simp only [hz, ← EReal.coe_mul, ← EReal.coe_sub, ← Cert.MeanAffine.coe_sum]
  rw [real_var hpos z _ rfl]
  apply max_eq_left
  have h0 : (0 : ℝ) ≤ (∑ p : Fin N, (z p - (∑ p : Fin N, z p) * (1 / (N : ℝ))) * (z p - (∑ p : Fin N, z p) * (1 / (N : ℝ))))
      * (1 / (N : ℝ)) :=
    mul_nonneg (Finset.sum_nonneg fun p _ => mul_self_nonneg _) (by positivity)
  exact_mod_cast h0

/-- A real number divided by a nonzero real number is a real number. -/
theorem isReal_div_coe {a : EReal} (ha : IsReal a) {N : ℝ} (hN : N ≠ 0) : IsReal (Ideal.div a (N : EReal)) := by
  rw [Ideal.div_coe hN]
  exact ha.mul (isReal_coe _)

/-- The reciprocal square root of a positive real number is a real number. -/
theorem isReal_rsqrt_pos {a : EReal} (ha : IsReal a) (hpos : 0 < a) : IsReal (Ideal.rsqrt a) := by
  obtain ⟨x, rfl⟩ := ha
  have hx : 0 < x := by exact_mod_cast hpos
  rw [Ideal.rsqrt_coe, if_neg (not_lt.mpr hx.le), if_neg hx.ne']
  exact ⟨_, rfl⟩

end Cert.GcnStats

end
-- ==== Proof.Spec.lean ====
/-
  The message-passing network as whole-array functions on the extended reals.

  Every edge `e` carries the rows of its two end nodes `XR e`, `XC e` and its own attributes `EA e`.  The edge network forms
  `Y = XR·Wr + XC·Wc + EA·We + b`, normalises every column of `Y` by its mean `μ` and a variance `v` over all edges,
  `max (((Y − μ)·rsqrt (v + ε))·γ + β, 0)`, and applies two further affine layers, the last one rectified: the messages.
  The messages are summed per node by a map `scat` (a segment sum: a parameter here, both programs use the same one), the
  node network forms `Z = x·Wx + scat(messages)·Wa + b`, normalises it in the same way and applies one affine layer.

  The variance is written in two ways.  One pass: `(∑ₚ y²)/n − μ·μ`.  Two passes: `(∑ₚ (y − μ)²)/n`.  Over the real numbers,
  with `n` the number of rows, they are one number; on the extended reals they need not be (an infinite entry makes
  `∞ − ∞` appear on one side only), which is why the law asks for every entry of `Y` to be a real number.
-/
import proofs.«139705_j25838523252951_1_alg».proof.Proof.LibDense
import proofs.«139705_j25838523252951_1_alg».proof.Proof.LibBiasRow
import proofs.«139705_j25838523252951_1_alg».proof.Proof.LibGcnStats

noncomputable section

open scoped BigOperators

namespace Cert.Mpnn

open Idealize.ShloMosaic Idealize.ShloMosaic.ValueIdx Cert.Dense Cert.BiasRow Cert.GcnStats

/-- The column sums as a one-row array. -/
def sumCols {M K : ℕ} (Y : Mat M K) : Mat 1 K := fun i => ∑ p : Fin M, Y (ix2 p (c1 i))

/-- The column sums of the squares as a one-row array. -/
def sumSqCols {M K : ℕ} (Y : Mat M K) : Mat 1 K := fun i => ∑ p : Fin M, Y (ix2 p (c1 i)) * Y (ix2 p (c1 i))

/-- A one-row array divided entry by entry by one number. -/
def divRow {K : ℕ} (S : Mat 1 K) (n : EReal) : Mat 1 K := fun i => Ideal.div (S i) n

/-- The column means `(∑ₚ Y (p, q)) / n`. -/
def colMean {M K : ℕ} (n : EReal) (Y : Mat M K) : Mat 1 K := divRow (sumCols Y) n

/-- One-row statistics combined as `s2 − μ·μ`. -/
def rawVar {K : ℕ} (s2 mu : Mat 1 K) : Mat 1 K := fun i => s2 i - mu i * mu i

/-- The one-pass column variances `(∑ₚ Y (p, q)²) / n − μ q · μ q`. -/
def varOne {M K : ℕ} (n : EReal) (Y : Mat M K) : Mat 1 K := rawVar (divRow (sumSqCols Y) n) (colMean n Y)

/-- The two-pass column variances `(∑ₚ (Y (p, q) − μ q)²) / n`. -/
def varTwo {M K : ℕ} (n : EReal) (Y : Mat M K) : Mat 1 K :=
  fun i => Ideal.div (∑ p : Fin M, (Y (ix2 p (c1 i)) - colMean n Y i) * (Y (ix2 p (c1 i)) - colMean n Y i)) n

/-- Normalise every column by one-row statistics, scale, shift and rectify. -/
def bnRelu {M K : ℕ} (Y : Mat M K) (mu var ga be : Mat 1 K) (eps : EReal) : Mat M K :=
  fun i => max ((((Y i - mu (ix2 (0 : Fin 1) (c1 i))) * Ideal.rsqrt (var (ix2 (0 : Fin 1) (c1 i)) + eps))
    * ga (ix2 (0 : Fin 1) (c1 i))) + be (ix2 (0 : Fin 1) (c1 i))) 0

theorem bnRelu_apply {M K : ℕ} (Y : Mat M K) (mu var ga be : Mat 1 K) (eps : EReal) (p : Fin M) (q : Fin K) :
    bnRelu Y mu var ga be eps (ix2 p q)
      = max ((((Y (ix2 p q) - mu (ix2 (0 : Fin 1) q)) * Ideal.rsqrt (var (ix2 (0 : Fin 1) q) + eps))
        * ga (ix2 (0 : Fin 1) q)) + be (ix2 (0 : Fin 1) q)) 0 := rfl

/-- Entrywise maximum with zero. -/
def relu {M K : ℕ} (X : Mat M K) : Mat M K := fun i => max (X i) 0

/-- The `r` rows of a matrix from row `o` on. -/
def slab {R C : ℕ} (o r : ℕ) (h : o + r ≤ R) (W : Mat R C) : Mat r C :=
  fun i => W (ix2 (⟨o + (c0 i).val, by have := (c0 i).isLt; omega⟩ : Fin R) (c1 i))

theorem slab_apply {R C : ℕ} (o r : ℕ) (h : o + r ≤ R) (W : Mat R C) (k : Fin r) (q : Fin C) :
    slab o r h W (ix2 k q) = W (ix2 (⟨o + k.val, by have := k.isLt; omega⟩ : Fin R) q) := rfl

/-- Three products and a one-row bias: the edge network's first layer before the normalisation. -/
def pre3 {E A B H : ℕ} (XR XC : Mat E A) (EA : Mat E B) (Wr Wc : Mat A H) (We : Mat B H) (b : Mat 1 H) : Mat E H :=
  addRow (fun i => (mm XR Wr i + mm XC Wc i) + mm EA We i) b

/-- Two products and a one-row bias: the node network's first layer before the normalisation. -/
def pre2 {N A B H : ℕ} (X : Mat N A) (G : Mat N B) (Wx : Mat A H) (Wa : Mat B H) (b : Mat 1 H) : Mat N H :=
  addRow (fun i => mm X Wx i + mm G Wa i) b

/-- The edge network after its first layer: normalise with the given statistics, an affine layer, a rectified affine
    layer. -/
def tailE {E H : ℕ} (Y : Mat E H) (mu var ga be : Mat 1 H) (eps : EReal) (W2 : Mat H H) (b2 : Mat 1 H) (Wm : Mat H H)
    (bm : Mat 1 H) : Mat E H :=
  relu (addRow (mm (addRow (mm (bnRelu Y mu var ga be eps) W2) b2) Wm) bm)

/-- The node network after its first layer: normalise with the given statistics, an affine layer. -/
def tailN {N H : ℕ} (Y : Mat N H) (mu var ga be : Mat 1 H) (eps : EReal) (W2 : Mat H H) (b2 : Mat 1 H) : Mat N H :=
  addRow (mm (bnRelu Y mu var ga be eps) W2) b2

/-- The whole network over the gathered rows, the segment sum `scat` and the two variance functionals. -/
def net {E N : ℕ} (varE : Mat E 128 → Mat 1 128) (varN : Mat N 128 → Mat 1 128)
    (XR XC : Mat E 64) (EA : Mat E 16) (scat : Mat E 128 → Mat N 128) (x : Mat N 64)
    (We1 : Mat 144 128) (be1 ge bbe : Mat 1 128) (We2 : Mat 128 128) (be2 : Mat 1 128) (Wm : Mat 128 128) (bm : Mat 1 128)
    (Wn1 : Mat 192 128) (bn1 gn bbn : Mat 1 128) (Wn2 : Mat 128 128) (bn2 : Mat 1 128) (nE nN eps : EReal) : Mat N 128 :=
  tailN
    (pre2 x
      (scat (tailE
        (pre3 XR XC EA (slab 0 64 (by omega) We1) (slab 64 64 (by omega) We1) (slab 128 16 (by omega) We1) be1)
        (colMean nE (pre3 XR XC EA (slab 0 64 (by omega) We1) (slab 64 64 (by omega) We1) (slab 128 16 (by omega) We1) be1))
        (varE (pre3 XR XC EA (slab 0 64 (by omega) We1) (slab 64 64 (by omega) We1) (slab 128 16 (by omega) We1) be1))
        ge bbe eps We2 be2 Wm bm))
      (slab 0 64 (by omega) Wn1) (slab 64 128 (by omega) Wn1) bn1)
    (colMean nN (pre2 x
      (scat (tailE
        (pre3 XR XC EA (slab 0 64 (by omega) We1) (slab 64 64 (by omega) We1) (slab 128 16 (by omega) We1) be1)
        (colMean nE (pre3 XR XC EA (slab 0 64 (by omega) We1) (slab 64 64 (by omega) We1) (slab 128 16 (by omega) We1) be1))
        (varE (pre3 XR XC EA (slab 0 64 (by omega) We1) (slab 64 64 (by omega) We1) (slab 128 16 (by omega) We1) be1))
        ge bbe eps We2 be2 Wm bm))
      (slab 0 64 (by omega) Wn1) (slab 64 128 (by omega) Wn1) bn1))
    (varN (pre2 x
      (scat (tailE
        (pre3 XR XC EA (slab 0 64 (by omega) We1) (slab 64 64 (by omega) We1) (slab 128 16 (by omega) We1) be1)
        (colMean nE (pre3 XR XC EA (slab 0 64 (by omega) We1) (slab 64 64 (by omega) We1) (slab 128 16 (by omega) We1) be1))
        (varE (pre3 XR XC EA (slab 0 64 (by omega) We1) (slab 64 64 (by omega) We1) (slab 128 16 (by omega) We1) be1))
        ge bbe eps We2 be2 Wm bm))
      (slab 0 64 (by omega) Wn1) (slab 64 128 (by omega) Wn1) bn1))
    gn bbn eps Wn2 bn2

end Cert.Mpnn

end
-- ==== Proof.LibRowBlocks.lean ====
/-
  Rows of blocks: layout operations of a block of tokens read at an index, and a transposed contraction.

  A kernel that treats a block of `a` groups of `b` tokens as `n = a · b` rows views an `[a, b, c]` array as
  `[n, c]` and back: row `q = r · b + l` of the merged view is token `l` of group `r`.  A per-row statistic
  lives in a column `[n, 1]`: a vector `[n]` cast to a column, a column broadcast along the row.  A `[1, b, c]`
  table is broadcast over the `a` groups.  A one-axis sum of an `[n, c]` array reads, at row `q`, the sum of
  that row.  A contraction `l · rᵀ` — the second axes of both operands contracted, no batch axis — reads at
  `(q, d)` the sum over `p` of `l (q, p) · r (d, p)`; the same with a rank-4 left operand whose last axis is
  contracted.  All of it at any extents.
-/
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.RowBlocks

open Idealize.ShloMosaic Idealize.ShloMosaic.ValueIdx

variable {α : Type}

/-- `[a, b, c]` viewed `[n, c]`: row `q = r · b + l` is entry `(r, l)`. -/
theorem shapeCast_merge_apply {a b c n : ℕ} (x : (⟨3, ![a, b, c]⟩ : Shape).Idx → α)
    (h : (⟨3, ![a, b, c]⟩ : Shape).ShapeCasts ⟨2, ![n, c]⟩) (r : Fin a) (l : Fin b) (d : Fin c) (q : Fin n)
    (hq : q.val = r.val * b + l.val) : shapeCast ⟨2, ![n, c]⟩ x h (ix2 q d) = x (ix3 r l d) :=
  shapeCast_apply x h _ _ (by
    rw [Shape.rowMajor_val_three, Shape.rowMajor_val_two]
    show (r.val * b + l.val) * c + d.val = q.val * c + d.val
    rw [hq])

/-- `[n, c]` viewed `[a, b, c]`: entry `(r, l)` is row `q = r · b + l`. -/
theorem shapeCast_split_apply {a b c n : ℕ} (x : (⟨2, ![n, c]⟩ : Shape).Idx → α)
    (h : (⟨2, ![n, c]⟩ : Shape).ShapeCasts ⟨3, ![a, b, c]⟩) (r : Fin a) (l : Fin b) (d : Fin c) (q : Fin n)
    (hq : q.val = r.val * b + l.val) : shapeCast ⟨3, ![a, b, c]⟩ x h (ix3 r l d) = x (ix2 q d) :=
  shapeCast_apply x h _ _ (by
    rw [Shape.rowMajor_val_three, Shape.rowMajor_val_two]
    show q.val * c + d.val = (r.val * b + l.val) * c + d.val
    rw [hq])

/-- A vector `[n]` cast to a column `[n, 1]` reads, at `(q, u)`, the vector at `q`. -/
theorem shapeCast_col_apply {n : ℕ} (x : (⟨1, ![n]⟩ : Shape).Idx → α)
    (h : (⟨1, ![n]⟩ : Shape).ShapeCasts ⟨2, ![n, 1]⟩) (q : Fin n) (u : Fin 1) :
    shapeCast ⟨2, ![n, 1]⟩ x h (ix2 q u) = x (ix1 q) :=
  shapeCast_apply x h _ _ (by
    have hu : u.val = 0 := by omega
    rw [Shape.rowMajor_val_two, Shape.rowMajor_val_one]
    show q.val = q.val * 1 + u.val
    rw [hu, Nat.mul_one, Nat.add_zero])

/-- A column `[n, 1]` broadcast to `[n, c]` reads, at `(q, d)`, the column at row `q`. -/
theorem broadcastTo_col_apply {n c : ℕ} (x : (⟨2, ![n, 1]⟩ : Shape).Idx → α)
    (h : (⟨2, ![n, 1]⟩ : Shape).Broadcasts ⟨2, ![n, c]⟩) (q : Fin n) (d : Fin c) :
    broadcastTo ⟨2, ![n, c]⟩ x h (ix2 q d) = x (ix2 q (0 : Fin 1)) := by
  refine broadcastTo_apply x h (ix2 q d) (ix2 q (0 : Fin 1)) fun ax => ?_
  match ax with
  | ⟨0, _⟩ =>
    show q.val = if n = 1 then 0 else q.val
    split
    · have := q.isLt; omega
    · rfl
  | ⟨1, _⟩ => rfl

/-- A `[1, b, c]` table broadcast over `a` groups reads, at `(r, l, d)`, the table at `(l, d)`. -/
theorem broadcastTo_groups_apply {a b c : ℕ} (x : (⟨3, ![1, b, c]⟩ : Shape).Idx → α)
    (h : (⟨3, ![1, b, c]⟩ : Shape).Broadcasts ⟨3, ![a, b, c]⟩) (r : Fin a) (l : Fin b) (d : Fin c) :
    broadcastTo ⟨3, ![a, b, c]⟩ x h (ix3 r l d) = x (ix3 (0 : Fin 1) l d) := by
  refine broadcastTo_apply x h (ix3 r l d) (ix3 (0 : Fin 1) l d) fun ax => ?_
  match ax with
  | ⟨0, _⟩ => rfl
  | ⟨1, _⟩ =>
    show l.val = if b = 1 then 0 else l.val
    split
    · have := l.isLt; omega
    · rfl
  | ⟨2, _⟩ =>
    show d.val = if c = 1 then 0 else d.val
    split
    · have := d.isLt; omega
    · rfl

/-- The sum of an `[n, c]` array along its second axis reads, at row `q`, the sum of the row's entries. -/
theorem rowSum_apply {n c : ℕ} (src : FVec Ideal ⟨2, ![n, c]⟩ .f32)
    (h : (⟨2, ![n, c]⟩ : Shape).Reduces [1] ⟨1, ![n]⟩) (hφ : FKind.Formats .f32)
    (hacc : (0x00000000#32 : BitVec 32) = 0x00000000#32) (q : Fin n) :
    multiReduction .add [1] ⟨1, ![n]⟩ src 0x00000000#32 h hφ hacc (ix1 q) = ∑ k : Fin c, src (ix2 q k) := by
  refine (Ideal.multiReduction_add_single src 0x00000000#32 h hφ hacc (ix1 q)).trans ?_
  refine Finset.sum_congr rfl fun k _ => congrArg src (funext fun ax => Fin.ext ?_)
  match ax with
  | ⟨0, _⟩ => rfl
  | ⟨1, _⟩ => rfl

/-- A contraction sum re-indexed by the one contracted coordinate: whatever the operand indices are at the
    contraction position with coordinate `k` (`hl`, `hr`), the sum over positions is the sum over `k`. -/
theorem contr_sum {sl sr so : Shape} (D : DotDims sl sr so) (K : ℕ) (hrank : D.contr.rank = 1)
    (hs : D.contr.size ⟨0, by omega⟩ = K) (l : sl.Idx → EReal) (r : sr.Idx → EReal) (j : so.Idx)
    (li : Fin K → sl.Idx) (ri : Fin K → sr.Idx)
    (hl : ∀ k, D.lhsIdx j ((contrEquiv1 D K hrank hs).symm k) = li k)
    (hr : ∀ k, D.rhsIdx j ((contrEquiv1 D K hrank hs).symm k) = ri k) :
    ∑ k : D.contr.Idx, l (D.lhsIdx j k) * r (D.rhsIdx j k) = ∑ k : Fin K, l (li k) * r (ri k) := by
  rw [← Equiv.sum_comp (contrEquiv1 D K hrank hs).symm]
  exact Finset.sum_congr rfl fun k _ => by rw [hl k, hr k]

/-- `l · rᵀ` at rank 2: the second axes contracted, at `(q, d)` the sum over `p` of `l (q, p) · r (d, p)`. -/
theorem abT_sum {M K N : ℕ} (D : DotDims ⟨2, ![M, K]⟩ ⟨2, ![N, K]⟩ ⟨2, ![M, N]⟩)
    (h1 : D.lhsContracting = [1]) (h2 : D.rhsContracting = [1]) (h3 : D.lhsNonContracting = [0])
    (h4 : D.rhsNonContracting = [0]) (h5 : D.lhsBatch = []) (h6 : D.rhsBatch = [])
    (l : (⟨2, ![M, K]⟩ : Shape).Idx → EReal) (r : (⟨2, ![N, K]⟩ : Shape).Idx → EReal) (q : Fin M) (d : Fin N) :
    ∑ k : D.contr.Idx, l (D.lhsIdx (ix2 q d) k) * r (D.rhsIdx (ix2 q d) k) = ∑ p : Fin K, l (ix2 q p) * r (ix2 d p) := by
  obtain ⟨lc, rc, ln, rn, lb, rb, wf⟩ := D
  dsimp only at h1 h2 h3 h4 h5 h6
  subst h1 h2 h3 h4 h5 h6
  generalize hD : (⟨[1], [1], [0], [0], [], [], wf⟩ : DotDims ⟨2, ![M, K]⟩ ⟨2, ![N, K]⟩ ⟨2, ![M, N]⟩) = D
  have hrank : D.contr.rank = 1 := by subst hD; rfl
  have hs : D.contr.size ⟨0, by omega⟩ = K := by subst hD; rfl
  have hlc : D.lhsContracting = [1] := by subst hD; rfl
  have hrc : D.rhsContracting = [1] := by subst hD; rfl
  refine contr_sum D K hrank hs l r (ix2 q d) (fun p => ix2 q p) (fun p => ix2 d p) (fun k => ?_) (fun k => ?_)
  · have hk := contrEquiv1_symm_val D K hrank hs k
    exact funext fun a => Fin.ext (by
      match a with
      | ⟨0, _⟩ =>
        subst hD
        rfl
      | ⟨1, _⟩ => exact (D.lhsIdx_val_of_single hlc _ _).trans hk)
  · have hk := contrEquiv1_symm_val D K hrank hs k
    exact funext fun a => Fin.ext (by
      match a with
      | ⟨0, _⟩ =>
        subst hD
        rfl
      | ⟨1, _⟩ => exact (D.rhsIdx_val_of_single hrc _ _).trans hk)

/-- The vector unit's `l · rᵀ` into a zero accumulator, read at `(q, d)`. -/
theorem matmul_abT_apply {M K N : ℕ} (D : DotDims ⟨2, ![M, K]⟩ ⟨2, ![N, K]⟩ ⟨2, ![M, N]⟩)
    (h1 : D.lhsContracting = [1]) (h2 : D.rhsContracting = [1]) (h3 : D.lhsNonContracting = [0])
    (h4 : D.rhsNonContracting = [0]) (h5 : D.lhsBatch = []) (h6 : D.rhsBatch = [])
    (prec : Option ContractPrecision) (l : FVec Ideal ⟨2, ![M, K]⟩ .f32) (r : FVec Ideal ⟨2, ![N, K]⟩ .f32)
    (q : Fin M) (d : Fin N) :
    matmul (F := Ideal) D prec l r (constant ⟨2, ![M, N]⟩ .f32 0x00000000#32) (ix2 q d)
      = ∑ p : Fin K, l (ix2 q p) * r (ix2 d p) :=
  (Ideal.matmul_constant_zero_apply D prec l r (ix2 q d)).trans (abT_sum D h1 h2 h3 h4 h5 h6 l r q d)

end Cert.RowBlocks

end
-- ==== Proof.LibHostLayout.lean ====
/-
  The host's layout operations, row sums and transposed contractions, read at an index.

  A reference written with `keepdims` reductions moves between a vector `[n]`, a column `[n, 1]` and an array `[n, c]`
  by `broadcast_in_dim`: a vector broadcast to a column reads the vector at the row; a column broadcast along the rows
  reads the column at the row; a vector broadcast to one row and that row to every row reads the vector at the column;
  a scalar broadcast everywhere reads the scalar.  On the extended reals the host's sum of an `[n, c]` array along its
  second axis reads, at row `q`, the initial value plus the sum of the row; and the host's contraction of the second
  axes of both rank-2 operands (no batch axis) reads, at `(q, d)`, the sum over `p` of `l (q, p) · r (d, p)`.  All of it
  at any extents.
-/
import Idealize.ShloMosaic.PureOps.Ideal.Laws
import Idealize.ShloMosaic.Lib.ValueIdx
import Idealize.ShloMosaic.Lib.ValueLayout
import Idealize.ShloMosaic.Lib.Pipeline.Value
import proofs.«139705_j25838523252951_1_alg».proof.Proof.LibRowBlocks

noncomputable section

open scoped BigOperators

namespace Cert.HostLayout

open Idealize.ShloMosaic Idealize.ShloMosaic.ValueIdx

section Layout

variable {α : Type}

/-- A vector `[n]` broadcast to a column `[n, 1]` reads, at `(q, u)`, the vector at `q`. -/
theorem bcast_vec_col {n : ℕ} (x : (⟨1, ![n]⟩ : Shape).Idx → α)
    (h : (⟨1, ![n]⟩ : Shape).BroadcastsInDim ⟨2, ![n, 1]⟩ ![0]) (q : Fin n) (u : Fin 1) :
    broadcastInDim ⟨2, ![n, 1]⟩ ![0] h x (ix2 q u) = x (ix1 q) :=
  broadcastInDim_apply ![0] h x (ix2 q u) (ix1 q) fun a => by
    match a with
    | ⟨0, _⟩ =>
      show q.val = if n = 1 then 0 else q.val
      split
      · have := q.isLt; omega
      · rfl

/-- A scalar broadcast to `[a, b]` reads the scalar everywhere. -/
theorem bcast_scalar_mat {a b : ℕ} (x : (⟨0, ![]⟩ : Shape).Idx → α)
    (h : (⟨0, ![]⟩ : Shape).BroadcastsInDim ⟨2, ![a, b]⟩ ![]) (p : Fin a) (q : Fin b) :
    broadcastInDim ⟨2, ![a, b]⟩ ![] h x (ix2 p q) = x ix0 :=
  broadcastInDim_apply ![] h x (ix2 p q) ix0 fun a => a.elim0

/-- A column `[n, 1]` broadcast to `[n, c]` reads, at `(q, d)`, the column at row `q`. -/
theorem bcast_col_mat {n c : ℕ} (x : (⟨2, ![n, 1]⟩ : Shape).Idx → α)
    (h : (⟨2, ![n, 1]⟩ : Shape).BroadcastsInDim ⟨2, ![n, c]⟩ ![0, 1]) (q : Fin n) (d : Fin c) :
    broadcastInDim ⟨2, ![n, c]⟩ ![0, 1] h x (ix2 q d) = x (ix2 q (0 : Fin 1)) :=
  broadcastInDim_apply ![0, 1] h x (ix2 q d) (ix2 q (0 : Fin 1)) fun a => by
    match a with
    | ⟨0, _⟩ =>
      show q.val = if n = 1 then 0 else q.val
      split
      · have := q.isLt; omega
      · rfl
    | ⟨1, _⟩ => rfl

/-- A vector `[N]` broadcast to one row and that row to every row of `[M, N]` reads, at `(p, q)`, the vector at `q`. -/
theorem bcast_vec_mat {M N : ℕ} (b : (⟨1, ![N]⟩ : Shape).Idx → α)
    (h1 : (⟨1, ![N]⟩ : Shape).BroadcastsInDim ⟨2, ![1, N]⟩ ![1])
    (h2 : (⟨2, ![1, N]⟩ : Shape).BroadcastsInDim ⟨2, ![M, N]⟩ ![0, 1]) (p : Fin M) (q : Fin N) :
    broadcastInDim ⟨2, ![M, N]⟩ ![0, 1] h2 (broadcastInDim ⟨2, ![1, N]⟩ ![1] h1 b) (ix2 p q) = b (ix1 q) := by
  rw [broadcastInDim_apply ![0, 1] h2 _ (ix2 p q) (ix2 (0 : Fin 1) q) (fun a => by
        match a with
        | ⟨0, _⟩ => rfl
        | ⟨1, _⟩ =>
          show q.val = if N = 1 then 0 else q.val
          split
          · have := q.isLt; omega
          · rfl),
    broadcastInDim_apply ![1] h1 b (ix2 (0 : Fin 1) q) (ix1 q) (fun a => by
        match a with
        | ⟨0, _⟩ =>
          show q.val = if N = 1 then 0 else q.val
          split
          · have := q.isLt; omega
          · rfl)]

end Layout

/-- The host's sum of an `[n, c]` array along its second axis reads, at row `q`, the initial value plus the sum of the
    row's entries. -/
theorem hostRowSum {n c : ℕ} (x : FVec Ideal ⟨2, ![n, c]⟩ .f32) (init : FVec Ideal ⟨0, ![]⟩ .f32)
    (h' : (⟨2, ![n, c]⟩ : Shape).ReducesTo [1] ⟨1, ![n]⟩) (h : (⟨2, ![n, c]⟩ : Shape).Reduces [1] ⟨1, ![n]⟩)
    (hu : 0 < (⟨0, ![]⟩ : Shape).numel) (q : Fin n) :
    Host.reduceAdd x init h' hu (ix1 q) = init (Shape.Idx.first hu) + ∑ k : Fin c, x (ix2 q k) := by
  refine (Ideal.hostReduceAdd_single h' h x (init (Shape.Idx.first hu)) (ix1 q)).trans ?_
  refine congrArg (init (Shape.Idx.first hu) + ·) (Finset.sum_congr rfl fun k _ => congrArg x (funext fun ax => Fin.ext ?_))
  match ax with
  | ⟨0, _⟩ => rfl
  | ⟨1, _⟩ => rfl

/-- The host's `l · rᵀ` (the second axes contracted, no batch axis) reads, at `(q, d)`, the sum over `p` of
    `l (q, p) · r (d, p)`. -/
theorem hostDot_abT {M K N : ℕ} (D : DotDims ⟨2, ![M, K]⟩ ⟨2, ![N, K]⟩ ⟨2, ![M, N]⟩)
    (h1 : D.lhsContracting = [1]) (h2 : D.rhsContracting = [1]) (h3 : D.lhsNonContracting = [0])
    (h4 : D.rhsNonContracting = [0]) (h5 : D.lhsBatch = []) (h6 : D.rhsBatch = [])
    (prec : Option ContractPrecision) (l : FVec Ideal ⟨2, ![M, K]⟩ .f32) (r : FVec Ideal ⟨2, ![N, K]⟩ .f32)
    (q : Fin M) (d : Fin N) :
    Host.dotGeneral (F := Ideal) D prec l r (ix2 q d) = ∑ p : Fin K, l (ix2 q p) * r (ix2 d p) :=
  (Ideal.dotGeneral_apply D prec .single l r (ix2 q d)).trans (Cert.RowBlocks.abT_sum D h1 h2 h3 h4 h5 h6 l r q d)

end Cert.HostLayout

end
-- ==== Proof.Glue.lean ====
/-
  The host operations that surround the four kernels, as functions of whole arrays.

  Both programs gather the rows of `x` at the edges' two end nodes (a negative node number wraps around once) and add the
  messages up per source node by one scatter-add into a zero array.  These are kept as the host operations themselves:
  nothing below looks inside a gather or a scatter.  The remaining host arithmetic is the normalisation statistics: a
  one-row array divided by a broadcast count is `divRow`, and `s2 − μ·μ` is `rawVar`; a vector reshaped to one row is
  `row`.
-/
import proofs.«139705_j25838523252951_1_alg».proof.KernelIdeal
import proofs.«139705_j25838523252951_1_alg».proof.Proof.Spec
import proofs.«139705_j25838523252951_1_alg».proof.Proof.LibHostLayout
import Idealize.ShloMosaic.Lib.ValueIdx
import Idealize.ShloMosaic.Lib.ValueLayout
import Idealize.ShloMosaic.Lib.IdealHost
import Idealize.ShloMosaic.PureOps.Ideal.Laws

noncomputable section

open scoped BigOperators

namespace Cert.Mpnn.Glue

open Idealize.ShloMosaic Idealize.ShloMosaic.ValueIdx Cert.Dense Cert.KernelIdeal
open Cert.KernelIdeal.Facts₀ Cert.KernelIdeal.Facts

variable [Cert.KernelIdeal.Facts]

/-- An integer array of 32-bit words. -/
abbrev I32 (S : Shape) : Type := (⟨S, .i32⟩ : BufTy).Contents (Elt Ideal)
/-- A float array on the extended reals. -/
abbrev F32 (S : Shape) : Type := (⟨S, .f32⟩ : BufTy).Contents (Elt Ideal)

/-- The edges' source nodes: row 0 of the edge index. -/
def srcRow (ei : I32 S2x800000) : I32 S800000 :=
  shapeCast S800000 (extractStridedSlice S1x800000 ![0, 0] ei slices_S2x800000_S1x800000_0_0) shapeCasts_S1x800000_S800000

/-- The edges' destination nodes: row 1 of the edge index. -/
def dstRow (ei : I32 S2x800000) : I32 S800000 :=
  shapeCast S800000 (extractStridedSlice S1x800000 ![1, 0] ei slices_S2x800000_S1x800000_1_0) shapeCasts_S1x800000_S800000

/-- A negative node number wraps around once. -/
def wrap (v : I32 S800000) : I32 S800000 :=
  select (cmpi .slt v (broadcastInDim S800000 ![] bcast_S_S800000 (constantI S_ 32 0#32)))
    (addi v (broadcastInDim S800000 ![] bcast_S_S800000 (constantI S_ 32 50000#32))) v

/-- The rows of `x` at the wrapped node numbers `v`. -/
def gath (x : F32 S50000x64) (v : I32 S800000) : F32 S800000x64 :=
  Host.gather gather_S50000x64_S800000x1_S800000x64_1_0_n_n_0_1_164 x
    (broadcastInDim S800000x1 ![0] bcast_S800000_S800000x1_0 (wrap v))

/-- The per-node sums of the edges' rows `M`, edge `e` added to node `v e`. -/
def scat (v : I32 S800000) (M : F32 S800000x128) : F32 S50000x128 :=
  Host.scatterAdd scatter_S50000x128_S800000x1_S800000x128_1_0_0_1
    (broadcastInDim S50000x128 ![] bcast_S_S50000x128 (constant (F := Ideal) S_ .f32 0x00000000#32))
    (broadcastInDim S800000x1 ![0] bcast_S800000_S800000x1_0 v) M

/-- A one-row array divided by a broadcast scalar of pattern `w`. -/
theorem divf_bcast (S : FVec Ideal S1x128 .f32) (w : BitVec 32) :
    Host.divf (F := Ideal) S (broadcastInDim S1x128 ![] bcast_S_S1x128 (constant (F := Ideal) S_ .f32 w))
      = divRow S (Ideal.ofBits .f32 w) := by
  funext i
  obtain ⟨u, q, rfl⟩ : ∃ (u : Fin 1) (q : Fin 128), i = ix2 u q := ⟨i 0, i 1, eq_ix2 i⟩
  rw [hostDivf_apply, Cert.HostLayout.bcast_scalar_mat, constant_apply]
  rfl

/-- `s2 − μ·μ` entry by entry. -/
theorem sub_sq (a b : FVec Ideal S1x128 .f32) : subf (F := Ideal) a (mulf b b) = rawVar a b := by
  funext i
  rfl

/-- A vector reshaped to one row. -/
theorem reshape_row (b : FVec Ideal S128 .f32) : shapeCast S1x128 b shapeCasts_S128_S1x128 = row b :=
  shapeCast_row b shapeCasts_S128_S1x128

end Cert.Mpnn.Glue

end
-- ==== Proof.KArrays.lean ====
/-
  The arrays the four-region program holds between its segments, named as functions of the launch memory.

  `xr`, `xc`: the rows of `x` gathered at the edges' end nodes.  `y1`: the edge network's first layer before the
  normalisation; `mu1`, `var1`: its column means and one-pass column variances, in the host's spelling (a quotient by a
  broadcast count; `s2 − μ·μ`); `msg`: the messages; `agg`: their per-node sums.  `y2`, `mu2`, `var2`: the same for the node
  network; `kout`: the result.
-/
import proofs.«139705_j25838523252951_1_alg».proof.Proof.Gen.KernelIdeal.Frame
import proofs.«139705_j25838523252951_1_alg».proof.Proof.Glue

noncomputable section

namespace Cert.KernelIdeal.KVal

open Idealize.ShloMosaic Idealize.ShloMosaic.TcCoe Idealize.SL.Sem
open Cert.Dense Cert.Mpnn Cert.Mpnn.Glue Cert.KernelIdeal Cert.KernelIdeal.Gen

variable (m : (ℓ : Loc nD τ sig) → Buf (Elt Ideal) ℓ) (c : Dev nD)

/-- The launch contents of a buffer of core `c`. -/
abbrev arr (b : Ref sig .tc) : Buf (Elt Ideal) ((c : Thread nD τ).loc b) := m ((c : Thread nD τ).loc b)

/-- A vector of 128 entries reshaped to one row. -/
def brow (v : F32 S128) : F32 S1x128 := shapeCast S1x128 v shapeCasts_S128_S1x128

/-- The stabiliser added to a variance before the reciprocal square root. -/
abbrev eps : EReal := Ideal.ofBits .f32 0x3727C5AC#32

/-- A one-row array over the broadcast edge count. -/
def overE (S : F32 S1x128) : F32 S1x128 :=
  Host.divf (F := Ideal) S (broadcastInDim S1x128 ![] bcast_S_S1x128 (constant (F := Ideal) S_ .f32 0x49435000#32))

/-- A one-row array over the broadcast node count. -/
def overN (S : F32 S1x128) : F32 S1x128 :=
  Host.divf (F := Ideal) S (broadcastInDim S1x128 ![] bcast_S_S1x128 (constant (F := Ideal) S_ .f32 0x47435000#32))

def xr : F32 S800000x64 := gath (arr m c main_arg0) (srcRow (arr m c main_arg1))
def xc : F32 S800000x64 := gath (arr m c main_arg0) (dstRow (arr m c main_arg1))

def y1 : Mat 800000 128 :=
  pre3 (E := 800000) (A := 64) (B := 16) (H := 128) (xr m c) (xc m c) (arr m c main_arg2)
    (slab 0 64 (by omega) (arr m c main_arg3)) (slab 64 64 (by omega) (arr m c main_arg3))
    (slab 128 16 (by omega) (arr m c main_arg3)) (brow (arr m c main_arg4))

def mu1 : F32 S1x128 := overE (sumCols (y1 m c))
def var1 : F32 S1x128 := subf (F := Ideal) (φ := .f32) (overE (sumSqCols (y1 m c))) (mulf (F := Ideal) (φ := .f32) (mu1 m c) (mu1 m c))

def msg : Mat 800000 128 :=
  tailE (y1 m c) (mu1 m c) (var1 m c) (brow (arr m c main_arg5)) (brow (arr m c main_arg6)) eps (arr m c main_arg7)
    (brow (arr m c main_arg8)) (arr m c main_arg9) (brow (arr m c main_arg10))

def agg : F32 S50000x128 := scat (srcRow (arr m c main_arg1)) (msg m c)

def y2 : Mat 50000 128 :=
  pre2 (N := 50000) (A := 64) (B := 128) (H := 128) (arr m c main_arg0) (agg m c)
    (slab 0 64 (by omega) (arr m c main_arg11)) (slab 64 128 (by omega) (arr m c main_arg11)) (brow (arr m c main_arg12))

def mu2 : F32 S1x128 := overN (sumCols (y2 m c))
def var2 : F32 S1x128 := subf (F := Ideal) (φ := .f32) (overN (sumSqCols (y2 m c))) (mulf (F := Ideal) (φ := .f32) (mu2 m c) (mu2 m c))

def kout : Mat 50000 128 :=
  tailN (y2 m c) (mu2 m c) (var2 m c) (brow (arr m c main_arg13)) (brow (arr m c main_arg14)) eps (arr m c main_arg15)
    (brow (arr m c main_arg16))

/-- The edge count and the node count as the printed scalars. -/
abbrev nE : EReal := Ideal.ofBits .f32 0x49435000#32
abbrev nN : EReal := Ideal.ofBits .f32 0x47435000#32

/-- The network of the specification over the launch memory of core `c`, with variance functionals `vE`, `vN`. -/
def netOf (vE : Mat 800000 128 → Mat 1 128) (vN : Mat 50000 128 → Mat 1 128) : Mat 50000 128 :=
  net vE vN (xr m c) (xc m c) (arr m c main_arg2) (scat (srcRow (arr m c main_arg1))) (arr m c main_arg0)
    (arr m c main_arg3) (row (arr m c main_arg4)) (row (arr m c main_arg5)) (row (arr m c main_arg6))
    (arr m c main_arg7) (row (arr m c main_arg8)) (arr m c main_arg9) (row (arr m c main_arg10))
    (arr m c main_arg11) (row (arr m c main_arg12)) (row (arr m c main_arg13)) (row (arr m c main_arg14))
    (arr m c main_arg15) (row (arr m c main_arg16)) nE nN eps

end Cert.KernelIdeal.KVal

end
-- ==== Proof.Levels1.lean ====
/-
  The contents of the buffers at the first region's entry: the launch memory through the first stretch of host operations.
-/
import proofs.«139705_j25838523252951_1_alg».proof.Proof.KArrays

set_option maxRecDepth 16384

noncomputable section

namespace Cert.KernelIdeal.KVal

open Idealize.ShloMosaic Idealize.ShloMosaic.TcCoe Idealize.ShloMosaic.Tactic Idealize.SL.Sem
open Cert.Dense Cert.Mpnn Cert.Mpnn.Glue Cert.KernelIdeal Cert.KernelIdeal.Gen

variable (m : (ℓ : Loc nD τ sig) → Buf (Elt Ideal) ℓ) (ρ : Dev nD → PrngReg) (c : Dev nD)

theorem f0_arg0 : W0 m ρ c (Proc.devRef .tc main_arg0) = arr m c main_arg0 := rfl

theorem f0_arg1 : W0 m ρ c (Proc.devRef .tc main_arg1) = arr m c main_arg1 := rfl

theorem f0_arg2 : W0 m ρ c (Proc.devRef .tc main_arg2) = arr m c main_arg2 := rfl

theorem f0_arg3 : W0 m ρ c (Proc.devRef .tc main_arg3) = arr m c main_arg3 := rfl

theorem f0_arg4 : W0 m ρ c (Proc.devRef .tc main_arg4) = arr m c main_arg4 := rfl

theorem f0_arg5 : W0 m ρ c (Proc.devRef .tc main_arg5) = arr m c main_arg5 := rfl

theorem f0_arg6 : W0 m ρ c (Proc.devRef .tc main_arg6) = arr m c main_arg6 := rfl

theorem f0_arg7 : W0 m ρ c (Proc.devRef .tc main_arg7) = arr m c main_arg7 := rfl

theorem f0_arg8 : W0 m ρ c (Proc.devRef .tc main_arg8) = arr m c main_arg8 := rfl

theorem f0_arg9 : W0 m ρ c (Proc.devRef .tc main_arg9) = arr m c main_arg9 := rfl

theorem f0_arg10 : W0 m ρ c (Proc.devRef .tc main_arg10) = arr m c main_arg10 := rfl

theorem f0_arg11 : W0 m ρ c (Proc.devRef .tc main_arg11) = arr m c main_arg11 := rfl

theorem f0_arg12 : W0 m ρ c (Proc.devRef .tc main_arg12) = arr m c main_arg12 := rfl

theorem f0_arg13 : W0 m ρ c (Proc.devRef .tc main_arg13) = arr m c main_arg13 := rfl

theorem f0_arg14 : W0 m ρ c (Proc.devRef .tc main_arg14) = arr m c main_arg14 := rfl

theorem f0_arg15 : W0 m ρ c (Proc.devRef .tc main_arg15) = arr m c main_arg15 := rfl

theorem f0_arg16 : W0 m ρ c (Proc.devRef .tc main_arg16) = arr m c main_arg16 := rfl

theorem f1_arg0 : W1 m ρ c (Proc.devRef .tc main_arg0) = arr m c main_arg0 :=
  (StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (f0_arg0 m ρ c)

theorem f1_v1 : W1 m ρ c (Proc.devRef .tc main_v1) = srcRow (arr m c main_arg1) := by
  show StableHlo.after hostOps0 (W0 m ρ c) (Proc.devRef .tc main_v1) = _
  after_results_simp
  rw [f0_arg1 m ρ c]
  rfl

theorem f1_v10 : W1 m ρ c (Proc.devRef .tc main_v10) = xr m c := by
  show StableHlo.after hostOps0 (W0 m ρ c) (Proc.devRef .tc main_v10) = _
  after_results_simp
  rw [f0_arg0 m ρ c, f0_arg1 m ρ c]
  rfl

theorem f1_v17 : W1 m ρ c (Proc.devRef .tc main_v17) = xc m c := by
  show StableHlo.after hostOps0 (W0 m ρ c) (Proc.devRef .tc main_v17) = _
  after_results_simp
  rw [f0_arg0 m ρ c, f0_arg1 m ρ c]
  rfl

theorem f1_arg2 : W1 m ρ c (Proc.devRef .tc main_arg2) = arr m c main_arg2 :=
  (StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (f0_arg2 m ρ c)

theorem f1_arg3 : W1 m ρ c (Proc.devRef .tc main_arg3) = arr m c main_arg3 :=
  (StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (f0_arg3 m ρ c)

theorem f1_v18 : W1 m ρ c (Proc.devRef .tc main_v18) = brow (arr m c main_arg4) := by
  show StableHlo.after hostOps0 (W0 m ρ c) (Proc.devRef .tc main_v18) = _
  after_results_simp
  rw [f0_arg4 m ρ c]
  rfl

theorem f1_v19 : W1 m ρ c (Proc.devRef .tc main_v19) = brow (arr m c main_arg5) := by
  show StableHlo.after hostOps0 (W0 m ρ c) (Proc.devRef .tc main_v19) = _
  after_results_simp
  rw [f0_arg5 m ρ c]
  rfl

theorem f1_v20 : W1 m ρ c (Proc.devRef .tc main_v20) = brow (arr m c main_arg6) := by
  show StableHlo.after hostOps0 (W0 m ρ c) (Proc.devRef .tc main_v20) = _
  after_results_simp
  rw [f0_arg6 m ρ c]
  rfl

theorem f1_arg7 : W1 m ρ c (Proc.devRef .tc main_arg7) = arr m c main_arg7 :=
  (StableHlo.after_of_forall_not_mem (b := Proc.devRef .tc main_arg7) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (f0_arg7 m ρ c)

theorem f1_v21 : W1 m ρ c (Proc.devRef .tc main_v21) = brow (arr m c main_arg8) := by
  show StableHlo.after hostOps0 (W0 m ρ c) (Proc.devRef .tc main_v21) = _
  after_results_simp
  rw [f0_arg8 m ρ c]
  rfl

theorem f1_arg9 : W1 m ρ c (Proc.devRef .tc main_arg9) = arr m c main_arg9 :=
  (StableHlo.after_of_forall_not_mem (b := Proc.devRef .tc main_arg9) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (f0_arg9 m ρ c)

theorem f1_v22 : W1 m ρ c (Proc.devRef .tc main_v22) = brow (arr m c main_arg10) := by
  show StableHlo.after hostOps0 (W0 m ρ c) (Proc.devRef .tc main_v22) = _
  after_results_simp
  rw [f0_arg10 m ρ c]
  rfl

theorem f1_arg11 : W1 m ρ c (Proc.devRef .tc main_arg11) = arr m c main_arg11 :=
  (StableHlo.after_of_forall_not_mem (b := Proc.devRef .tc main_arg11) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (f0_arg11 m ρ c)

theorem f1_arg12 : W1 m ρ c (Proc.devRef .tc main_arg12) = arr m c main_arg12 :=
  (StableHlo.after_of_forall_not_mem (b := Proc.devRef .tc main_arg12) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (f0_arg12 m ρ c)

theorem f1_arg13 : W1 m ρ c (Proc.devRef .tc main_arg13) = arr m c main_arg13 :=
  (StableHlo.after_of_forall_not_mem (b := Proc.devRef .tc main_arg13) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (f0_arg13 m ρ c)

theorem f1_arg14 : W1 m ρ c (Proc.devRef .tc main_arg14) = arr m c main_arg14 :=
  (StableHlo.after_of_forall_not_mem (b := Proc.devRef .tc main_arg14) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (f0_arg14 m ρ c)

theorem f1_arg15 : W1 m ρ c (Proc.devRef .tc main_arg15) = arr m c main_arg15 :=
  (StableHlo.after_of_forall_not_mem (b := Proc.devRef .tc main_arg15) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (f0_arg15 m ρ c)

theorem f1_arg16 : W1 m ρ c (Proc.devRef .tc main_arg16) = arr m c main_arg16 :=
  (StableHlo.after_of_forall_not_mem (b := Proc.devRef .tc main_arg16) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (f0_arg16 m ρ c)

theorem v0_0 : V1 m ρ c (Pipeline.arrRef spec0 0) = xr m c := f1_v10 m ρ c

theorem v0_1 : V1 m ρ c (Pipeline.arrRef spec0 1) = xc m c := f1_v17 m ρ c

theorem v0_2 : V1 m ρ c (Pipeline.arrRef spec0 2) = arr m c main_arg2 := f1_arg2 m ρ c

theorem v0_3 : V1 m ρ c (Pipeline.arrRef spec0 3) = arr m c main_arg3 := f1_arg3 m ρ c

theorem v0_4 : V1 m ρ c (Pipeline.arrRef spec0 4) = brow (arr m c main_arg4) := f1_v18 m ρ c

end Cert.KernelIdeal.KVal

end
-- ==== Proof.LibLayerNorm.lean ====
/-
  Row normalisation on the extended reals, over rank-2 arrays of any extents.

  For an array `X` of `M` rows and a positive count `cnt`, `rowMean X cnt p` is the sum of row `p` divided by `cnt` and
  `rowVar X cnt p` the sum of the squared deviations of row `p` from that mean, divided by `cnt`.  The normalised array
  is written in two ways: `lnK` multiplies the deviation by the reciprocal square root of `rowVar + eps`, `lnH` divides
  it by the square root.  A square is never negative on the extended reals (the square of an infinity is `+∞`), so
  `rowVar` is nonnegative whatever the entries are, `rowVar + eps` is positive for a positive `eps`, and there the
  quotient by a square root IS the product with the reciprocal square root (at `+∞` both are the product with `0`):
  `lnK = lnH` with no finiteness assumption.  `scaleShift Y g b` multiplies every row by the one-row array `g` and adds
  the one-row array `b`.  The vector unit's and the host's spellings of each step are read as these functions, and every
  one of them at an index depends on one row of `X` only.
-/
import proofs.«139705_j25838523252951_1_alg».proof.Proof.LibDense
import proofs.«139705_j25838523252951_1_alg».proof.Proof.LibRowBlocks
import proofs.«139705_j25838523252951_1_alg».proof.Proof.LibHostLayout

noncomputable section

open scoped BigOperators

namespace Cert.LayerNorm

open Idealize.ShloMosaic Idealize.ShloMosaic.ValueIdx Cert.Dense

/-! ## The functions -/

/-- The mean of row `p`: its sum over the count. -/
def rowMean {M N : ℕ} (X : Mat M N) (cnt : EReal) (p : Fin M) : EReal := Ideal.div (∑ k : Fin N, X (ix2 p k)) cnt

/-- The deviation from the row's mean. -/
def centered {M N : ℕ} (X : Mat M N) (cnt : EReal) : Mat M N := fun i => X i - rowMean X cnt (c0 i)

/-- The sum of the squared deviations of row `p`. -/
def sqSum {M N : ℕ} (X : Mat M N) (cnt : EReal) (p : Fin M) : EReal :=
  ∑ k : Fin N, centered X cnt (ix2 p k) * centered X cnt (ix2 p k)

/-- The variance of row `p`. -/
def rowVar {M N : ℕ} (X : Mat M N) (cnt : EReal) (p : Fin M) : EReal := Ideal.div (sqSum X cnt p) cnt

/-- The row means as a column. -/
def meanCol {M N : ℕ} (X : Mat M N) (cnt : EReal) : Mat M 1 := fun i => rowMean X cnt (c0 i)
/-- The squared-deviation sums as a vector. -/
def sqSumVec {M N : ℕ} (X : Mat M N) (cnt : EReal) : Row M := fun i => sqSum X cnt ⟨(i 0).val, (i 0).isLt⟩
/-- The row variances as a column. -/
def varCol {M N : ℕ} (X : Mat M N) (cnt : EReal) : Mat M 1 := fun i => rowVar X cnt (c0 i)

/-- Normalised rows, the deviation TIMES the reciprocal square root. -/
def lnK {M N : ℕ} (X : Mat M N) (cnt eps : EReal) : Mat M N :=
  fun i => centered X cnt i * Ideal.rsqrt (rowVar X cnt (c0 i) + eps)

/-- Normalised rows, the deviation OVER the square root. -/
def lnH {M N : ℕ} (X : Mat M N) (cnt eps : EReal) : Mat M N :=
  fun i => Ideal.div (centered X cnt i) (Ideal.sqrt (rowVar X cnt (c0 i) + eps))

/-- Every row times a one-row array, plus a one-row array. -/
def scaleShift {M N : ℕ} (Y : Mat M N) (g b : Mat 1 N) : Mat M N :=
  fun i => Y i * g (ix2 (0 : Fin 1) (c1 i)) + b (ix2 (0 : Fin 1) (c1 i))

/-! ## The quotient by a square root is the product with the reciprocal square root, above zero -/

theorem div_sqrt_eq_mul_rsqrt (a v : EReal) (hv : 0 < v) : Ideal.div a (Ideal.sqrt v) = a * Ideal.rsqrt v := by
  induction v using EReal.rec with
  | bot => exact absurd hv (by simp)
  | top =>
    show Ideal.div a ⊤ = a * 0
    unfold Ideal.div
    rw [if_neg (by simp), EReal.inv_top]
  | coe r =>
    have hr : 0 < r := by exact_mod_cast hv
    have hs : Real.sqrt r ≠ 0 := (Real.sqrt_pos.mpr hr).ne'
    show Ideal.div a (if r < 0 then (⊥ : EReal) else ((Real.sqrt r : ℝ) : EReal))
      = a * (if r < 0 then (⊥ : EReal) else if r = 0 then (⊤ : EReal) else (((Real.sqrt r)⁻¹ : ℝ) : EReal))
    rw [if_neg (not_lt.mpr hr.le), if_neg (not_lt.mpr hr.le), if_neg hr.ne']
    unfold Ideal.div
    rw [if_neg (by exact_mod_cast hs), EReal.coe_inv]

theorem mul_self_nonneg' (d : EReal) : 0 ≤ d * d := by
  induction d using EReal.rec with
  | bot => simp
  | top => simp
  | coe r => exact_mod_cast mul_self_nonneg r

theorem sqSum_nonneg {M N : ℕ} (X : Mat M N) (cnt : EReal) (p : Fin M) : 0 ≤ sqSum X cnt p :=
  Finset.sum_nonneg fun _ _ => mul_self_nonneg' _

theorem rowVar_nonneg {M N : ℕ} (X : Mat M N) {r : ℝ} (hr : 0 < r) (p : Fin M) : 0 ≤ rowVar X (r : EReal) p := by
  unfold rowVar
  rw [Ideal.div_coe hr.ne']
  exact mul_nonneg (sqSum_nonneg X _ p) (by exact_mod_cast (one_div_pos.mpr hr).le)

/-- The two spellings of the normalisation agree: no finiteness of the entries is needed. -/
theorem lnK_eq_lnH {M N : ℕ} (X : Mat M N) {r : ℝ} (hr : 0 < r) {eps : EReal} (heps : 0 < eps) :
    lnK X (r : EReal) eps = lnH X (r : EReal) eps := by
  funext i
  exact (div_sqrt_eq_mul_rsqrt _ _ (lt_of_lt_of_le heps (le_add_of_nonneg_left (rowVar_nonneg X hr _)))).symm

/-! ## At an index: one row of the array decides -/

theorem rowMean_congr {M M' N : ℕ} (X : Mat M N) (X' : Mat M' N) (cnt : EReal) (p : Fin M) (p' : Fin M')
    (h : ∀ k, X' (ix2 p' k) = X (ix2 p k)) : rowMean X' cnt p' = rowMean X cnt p := by
  unfold rowMean; simp only [h]

theorem centered_congr {M M' N : ℕ} (X : Mat M N) (X' : Mat M' N) (cnt : EReal) (p : Fin M) (p' : Fin M')
    (h : ∀ k, X' (ix2 p' k) = X (ix2 p k)) (q : Fin N) : centered X' cnt (ix2 p' q) = centered X cnt (ix2 p q) := by
  show X' (ix2 p' q) - rowMean X' cnt p' = X (ix2 p q) - rowMean X cnt p
  rw [h q, rowMean_congr X X' cnt p p' h]

theorem rowVar_congr {M M' N : ℕ} (X : Mat M N) (X' : Mat M' N) (cnt : EReal) (p : Fin M) (p' : Fin M')
    (h : ∀ k, X' (ix2 p' k) = X (ix2 p k)) : rowVar X' cnt p' = rowVar X cnt p := by
  unfold rowVar sqSum; simp only [centered_congr X X' cnt p p' h]

theorem lnH_congr {M M' N : ℕ} (X : Mat M N) (X' : Mat M' N) (cnt eps : EReal) (p : Fin M) (p' : Fin M')
    (h : ∀ k, X' (ix2 p' k) = X (ix2 p k)) (q : Fin N) : lnH X' cnt eps (ix2 p' q) = lnH X cnt eps (ix2 p q) := by
  show Ideal.div (centered X' cnt (ix2 p' q)) (Ideal.sqrt (rowVar X' cnt p' + eps))
    = Ideal.div (centered X cnt (ix2 p q)) (Ideal.sqrt (rowVar X cnt p + eps))
  rw [centered_congr X X' cnt p p' h, rowVar_congr X X' cnt p p' h]

theorem scaleShift_apply {M N : ℕ} (Y : Mat M N) (g b : Mat 1 N) (p : Fin M) (q : Fin N) :
    scaleShift Y g b (ix2 p q) = Y (ix2 p q) * g (ix2 (0 : Fin 1) q) + b (ix2 (0 : Fin 1) q) := rfl

/-! ## The vector unit's spelling -/

section Vec

variable {M N : ℕ} (X : FVec Ideal ⟨2, ![M, N]⟩ .f32) (cw ew : BitVec 32)
  (hr : (⟨2, ![M, N]⟩ : Shape).Reduces [1] ⟨1, ![M]⟩) (hφ : FKind.Formats .f32)
  (hacc : (0x00000000#32 : BitVec 32) = 0x00000000#32)
  (hc : (⟨1, ![M]⟩ : Shape).ShapeCasts ⟨2, ![M, 1]⟩) (hb : (⟨2, ![M, 1]⟩ : Shape).Broadcasts ⟨2, ![M, N]⟩)

/-- The row sums cast to a column and divided by the count splat: the column of means. -/
theorem vecMeanCol :
    divf (shapeCast ⟨2, ![M, 1]⟩ (multiReduction .add [1] ⟨1, ![M]⟩ X 0x00000000#32 hr hφ hacc) hc)
        (broadcast ⟨2, ![M, 1]⟩ (Scalar.ofBits (F := Ideal) .f32 cw))
      = meanCol X (Ideal.ofBits .f32 cw) := by
  funext i
  obtain ⟨p, u, rfl⟩ : ∃ (p : Fin M) (u : Fin 1), i = ix2 p u := ⟨i 0, i 1, eq_ix2 i⟩
  show Ideal.div (shapeCast ⟨2, ![M, 1]⟩ (multiReduction .add [1] ⟨1, ![M]⟩ X 0x00000000#32 hr hφ hacc) hc (ix2 p u))
      (Ideal.ofBits .f32 cw) = rowMean X (Ideal.ofBits .f32 cw) p
  rw [Cert.RowBlocks.shapeCast_col_apply, Cert.RowBlocks.rowSum_apply]
  rfl

/-- The array less the column of means broadcast along the rows: the deviations. -/
theorem vecCentered (cnt : EReal) :
    subf (F := Ideal) (φ := .f32) X (broadcastTo ⟨2, ![M, N]⟩ (meanCol X cnt) hb) = centered X cnt := by
  funext i
  obtain ⟨p, q, rfl⟩ : ∃ (p : Fin M) (q : Fin N), i = ix2 p q := ⟨i 0, i 1, eq_ix2 i⟩
  show X (ix2 p q) - broadcastTo ⟨2, ![M, N]⟩ (meanCol X cnt) hb (ix2 p q) = _
  rw [Cert.RowBlocks.broadcastTo_col_apply]
  rfl

/-- The row sums of the squared deviations. -/
theorem vecSqSum (cnt : EReal) :
    multiReduction (F := Ideal) (φ := .f32) .add [1] ⟨1, ![M]⟩
        (mulf (F := Ideal) (φ := .f32) (centered X cnt) (centered X cnt)) 0x00000000#32 hr hφ hacc
      = sqSumVec X cnt := by
  funext i
  obtain ⟨p, rfl⟩ : ∃ p : Fin M, i = ix1 p := ⟨i 0, eq_ix1 i⟩
  exact Cert.RowBlocks.rowSum_apply (mulf (F := Ideal) (φ := .f32) (centered X cnt) (centered X cnt)) hr hφ hacc p

/-- Those sums cast to a column and divided by the count splat: the column of variances. -/
theorem vecVarCol (cnt : EReal) :
    divf (F := Ideal) (φ := .f32) (shapeCast ⟨2, ![M, 1]⟩ (sqSumVec X cnt) hc) (broadcast ⟨2, ![M, 1]⟩ (Scalar.ofBits (F := Ideal) .f32 cw))
      = fun i => Ideal.div (sqSum X cnt (c0 i)) (Ideal.ofBits .f32 cw) := by
  funext i
  obtain ⟨p, u, rfl⟩ : ∃ (p : Fin M) (u : Fin 1), i = ix2 p u := ⟨i 0, i 1, eq_ix2 i⟩
  show Ideal.div (shapeCast ⟨2, ![M, 1]⟩ (sqSumVec X cnt) hc (ix2 p u)) (Ideal.ofBits .f32 cw) = _
  rw [Cert.RowBlocks.shapeCast_col_apply]
  rfl

/-- The deviations times the broadcast reciprocal square root of the variance column plus the epsilon splat. -/
theorem vecLnK :
    mulf (F := Ideal) (φ := .f32) (centered X (Ideal.ofBits .f32 cw))
        (broadcastTo ⟨2, ![M, N]⟩
          (rsqrt (F := Ideal) (φ := .f32) (addf (F := Ideal) (φ := .f32)
            (fun i => Ideal.div (sqSum X (Ideal.ofBits .f32 cw) (c0 i)) (Ideal.ofBits .f32 cw))
            (broadcast ⟨2, ![M, 1]⟩ (Scalar.ofBits (F := Ideal) .f32 ew)))) hb)
      = lnK X (Ideal.ofBits .f32 cw) (Ideal.ofBits .f32 ew) := by
  funext i
  obtain ⟨p, q, rfl⟩ : ∃ (p : Fin M) (q : Fin N), i = ix2 p q := ⟨i 0, i 1, eq_ix2 i⟩
  show centered X (Ideal.ofBits .f32 cw) (ix2 p q) * broadcastTo ⟨2, ![M, N]⟩ _ hb (ix2 p q) = _
  rw [Cert.RowBlocks.broadcastTo_col_apply]
  rfl

/-- Every row times the broadcast row `g`, plus the broadcast row `b`. -/
theorem vecScaleShift (Y : FVec Ideal ⟨2, ![M, N]⟩ .f32) (g b : FVec Ideal ⟨2, ![1, N]⟩ .f32)
    (h1 : (⟨2, ![1, N]⟩ : Shape).Broadcasts ⟨2, ![M, N]⟩) :
    addf (mulf Y (broadcastTo ⟨2, ![M, N]⟩ g h1)) (broadcastTo ⟨2, ![M, N]⟩ b h1) = scaleShift Y g b := by
  funext i
  obtain ⟨p, q, rfl⟩ : ∃ (p : Fin M) (q : Fin N), i = ix2 p q := ⟨i 0, i 1, eq_ix2 i⟩
  show Y (ix2 p q) * broadcastTo ⟨2, ![M, N]⟩ g h1 (ix2 p q) + broadcastTo ⟨2, ![M, N]⟩ b h1 (ix2 p q) = _
  rw [broadcastTo_1b_ab_apply, broadcastTo_1b_ab_apply]
  rfl

end Vec

/-! ## The host's spelling -/

section Host

variable {M N : ℕ} (X : FVec Ideal ⟨2, ![M, N]⟩ .f32) (cw ew : BitVec 32)
  (hr' : (⟨2, ![M, N]⟩ : Shape).ReducesTo [1] ⟨1, ![M]⟩)
  (hu : 0 < (⟨0, ![]⟩ : Shape).numel)
  (hv : (⟨1, ![M]⟩ : Shape).BroadcastsInDim ⟨2, ![M, 1]⟩ ![0])
  (h0 : (⟨0, ![]⟩ : Shape).BroadcastsInDim ⟨2, ![M, 1]⟩ ![])
  (hb : (⟨2, ![M, 1]⟩ : Shape).BroadcastsInDim ⟨2, ![M, N]⟩ ![0, 1])

/-- The host's row sums from a zero, broadcast to a column, over the broadcast count: the column of means. -/
theorem hostMeanCol (hr : (⟨2, ![M, N]⟩ : Shape).Reduces [1] ⟨1, ![M]⟩) :
    Host.divf (F := Ideal) (φ := .f32) (broadcastInDim ⟨2, ![M, 1]⟩ ![0] hv (Host.reduceAdd X (constant (F := Ideal) ⟨0, ![]⟩ .f32 0x00000000#32) hr' hu))
        (broadcastInDim ⟨2, ![M, 1]⟩ ![] h0 (constant (F := Ideal) ⟨0, ![]⟩ .f32 cw))
      = meanCol X (Ideal.ofBits .f32 cw) := by
  funext i
  obtain ⟨p, u, rfl⟩ : ∃ (p : Fin M) (u : Fin 1), i = ix2 p u := ⟨i 0, i 1, eq_ix2 i⟩
  simp only [Host.divf]
  rw [Cert.HostLayout.bcast_vec_col, Cert.HostLayout.bcast_scalar_mat, Cert.HostLayout.hostRowSum X _ hr' hr hu p]
  show Ideal.div (Ideal.ofBits .f32 0x00000000#32 + _) (Ideal.ofBits .f32 cw) = _
  rw [Ideal.ofBits_zero_f32, zero_add]
  rfl

/-- The array less the column of means broadcast along the rows: the deviations. -/
theorem hostCentered (cnt : EReal) :
    subf (F := Ideal) (φ := .f32) X (broadcastInDim ⟨2, ![M, N]⟩ ![0, 1] hb (meanCol X cnt)) = centered X cnt := by
  funext i
  obtain ⟨p, q, rfl⟩ : ∃ (p : Fin M) (q : Fin N), i = ix2 p q := ⟨i 0, i 1, eq_ix2 i⟩
  show X (ix2 p q) - broadcastInDim ⟨2, ![M, N]⟩ ![0, 1] hb (meanCol X cnt) (ix2 p q) = _
  rw [Cert.HostLayout.bcast_col_mat]
  rfl

/-- The host's row sums of the squared deviations, to a column, over the broadcast count: the column of variances. -/
theorem hostVarCol (hr : (⟨2, ![M, N]⟩ : Shape).Reduces [1] ⟨1, ![M]⟩) (cnt : EReal) :
    Host.divf (F := Ideal) (φ := .f32) (broadcastInDim ⟨2, ![M, 1]⟩ ![0] hv
          (Host.reduceAdd (F := Ideal) (φ := .f32) (mulf (F := Ideal) (φ := .f32) (centered X cnt) (centered X cnt)) (constant (F := Ideal) ⟨0, ![]⟩ .f32 0x00000000#32) hr' hu))
        (broadcastInDim ⟨2, ![M, 1]⟩ ![] h0 (constant (F := Ideal) ⟨0, ![]⟩ .f32 cw))
      = fun i => Ideal.div (sqSum X cnt (c0 i)) (Ideal.ofBits .f32 cw) := by
  funext i
  obtain ⟨p, u, rfl⟩ : ∃ (p : Fin M) (u : Fin 1), i = ix2 p u := ⟨i 0, i 1, eq_ix2 i⟩
  simp only [Host.divf]
  rw [Cert.HostLayout.bcast_vec_col, Cert.HostLayout.bcast_scalar_mat,
    Cert.HostLayout.hostRowSum (mulf (F := Ideal) (φ := .f32) (centered X cnt) (centered X cnt)) _ hr' hr hu p]
  show Ideal.div (Ideal.ofBits .f32 0x00000000#32 + _) (Ideal.ofBits .f32 cw) = _
  rw [Ideal.ofBits_zero_f32, zero_add]
  rfl

/-- The deviations over the broadcast square root of the variance column plus the broadcast epsilon. -/
theorem hostLnH :
    Host.divf (F := Ideal) (φ := .f32) (centered X (Ideal.ofBits .f32 cw))
        (broadcastInDim ⟨2, ![M, N]⟩ ![0, 1] hb
          (Host.sqrt (F := Ideal) (φ := .f32) (addf (F := Ideal) (φ := .f32)
            (fun i => Ideal.div (sqSum X (Ideal.ofBits .f32 cw) (c0 i)) (Ideal.ofBits .f32 cw))
            (broadcastInDim ⟨2, ![M, 1]⟩ ![] h0 (constant (F := Ideal) ⟨0, ![]⟩ .f32 ew)))))
      = lnH X (Ideal.ofBits .f32 cw) (Ideal.ofBits .f32 ew) := by
  funext i
  obtain ⟨p, q, rfl⟩ : ∃ (p : Fin M) (q : Fin N), i = ix2 p q := ⟨i 0, i 1, eq_ix2 i⟩
  simp only [Host.divf]
  rw [Cert.HostLayout.bcast_col_mat]
  simp only [Host.sqrt, addf]
  rw [Cert.HostLayout.bcast_scalar_mat]
  rfl

/-- Every row times the vector `g` laid along the rows, plus the vector `b` laid along the rows. -/
theorem hostScaleShift (Y : FVec Ideal ⟨2, ![M, N]⟩ .f32) (g b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1]) :
    addf (F := Ideal) (φ := .f32) (mulf Y (broadcastInDim ⟨2, ![M, N]⟩ ![0, 1] h2 (broadcastInDim ⟨2, ![1, N]⟩ ![1] h1 g)))
        (broadcastInDim ⟨2, ![M, N]⟩ ![0, 1] h2 (broadcastInDim ⟨2, ![1, N]⟩ ![1] h1 b))
      = scaleShift Y (row g) (row b) := by
  funext i
  obtain ⟨p, q, rfl⟩ : ∃ (p : Fin M) (q : Fin N), i = ix2 p q := ⟨i 0, i 1, eq_ix2 i⟩
  show Y (ix2 p q) * broadcastInDim ⟨2, ![M, N]⟩ ![0, 1] h2 (broadcastInDim ⟨2, ![1, N]⟩ ![1] h1 g) (ix2 p q)
      + broadcastInDim ⟨2, ![M, N]⟩ ![0, 1] h2 (broadcastInDim ⟨2, ![1, N]⟩ ![1] h1 b) (ix2 p q) = _
  rw [Cert.HostLayout.bcast_vec_mat, Cert.HostLayout.bcast_vec_mat]
  rfl

end Host

end Cert.LayerNorm

end
-- ==== Proof.LibNormMlp.lean ====
/-
  A two-layer perceptron's tail on the extended reals, over rank-2 arrays of any extents.

  From the first layer's product `P` (rows × hidden): add the one-row bias and rectify, normalise each row (mean and
  variance over the row, a positive count and a positive epsilon), scale and shift by one-row arrays, multiply by the
  second layer's matrix and add its one-row bias.  `tailK` normalises with the reciprocal square root, `tailH` with the
  quotient by the square root; they are equal (`LibLayerNorm`).  A row of the result depends on the same row of `P` only.
-/
import proofs.«139705_j25838523252951_1_alg».proof.Proof.LibLayerNorm
import proofs.«139705_j25838523252951_1_alg».proof.Proof.LibBiasRow

noncomputable section

open scoped BigOperators

namespace Cert.NormMlp

open Idealize.ShloMosaic Idealize.ShloMosaic.ValueIdx Cert.Dense Cert.BiasRow Cert.LayerNorm

/-- Bias, rectify, normalise (reciprocal square root), scale and shift, second layer, bias. -/
def tailK {M H O : ℕ} (P : Mat M H) (b1 g be : Mat 1 H) (W2 : Mat H O) (b2 : Mat 1 O) (cnt eps : EReal) : Mat M O :=
  addRow (mm (scaleShift (lnK (reluBias P b1) cnt eps) g be) W2) b2

/-- The same with the quotient by the square root. -/
def tailH {M H O : ℕ} (P : Mat M H) (b1 g be : Mat 1 H) (W2 : Mat H O) (b2 : Mat 1 O) (cnt eps : EReal) : Mat M O :=
  addRow (mm (scaleShift (lnH (reluBias P b1) cnt eps) g be) W2) b2

theorem tailK_eq_tailH {M H O : ℕ} (P : Mat M H) (b1 g be : Mat 1 H) (W2 : Mat H O) (b2 : Mat 1 O)
    {r : ℝ} (hr : 0 < r) {eps : EReal} (heps : 0 < eps) :
    tailK P b1 g be W2 b2 (r : EReal) eps = tailH P b1 g be W2 b2 (r : EReal) eps := by
  unfold tailK tailH
  rw [lnK_eq_lnH _ hr heps]

/-- A row of the tail's result depends on the same row of the first layer's product. -/
theorem tailH_congr {M M' H O : ℕ} (P : Mat M H) (P' : Mat M' H) (b1 g be : Mat 1 H) (W2 : Mat H O) (b2 : Mat 1 O)
    (cnt eps : EReal) (p : Fin M) (p' : Fin M') (h : ∀ k, P' (ix2 p' k) = P (ix2 p k)) (q : Fin O) :
    tailH P' b1 g be W2 b2 cnt eps (ix2 p' q) = tailH P b1 g be W2 b2 cnt eps (ix2 p q) := by
  have hR : ∀ k, reluBias P' b1 (ix2 p' k) = reluBias P b1 (ix2 p k) := fun k => by
    show max (P' (ix2 p' k) + b1 (ix2 (0 : Fin 1) k)) 0 = max (P (ix2 p k) + b1 (ix2 (0 : Fin 1) k)) 0
    rw [h k]
  have hY : ∀ k, scaleShift (lnH (reluBias P' b1) cnt eps) g be (ix2 p' k)
      = scaleShift (lnH (reluBias P b1) cnt eps) g be (ix2 p k) := fun k => by
    rw [scaleShift_apply, scaleShift_apply, lnH_congr (reluBias P b1) (reluBias P' b1) cnt eps p p' hR k]
  show mm _ W2 (ix2 p' q) + b2 (ix2 (0 : Fin 1) q) = mm _ W2 (ix2 p q) + b2 (ix2 (0 : Fin 1) q)
  rw [mm_rows _ _ W2 p p' hY q]

/-- A sum over `c = a + b` terms splits into the first `a` and the last `b`. -/
theorem sum_split {a b c : ℕ} (h : a + b = c) (f : Fin c → EReal) :
    ∑ k : Fin c, f k = (∑ k : Fin a, f ⟨k.val, by omega⟩) + ∑ k : Fin b, f ⟨a + k.val, by omega⟩ := by
  subst h
  rw [Fin.sum_univ_add]
  rfl

/-- A sum over `d = a + b + c` terms splits into three runs. -/
theorem sum_split3 {a b c d : ℕ} (h : a + b + c = d) (f : Fin d → EReal) :
    ∑ k : Fin d, f k = ((∑ k : Fin a, f ⟨k.val, by omega⟩) + ∑ k : Fin b, f ⟨a + k.val, by omega⟩)
      + ∑ k : Fin c, f ⟨a + b + k.val, by omega⟩ := by
  rw [sum_split h f, sum_split (rfl : a + b = a + b) (fun k : Fin (a + b) => f ⟨k.val, by omega⟩)]

end Cert.NormMlp

end
-- ==== Proof.LibConcatDot.lean ====
/-
  A matrix product whose left operand is a concatenation along the columns, on the extended reals, over rank-2 arrays
  of any extents.

  With the columns of the left operand laid end to end, `[A | B] W = A W₀ + B W₁`, where `W₀` is the slab of the first
  `a` rows of `W` and `W₁` the slab of the next `b` rows: the contraction sum over `a + b` terms is the sum over the first
  `a` terms plus the sum over the last `b`, in a left factor that reads `A` on the first run and `B` on the second, and a
  right factor that reads the matching row of `W`. Only the associativity of a finite sum is used, so nothing has to be
  finite. The same with three pieces, `[A | B | C] W = (A W₀ + B W₁) + C W₂`.

  The offset of the second (third) slab is a variable with a hypothesis that it is the first extent (the sum of the first
  two), so that the statements apply to a slab whose offset is written as a numeral.
-/
import proofs.«139705_j25838523252951_1_alg».proof.Proof.LibDense
import proofs.«139705_j25838523252951_1_alg».proof.Proof.LibNormMlp

noncomputable section

open scoped BigOperators

namespace Cert.ConcatDot

open Idealize.ShloMosaic Idealize.ShloMosaic.ValueIdx Cert.Dense Cert.NormMlp

/-! ## A slab of rows read at an index -/

/-- The slab of `a` rows of `W` starting at row `off`, read at `(k, q)`, is `W` at `(off + k, q)`. -/
theorem slab_apply {c N : ℕ} (W : Mat c N) (off a : ℕ)
    (hs : (⟨2, ![c, N]⟩ : Shape).Slices ![off, 0] ⟨2, ![a, N]⟩) (k : Fin a) (q : Fin N) (hk : off + k.val < c) :
    extractStridedSlice ⟨2, ![a, N]⟩ ![off, 0] W hs (ix2 k q) = W (ix2 ⟨off + k.val, hk⟩ q) :=
  extractStridedSlice_apply ![off, 0] W hs (ix2 k q) (ix2 ⟨off + k.val, hk⟩ q) (fun d => match d with
    | ⟨0, _⟩ => rfl
    | ⟨1, _⟩ => by show q.val = 0 + q.val; omega)

/-- The slab of the first `a` rows of `W`, read at `(k, q)`, is `W` at `(k, q)`. -/
theorem slab_apply_zero {c N : ℕ} (W : Mat c N) (a : ℕ)
    (hs : (⟨2, ![c, N]⟩ : Shape).Slices ![0, 0] ⟨2, ![a, N]⟩) (k : Fin a) (q : Fin N) (hk : k.val < c) :
    extractStridedSlice ⟨2, ![a, N]⟩ ![0, 0] W hs (ix2 k q) = W (ix2 ⟨k.val, hk⟩ q) :=
  extractStridedSlice_apply ![0, 0] W hs (ix2 k q) (ix2 ⟨k.val, hk⟩ q) (fun d => match d with
    | ⟨0, _⟩ => by show k.val = 0 + k.val; omega
    | ⟨1, _⟩ => by show q.val = 0 + q.val; omega)

/-! ## Two pieces -/

/-- A concatenation of two pieces along the columns, read at a column of the first run, is the first piece there. -/
theorem concat2_left {M a b c : ℕ} (A : Mat M a) (B : Mat M b)
    (hc : Shape.Concatenates [(⟨2, ![M, a]⟩ : Shape), ⟨2, ![M, b]⟩] ⟨2, ![M, c]⟩ 1)
    (p : Fin M) (k : Fin a) (hk : k.val < c) :
    concatenate ⟨2, ![M, c]⟩ 1 [⟨⟨2, ![M, a]⟩, A⟩, ⟨⟨2, ![M, b]⟩, B⟩] hc (ix2 p ⟨k.val, hk⟩) = A (ix2 p k) :=
  concatenate_pair_apply_left 1 A B hc (ix2 p ⟨k.val, hk⟩) rfl (ix2 p k) (fun d => match d with
    | ⟨0, _⟩ => rfl
    | ⟨1, _⟩ => rfl)

/-- A concatenation of two pieces along the columns, read at a column of the second run — the first piece's extent
    plus `k` — is the second piece at column `k`. -/
theorem concat2_right {M a b c : ℕ} (A : Mat M a) (B : Mat M b)
    (hc : Shape.Concatenates [(⟨2, ![M, a]⟩ : Shape), ⟨2, ![M, b]⟩] ⟨2, ![M, c]⟩ 1)
    (p : Fin M) (k : Fin b) (hk : a + k.val < c) :
    concatenate ⟨2, ![M, c]⟩ 1 [⟨⟨2, ![M, a]⟩, A⟩, ⟨⟨2, ![M, b]⟩, B⟩] hc (ix2 p ⟨a + k.val, hk⟩) = B (ix2 p k) :=
  concatenate_pair_apply_right 1 A B hc (ix2 p ⟨a + k.val, hk⟩) rfl rfl (ix2 p k)
    (fun d hd => match d, hd with
      | ⟨0, _⟩, _ => rfl
      | ⟨1, _⟩, hd => absurd rfl hd)
    (by show k.val + a = a + k.val; omega)

/-- `[A | B] W = A W₀ + B W₁`: the host's plain dot product of a two-piece concatenation along the columns with `W` is
    the sum of the two pieces' matrix products with the matching row slabs of `W`. -/
theorem hostDot_concat2 {M a b c N : ℕ} {φ₁ φ₂ : FTy} (h : a + b = c)
    (D : DotDims ⟨2, ![M, c]⟩ ⟨2, ![c, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (prec : Option ContractPrecision) (A : Mat M a) (B : Mat M b) (W : Mat c N)
    (hc : Shape.Concatenates [(⟨2, ![M, a]⟩ : Shape), ⟨2, ![M, b]⟩] ⟨2, ![M, c]⟩ 1)
    (o1 : ℕ) (ho1 : o1 = a)
    (hs0 : (⟨2, ![c, N]⟩ : Shape).Slices ![0, 0] ⟨2, ![a, N]⟩)
    (hs1 : (⟨2, ![c, N]⟩ : Shape).Slices ![o1, 0] ⟨2, ![b, N]⟩) :
    Host.dotGeneral (F := Ideal) (φ₁ := φ₁) (φ₂ := φ₂) D prec
        (concatenate ⟨2, ![M, c]⟩ 1 [⟨⟨2, ![M, a]⟩, A⟩, ⟨⟨2, ![M, b]⟩, B⟩] hc) W
      = addf (F := Ideal) (φ := .f32) (s := ⟨2, ![M, N]⟩)
          (mm A (extractStridedSlice ⟨2, ![a, N]⟩ ![0, 0] W hs0))
          (mm B (extractStridedSlice ⟨2, ![b, N]⟩ ![o1, 0] W hs1)) := by
  subst o1
  funext i
  obtain ⟨p, q, rfl⟩ : ∃ (p : Fin M) (q : Fin N), i = ix2 p q := ⟨i 0, i 1, eq_ix2 i⟩
  rw [hostDot_eq_mm D h1 h2 h3 h4 h5 h6 prec]
  show mm _ W (ix2 p q) = mm A _ (ix2 p q) + mm B _ (ix2 p q)
  rw [mm_apply, mm_apply, mm_apply, sum_split h]
  congr 1
  · refine Finset.sum_congr rfl fun k _ => ?_
    rw [concat2_left A B hc p k, slab_apply_zero W a hs0 k q]
  · refine Finset.sum_congr rfl fun k _ => ?_
    rw [concat2_right A B hc p k, slab_apply W a b hs1 k q]

/-! ## Three pieces -/

/-- A concatenation of three pieces along the columns, read at a column of the first run, is the first piece there. -/
theorem concat3_1 {M a b c d : ℕ} (A : Mat M a) (B : Mat M b) (C : Mat M c)
    (hc : Shape.Concatenates [(⟨2, ![M, a]⟩ : Shape), ⟨2, ![M, b]⟩, ⟨2, ![M, c]⟩] ⟨2, ![M, d]⟩ 1)
    (p : Fin M) (k : Fin a) (hk : k.val < d) :
    concatenate ⟨2, ![M, d]⟩ 1 [⟨⟨2, ![M, a]⟩, A⟩, ⟨⟨2, ![M, b]⟩, B⟩, ⟨⟨2, ![M, c]⟩, C⟩] hc (ix2 p ⟨k.val, hk⟩)
      = A (ix2 p k) :=
  concatenate_apply_piece (t := ⟨2, ![M, d]⟩) 1 [⟨⟨2, ![M, a]⟩, A⟩, ⟨⟨2, ![M, b]⟩, B⟩, ⟨⟨2, ![M, c]⟩, C⟩] hc (ix2 p ⟨k.val, hk⟩) 0 (by show 0 < 3; omega) ⟨2, ![M, a]⟩ A rfl rfl 0 rfl (ix2 p k)
    (fun e he => match e, he with
      | ⟨0, _⟩, _ => rfl
      | ⟨1, _⟩, he => absurd rfl he)
    (by show 0 + k.val = k.val; omega)

/-- A concatenation of three pieces along the columns, read at a column of the second run — the first piece's extent
    plus `k` — is the second piece at column `k`. -/
theorem concat3_2 {M a b c d : ℕ} (A : Mat M a) (B : Mat M b) (C : Mat M c)
    (hc : Shape.Concatenates [(⟨2, ![M, a]⟩ : Shape), ⟨2, ![M, b]⟩, ⟨2, ![M, c]⟩] ⟨2, ![M, d]⟩ 1)
    (p : Fin M) (k : Fin b) (hk : a + k.val < d) :
    concatenate ⟨2, ![M, d]⟩ 1 [⟨⟨2, ![M, a]⟩, A⟩, ⟨⟨2, ![M, b]⟩, B⟩, ⟨⟨2, ![M, c]⟩, C⟩] hc (ix2 p ⟨a + k.val, hk⟩)
      = B (ix2 p k) :=
  concatenate_apply_piece (t := ⟨2, ![M, d]⟩) 1 [⟨⟨2, ![M, a]⟩, A⟩, ⟨⟨2, ![M, b]⟩, B⟩, ⟨⟨2, ![M, c]⟩, C⟩] hc (ix2 p ⟨a + k.val, hk⟩) 1 (by show 1 < 3; omega) ⟨2, ![M, b]⟩ B rfl rfl a rfl (ix2 p k)
    (fun e he => match e, he with
      | ⟨0, _⟩, _ => rfl
      | ⟨1, _⟩, he => absurd rfl he)
    rfl

/-- A concatenation of three pieces along the columns, read at a column of the third run — the first two pieces'
    extents plus `k` — is the third piece at column `k`. -/
theorem concat3_3 {M a b c d : ℕ} (A : Mat M a) (B : Mat M b) (C : Mat M c)
    (hc : Shape.Concatenates [(⟨2, ![M, a]⟩ : Shape), ⟨2, ![M, b]⟩, ⟨2, ![M, c]⟩] ⟨2, ![M, d]⟩ 1)
    (p : Fin M) (k : Fin c) (hk : a + b + k.val < d) :
    concatenate ⟨2, ![M, d]⟩ 1 [⟨⟨2, ![M, a]⟩, A⟩, ⟨⟨2, ![M, b]⟩, B⟩, ⟨⟨2, ![M, c]⟩, C⟩] hc (ix2 p ⟨a + b + k.val, hk⟩)
      = C (ix2 p k) :=
  concatenate_apply_piece (t := ⟨2, ![M, d]⟩) 1 [⟨⟨2, ![M, a]⟩, A⟩, ⟨⟨2, ![M, b]⟩, B⟩, ⟨⟨2, ![M, c]⟩, C⟩] hc (ix2 p ⟨a + b + k.val, hk⟩) 2 (by show 2 < 3; omega) ⟨2, ![M, c]⟩ C rfl rfl (a + b) rfl (ix2 p k)
    (fun e he => match e, he with
      | ⟨0, _⟩, _ => rfl
      | ⟨1, _⟩, he => absurd rfl he)
    rfl

/-- `[A | B | C] W = (A W₀ + B W₁) + C W₂`: the host's plain dot product of a three-piece concatenation along the
    columns with `W` is the sum of the three pieces' matrix products with the matching row slabs of `W`. -/
theorem hostDot_concat3 {M a b c d N : ℕ} {φ₁ φ₂ : FTy} (h : a + b + c = d)
    (D : DotDims ⟨2, ![M, d]⟩ ⟨2, ![d, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (prec : Option ContractPrecision) (A : Mat M a) (B : Mat M b) (C : Mat M c) (W : Mat d N)
    (hc : Shape.Concatenates [(⟨2, ![M, a]⟩ : Shape), ⟨2, ![M, b]⟩, ⟨2, ![M, c]⟩] ⟨2, ![M, d]⟩ 1)
    (o1 o2 : ℕ) (ho1 : o1 = a) (ho2 : o2 = a + b)
    (hs0 : (⟨2, ![d, N]⟩ : Shape).Slices ![0, 0] ⟨2, ![a, N]⟩)
    (hs1 : (⟨2, ![d, N]⟩ : Shape).Slices ![o1, 0] ⟨2, ![b, N]⟩)
    (hs2 : (⟨2, ![d, N]⟩ : Shape).Slices ![o2, 0] ⟨2, ![c, N]⟩) :
    Host.dotGeneral (F := Ideal) (φ₁ := φ₁) (φ₂ := φ₂) D prec
        (concatenate ⟨2, ![M, d]⟩ 1 [⟨⟨2, ![M, a]⟩, A⟩, ⟨⟨2, ![M, b]⟩, B⟩, ⟨⟨2, ![M, c]⟩, C⟩] hc) W
      = addf (F := Ideal) (φ := .f32) (s := ⟨2, ![M, N]⟩)
          (addf (F := Ideal) (φ := .f32) (s := ⟨2, ![M, N]⟩)
            (mm A (extractStridedSlice ⟨2, ![a, N]⟩ ![0, 0] W hs0))
            (mm B (extractStridedSlice ⟨2, ![b, N]⟩ ![o1, 0] W hs1)))
          (mm C (extractStridedSlice ⟨2, ![c, N]⟩ ![o2, 0] W hs2)) := by
  subst o1 o2
  funext i
  obtain ⟨p, q, rfl⟩ : ∃ (p : Fin M) (q : Fin N), i = ix2 p q := ⟨i 0, i 1, eq_ix2 i⟩
  rw [hostDot_eq_mm D h1 h2 h3 h4 h5 h6 prec]
  show mm _ W (ix2 p q) = (mm A _ (ix2 p q) + mm B _ (ix2 p q)) + mm C _ (ix2 p q)
  rw [mm_apply, mm_apply, mm_apply, mm_apply, sum_split3 h]
  congr 1
  · congr 1
    · refine Finset.sum_congr rfl fun k _ => ?_
      rw [concat3_1 A B C hc p k, slab_apply_zero W a hs0 k q]
    · refine Finset.sum_congr rfl fun k _ => ?_
      rw [concat3_2 A B C hc p k, slab_apply W a b hs1 k q]
  · refine Finset.sum_congr rfl fun k _ => ?_
    rw [concat3_3 A B C hc p k, slab_apply W (a + b) c hs2 k q]

end Cert.ConcatDot

end
-- ==== Proof.LibCarriedRow.lean ====
/-
  A row of running totals carried in a buffer, read back: general lemmas.

  Stores that each cover their whole buffer: a load of the whole buffer after such stores reads the value of the
  LAST one, whatever came before (`readCov_cons_unit_zero`; the library has the one-store case).

  A `[1, 1, c]` row kept in a buffer and used as a vector `[c]` or as a `[1, c]` row: the three shape casts read at
  an index (`cast_11c_c`, `cast_c_11c`, `cast_11c_1c`).

  On the extended reals, the sum of an `[n, c]` array along its FIRST axis reads, at column `d`, the sum over the
  `n` rows of the column's entries (`colSum_apply`): the column totals of a block of rows.

  All at any extents.
-/
import Idealize.ShloMosaic.Lib.Pipeline.Value
import Idealize.ShloMosaic.Lib.ValueIdx
import Idealize.ShloMosaic.PureOps.Ideal.Laws

noncomputable section

open scoped BigOperators

namespace Cert.CarriedRow

open Idealize.ShloMosaic Idealize.ShloMosaic.ValueIdx

section stores
variable {Val : EltTy → Type} {S : Shape} {e : EltTy}

/-- A load of the whole buffer, after stores of which the LAST covers the whole buffer, reads that store's value. -/
theorem readCov_cons_unit_zero [∀ e, Nonempty (Val e)] {sig : RefSig} {κ : Kind} {sp : Space}
    (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  rw [View.readCov_eq_canon_ld _ _ _ (fun y => ⟨_, List.mem_cons_self .., View.mem_set_unit_zero h inb y⟩),
    View.canon_cons_unit_zero h, View.ld_unit_zero h]
end stores

section layout
variable {α : Type}

/-- A `[1, 1, c]` row read as a vector. -/
theorem cast_11c_c {c : ℕ} (x : (⟨3, ![1, 1, c]⟩ : Shape).Idx → α) (h : (⟨3, ![1, 1, c]⟩ : Shape).ShapeCasts ⟨1, ![c]⟩)
    (d : Fin c) : shapeCast ⟨1, ![c]⟩ x h (ix1 d) = x (ix3 (0 : Fin 1) (0 : Fin 1) d) :=
  shapeCast_apply x h _ _ (by
    rw [Shape.rowMajor_val_three, Shape.rowMajor_val_one]
    show (0 * 1 + 0) * c + d.val = d.val
    simp)

/-- A vector read as a `[1, 1, c]` row. -/
theorem cast_c_11c {c : ℕ} (x : (⟨1, ![c]⟩ : Shape).Idx → α) (h : (⟨1, ![c]⟩ : Shape).ShapeCasts ⟨3, ![1, 1, c]⟩)
    (u v : Fin 1) (d : Fin c) : shapeCast ⟨3, ![1, 1, c]⟩ x h (ix3 u v d) = x (ix1 d) :=
  shapeCast_apply x h _ _ (by
    have hu : u.val = 0 := by omega
    have hv : v.val = 0 := by omega
    rw [Shape.rowMajor_val_three, Shape.rowMajor_val_one]
    show d.val = (u.val * 1 + v.val) * c + d.val
    simp [hu, hv])

/-- A `[1, 1, c]` row read as a `[1, c]` row. -/
theorem cast_11c_1c {c : ℕ} (x : (⟨3, ![1, 1, c]⟩ : Shape).Idx → α) (h : (⟨3, ![1, 1, c]⟩ : Shape).ShapeCasts ⟨2, ![1, c]⟩)
    (u : Fin 1) (d : Fin c) : shapeCast ⟨2, ![1, c]⟩ x h (ix2 u d) = x (ix3 (0 : Fin 1) (0 : Fin 1) d) :=
  shapeCast_apply x h _ _ (by
    have hu : u.val = 0 := by omega
    rw [Shape.rowMajor_val_three, Shape.rowMajor_val_two]
    show (0 * 1 + 0) * c + d.val = u.val * c + d.val
    simp [hu])
end layout

/-- The sum of an `[n, c]` array along its first axis reads, at column `d`, the sum of the column's entries. -/
theorem colSum_apply {n c : ℕ} (src : FVec Ideal ⟨2, ![n, c]⟩ .f32)
    (h : (⟨2, ![n, c]⟩ : Shape).Reduces [0] ⟨1, ![c]⟩) (hφ : FKind.Formats .f32)
    (hacc : (0x00000000#32 : BitVec 32) = 0x00000000#32) (d : Fin c) :
    multiReduction .add [0] ⟨1, ![c]⟩ src 0x00000000#32 h hφ hacc (ix1 d) = ∑ p : Fin n, src (ix2 p d) := by
  refine (Ideal.multiReduction_add_single src 0x00000000#32 h hφ hacc (ix1 d)).trans ?_
  refine Finset.sum_congr rfl fun k _ => congrArg src (funext fun ax => Fin.ext ?_)
  match ax with
  | ⟨0, _⟩ => rfl
  | ⟨1, _⟩ => rfl

end Cert.CarriedRow

end
-- ==== Proof.LibAccCols.lean ====
/-
  Column totals carried from block to block, on the extended reals, at any extents.

  A one-row array `acc` and an `[n, c]` block `Y`: the vector unit adds to `acc` the sum of `Y` along its first axis,
  laid out as one row.  Read at column `q` this is `acc q + ∑ₚ Y (p, q)` (`row_plus_colSum`).

  A quantity that is `0 + P 0` at the first point and at every later point `n` is its value at `n − 1` plus `P n` is,
  at point `n`, the sum of `P 0 … P n` (`fold_eq_sum`).  When `P n` is the total of a summand `g` over the `B`
  consecutive rows `B·n … B·n + B − 1` of an array of `A·B` rows, the value at the last point `A − 1` is the total of
  `g` over all the rows (`carried_total`).  Only commutativity and associativity of addition are used, so nothing has
  to be finite.  `zero_offsets` is the spelling fact every whole-buffer access at literal zero offsets needs.
-/
import proofs.«139705_j25838523252951_1_alg».proof.Proof.LibDense
import proofs.«139705_j25838523252951_1_alg».proof.Proof.LibCarriedRow
import proofs.«139705_j25838523252951_1_alg».proof.Proof.LibGcnStats

noncomputable section

open scoped BigOperators

namespace Cert.AccCols

open Idealize.ShloMosaic Idealize.ShloMosaic.ValueIdx Cert.Dense

/-- The zero offsets of a rank-2 access, spelt as a literal vector, are the constant zero function. -/
theorem zero_offsets : (![0, 0] : Fin 2 → Nat) = fun _ => 0 := funext fun a => by fin_cases a <;> rfl

/-- A carried row plus the sum of a block along its first axis, read at a column: `acc q + ∑ₚ Y (p, q)`. -/
theorem row_plus_colSum {n c : ℕ} (acc : Mat 1 c) (Y : Mat n c)
    (hc : (⟨2, ![1, c]⟩ : Shape).ShapeCasts ⟨2, ![1, c]⟩)
    (hr : (⟨2, ![n, c]⟩ : Shape).Reduces [0] ⟨1, ![c]⟩) (hφ : FKind.Formats .f32)
    (hacc : (0x00000000#32 : BitVec 32) = 0x00000000#32)
    (h1 : (⟨1, ![c]⟩ : Shape).ShapeCasts ⟨2, ![1, c]⟩) (u : Fin 1) (q : Fin c) :
    addf (F := Ideal) (φ := .f32) (s := ⟨2, ![1, c]⟩) (shapeCast ⟨2, ![1, c]⟩ acc hc)
        (shapeCast ⟨2, ![1, c]⟩
          (multiReduction (F := Ideal) .add [0] ⟨1, ![c]⟩ (Y : FVec Ideal ⟨2, ![n, c]⟩ .f32) 0x00000000#32 hr hφ hacc) h1)
        (ix2 u q)
      = acc (ix2 u q) + ∑ p : Fin n, Y (ix2 p q) := by
  show shapeCast ⟨2, ![1, c]⟩ acc hc (ix2 u q)
      + shapeCast ⟨2, ![1, c]⟩
          (multiReduction (F := Ideal) .add [0] ⟨1, ![c]⟩ (Y : FVec Ideal ⟨2, ![n, c]⟩ .f32) 0x00000000#32 hr hφ hacc) h1
          (ix2 u q) = _
  rw [shapeCast_self, shapeCast_a_1a_apply, Cert.CarriedRow.colSum_apply]

/-- A quantity that starts at `0 + P 0` and at each later point adds that point's `P` to what the point before left is
    the sum of `P` over the points so far. -/
theorem fold_eq_sum {M : Type*} [AddCommMonoid M] {A : ℕ} (f P : (n : ℕ) → n < A → M)
    (h0 : ∀ h : 0 < A, f 0 h = 0 + P 0 h)
    (hs : ∀ (n : ℕ) (h : n + 1 < A), f (n + 1) h = f n (Nat.lt_of_succ_lt h) + P (n + 1) h) :
    ∀ (n : ℕ) (h : n < A), f n h = ∑ k : Fin (n + 1), P k.val (lt_of_le_of_lt (Nat.lt_succ_iff.mp k.isLt) h)
  | 0, h => by
    rw [h0 h, zero_add]
    exact (Fin.sum_univ_one
      (fun k : Fin (0 + 1) => P k.val (lt_of_le_of_lt (Nat.lt_succ_iff.mp k.isLt) h))).symm
  | n + 1, h => by
    rw [hs n h, fold_eq_sum f P h0 hs n (Nat.lt_of_succ_lt h)]
    exact (Fin.sum_univ_castSucc
      (fun k : Fin (n + 1 + 1) => P k.val (lt_of_le_of_lt (Nat.lt_succ_iff.mp k.isLt) h))).symm

/-- The carried total after the last of `A` blocks of `B` consecutive rows is the total over all `A·B` rows. -/
theorem carried_total {A B N : ℕ} (hN : N = A * B) (g : Fin N → EReal)
    (row : (n : ℕ) → n < A → Fin B → Fin N) (hrow : ∀ n h r, (row n h r).val = B * n + r.val)
    (f : (n : ℕ) → n < A → EReal)
    (h0 : ∀ h : 0 < A, f 0 h = 0 + ∑ r : Fin B, g (row 0 h r))
    (hs : ∀ (n : ℕ) (h : n + 1 < A), f (n + 1) h = f n (Nat.lt_of_succ_lt h) + ∑ r : Fin B, g (row (n + 1) h r))
    (n : ℕ) (h : n < A) (hlast : n + 1 = A) : f n h = ∑ p : Fin N, g p := by
  rw [fold_eq_sum f (fun n h => ∑ r : Fin B, g (row n h r)) h0 hs n h]
  subst hlast
  exact (Cert.GcnStats.sum_by_blocks hN (fun t r => row t.val t.isLt r) (fun t r => hrow _ _ r) g).symm

end Cert.AccCols

end
-- ==== Proof.Stats0Pre.lean ====
/-
  The statistics kernel of the edge network: what its body computes, on the extended reals.

  The body reads a block of 3200 edges — the rows `x0`, `x1` of the two end nodes and the edge attributes `x2` —, the
  [144, 128] weight `w` and the bias row `b`, and forms the block of `Y = XR·Wr + XC·Wc + EA·We + b` with `Wr`, `Wc`,
  `We` the slabs of rows 0–63, 64–127 and 128–143 of `w` (the operands are rounded to bf16 first, which on the
  extended reals is the identity; each product accumulates into zero).  It then adds to a carried one-row array the
  column sums of that block, and to a second one the column sums of the squares.

  A row of the block depends on the same row of `x0`, `x1`, `x2` only, so when the block's row `r` is row `row r` of
  larger arrays, the block of `Y` is rows `row r` of the `Y` of the larger arrays (`pre3_at`).
-/
import proofs.«139705_j25838523252951_1_alg».proof.Proof.Gen.KernelIdeal.Skeleton
import proofs.«139705_j25838523252951_1_alg».proof.Proof.Spec
import proofs.«139705_j25838523252951_1_alg».proof.Proof.LibConcatDot
import proofs.«139705_j25838523252951_1_alg».proof.Proof.LibAccCols

noncomputable section

open scoped BigOperators

namespace Cert.KernelIdeal.Stats

open Idealize.ShloMosaic Idealize.ShloMosaic.ValueIdx Cert.Dense Cert.BiasRow Cert.KernelIdeal Cert.KernelIdeal.Gen

/-- Rounding to a narrower format is the identity on the extended reals. -/
theorem truncf_id {s : Shape} {φ ψ : FTy} (x : FVec Ideal s φ) (h : ψ.bits < φ.bits) :
    truncf (F := Ideal) ψ x h = x := rfl

/-- A slice of `a` whole rows from row `off` on is that slab of rows. -/
theorem slice_eq_slab {c N : ℕ} (W : Mat c N) (off a : ℕ) (hle : off + a ≤ c)
    (hs : (⟨2, ![c, N]⟩ : Shape).Slices ![off, 0] ⟨2, ![a, N]⟩) :
    extractStridedSlice ⟨2, ![a, N]⟩ ![off, 0] W hs = Cert.Mpnn.slab off a hle W := by
  funext i
  obtain ⟨k, q, rfl⟩ : ∃ (k : Fin a) (q : Fin N), i = ix2 k q := ⟨i 0, i 1, eq_ix2 i⟩
  exact Cert.ConcatDot.slab_apply W off a hs k q (by have := k.isLt; omega)

/-- An entry of the first layer depends on its own row of the three left operands only. -/
theorem pre3_at {E E' A B H : ℕ} (XR XC : Mat E A) (EA : Mat E B) (XR' XC' : Mat E' A) (EA' : Mat E' B)
    (Wr Wc : Mat A H) (We : Mat B H) (b : Mat 1 H) (p : Fin E) (p' : Fin E') (q : Fin H)
    (h0 : ∀ k, XR' (ix2 p' k) = XR (ix2 p k)) (h1 : ∀ k, XC' (ix2 p' k) = XC (ix2 p k))
    (h2 : ∀ k, EA' (ix2 p' k) = EA (ix2 p k)) :
    Cert.Mpnn.pre3 XR' XC' EA' Wr Wc We b (ix2 p' q) = Cert.Mpnn.pre3 XR XC EA Wr Wc We b (ix2 p q) := by
  show ((mm XR' Wr (ix2 p' q) + mm XC' Wc (ix2 p' q)) + mm EA' We (ix2 p' q)) + b (ix2 (0 : Fin 1) q)
    = ((mm XR Wr (ix2 p q) + mm XC Wc (ix2 p q)) + mm EA We (ix2 p q)) + b (ix2 (0 : Fin 1) q)
  rw [mm_rows XR XR' Wr p p' h0 q, mm_rows XC XC' Wc p p' h1 q, mm_rows EA EA' We p p' h2 q]

/-- The block of `Y` the body forms from its loads. -/
theorem pay4_eq (w : Mat 144 128) (x0 x1 : Mat 3200 64) (x2 : Mat 3200 16) (b : Mat 1 128) :
    (k0_pay4 (F := Ideal) w x0 x1 x2 b : Mat 3200 128)
      = Cert.Mpnn.pre3 x0 x1 x2 (Cert.Mpnn.slab 0 64 (by omega) w) (Cert.Mpnn.slab 64 64 (by omega) w)
          (Cert.Mpnn.slab 128 16 (by omega) w) b := by
  have e0 : shapeCast S3200x64 x0 shapeCasts_S3200x64_S3200x64 = x0 := shapeCast_self _ _
  have e1 : shapeCast S3200x64 x1 shapeCasts_S3200x64_S3200x64 = x1 := shapeCast_self _ _
  have eb : shapeCast S1x128 b shapeCasts_S1x128_S1x128 = b := shapeCast_self _ _
  have s0 := slice_eq_slab w 0 64 (by omega) slices_S144x128_o0_0_S64x128
  have s1 := slice_eq_slab w 64 64 (by omega) slices_S144x128_o64_0_S64x128
  have s2 := slice_eq_slab w 128 16 (by omega) slices_S144x128_o128_0_S16x128
  have m0 := matmul_zero_eq_mm (φ₁ := .bf16) (φ₂ := .bf16) dot_S3200x64_S64x128_S3200x128_1_0_0_1_n_n rfl rfl rfl rfl rfl rfl
    none x0 (Cert.Mpnn.slab 0 64 (by omega) w)
  have m1 := matmul_zero_eq_mm (φ₁ := .bf16) (φ₂ := .bf16) dot_S3200x64_S64x128_S3200x128_1_0_0_1_n_n rfl rfl rfl rfl rfl rfl
    none x1 (Cert.Mpnn.slab 64 64 (by omega) w)
  have m2 := matmul_zero_eq_mm (φ₁ := .bf16) (φ₂ := .bf16) dot_S3200x16_S16x128_S3200x128_1_0_0_1_n_n rfl rfl rfl rfl rfl rfl
    none x2 (Cert.Mpnn.slab 128 16 (by omega) w)
  show addf (F := Ideal) (φ := .f32) (s := S3200x128)
      (addf (F := Ideal) (φ := .f32) (s := S3200x128)
        (addf (F := Ideal) (φ := .f32) (s := S3200x128)
          (matmul (F := Ideal) (φ₁ := .bf16) (φ₂ := .bf16) dot_S3200x64_S64x128_S3200x128_1_0_0_1_n_n none
            (shapeCast S3200x64 x0 shapeCasts_S3200x64_S3200x64)
            (extractStridedSlice S64x128 ![0, 0] w slices_S144x128_o0_0_S64x128)
            (constant (F := Ideal) S3200x128 .f32 0x00000000#32))
          (matmul (F := Ideal) (φ₁ := .bf16) (φ₂ := .bf16) dot_S3200x64_S64x128_S3200x128_1_0_0_1_n_n none
            (shapeCast S3200x64 x1 shapeCasts_S3200x64_S3200x64)
            (extractStridedSlice S64x128 ![64, 0] w slices_S144x128_o64_0_S64x128)
            (constant (F := Ideal) S3200x128 .f32 0x00000000#32)))
        (matmul (F := Ideal) (φ₁ := .bf16) (φ₂ := .bf16) dot_S3200x16_S16x128_S3200x128_1_0_0_1_n_n none x2
          (extractStridedSlice S16x128 ![128, 0] w slices_S144x128_o128_0_S16x128)
          (constant (F := Ideal) S3200x128 .f32 0x00000000#32)))
      (broadcastTo S3200x128 (shapeCast S1x128 b shapeCasts_S1x128_S1x128) broadcasts_S1x128_S3200x128) = _
  rw [e0, e1, eb, s0, s1, s2, m0, m1, m2, vecAddRow]
  rfl

/-- The zero row the first point stores into the carried sums. -/
theorem pay2_apply (u : Fin 1) (q : Fin 128) : k0_pay2 (F := Ideal) (ix2 u q) = 0 := by
  show Ideal.ofBits .f32 0x00000000#32 = 0
  exact Ideal.ofBits_zero_f32

/-- The zero row the first point stores into the carried sums of squares. -/
theorem pay3_apply (u : Fin 1) (q : Fin 128) : k0_pay3 (F := Ideal) (ix2 u q) = 0 := by
  show Ideal.ofBits .f32 0x00000000#32 = 0
  exact Ideal.ofBits_zero_f32

/-- The carried sums after a point: what they held plus the column sums of the point's block of `Y`, the block's
    row `r` being row `row r` of the whole arrays. -/
theorem pay5_rows {E : ℕ} (w : Mat 144 128) (x0 x1 : Mat 3200 64) (x2 : Mat 3200 16) (b acc : Mat 1 128)
    (W : Mat 144 128) (XR XC : Mat E 64) (EA : Mat E 16) (bb : Mat 1 128) (row : Fin 3200 → Fin E)
    (hw : w = W) (hb : b = bb)
    (h0 : ∀ r k, x0 (ix2 r k) = XR (ix2 (row r) k)) (h1 : ∀ r k, x1 (ix2 r k) = XC (ix2 (row r) k))
    (h2 : ∀ r k, x2 (ix2 r k) = EA (ix2 (row r) k)) (u : Fin 1) (q : Fin 128) :
    k0_pay5 (F := Ideal) w x0 x1 x2 b acc (ix2 u q)
      = acc (ix2 u q) + ∑ r : Fin 3200,
          Cert.Mpnn.pre3 XR XC EA (Cert.Mpnn.slab 0 64 (by omega) W) (Cert.Mpnn.slab 64 64 (by omega) W)
            (Cert.Mpnn.slab 128 16 (by omega) W) bb (ix2 (row r) q) := by
  rw [← hw, ← hb]
  refine (Cert.AccCols.row_plus_colSum acc (k0_pay4 (F := Ideal) w x0 x1 x2 b) shapeCasts_S1x128_S1x128
    reduces_S3200x128_S128 (.inl rfl) rfl shapeCasts_S128_S1x128 u q).trans ?_
  refine congrArg (acc (ix2 u q) + ·) (Finset.sum_congr rfl fun r _ => ?_)
  rw [pay4_eq]
  exact pre3_at XR XC EA x0 x1 x2 _ _ _ b (row r) r q (h0 r) (h1 r) (h2 r)

/-- The carried sums of squares after a point: what they held plus the column sums of the squares of the point's
    block of `Y`. -/
theorem pay1_rows {E : ℕ} (w : Mat 144 128) (x0 x1 : Mat 3200 64) (x2 : Mat 3200 16) (b acc : Mat 1 128)
    (W : Mat 144 128) (XR XC : Mat E 64) (EA : Mat E 16) (bb : Mat 1 128) (row : Fin 3200 → Fin E)
    (hw : w = W) (hb : b = bb)
    (h0 : ∀ r k, x0 (ix2 r k) = XR (ix2 (row r) k)) (h1 : ∀ r k, x1 (ix2 r k) = XC (ix2 (row r) k))
    (h2 : ∀ r k, x2 (ix2 r k) = EA (ix2 (row r) k)) (u : Fin 1) (q : Fin 128) :
    k0_pay1 (F := Ideal) (k0_pay4 (F := Ideal) w x0 x1 x2 b) (k0_pay6 (F := Ideal) acc) (ix2 u q)
      = acc (ix2 u q) + ∑ r : Fin 3200,
          Cert.Mpnn.pre3 XR XC EA (Cert.Mpnn.slab 0 64 (by omega) W) (Cert.Mpnn.slab 64 64 (by omega) W)
              (Cert.Mpnn.slab 128 16 (by omega) W) bb (ix2 (row r) q)
            * Cert.Mpnn.pre3 XR XC EA (Cert.Mpnn.slab 0 64 (by omega) W) (Cert.Mpnn.slab 64 64 (by omega) W)
              (Cert.Mpnn.slab 128 16 (by omega) W) bb (ix2 (row r) q) := by
  rw [← hw, ← hb]
  refine (Cert.AccCols.row_plus_colSum acc
    (mulf (F := Ideal) (φ := .f32) (s := S3200x128) (k0_pay4 (F := Ideal) w x0 x1 x2 b) (k0_pay4 (F := Ideal) w x0 x1 x2 b))
    shapeCasts_S1x128_S1x128 reduces_S3200x128_S128 (.inl rfl) rfl shapeCasts_S128_S1x128 u q).trans ?_
  refine congrArg (acc (ix2 u q) + ·) (Finset.sum_congr rfl fun r _ => ?_)
  show k0_pay4 (F := Ideal) w x0 x1 x2 b (ix2 r q) * k0_pay4 (F := Ideal) w x0 x1 x2 b (ix2 r q) = _
  rw [pay4_eq, pre3_at XR XC EA x0 x1 x2 _ _ _ b (row r) r q (h0 r) (h1 r) (h2 r)]

end Cert.KernelIdeal.Stats

end
-- ==== Proof.Stats0Pieces.lean ====
/-
  The statistics kernel of the edge network: what one run of its body leaves in the two carried rows.

  The body's stores into each carried row cover the whole row, so the row holds the payload of the last store.  At the
  first grid point the body first stores a zero row, loads it back, and stores that row plus the block's column sums
  (for the second carried row: plus the column sums of the squares).  At every later point it loads what the point
  before left and stores that plus the block's sums.  The loads of the inputs read their buffers whole.
-/
import proofs.«139705_j25838523252951_1_alg».proof.Proof.Gen.KernelIdeal.Frame
import Idealize.ShloMosaic.Lib.Pipeline.Value
import Idealize.ShloMosaic.Lib.Tactic
import proofs.«139705_j25838523252951_1_alg».proof.Proof.LibAccCols

noncomputable section

namespace Cert.KernelIdeal.Stats

open Idealize.ShloMosaic Idealize.ShloMosaic.TcCoe Idealize.SL.Sem Cert.KernelIdeal Cert.KernelIdeal.Gen

variable {F : FTy → Type} [FloatOps F]

/-- A later point leaves in the first carried row what it held plus the block's column sums. -/
theorem outB0_5 (c : Dev nD) (i : grid0.Coords) (arg1 : Memref sig .tc .vmem S3200x64 .f32) (harg1 : arg1.IsWhole) (arg2 : Memref sig .tc .vmem S3200x64 .f32) (harg2 : arg2.IsWhole) (arg3 : Memref sig .tc .vmem S3200x16 .f32) (harg3 : arg3.IsWhole) (arg4 : Memref sig .tc .vmem S144x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : ¬cond0_0 i)
    (x0 : Vec F S3200x64 .f32) (x1 : Vec F S3200x64 .f32) (x2 : Vec F S3200x16 .f32) (x3 : Vec F S144x128 .f32) (x4 : Vec F S1x128 .f32) (xo5 : Vec F S1x128 .f32) (xo6 : Vec F S1x128 .f32) :
    out0_B_5 c i arg1 harg1 arg2 harg2 arg3 harg3 arg4 harg4 arg5 harg5 arg6 harg6 arg7 harg7 hc0 x0 x1 x2 x3 x4 xo5 xo6 = k0_pay5 x3 x0 x1 x2 x4 xo5 := by
  unfold out0_B_5
  rw [View.read_writes_eq_canon _ _ _ (cover0_B_5 c i arg1 harg1 arg2 harg2 arg3 harg3 arg4 harg4 arg5 harg5 arg6 harg6 arg7 harg7 hc0 x0 x1 x2 x3 x4 xo5 xo6)]
  unfold kernelRun0_B
  dsimp only
  try sl_unfold_words
  rw [View.canon_unit_zero Cert.AccCols.zero_offsets]
  simp only [View.readAt_eq_ld, harg1.read_unread, harg2.read_unread, harg3.read_unread, harg4.read_unread, harg5.read_unread, harg6.read_unread, harg7.read_unread, View.ld_unit_zero (S := S3200x64) Cert.AccCols.zero_offsets, View.ld_unit_zero (S := S3200x16) Cert.AccCols.zero_offsets, View.ld_unit_zero (S := S144x128) Cert.AccCols.zero_offsets, View.ld_unit_zero (S := S1x128) Cert.AccCols.zero_offsets]

/-- A later point leaves in the second carried row what it held plus the column sums of the block's squares. -/
theorem outB0_6 (c : Dev nD) (i : grid0.Coords) (arg1 : Memref sig .tc .vmem S3200x64 .f32) (harg1 : arg1.IsWhole) (arg2 : Memref sig .tc .vmem S3200x64 .f32) (harg2 : arg2.IsWhole) (arg3 : Memref sig .tc .vmem S3200x16 .f32) (harg3 : arg3.IsWhole) (arg4 : Memref sig .tc .vmem S144x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : ¬cond0_0 i)
    (x0 : Vec F S3200x64 .f32) (x1 : Vec F S3200x64 .f32) (x2 : Vec F S3200x16 .f32) (x3 : Vec F S144x128 .f32) (x4 : Vec F S1x128 .f32) (xo5 : Vec F S1x128 .f32) (xo6 : Vec F S1x128 .f32) :
    out0_B_6 c i arg1 harg1 arg2 harg2 arg3 harg3 arg4 harg4 arg5 harg5 arg6 harg6 arg7 harg7 hc0 x0 x1 x2 x3 x4 xo5 xo6 = k0_pay1 (k0_pay4 x3 x0 x1 x2 x4) (k0_pay6 xo6) := by
  unfold out0_B_6
  rw [View.read_writes_eq_canon _ _ _ (cover0_B_6 c i arg1 harg1 arg2 harg2 arg3 harg3 arg4 harg4 arg5 harg5 arg6 harg6 arg7 harg7 hc0 x0 x1 x2 x3 x4 xo5 xo6)]
  unfold kernelRun0_B
  dsimp only
  try sl_unfold_words
  rw [View.canon_unit_zero Cert.AccCols.zero_offsets]
  simp only [View.readAt_eq_ld, harg1.read_unread, harg2.read_unread, harg3.read_unread, harg4.read_unread, harg5.read_unread, harg6.read_unread, harg7.read_unread, View.ld_unit_zero (S := S3200x64) Cert.AccCols.zero_offsets, View.ld_unit_zero (S := S3200x16) Cert.AccCols.zero_offsets, View.ld_unit_zero (S := S144x128) Cert.AccCols.zero_offsets, View.ld_unit_zero (S := S1x128) Cert.AccCols.zero_offsets]

/-- The first point leaves in the first carried row the zero row plus the block's column sums. -/
theorem outA0_5 (c : Dev nD) (i : grid0.Coords) (arg1 : Memref sig .tc .vmem S3200x64 .f32) (harg1 : arg1.IsWhole) (arg2 : Memref sig .tc .vmem S3200x64 .f32) (harg2 : arg2.IsWhole) (arg3 : Memref sig .tc .vmem S3200x16 .f32) (harg3 : arg3.IsWhole) (arg4 : Memref sig .tc .vmem S144x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : cond0_0 i)
    (x0 : Vec F S3200x64 .f32) (x1 : Vec F S3200x64 .f32) (x2 : Vec F S3200x16 .f32) (x3 : Vec F S144x128 .f32) (x4 : Vec F S1x128 .f32) :
    out0_A_5 c i arg1 harg1 arg2 harg2 arg3 harg3 arg4 harg4 arg5 harg5 arg6 harg6 arg7 harg7 hc0 x0 x1 x2 x3 x4 = k0_pay5 x3 x0 x1 x2 x4 k0_pay2 := by
  unfold out0_A_5
  rw [View.read_writes_eq_canon _ _ _ (cover0_A_5 c i arg1 harg1 arg2 harg2 arg3 harg3 arg4 harg4 arg5 harg5 arg6 harg6 arg7 harg7 hc0 x0 x1 x2 x3 x4)]
  unfold kernelRun0_A
  dsimp only
  try sl_unfold_words
  rw [View.canon_cons_unit_zero (S := S1x128) Cert.AccCols.zero_offsets, View.readCov_unit_zero (S := S1x128) _ Cert.AccCols.zero_offsets]
  simp only [View.readAt_eq_ld, harg1.read_unread, harg2.read_unread, harg3.read_unread, harg4.read_unread, harg5.read_unread, harg6.read_unread, harg7.read_unread, View.ld_unit_zero (S := S3200x64) Cert.AccCols.zero_offsets, View.ld_unit_zero (S := S3200x16) Cert.AccCols.zero_offsets, View.ld_unit_zero (S := S144x128) Cert.AccCols.zero_offsets, View.ld_unit_zero (S := S1x128) Cert.AccCols.zero_offsets]

/-- The first point leaves in the second carried row the zero row plus the column sums of the block's squares. -/
theorem outA0_6 (c : Dev nD) (i : grid0.Coords) (arg1 : Memref sig .tc .vmem S3200x64 .f32) (harg1 : arg1.IsWhole) (arg2 : Memref sig .tc .vmem S3200x64 .f32) (harg2 : arg2.IsWhole) (arg3 : Memref sig .tc .vmem S3200x16 .f32) (harg3 : arg3.IsWhole) (arg4 : Memref sig .tc .vmem S144x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : cond0_0 i)
    (x0 : Vec F S3200x64 .f32) (x1 : Vec F S3200x64 .f32) (x2 : Vec F S3200x16 .f32) (x3 : Vec F S144x128 .f32) (x4 : Vec F S1x128 .f32) :
    out0_A_6 c i arg1 harg1 arg2 harg2 arg3 harg3 arg4 harg4 arg5 harg5 arg6 harg6 arg7 harg7 hc0 x0 x1 x2 x3 x4 = k0_pay1 (k0_pay4 x3 x0 x1 x2 x4) (k0_pay6 k0_pay3) := by
  unfold out0_A_6
  rw [View.read_writes_eq_canon _ _ _ (cover0_A_6 c i arg1 harg1 arg2 harg2 arg3 harg3 arg4 harg4 arg5 harg5 arg6 harg6 arg7 harg7 hc0 x0 x1 x2 x3 x4)]
  unfold kernelRun0_A
  dsimp only
  try sl_unfold_words
  rw [View.canon_cons_unit_zero (S := S1x128) Cert.AccCols.zero_offsets, View.readCov_unit_zero (S := S1x128) _ Cert.AccCols.zero_offsets]
  simp only [View.readAt_eq_ld, harg1.read_unread, harg2.read_unread, harg3.read_unread, harg4.read_unread, harg5.read_unread, harg6.read_unread, harg7.read_unread, View.ld_unit_zero (S := S3200x64) Cert.AccCols.zero_offsets, View.ld_unit_zero (S := S3200x16) Cert.AccCols.zero_offsets, View.ld_unit_zero (S := S144x128) Cert.AccCols.zero_offsets, View.ld_unit_zero (S := S1x128) Cert.AccCols.zero_offsets]

end Cert.KernelIdeal.Stats

end
-- ==== Proof.Stats0Blocks.lean ====
/-
  The statistics kernel of the edge network: its windows' blocks as parts of the arrays the region finds.

  The grid has one axis of 250 points.  At point `t` the row windows hold rows `3200·t … 3200·t + 3199` of their
  arrays (block index `(t, 0)`: an element `(r, k)` of the block is element `(3200·t + r, k)` of the array), and the
  weight and bias windows hold their whole arrays (block index `(0, 0)`, the block as large as the array).  The two
  output windows' block is their whole array at every point.
-/
import proofs.«139705_j25838523252951_1_alg».proof.Proof.Gen.KernelIdeal.Frame
import Idealize.ShloMosaic.Lib.Pipeline.Value
import Idealize.ShloMosaic.Lib.ValueIdx

noncomputable section

namespace Cert.KernelIdeal.Stats

open Idealize.ShloMosaic Idealize.ShloMosaic.TcCoe Idealize.ShloMosaic.ValueIdx Idealize.SL.Sem Cert.KernelIdeal
  Cert.KernelIdeal.Gen

variable {F : FTy → Type} [FloatOps F]
variable (V : (c : Dev nD) → (b : Ref sig .tc) → Buf (Elt F) ((c : Thread nD τ).loc b))

/-- The row windows' block index at point `t` is `(t, 0)`. -/
theorem idx_rows0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0)

/-- The whole-array windows' blocks start at offset zero on both axes, at every point. -/
theorem off_whole0 : ∀ t : Fin cfg0.N, ∀ a : Fin 2,
    win0_3.index t a * main_arg3.ty.shape.size a = 0 ∧ win0_4.index t a * main_v18.ty.shape.size a = 0 ∧ win0_5.index t a * main_v23_0.ty.shape.size a = 0 ∧ win0_6.index t a * main_v23_1.ty.shape.size a = 0 :=
  (by decide +kernel : ∀ t : Fin grid0.N, ∀ a : Fin 2,
    win0_3.index t a * main_arg3.ty.shape.size a = 0 ∧ win0_4.index t a * main_v18.ty.shape.size a = 0 ∧ win0_5.index t a * main_v23_0.ty.shape.size a = 0 ∧ win0_6.index t a * main_v23_1.ty.shape.size a = 0)

/-- Element `(r, k)` of row window 0's block at point `t` is element `(3200·t + r, k)` of its array. -/
theorem blk0_0_apply (c : Dev nD) (t : Fin cfg0.N) (r : Fin 3200) (k : Fin 64) (p : Fin 800000)
    (hp : p.val = 3200 * t.val + r.val) :
    (iblk0 V c 0 t : Vec F S3200x64 .f32) (ix2 r k) = (V c (Pipeline.arrRef spec0 0) : Vec F S800000x64 .f32) (ix2 p k) := by
  obtain ⟨e0, e1, -, -, -, -⟩ := idx_rows0 t
  unfold iblk0
  rw [View.read_apply]
  show V c (Pipeline.arrRef spec0 0) _ = V c (Pipeline.arrRef spec0 0) _
  congr 1
  funext a
  apply Fin.ext
  match a with
  | ⟨0, _⟩ => show win0_0.index t (0 : Fin 2) * 3200 + 1 * r.val = p.val; rw [e0, hp]; omega
  | ⟨1, _⟩ => show win0_0.index t (1 : Fin 2) * 64 + 1 * k.val = k.val; rw [e1]; omega

/-- Element `(r, k)` of row window 1's block at point `t` is element `(3200·t + r, k)` of its array. -/
theorem blk0_1_apply (c : Dev nD) (t : Fin cfg0.N) (r : Fin 3200) (k : Fin 64) (p : Fin 800000)
    (hp : p.val = 3200 * t.val + r.val) :
    (iblk0 V c 1 t : Vec F S3200x64 .f32) (ix2 r k) = (V c (Pipeline.arrRef spec0 1) : Vec F S800000x64 .f32) (ix2 p k) := by
  obtain ⟨-, -, e0, e1, -, -⟩ := idx_rows0 t
  unfold iblk0
  rw [View.read_apply]
  show V c (Pipeline.arrRef spec0 1) _ = V c (Pipeline.arrRef spec0 1) _
  congr 1
  funext a
  apply Fin.ext
  match a with
  | ⟨0, _⟩ => show win0_1.index t (0 : Fin 2) * 3200 + 1 * r.val = p.val; rw [e0, hp]; omega
  | ⟨1, _⟩ => show win0_1.index t (1 : Fin 2) * 64 + 1 * k.val = k.val; rw [e1]; omega

/-- Element `(r, k)` of row window 2's block at point `t` is element `(3200·t + r, k)` of its array. -/
theorem blk0_2_apply (c : Dev nD) (t : Fin cfg0.N) (r : Fin 3200) (k : Fin 16) (p : Fin 800000)
    (hp : p.val = 3200 * t.val + r.val) :
    (iblk0 V c 2 t : Vec F S3200x16 .f32) (ix2 r k) = (V c (Pipeline.arrRef spec0 2) : Vec F S800000x16 .f32) (ix2 p k) := by
  obtain ⟨-, -, -, -, e0, e1⟩ := idx_rows0 t
  unfold iblk0
  rw [View.read_apply]
  show V c (Pipeline.arrRef spec0 2) _ = V c (Pipeline.arrRef spec0 2) _
  congr 1
  funext a
  apply Fin.ext
  match a with
  | ⟨0, _⟩ => show win0_2.index t (0 : Fin 2) * 3200 + 1 * r.val = p.val; rw [e0, hp]; omega
  | ⟨1, _⟩ => show win0_2.index t (1 : Fin 2) * 16 + 1 * k.val = k.val; rw [e1]; omega

/-- Window 3's block is its whole array, at every point. -/
theorem blk0_3_eq (c : Dev nD) (t : Fin cfg0.N) :
    (iblk0 V c 3 t : Vec F S144x128 .f32) = (V c (Pipeline.arrRef spec0 3) : Vec F S144x128 .f32) := by
  have hz' : (fun a => win0_3.index t a * main_arg3.ty.shape.size a) = fun _ => 0 := funext fun a => (off_whole0 t a).1
  exact Memref.read_access_unit_zero (Elt F) main_arg3 hz' (fun a => by rw [congrFun hz' a]; simp) (V c (Pipeline.arrRef spec0 3))

/-- Window 4's block is its whole array, at every point. -/
theorem blk0_4_eq (c : Dev nD) (t : Fin cfg0.N) :
    (iblk0 V c 4 t : Vec F S1x128 .f32) = (V c (Pipeline.arrRef spec0 4) : Vec F S1x128 .f32) := by
  have hz' : (fun a => win0_4.index t a * main_v18.ty.shape.size a) = fun _ => 0 := funext fun a => (off_whole0 t a).2.1
  exact Memref.read_access_unit_zero (Elt F) main_v18 hz' (fun a => by rw [congrFun hz' a]; simp) (V c (Pipeline.arrRef spec0 4))

/-- Read through output window 5's block, at any point, a whole array is itself. -/
theorem read_blk0_5 (t : Fin cfg0.N) (G : Vec F S1x128 .f32) :
    ((cfg0.win 5).blk t).view.read (Elt F) G = G := by
  have hz' : (fun a => win0_5.index t a * main_v23_0.ty.shape.size a) = fun _ => 0 := funext fun a => (off_whole0 t a).2.2.1
  exact Memref.read_access_unit_zero (Elt F) main_v23_0 hz' (fun a => by rw [congrFun hz' a]; simp) G

/-- Every index of output window 5's array lies in the window's block, at any point. -/
theorem mem_blk0_5 (t : Fin cfg0.N) (i : S1x128.Idx) : i ∈ ((cfg0.win 5).blk t).view.set := by
  show i ∈ ((View.whole main_v23_0).slice (win0_5.rect t)).set
  rw [View.set_slice_whole, Rect.mem_set_unit]
  intro a
  have h0 : (i 0 : Nat) < 1 := (i 0).isLt
  have h1 : (i 1 : Nat) < 128 := (i 1).isLt
  have z0 : win0_5.index t (0 : Fin 2) * 1 = 0 := (off_whole0 t 0).2.2.1
  have z1 : win0_5.index t (1 : Fin 2) * 128 = 0 := (off_whole0 t 1).2.2.1
  match a with
  | ⟨0, _⟩ =>
    show win0_5.index t (0 : Fin 2) * 1 ≤ (i 0 : Nat) ∧ (i 0 : Nat) < win0_5.index t (0 : Fin 2) * 1 + 1
    omega
  | ⟨1, _⟩ =>
    show win0_5.index t (1 : Fin 2) * 128 ≤ (i 1 : Nat) ∧ (i 1 : Nat) < win0_5.index t (1 : Fin 2) * 128 + 128
    omega

/-- Read through output window 6's block, at any point, a whole array is itself. -/
theorem read_blk0_6 (t : Fin cfg0.N) (G : Vec F S1x128 .f32) :
    ((cfg0.win 6).blk t).view.read (Elt F) G = G := by
  have hz' : (fun a => win0_6.index t a * main_v23_1.ty.shape.size a) = fun _ => 0 := funext fun a => (off_whole0 t a).2.2.2
  exact Memref.read_access_unit_zero (Elt F) main_v23_1 hz' (fun a => by rw [congrFun hz' a]; simp) G

/-- Every index of output window 6's array lies in the window's block, at any point. -/
theorem mem_blk0_6 (t : Fin cfg0.N) (i : S1x128.Idx) : i ∈ ((cfg0.win 6).blk t).view.set := by
  show i ∈ ((View.whole main_v23_1).slice (win0_6.rect t)).set
  rw [View.set_slice_whole, Rect.mem_set_unit]
  intro a
  have h0 : (i 0 : Nat) < 1 := (i 0).isLt
  have h1 : (i 1 : Nat) < 128 := (i 1).isLt
  have z0 : win0_6.index t (0 : Fin 2) * 1 = 0 := (off_whole0 t 0).2.2.2
  have z1 : win0_6.index t (1 : Fin 2) * 128 = 0 := (off_whole0 t 1).2.2.2
  match a with
  | ⟨0, _⟩ =>
    show win0_6.index t (0 : Fin 2) * 1 ≤ (i 0 : Nat) ∧ (i 0 : Nat) < win0_6.index t (0 : Fin 2) * 1 + 1
    omega
  | ⟨1, _⟩ =>
    show win0_6.index t (1 : Fin 2) * 128 ≤ (i 1 : Nat) ∧ (i 1 : Nat) < win0_6.index t (1 : Fin 2) * 128 + 128
    omega

end Cert.KernelIdeal.Stats

end
-- ==== Proof.Stats0.lean ====
/-
  The statistics kernel of the edge network: its two result arrays as whole-array functions of the arrays the region
  finds.

  With `Y0` the first layer of the edge network before the normalisation, over all 800000 edges, the kernel's first result is the row of column sums of
  `Y0` and its second the row of column sums of the squares.  The grid's 250 points each take a block of 3200 consecutive
  rows; the two results are carried in their buffers from point to point — the first point starts them at zero plus its
  block's sums, every later point adds its block's sums — and are written back after the last point.  A row of a
  block's `Y0` is the same row of the whole `Y0`, and the 250 blocks' sums add up to the sum over all rows; only the
  commutativity and associativity of addition are used.
-/
import proofs.«139705_j25838523252951_1_alg».proof.Proof.Stats0Pre
import proofs.«139705_j25838523252951_1_alg».proof.Proof.Stats0Pieces
import proofs.«139705_j25838523252951_1_alg».proof.Proof.Stats0Blocks

noncomputable section

open scoped BigOperators

namespace Cert.KernelIdeal.Stats

open Idealize.ShloMosaic Idealize.ShloMosaic.TcCoe Idealize.ShloMosaic.ValueIdx Idealize.SL.Sem Cert.Dense Cert.KernelIdeal
  Cert.KernelIdeal.Gen
open Idealize.ShloMosaic.Pipeline (Dat)

variable (V : (c : Dev nD) → (b : Ref sig .tc) → Buf (Elt Ideal) ((c : Thread nD τ).loc b))

/-- The first layer of the edge network before the normalisation, over the arrays the region finds. -/
def Y0 (c : Dev nD) : Mat 800000 128 :=
  Cert.Mpnn.pre3 (V c (Pipeline.arrRef spec0 0) : S800000x64.Idx → EReal) (V c (Pipeline.arrRef spec0 1) : S800000x64.Idx → EReal)
    (V c (Pipeline.arrRef spec0 2) : S800000x16.Idx → EReal)
    (Cert.Mpnn.slab 0 64 (by omega) (V c (Pipeline.arrRef spec0 3) : S144x128.Idx → EReal))
    (Cert.Mpnn.slab 64 64 (by omega) (V c (Pipeline.arrRef spec0 3) : S144x128.Idx → EReal))
    (Cert.Mpnn.slab 128 16 (by omega) (V c (Pipeline.arrRef spec0 3) : S144x128.Idx → EReal))
    (V c (Pipeline.arrRef spec0 4) : S1x128.Idx → EReal)

/-- Row `r` of the block of point `n`, as a row of the whole arrays. -/
def rowOf0 (n : ℕ) (h : n < cfg0.N) (r : Fin 3200) : Fin 800000 :=
  ⟨3200 * n + r.val, by have hN : cfg0.N = 250 := N_0; have := r.isLt; omega⟩

/-- The first point leaves in carried row 1 zero plus its block's share. -/
theorem first0_5 (c : Dev nD) (t : Fin cfg0.N) (h0 : t.val % 250 = 0) (u : Fin 1) (q : Fin 128) :
    (outsAt0 V c t.val t.isLt).1 (ix2 u q) = 0 + ∑ r : Fin 3200, Y0 V c (ix2 (rowOf0 t.val t.isLt r) q) := by
  refine (congrFun (congrArg Prod.fst (outsAt0_A V c t h0)) (ix2 u q)).trans ?_
  refine (congrFun (outA0_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (iblk0 V c 0 t) (iblk0 V c 1 t) (iblk0 V c 2 t) (iblk0 V c 3 t) (iblk0 V c 4 t)) (ix2 u q)).trans ?_
  refine (pay5_rows (E := 800000) (iblk0 V c 3 t) (iblk0 V c 0 t) (iblk0 V c 1 t) (iblk0 V c 2 t) (iblk0 V c 4 t) (k0_pay2 (F := Ideal))
    (V c (Pipeline.arrRef spec0 3)) (V c (Pipeline.arrRef spec0 0)) (V c (Pipeline.arrRef spec0 1)) (V c (Pipeline.arrRef spec0 2))
    (V c (Pipeline.arrRef spec0 4)) (rowOf0 t.val t.isLt) (blk0_3_eq V c t) (blk0_4_eq V c t)
    (fun r k => blk0_0_apply V c t r k (rowOf0 t.val t.isLt r) rfl)
    (fun r k => blk0_1_apply V c t r k (rowOf0 t.val t.isLt r) rfl)
    (fun r k => blk0_2_apply V c t r k (rowOf0 t.val t.isLt r) rfl) u q).trans ?_
  rw [pay2_apply]
  rfl

/-- A later point leaves in carried row 1 what the point before left plus its block's share. -/
theorem step0_5 (c : Dev nD) (t : Fin cfg0.N) (h0 : ¬t.val % 250 = 0) (u : Fin 1) (q : Fin 128) :
    (outsAt0 V c t.val t.isLt).1 (ix2 u q)
      = (outsAt0 V c (t.val - 1) (Nat.lt_of_le_of_lt (Nat.sub_le _ _) t.isLt)).1 (ix2 u q) + ∑ r : Fin 3200, Y0 V c (ix2 (rowOf0 t.val t.isLt r) q) := by
  refine (congrFun (congrArg Prod.fst (outsAt0_B V c t h0)) (ix2 u q)).trans ?_
  refine (congrFun (outB0_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) (iblk0 V c 0 t) (iblk0 V c 1 t) (iblk0 V c 2 t) (iblk0 V c 3 t) (iblk0 V c 4 t)
    (outsAt0 V c (t.val - 1) (Nat.lt_of_le_of_lt (Nat.sub_le _ _) t.isLt)).1 (outsAt0 V c (t.val - 1) (Nat.lt_of_le_of_lt (Nat.sub_le _ _) t.isLt)).2) (ix2 u q)).trans ?_
  exact pay5_rows (E := 800000) (iblk0 V c 3 t) (iblk0 V c 0 t) (iblk0 V c 1 t) (iblk0 V c 2 t) (iblk0 V c 4 t) (outsAt0 V c (t.val - 1) (Nat.lt_of_le_of_lt (Nat.sub_le _ _) t.isLt)).1
    (V c (Pipeline.arrRef spec0 3)) (V c (Pipeline.arrRef spec0 0)) (V c (Pipeline.arrRef spec0 1)) (V c (Pipeline.arrRef spec0 2))
    (V c (Pipeline.arrRef spec0 4)) (rowOf0 t.val t.isLt) (blk0_3_eq V c t) (blk0_4_eq V c t)
    (fun r k => blk0_0_apply V c t r k (rowOf0 t.val t.isLt r) rfl)
    (fun r k => blk0_1_apply V c t r k (rowOf0 t.val t.isLt r) rfl)
    (fun r k => blk0_2_apply V c t r k (rowOf0 t.val t.isLt r) rfl) u q

/-- After the last point carried row 1 holds the column sums of `Y0` over all rows. -/
theorem total0_5 (c : Dev nD) (n : ℕ) (h : n < cfg0.N) (hlast : n + 1 = cfg0.N) (u : Fin 1) (q : Fin 128) :
    (outsAt0 V c n h).1 (ix2 u q) = ∑ p : Fin 800000, Y0 V c (ix2 p q) := by
  have hN : cfg0.N = 250 := N_0
  exact Cert.AccCols.carried_total (A := cfg0.N) (B := 3200) (N := 800000) (by omega) (fun p => Y0 V c (ix2 p q))
    rowOf0 (fun _ _ _ => rfl) (fun n h => (outsAt0 V c n h).1 (ix2 u q))
    (fun h => first0_5 V c ⟨0, h⟩ (Nat.zero_mod _) u q)
    (fun n h => step0_5 V c ⟨n + 1, h⟩
      (by have h' : n + 1 < 250 := lt_of_lt_of_eq h hN; show ¬(n + 1) % 250 = 0; omega) u q)
    n h hlast

/-- The one write-back of result 1, after the last point, writes the column sums of `Y0`. -/
theorem flushed0_5 (c : Dev nD) (t : Fin cfg0.N) (hf : (cfg0.win 5).flush t = true) :
    (dat0 V c).flushed 5 t = ((cfg0.win 5).blk t).view.read (Elt Ideal) (Cert.Mpnn.sumCols (Y0 V c)) := by
  have hN : cfg0.N = 250 := N_0
  have hmod : t.val % 250 = 249 := (flush0_5 t).mp hf
  have hlast : t.val + 1 = cfg0.N := by have := t.isLt; omega
  have hval : (outsAt0 V c t.val t.isLt).1 = Cert.Mpnn.sumCols (Y0 V c) := funext fun i => by
    obtain ⟨u, q, rfl⟩ : ∃ (u : Fin 1) (q : Fin 128), i = ix2 u q := ⟨i 0, i 1, eq_ix2 i⟩
    exact total0_5 V c t.val t.isLt hlast u q
  show (cfg0.win 5).cut (grid0.coords t) ((dat0 V c).after 5 t) = _
  rw [after0_5, hval]
  exact (read_blk0_5 (F := Ideal) t (Cert.Mpnn.sumCols (Y0 V c))).symm

/-- The first point leaves in carried row 2 zero plus its block's share. -/
theorem first0_6 (c : Dev nD) (t : Fin cfg0.N) (h0 : t.val % 250 = 0) (u : Fin 1) (q : Fin 128) :
    (outsAt0 V c t.val t.isLt).2 (ix2 u q) = 0 + ∑ r : Fin 3200, Y0 V c (ix2 (rowOf0 t.val t.isLt r) q) * Y0 V c (ix2 (rowOf0 t.val t.isLt r) q) := by
  refine (congrFun (congrArg Prod.snd (outsAt0_A V c t h0)) (ix2 u q)).trans ?_
  refine (congrFun (outA0_6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (iblk0 V c 0 t) (iblk0 V c 1 t) (iblk0 V c 2 t) (iblk0 V c 3 t) (iblk0 V c 4 t)) (ix2 u q)).trans ?_
  refine (pay1_rows (E := 800000) (iblk0 V c 3 t) (iblk0 V c 0 t) (iblk0 V c 1 t) (iblk0 V c 2 t) (iblk0 V c 4 t) (k0_pay3 (F := Ideal))
    (V c (Pipeline.arrRef spec0 3)) (V c (Pipeline.arrRef spec0 0)) (V c (Pipeline.arrRef spec0 1)) (V c (Pipeline.arrRef spec0 2))
    (V c (Pipeline.arrRef spec0 4)) (rowOf0 t.val t.isLt) (blk0_3_eq V c t) (blk0_4_eq V c t)
    (fun r k => blk0_0_apply V c t r k (rowOf0 t.val t.isLt r) rfl)
    (fun r k => blk0_1_apply V c t r k (rowOf0 t.val t.isLt r) rfl)
    (fun r k => blk0_2_apply V c t r k (rowOf0 t.val t.isLt r) rfl) u q).trans ?_
  rw [pay3_apply]
  rfl

/-- A later point leaves in carried row 2 what the point before left plus its block's share. -/
theorem step0_6 (c : Dev nD) (t : Fin cfg0.N) (h0 : ¬t.val % 250 = 0) (u : Fin 1) (q : Fin 128) :
    (outsAt0 V c t.val t.isLt).2 (ix2 u q)
      = (outsAt0 V c (t.val - 1) (Nat.lt_of_le_of_lt (Nat.sub_le _ _) t.isLt)).2 (ix2 u q) + ∑ r : Fin 3200, Y0 V c (ix2 (rowOf0 t.val t.isLt r) q) * Y0 V c (ix2 (rowOf0 t.val t.isLt r) q) := by
  refine (congrFun (congrArg Prod.snd (outsAt0_B V c t h0)) (ix2 u q)).trans ?_
  refine (congrFun (outB0_6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) (iblk0 V c 0 t) (iblk0 V c 1 t) (iblk0 V c 2 t) (iblk0 V c 3 t) (iblk0 V c 4 t)
    (outsAt0 V c (t.val - 1) (Nat.lt_of_le_of_lt (Nat.sub_le _ _) t.isLt)).1 (outsAt0 V c (t.val - 1) (Nat.lt_of_le_of_lt (Nat.sub_le _ _) t.isLt)).2) (ix2 u q)).trans ?_
  exact pay1_rows (E := 800000) (iblk0 V c 3 t) (iblk0 V c 0 t) (iblk0 V c 1 t) (iblk0 V c 2 t) (iblk0 V c 4 t) (outsAt0 V c (t.val - 1) (Nat.lt_of_le_of_lt (Nat.sub_le _ _) t.isLt)).2
    (V c (Pipeline.arrRef spec0 3)) (V c (Pipeline.arrRef spec0 0)) (V c (Pipeline.arrRef spec0 1)) (V c (Pipeline.arrRef spec0 2))
    (V c (Pipeline.arrRef spec0 4)) (rowOf0 t.val t.isLt) (blk0_3_eq V c t) (blk0_4_eq V c t)
    (fun r k => blk0_0_apply V c t r k (rowOf0 t.val t.isLt r) rfl)
    (fun r k => blk0_1_apply V c t r k (rowOf0 t.val t.isLt r) rfl)
    (fun r k => blk0_2_apply V c t r k (rowOf0 t.val t.isLt r) rfl) u q

/-- After the last point carried row 2 holds the column sums of the squares of `Y0` over all rows. -/
theorem total0_6 (c : Dev nD) (n : ℕ) (h : n < cfg0.N) (hlast : n + 1 = cfg0.N) (u : Fin 1) (q : Fin 128) :
    (outsAt0 V c n h).2 (ix2 u q) = ∑ p : Fin 800000, Y0 V c (ix2 p q) * Y0 V c (ix2 p q) := by
  have hN : cfg0.N = 250 := N_0
  exact Cert.AccCols.carried_total (A := cfg0.N) (B := 3200) (N := 800000) (by omega) (fun p => Y0 V c (ix2 p q) * Y0 V c (ix2 p q))
    rowOf0 (fun _ _ _ => rfl) (fun n h => (outsAt0 V c n h).2 (ix2 u q))
    (fun h => first0_6 V c ⟨0, h⟩ (Nat.zero_mod _) u q)
    (fun n h => step0_6 V c ⟨n + 1, h⟩
      (by have h' : n + 1 < 250 := lt_of_lt_of_eq h hN; show ¬(n + 1) % 250 = 0; omega) u q)
    n h hlast

/-- The one write-back of result 2, after the last point, writes the column sums of the squares of `Y0`. -/
theorem flushed0_6 (c : Dev nD) (t : Fin cfg0.N) (hf : (cfg0.win 6).flush t = true) :
    (dat0 V c).flushed 6 t = ((cfg0.win 6).blk t).view.read (Elt Ideal) (Cert.Mpnn.sumSqCols (Y0 V c)) := by
  have hN : cfg0.N = 250 := N_0
  have hmod : t.val % 250 = 249 := (flush0_6 t).mp hf
  have hlast : t.val + 1 = cfg0.N := by have := t.isLt; omega
  have hval : (outsAt0 V c t.val t.isLt).2 = Cert.Mpnn.sumSqCols (Y0 V c) := funext fun i => by
    obtain ⟨u, q, rfl⟩ : ∃ (u : Fin 1) (q : Fin 128), i = ix2 u q := ⟨i 0, i 1, eq_ix2 i⟩
    exact total0_6 V c t.val t.isLt hlast u q
  show (cfg0.win 6).cut (grid0.coords t) ((dat0 V c).after 6 t) = _
  rw [after0_6, hval]
  exact (read_blk0_6 (F := Ideal) t (Cert.Mpnn.sumSqCols (Y0 V c))).symm

/-- The last grid point. -/
def last0 : Fin cfg0.N := ⟨249, by have hN : cfg0.N = 250 := N_0; omega⟩

/-- The first result array after the region: the column sums of `Y0`. -/
theorem sum0 (c : Dev nD) :
    ((dat0 V c).arrAt 5 cfg0.N : S1x128.Idx → EReal) = Cert.Mpnn.sumCols (Y0 V c) :=
  (dat0 V c).arrAt_eq_of_cover 5 (Cert.Mpnn.sumCols (Y0 V c)) (flushed0_5 V c) fun i =>
    ⟨last0, (flush0_5 last0).mpr rfl, mem_blk0_5 last0 i⟩

/-- The second result array after the region: the column sums of the squares of `Y0`. -/
theorem sumsq0 (c : Dev nD) :
    ((dat0 V c).arrAt 6 cfg0.N : S1x128.Idx → EReal) = Cert.Mpnn.sumSqCols (Y0 V c) :=
  (dat0 V c).arrAt_eq_of_cover 6 (Cert.Mpnn.sumSqCols (Y0 V c)) (flushed0_6 V c) fun i =>
    ⟨last0, (flush0_6 last0).mpr rfl, mem_blk0_6 last0 i⟩

end Cert.KernelIdeal.Stats

end
-- ==== Proof.Levels2.lean ====
/-
  The contents of the buffers at the first region's exit and, through the second stretch of host operations, at the second region's entry.
-/
import proofs.«139705_j25838523252951_1_alg».proof.Proof.Levels1
import proofs.«139705_j25838523252951_1_alg».proof.Proof.Stats0

set_option maxRecDepth 16384

noncomputable section

namespace Cert.KernelIdeal.KVal

open Idealize.ShloMosaic Idealize.ShloMosaic.TcCoe Idealize.ShloMosaic.Tactic Idealize.SL.Sem
open Cert.Dense Cert.Mpnn Cert.Mpnn.Glue Cert.KernelIdeal Cert.KernelIdeal.Gen

variable (m : (ℓ : Loc nD τ sig) → Buf (Elt Ideal) ℓ) (ρ : Dev nD → PrngReg) (c : Dev nD)

theorem f2_arg0 : W2 m ρ c (Proc.devRef .tc main_arg0) = arr m c main_arg0 :=
  (W2_of_ne m ρ c main_arg0 (by decide)).trans (f1_arg0 m ρ c)

theorem f2_v1 : W2 m ρ c (Proc.devRef .tc main_v1) = srcRow (arr m c main_arg1) :=
  (W2_of_ne m ρ c main_v1 (by decide)).trans (f1_v1 m ρ c)

theorem f2_v10 : W2 m ρ c (Proc.devRef .tc main_v10) = xr m c :=
  (W2_arr m ρ c 0).trans (((dat0 (V1 m ρ) c).arrAt_in 0 rfl _).trans ((A_eq0 (V1 m ρ) c 0).trans (f1_v10 m ρ c)))

theorem f2_v17 : W2 m ρ c (Proc.devRef .tc main_v17) = xc m c :=
  (W2_arr m ρ c 1).trans (((dat0 (V1 m ρ) c).arrAt_in 1 rfl _).trans ((A_eq0 (V1 m ρ) c 1).trans (f1_v17 m ρ c)))

theorem f2_arg2 : W2 m ρ c (Proc.devRef .tc main_arg2) = arr m c main_arg2 :=
  (W2_arr m ρ c 2).trans (((dat0 (V1 m ρ) c).arrAt_in 2 rfl _).trans ((A_eq0 (V1 m ρ) c 2).trans (f1_arg2 m ρ c)))

theorem f2_arg3 : W2 m ρ c (Proc.devRef .tc main_arg3) = arr m c main_arg3 :=
  (W2_arr m ρ c 3).trans (((dat0 (V1 m ρ) c).arrAt_in 3 rfl _).trans ((A_eq0 (V1 m ρ) c 3).trans (f1_arg3 m ρ c)))

theorem f2_v18 : W2 m ρ c (Proc.devRef .tc main_v18) = brow (arr m c main_arg4) :=
  (W2_arr m ρ c 4).trans (((dat0 (V1 m ρ) c).arrAt_in 4 rfl _).trans ((A_eq0 (V1 m ρ) c 4).trans (f1_v18 m ρ c)))

theorem f2_v23_0 : W2 m ρ c (Proc.devRef .tc main_v23_0) = sumCols (y1 m c) := by
  refine (W2_arr m ρ c 5).trans ?_
  refine (Cert.KernelIdeal.Stats.sum0 (V1 m ρ) c).trans ?_
  unfold Cert.KernelIdeal.Stats.Y0
  rw [v0_0 m ρ c, v0_1 m ρ c, v0_2 m ρ c, v0_3 m ρ c, v0_4 m ρ c]
  rfl

theorem f2_v23_1 : W2 m ρ c (Proc.devRef .tc main_v23_1) = sumSqCols (y1 m c) := by
  refine (W2_arr m ρ c 6).trans ?_
  refine (Cert.KernelIdeal.Stats.sumsq0 (V1 m ρ) c).trans ?_
  unfold Cert.KernelIdeal.Stats.Y0
  rw [v0_0 m ρ c, v0_1 m ρ c, v0_2 m ρ c, v0_3 m ρ c, v0_4 m ρ c]
  rfl

theorem f2_v19 : W2 m ρ c (Proc.devRef .tc main_v19) = brow (arr m c main_arg5) :=
  (W2_of_ne m ρ c main_v19 (by decide)).trans (f1_v19 m ρ c)

theorem f2_v20 : W2 m ρ c (Proc.devRef .tc main_v20) = brow (arr m c main_arg6) :=
  (W2_of_ne m ρ c main_v20 (by decide)).trans (f1_v20 m ρ c)

theorem f2_arg7 : W2 m ρ c (Proc.devRef .tc main_arg7) = arr m c main_arg7 :=
  (W2_of_ne m ρ c main_arg7 (by decide)).trans (f1_arg7 m ρ c)

theorem f2_v21 : W2 m ρ c (Proc.devRef .tc main_v21) = brow (arr m c main_arg8) :=
  (W2_of_ne m ρ c main_v21 (by decide)).trans (f1_v21 m ρ c)

theorem f2_arg9 : W2 m ρ c (Proc.devRef .tc main_arg9) = arr m c main_arg9 :=
  (W2_of_ne m ρ c main_arg9 (by decide)).trans (f1_arg9 m ρ c)

theorem f2_v22 : W2 m ρ c (Proc.devRef .tc main_v22) = brow (arr m c main_arg10) :=
  (W2_of_ne m ρ c main_v22 (by decide)).trans (f1_v22 m ρ c)

theorem f2_arg11 : W2 m ρ c (Proc.devRef .tc main_arg11) = arr m c main_arg11 :=
  (W2_of_ne m ρ c main_arg11 (by decide)).trans (f1_arg11 m ρ c)

theorem f2_arg12 : W2 m ρ c (Proc.devRef .tc main_arg12) = arr m c main_arg12 :=
  (W2_of_ne m ρ c main_arg12 (by decide)).trans (f1_arg12 m ρ c)

theorem f2_arg13 : W2 m ρ c (Proc.devRef .tc main_arg13) = arr m c main_arg13 :=
  (W2_of_ne m ρ c main_arg13 (by decide)).trans (f1_arg13 m ρ c)

theorem f2_arg14 : W2 m ρ c (Proc.devRef .tc main_arg14) = arr m c main_arg14 :=
  (W2_of_ne m ρ c main_arg14 (by decide)).trans (f1_arg14 m ρ c)

theorem f2_arg15 : W2 m ρ c (Proc.devRef .tc main_arg15) = arr m c main_arg15 :=
  (W2_of_ne m ρ c main_arg15 (by decide)).trans (f1_arg15 m ρ c)

theorem f2_arg16 : W2 m ρ c (Proc.devRef .tc main_arg16) = arr m c main_arg16 :=
  (W2_of_ne m ρ c main_arg16 (by decide)).trans (f1_arg16 m ρ c)

theorem f3_arg0 : W3 m ρ c (Proc.devRef .tc main_arg0) = arr m c main_arg0 :=
  (StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (f2_arg0 m ρ c)

theorem f3_v1 : W3 m ρ c (Proc.devRef .tc main_v1) = srcRow (arr m c main_arg1) :=
  (StableHlo.after_of_forall_not_mem (b := Proc.devRef .tc main_v1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (f2_v1 m ρ c)

theorem f3_v10 : W3 m ρ c (Proc.devRef .tc main_v10) = xr m c :=
  (StableHlo.after_of_forall_not_mem (b := Proc.devRef .tc main_v10) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (f2_v10 m ρ c)

theorem f3_v17 : W3 m ρ c (Proc.devRef .tc main_v17) = xc m c :=
  (StableHlo.after_of_forall_not_mem (b := Proc.devRef .tc main_v17) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (f2_v17 m ρ c)

theorem f3_arg2 : W3 m ρ c (Proc.devRef .tc main_arg2) = arr m c main_arg2 :=
  (StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (f2_arg2 m ρ c)

theorem f3_arg3 : W3 m ρ c (Proc.devRef .tc main_arg3) = arr m c main_arg3 :=
  (StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (f2_arg3 m ρ c)

theorem f3_v18 : W3 m ρ c (Proc.devRef .tc main_v18) = brow (arr m c main_arg4) :=
  (StableHlo.after_of_forall_not_mem (b := Proc.devRef .tc main_v18) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (f2_v18 m ρ c)

theorem f3_v25 : W3 m ρ c (Proc.devRef .tc main_v25) = mu1 m c := by
  show StableHlo.after hostOps1 (W2 m ρ c) (Proc.devRef .tc main_v25) = _
  after_results_simp
  rw [f2_v23_0 m ρ c]
  rfl

theorem f3_v29 : W3 m ρ c (Proc.devRef .tc main_v29) = var1 m c := by
  show StableHlo.after hostOps1 (W2 m ρ c) (Proc.devRef .tc main_v29) = _
  after_results_simp
  rw [f2_v23_1 m ρ c, f2_v23_0 m ρ c]
  rfl

theorem f3_v19 : W3 m ρ c (Proc.devRef .tc main_v19) = brow (arr m c main_arg5) :=
  (StableHlo.after_of_forall_not_mem (b := Proc.devRef .tc main_v19) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (f2_v19 m ρ c)

theorem f3_v20 : W3 m ρ c (Proc.devRef .tc main_v20) = brow (arr m c main_arg6) :=
  (StableHlo.after_of_forall_not_mem (b := Proc.devRef .tc main_v20) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (f2_v20 m ρ c)

theorem f3_arg7 : W3 m ρ c (Proc.devRef .tc main_arg7) = arr m c main_arg7 :=
  (StableHlo.after_of_forall_not_mem (b := Proc.devRef .tc main_arg7) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (f2_arg7 m ρ c)

theorem f3_v21 : W3 m ρ c (Proc.devRef .tc main_v21) = brow (arr m c main_arg8) :=
  (StableHlo.after_of_forall_not_mem (b := Proc.devRef .tc main_v21) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (f2_v21 m ρ c)

theorem f3_arg9 : W3 m ρ c (Proc.devRef .tc main_arg9) = arr m c main_arg9 :=
  (StableHlo.after_of_forall_not_mem (b := Proc.devRef .tc main_arg9) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (f2_arg9 m ρ c)

theorem f3_v22 : W3 m ρ c (Proc.devRef .tc main_v22) = brow (arr m c main_arg10) :=
  (StableHlo.after_of_forall_not_mem (b := Proc.devRef .tc main_v22) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (f2_v22 m ρ c)

theorem f3_arg11 : W3 m ρ c (Proc.devRef .tc main_arg11) = arr m c main_arg11 :=
  (StableHlo.after_of_forall_not_mem (b := Proc.devRef .tc main_arg11) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (f2_arg11 m ρ c)

theorem f3_arg12 : W3 m ρ c (Proc.devRef .tc main_arg12) = arr m c main_arg12 :=
  (StableHlo.after_of_forall_not_mem (b := Proc.devRef .tc main_arg12) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (f2_arg12 m ρ c)

theorem f3_arg13 : W3 m ρ c (Proc.devRef .tc main_arg13) = arr m c main_arg13 :=
  (StableHlo.after_of_forall_not_mem (b := Proc.devRef .tc main_arg13) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (f2_arg13 m ρ c)

theorem f3_arg14 : W3 m ρ c (Proc.devRef .tc main_arg14) = arr m c main_arg14 :=
  (StableHlo.after_of_forall_not_mem (b := Proc.devRef .tc main_arg14) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (f2_arg14 m ρ c)

theorem f3_arg15 : W3 m ρ c (Proc.devRef .tc main_arg15) = arr m c main_arg15 :=
  (StableHlo.after_of_forall_not_mem (b := Proc.devRef .tc main_arg15) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (f2_arg15 m ρ c)

theorem f3_arg16 : W3 m ρ c (Proc.devRef .tc main_arg16) = arr m c main_arg16 :=
  (StableHlo.after_of_forall_not_mem (b := Proc.devRef .tc main_arg16) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (f2_arg16 m ρ c)

theorem v1_0 : V3 m ρ c (Pipeline.arrRef spec1 0) = xr m c := f3_v10 m ρ c

theorem v1_1 : V3 m ρ c (Pipeline.arrRef spec1 1) = xc m c := f3_v17 m ρ c

theorem v1_2 : V3 m ρ c (Pipeline.arrRef spec1 2) = arr m c main_arg2 := f3_arg2 m ρ c

theorem v1_3 : V3 m ρ c (Pipeline.arrRef spec1 3) = arr m c main_arg3 := f3_arg3 m ρ c

theorem v1_4 : V3 m ρ c (Pipeline.arrRef spec1 4) = brow (arr m c main_arg4) := f3_v18 m ρ c

theorem v1_5 : V3 m ρ c (Pipeline.arrRef spec1 5) = mu1 m c := f3_v25 m ρ c

theorem v1_6 : V3 m ρ c (Pipeline.arrRef spec1 6) = var1 m c := f3_v29 m ρ c

theorem v1_7 : V3 m ρ c (Pipeline.arrRef spec1 7) = brow (arr m c main_arg5) := f3_v19 m ρ c

theorem v1_8 : V3 m ρ c (Pipeline.arrRef spec1 8) = brow (arr m c main_arg6) := f3_v20 m ρ c

theorem v1_9 : V3 m ρ c (Pipeline.arrRef spec1 9) = arr m c main_arg7 := f3_arg7 m ρ c

theorem v1_10 : V3 m ρ c (Pipeline.arrRef spec1 10) = brow (arr m c main_arg8) := f3_v21 m ρ c

theorem v1_11 : V3 m ρ c (Pipeline.arrRef spec1 11) = arr m c main_arg9 := f3_arg9 m ρ c

theorem v1_12 : V3 m ρ c (Pipeline.arrRef spec1 12) = brow (arr m c main_arg10) := f3_v22 m ρ c

end Cert.KernelIdeal.KVal

end
-- ==== Proof.LibBnBlock.lean ====
/-
  A block of rows through a normalised network of dense layers, on the extended reals, at any extents.

  `normScale Y μ v γ ε` is `((Y − μ)·rsqrt (v + ε))·γ`, the statistics and the scale one-row arrays used on every row;
  the normalised, shifted and rectified array `Cert.Mpnn.bnRelu` is `max (normScale … + β, 0)`.  The vector unit spells
  `normScale` with every one-row operand broadcast along the rows.  A matrix product of operands narrowed to a shorter
  float format is the product of the operands themselves (on the extended reals a change of format is the identity),
  and the rows a unit-stride slice cuts out of a matrix are `Cert.Mpnn.slab`.

  Row locality.  An entry of the first layer (`pre3`, `pre2`) in row `p` depends on row `p` of the row-blocked operands
  and on the whole small operands; an entry of the layers after it (`tailE`, `tailN`) in row `p` depends on row `p` of
  the first layer.  So the network of a block of rows is that block of rows of the network of the whole arrays.
-/
import proofs.«139705_j25838523252951_1_alg».proof.Proof.Spec
import proofs.«139705_j25838523252951_1_alg».proof.Proof.LibConcatDot

noncomputable section

open scoped BigOperators

namespace Cert.BnBlock

open Idealize.ShloMosaic Idealize.ShloMosaic.ValueIdx Cert.Dense Cert.BiasRow Cert.Mpnn

/-- Centre every column by a one-row mean, scale it by the reciprocal root of a one-row variance plus `eps`, and by a
    one-row factor. -/
def normScale {M K : ℕ} (Y : Mat M K) (mu var ga : Mat 1 K) (eps : EReal) : Mat M K :=
  fun i => ((Y i - mu (ix2 (0 : Fin 1) (c1 i))) * Ideal.rsqrt (var (ix2 (0 : Fin 1) (c1 i)) + eps))
    * ga (ix2 (0 : Fin 1) (c1 i))

/-- The normalised, shifted and rectified array is the rectified bias layer over `normScale`. -/
theorem bnRelu_eq {M K : ℕ} (Y : Mat M K) (mu var ga be : Mat 1 K) (eps : EReal) :
    bnRelu Y mu var ga be eps = reluBias (normScale Y mu var ga eps) be := rfl

/-- The vector unit's form of `normScale`: the mean, the reciprocal root of the variance plus a splat constant, and
    the factor, each a row broadcast to every row. -/
theorem vecNormScale {M N : ℕ} (Y : FVec Ideal ⟨2, ![M, N]⟩ .f32) (mu var ga : FVec Ideal ⟨2, ![1, N]⟩ .f32)
    (w : BitVec 32) (h : (⟨2, ![1, N]⟩ : Shape).Broadcasts ⟨2, ![M, N]⟩) :
    mulf (mulf (subf Y (broadcastTo ⟨2, ![M, N]⟩ mu h))
        (broadcastTo ⟨2, ![M, N]⟩ (rsqrt (addf var (broadcast ⟨2, ![1, N]⟩ (Scalar.ofBits (F := Ideal) .f32 w)))) h))
      (broadcastTo ⟨2, ![M, N]⟩ ga h)
      = normScale Y mu var ga (Ideal.ofBits .f32 w) := by
  funext i
  obtain ⟨p, q, rfl⟩ : ∃ (p : Fin M) (q : Fin N), i = ix2 p q := ⟨i 0, i 1, eq_ix2 i⟩
  rw [mulf_apply, mulf_apply, subf_apply, broadcastTo_1b_ab_apply, broadcastTo_1b_ab_apply, broadcastTo_1b_ab_apply]
  rfl

/-- The vector unit's plain matmul into a zero accumulator, of operands narrowed to a shorter format, is the matrix
    product of the operands. -/
theorem matmulT_eq_mm {M K N : ℕ} {ψ : FTy} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (prec : Option ContractPrecision) (l : FVec Ideal ⟨2, ![M, K]⟩ .f32) (r : FVec Ideal ⟨2, ![K, N]⟩ .f32)
    (hlt : ψ.bits < FTy.bits .f32) :
    matmul (F := Ideal) D prec (truncf ψ l hlt) (truncf ψ r hlt) (constant ⟨2, ![M, N]⟩ .f32 0x00000000#32) = mm l r :=
  matmul_zero_eq_mm D h1 h2 h3 h4 h5 h6 prec (truncf ψ l hlt) (truncf ψ r hlt)

/-- The `a` rows from row `off` on that a unit-stride slice cuts out of a matrix are its slab. -/
theorem slice_eq_slab {c N : ℕ} (W : Mat c N) (off a : ℕ)
    (hs : (⟨2, ![c, N]⟩ : Shape).Slices ![off, 0] ⟨2, ![a, N]⟩) (h : off + a ≤ c) :
    extractStridedSlice ⟨2, ![a, N]⟩ ![off, 0] W hs = slab off a h W := by
  funext i
  obtain ⟨k, q, rfl⟩ : ∃ (k : Fin a) (q : Fin N), i = ix2 k q := ⟨i 0, i 1, eq_ix2 i⟩
  exact Cert.ConcatDot.slab_apply W off a hs k q (by have := k.isLt; omega)

theorem relu_apply {M K : ℕ} (X : Mat M K) (i : (⟨2, ![M, K]⟩ : Shape).Idx) : relu X i = max (X i) 0 := rfl

/-- The rectified bias layer over a rectified array is the rectified array with the bias added first. -/
theorem relu_addRow {M K : ℕ} (X : Mat M K) (b : Mat 1 K) : reluBias X b = relu (addRow X b) := rfl

/-! ## Row locality -/

/-- Row `p'` of the first layer of three products depends on rows `p'` of the three row-blocked operands. -/
theorem pre3_rows {E E' A B H : ℕ} (XR XC : Mat E A) (EA : Mat E B) (XR' XC' : Mat E' A) (EA' : Mat E' B)
    (Wr Wc : Mat A H) (We : Mat B H) (b : Mat 1 H) (p : Fin E) (p' : Fin E')
    (hR : ∀ k, XR' (ix2 p' k) = XR (ix2 p k)) (hC : ∀ k, XC' (ix2 p' k) = XC (ix2 p k))
    (hA : ∀ k, EA' (ix2 p' k) = EA (ix2 p k)) (q : Fin H) :
    pre3 XR' XC' EA' Wr Wc We b (ix2 p' q) = pre3 XR XC EA Wr Wc We b (ix2 p q) := by
  show ((mm XR' Wr (ix2 p' q) + mm XC' Wc (ix2 p' q)) + mm EA' We (ix2 p' q)) + b (ix2 (0 : Fin 1) q)
    = ((mm XR Wr (ix2 p q) + mm XC Wc (ix2 p q)) + mm EA We (ix2 p q)) + b (ix2 (0 : Fin 1) q)
  rw [mm_rows XR XR' Wr p p' hR q, mm_rows XC XC' Wc p p' hC q, mm_rows EA EA' We p p' hA q]

/-- Row `p'` of the first layer of two products depends on rows `p'` of the two row-blocked operands. -/
theorem pre2_rows {N N' A B H : ℕ} (X : Mat N A) (G : Mat N B) (X' : Mat N' A) (G' : Mat N' B)
    (Wx : Mat A H) (Wa : Mat B H) (b : Mat 1 H) (p : Fin N) (p' : Fin N')
    (hX : ∀ k, X' (ix2 p' k) = X (ix2 p k)) (hG : ∀ k, G' (ix2 p' k) = G (ix2 p k)) (q : Fin H) :
    pre2 X' G' Wx Wa b (ix2 p' q) = pre2 X G Wx Wa b (ix2 p q) := by
  show (mm X' Wx (ix2 p' q) + mm G' Wa (ix2 p' q)) + b (ix2 (0 : Fin 1) q)
    = (mm X Wx (ix2 p q) + mm G Wa (ix2 p q)) + b (ix2 (0 : Fin 1) q)
  rw [mm_rows X X' Wx p p' hX q, mm_rows G G' Wa p p' hG q]

/-- Row `p'` of the normalised array depends on row `p'` of the array. -/
theorem bnRelu_rows {E E' H : ℕ} (Y : Mat E H) (Y' : Mat E' H) (mu var ga be : Mat 1 H) (eps : EReal)
    (p : Fin E) (p' : Fin E') (hY : ∀ k, Y' (ix2 p' k) = Y (ix2 p k)) (k : Fin H) :
    bnRelu Y' mu var ga be eps (ix2 p' k) = bnRelu Y mu var ga be eps (ix2 p k) := by
  rw [bnRelu_apply, bnRelu_apply, hY k]

/-- Row `p'` of one affine layer over the normalised array depends on row `p'` of the array. -/
theorem tailN_rows {N N' H : ℕ} (Y : Mat N H) (Y' : Mat N' H) (mu var ga be : Mat 1 H) (eps : EReal)
    (W2 : Mat H H) (b2 : Mat 1 H) (p : Fin N) (p' : Fin N') (hY : ∀ k, Y' (ix2 p' k) = Y (ix2 p k)) (q : Fin H) :
    tailN Y' mu var ga be eps W2 b2 (ix2 p' q) = tailN Y mu var ga be eps W2 b2 (ix2 p q) := by
  show addRow (mm (bnRelu Y' mu var ga be eps) W2) b2 (ix2 p' q) = addRow (mm (bnRelu Y mu var ga be eps) W2) b2 (ix2 p q)
  rw [addRow_apply, addRow_apply,
    mm_rows (bnRelu Y mu var ga be eps) (bnRelu Y' mu var ga be eps) W2 p p' (bnRelu_rows Y Y' mu var ga be eps p p' hY) q]

/-- Row `p'` of an affine layer and a rectified affine layer over the normalised array depends on row `p'` of the
    array. -/
theorem tailE_rows {E E' H : ℕ} (Y : Mat E H) (Y' : Mat E' H) (mu var ga be : Mat 1 H) (eps : EReal)
    (W2 : Mat H H) (b2 : Mat 1 H) (Wm : Mat H H) (bm : Mat 1 H) (p : Fin E) (p' : Fin E')
    (hY : ∀ k, Y' (ix2 p' k) = Y (ix2 p k)) (q : Fin H) :
    tailE Y' mu var ga be eps W2 b2 Wm bm (ix2 p' q) = tailE Y mu var ga be eps W2 b2 Wm bm (ix2 p q) := by
  show max (addRow (mm (tailN Y' mu var ga be eps W2 b2) Wm) bm (ix2 p' q)) 0
    = max (addRow (mm (tailN Y mu var ga be eps W2 b2) Wm) bm (ix2 p q)) 0
  rw [addRow_apply, addRow_apply,
    mm_rows (tailN Y mu var ga be eps W2 b2) (tailN Y' mu var ga be eps W2 b2) Wm p p'
      (tailN_rows Y Y' mu var ga be eps W2 b2 p p' hY) q]

end Cert.BnBlock

end
-- ==== Proof.Main1a.lean ====
/-
  The edge network's kernel body, as one function of the blocks it loads.

  The body loads every input block whole, computes, and stores the output block whole.  What it stores is, on the
  extended reals: the three products of the row blocks with the three slabs of the first weight, the one-row bias, the
  normalisation by the given one-row mean and variance, the scale and the shift, the rectification, an affine layer and
  a rectified affine layer — `Cert.Mpnn.tailE` of `Cert.Mpnn.pre3` of the loaded blocks.  The products are the vector
  unit's matmul into a zero accumulator of operands narrowed to a shorter format, the one-row operands are broadcast
  along the rows, the slabs are unit-stride slices.
-/
import proofs.«139705_j25838523252951_1_alg».proof.Proof.Gen.KernelIdeal.Frame
import proofs.«139705_j25838523252951_1_alg».proof.Proof.LibBnBlock
import Idealize.ShloMosaic.Lib.Pipeline.Value

noncomputable section

namespace Cert.KernelIdeal.MainK

open Cert.KernelIdeal Cert.KernelIdeal.Gen Idealize.ShloMosaic Idealize.ShloMosaic.ValueIdx
open Cert.Dense Cert.BiasRow Cert.Mpnn Cert.BnBlock

/-- The zero offsets of a whole-buffer access. -/
theorem hz : (![0, 0] : Fin 2 → Nat) = fun _ => 0 := funext fun a => by fin_cases a <;> rfl

/-- The first payload: the first layer, centred, scaled by the reciprocal root and by the factor. -/
theorem pay2_eq (v0 : FVec Ideal S144x128 .f32) (v7 v10 : FVec Ideal S3200x64 .f32) (v13 : FVec Ideal S3200x16 .f32)
    (v20 v24 v26 v35 : FVec Ideal S1x128 .f32) :
    k1_pay2 (F := Ideal) v0 v7 v10 v13 v20 v24 v26 v35
      = normScale (pre3 v7 v10 v13 (slab (R := 144) (C := 128) 0 64 (by omega) v0)
            (slab (R := 144) (C := 128) 64 64 (by omega) v0) (slab (R := 144) (C := 128) 128 16 (by omega) v0) v20)
          v24 v26 v35 (Ideal.ofBits .f32 0x3727C5AC#32) := by
  unfold k1_pay2
  simp only [shapeCast_self]
  rw [matmulT_eq_mm dot_S3200x64_S64x128_S3200x128_1_0_0_1_n_n rfl rfl rfl rfl rfl rfl none v7 _ _,
    matmulT_eq_mm dot_S3200x64_S64x128_S3200x128_1_0_0_1_n_n rfl rfl rfl rfl rfl rfl none v10 _ _,
    matmulT_eq_mm dot_S3200x16_S16x128_S3200x128_1_0_0_1_n_n rfl rfl rfl rfl rfl rfl none v13 _ _,
    slice_eq_slab v0 0 64 _ (by omega), slice_eq_slab v0 64 64 _ (by omega), slice_eq_slab v0 128 16 _ (by omega),
    vecAddRow _ v20 _, vecNormScale _ v24 v26 v35 0x3727C5AC#32 _]
  rfl

/-- The second payload: the shift and the rectification, an affine layer, a rectified affine layer. -/
theorem pay1_eq (v38 : FVec Ideal S3200x128 .f32) (v39 v49 v57 : FVec Ideal S1x128 .f32)
    (v45 v53 : FVec Ideal S128x128 .f32) :
    k1_pay1 (F := Ideal) v38 v39 v45 v49 v53 v57
      = relu (addRow (mm (addRow (mm (reluBias v38 v39) v45) v49) v53) v57) := by
  unfold k1_pay1
  simp only [shapeCast_self]
  rw [vecReluBias v38 v39 _,
    matmulT_eq_mm dot_S3200x128_S128x128_S3200x128_1_0_0_1_n_n rfl rfl rfl rfl rfl rfl none _ v45 _,
    vecAddRow _ v49 _,
    matmulT_eq_mm dot_S3200x128_S128x128_S3200x128_1_0_0_1_n_n rfl rfl rfl rfl rfl rfl none _ v53 _,
    vecReluBias _ v57 _]
  rfl

/-- What the body leaves in the output block is the network's layers of the blocks it loaded. -/
theorem out_eq (x0 x1 : FVec Ideal S3200x64 .f32) (x2 : FVec Ideal S3200x16 .f32) (x3 : FVec Ideal S144x128 .f32)
    (x4 x5 x6 x7 x8 : FVec Ideal S1x128 .f32) (x9 : FVec Ideal S128x128 .f32) (x10 : FVec Ideal S1x128 .f32)
    (x11 : FVec Ideal S128x128 .f32) (x12 : FVec Ideal S1x128 .f32) :
    out1_13 (F := Ideal) x0 x1 x2 x3 x4 x5 x6 x7 x8 x9 x10 x11 x12
      = tailE (pre3 x0 x1 x2 (slab (R := 144) (C := 128) 0 64 (by omega) x3)
            (slab (R := 144) (C := 128) 64 64 (by omega) x3) (slab (R := 144) (C := 128) 128 16 (by omega) x3) x4)
          x5 x6 x7 x8 (Ideal.ofBits .f32 0x3727C5AC#32) x9 x10 x11 x12 := by
  unfold out1_13
  rw [View.canon_unit_zero hz]
  simp only [View.ld_unit_zero (S := S144x128) hz, View.ld_unit_zero (S := S3200x64) hz,
    View.ld_unit_zero (S := S3200x16) hz, View.ld_unit_zero (S := S1x128) hz, View.ld_unit_zero (S := S128x128) hz]
  rw [pay2_eq, pay1_eq]
  rfl

end Cert.KernelIdeal.MainK

end
-- ==== Proof.Main1b.lean ====
/-
  The edge network's kernel: each window's block at a grid point, read at an index.

  The grid has 250 points.  The three row-blocked inputs and the output move with the point: block `t` is rows
  `3200·t … 3200·t + 3199`, all columns.  Every other window's block is its whole array at every point.  An element of a
  block sits in the array, on each axis, at the block index times the block's extent plus its own coordinate; the block
  indices are the printed index maps, decided once over the grid.
-/
import proofs.«139705_j25838523252951_1_alg».proof.Proof.Gen.KernelIdeal.Frame
import proofs.«139705_j25838523252951_1_alg».proof.Proof.LibDense
import Idealize.ShloMosaic.Lib.Pipeline.Value

noncomputable section

namespace Cert.KernelIdeal.MainK

open Cert.KernelIdeal Cert.KernelIdeal.Gen Idealize.ShloMosaic Idealize.ShloMosaic.ValueIdx
open Idealize.ShloMosaic.TcCoe Idealize.SL.Sem
open Cert.Dense

/-! ## The block indices -/

/-- The row-blocked windows' block index at point `t` is `(t, 0)`. -/
theorem ix1_0 : ∀ t : Fin cfg1.N, win1_0.index t (0 : Fin 2) = t.val ∧ win1_0.index t (1 : Fin 2) = 0 :=
  (by decide +kernel : ∀ t : Fin grid1.N, _)
theorem ix1_1 : ∀ t : Fin cfg1.N, win1_1.index t (0 : Fin 2) = t.val ∧ win1_1.index t (1 : Fin 2) = 0 :=
  (by decide +kernel : ∀ t : Fin grid1.N, _)
theorem ix1_2 : ∀ t : Fin cfg1.N, win1_2.index t (0 : Fin 2) = t.val ∧ win1_2.index t (1 : Fin 2) = 0 :=
  (by decide +kernel : ∀ t : Fin grid1.N, _)
theorem ix1_13 : ∀ t : Fin cfg1.N, win1_13.index t (0 : Fin 2) = t.val ∧ win1_13.index t (1 : Fin 2) = 0 :=
  (by decide +kernel : ∀ t : Fin grid1.N, _)
/-- The other windows' block index is `(0, 0)` at every point. -/
theorem ix1_3 : ∀ t : Fin cfg1.N, win1_3.index t (0 : Fin 2) = 0 ∧ win1_3.index t (1 : Fin 2) = 0 :=
  (by decide +kernel : ∀ t : Fin grid1.N, _)
theorem ix1_4 : ∀ t : Fin cfg1.N, win1_4.index t (0 : Fin 2) = 0 ∧ win1_4.index t (1 : Fin 2) = 0 :=
  (by decide +kernel : ∀ t : Fin grid1.N, _)
theorem ix1_5 : ∀ t : Fin cfg1.N, win1_5.index t (0 : Fin 2) = 0 ∧ win1_5.index t (1 : Fin 2) = 0 :=
  (by decide +kernel : ∀ t : Fin grid1.N, _)
theorem ix1_6 : ∀ t : Fin cfg1.N, win1_6.index t (0 : Fin 2) = 0 ∧ win1_6.index t (1 : Fin 2) = 0 :=
  (by decide +kernel : ∀ t : Fin grid1.N, _)
theorem ix1_7 : ∀ t : Fin cfg1.N, win1_7.index t (0 : Fin 2) = 0 ∧ win1_7.index t (1 : Fin 2) = 0 :=
  (by decide +kernel : ∀ t : Fin grid1.N, _)
theorem ix1_8 : ∀ t : Fin cfg1.N, win1_8.index t (0 : Fin 2) = 0 ∧ win1_8.index t (1 : Fin 2) = 0 :=
  (by decide +kernel : ∀ t : Fin grid1.N, _)
theorem ix1_9 : ∀ t : Fin cfg1.N, win1_9.index t (0 : Fin 2) = 0 ∧ win1_9.index t (1 : Fin 2) = 0 :=
  (by decide +kernel : ∀ t : Fin grid1.N, _)
theorem ix1_10 : ∀ t : Fin cfg1.N, win1_10.index t (0 : Fin 2) = 0 ∧ win1_10.index t (1 : Fin 2) = 0 :=
  (by decide +kernel : ∀ t : Fin grid1.N, _)
theorem ix1_11 : ∀ t : Fin cfg1.N, win1_11.index t (0 : Fin 2) = 0 ∧ win1_11.index t (1 : Fin 2) = 0 :=
  (by decide +kernel : ∀ t : Fin grid1.N, _)
theorem ix1_12 : ∀ t : Fin cfg1.N, win1_12.index t (0 : Fin 2) = 0 ∧ win1_12.index t (1 : Fin 2) = 0 :=
  (by decide +kernel : ∀ t : Fin grid1.N, _)

variable (V : (c : Dev nD) → (b : Ref sig .tc) → Buf (Elt Ideal) ((c : Thread nD τ).loc b))

/-! ## The row-blocked inputs -/

/-- Window 0's block at point `t` is rows `3200·t … 3200·t + 3199` of its array. -/
theorem blk0_apply (c : Dev nD) (t : Fin cfg1.N) (r : Fin 3200) (k : Fin 64) (hr : 3200 * t.val + r.val < 800000) :
    (iblk1 V c 0 t : S3200x64.Idx → EReal) (ix2 r k)
      = (V c (Pipeline.arrRef spec1 0) : S800000x64.Idx → EReal) (ix2 ⟨3200 * t.val + r.val, hr⟩ k) := by
  obtain ⟨e0, e1⟩ := ix1_0 t
  unfold iblk1
  rw [View.read_apply]
  show (V c (Pipeline.arrRef spec1 0) : S800000x64.Idx → EReal) _ = _
  refine congrArg (V c (Pipeline.arrRef spec1 0) : S800000x64.Idx → EReal) (funext fun a => Fin.ext ?_)
  match a with
  | ⟨0, _⟩ => show win1_0.index t (0 : Fin 2) * 3200 + 1 * r.val = 3200 * t.val + r.val; rw [e0]; omega
  | ⟨1, _⟩ => show win1_0.index t (1 : Fin 2) * 64 + 1 * k.val = k.val; rw [e1]; omega

/-- Window 1's block at point `t` is rows `3200·t … 3200·t + 3199` of its array. -/
theorem blk1_apply (c : Dev nD) (t : Fin cfg1.N) (r : Fin 3200) (k : Fin 64) (hr : 3200 * t.val + r.val < 800000) :
    (iblk1 V c 1 t : S3200x64.Idx → EReal) (ix2 r k)
      = (V c (Pipeline.arrRef spec1 1) : S800000x64.Idx → EReal) (ix2 ⟨3200 * t.val + r.val, hr⟩ k) := by
  obtain ⟨e0, e1⟩ := ix1_1 t
  unfold iblk1
  rw [View.read_apply]
  show (V c (Pipeline.arrRef spec1 1) : S800000x64.Idx → EReal) _ = _
  refine congrArg (V c (Pipeline.arrRef spec1 1) : S800000x64.Idx → EReal) (funext fun a => Fin.ext ?_)
  match a with
  | ⟨0, _⟩ => show win1_1.index t (0 : Fin 2) * 3200 + 1 * r.val = 3200 * t.val + r.val; rw [e0]; omega
  | ⟨1, _⟩ => show win1_1.index t (1 : Fin 2) * 64 + 1 * k.val = k.val; rw [e1]; omega

/-- Window 2's block at point `t` is rows `3200·t … 3200·t + 3199` of its array. -/
theorem blk2_apply (c : Dev nD) (t : Fin cfg1.N) (r : Fin 3200) (k : Fin 16) (hr : 3200 * t.val + r.val < 800000) :
    (iblk1 V c 2 t : S3200x16.Idx → EReal) (ix2 r k)
      = (V c (Pipeline.arrRef spec1 2) : S800000x16.Idx → EReal) (ix2 ⟨3200 * t.val + r.val, hr⟩ k) := by
  obtain ⟨e0, e1⟩ := ix1_2 t
  unfold iblk1
  rw [View.read_apply]
  show (V c (Pipeline.arrRef spec1 2) : S800000x16.Idx → EReal) _ = _
  refine congrArg (V c (Pipeline.arrRef spec1 2) : S800000x16.Idx → EReal) (funext fun a => Fin.ext ?_)
  match a with
  | ⟨0, _⟩ => show win1_2.index t (0 : Fin 2) * 3200 + 1 * r.val = 3200 * t.val + r.val; rw [e0]; omega
  | ⟨1, _⟩ => show win1_2.index t (1 : Fin 2) * 16 + 1 * k.val = k.val; rw [e1]; omega

/-! ## The whole-array inputs -/

/-- Window 3's block is its whole array at every point. -/
theorem blk3_eq (c : Dev nD) (t : Fin cfg1.N) :
    (iblk1 V c 3 t : S144x128.Idx → EReal) = (V c (Pipeline.arrRef spec1 3) : S144x128.Idx → EReal) := by
  obtain ⟨e0, e1⟩ := ix1_3 t
  funext x
  unfold iblk1
  rw [View.read_apply]
  show (V c (Pipeline.arrRef spec1 3) : S144x128.Idx → EReal) _ = _
  refine congrArg (V c (Pipeline.arrRef spec1 3) : S144x128.Idx → EReal) (funext fun a => Fin.ext ?_)
  match a with
  | ⟨0, _⟩ => show win1_3.index t (0 : Fin 2) * 144 + 1 * (x 0).val = (x 0).val; rw [e0]; omega
  | ⟨1, _⟩ => show win1_3.index t (1 : Fin 2) * 128 + 1 * (x 1).val = (x 1).val; rw [e1]; omega

/-- Window 4's block is its whole array at every point. -/
theorem blk4_eq (c : Dev nD) (t : Fin cfg1.N) :
    (iblk1 V c 4 t : S1x128.Idx → EReal) = (V c (Pipeline.arrRef spec1 4) : S1x128.Idx → EReal) := by
  obtain ⟨e0, e1⟩ := ix1_4 t
  funext x
  unfold iblk1
  rw [View.read_apply]
  show (V c (Pipeline.arrRef spec1 4) : S1x128.Idx → EReal) _ = _
  refine congrArg (V c (Pipeline.arrRef spec1 4) : S1x128.Idx → EReal) (funext fun a => Fin.ext ?_)
  match a with
  | ⟨0, _⟩ => show win1_4.index t (0 : Fin 2) * 1 + 1 * (x 0).val = (x 0).val; rw [e0]; omega
  | ⟨1, _⟩ => show win1_4.index t (1 : Fin 2) * 128 + 1 * (x 1).val = (x 1).val; rw [e1]; omega

/-- Window 5's block is its whole array at every point. -/
theorem blk5_eq (c : Dev nD) (t : Fin cfg1.N) :
    (iblk1 V c 5 t : S1x128.Idx → EReal) = (V c (Pipeline.arrRef spec1 5) : S1x128.Idx → EReal) := by
  obtain ⟨e0, e1⟩ := ix1_5 t
  funext x
  unfold iblk1
  rw [View.read_apply]
  show (V c (Pipeline.arrRef spec1 5) : S1x128.Idx → EReal) _ = _
  refine congrArg (V c (Pipeline.arrRef spec1 5) : S1x128.Idx → EReal) (funext fun a => Fin.ext ?_)
  match a with
  | ⟨0, _⟩ => show win1_5.index t (0 : Fin 2) * 1 + 1 * (x 0).val = (x 0).val; rw [e0]; omega
  | ⟨1, _⟩ => show win1_5.index t (1 : Fin 2) * 128 + 1 * (x 1).val = (x 1).val; rw [e1]; omega

/-- Window 6's block is its whole array at every point. -/
theorem blk6_eq (c : Dev nD) (t : Fin cfg1.N) :
    (iblk1 V c 6 t : S1x128.Idx → EReal) = (V c (Pipeline.arrRef spec1 6) : S1x128.Idx → EReal) := by
  obtain ⟨e0, e1⟩ := ix1_6 t
  funext x
  unfold iblk1
  rw [View.read_apply]
  show (V c (Pipeline.arrRef spec1 6) : S1x128.Idx → EReal) _ = _
  refine congrArg (V c (Pipeline.arrRef spec1 6) : S1x128.Idx → EReal) (funext fun a => Fin.ext ?_)
  match a with
  | ⟨0, _⟩ => show win1_6.index t (0 : Fin 2) * 1 + 1 * (x 0).val = (x 0).val; rw [e0]; omega
  | ⟨1, _⟩ => show win1_6.index t (1 : Fin 2) * 128 + 1 * (x 1).val = (x 1).val; rw [e1]; omega

/-- Window 7's block is its whole array at every point. -/
theorem blk7_eq (c : Dev nD) (t : Fin cfg1.N) :
    (iblk1 V c 7 t : S1x128.Idx → EReal) = (V c (Pipeline.arrRef spec1 7) : S1x128.Idx → EReal) := by
  obtain ⟨e0, e1⟩ := ix1_7 t
  funext x
  unfold iblk1
  rw [View.read_apply]
  show (V c (Pipeline.arrRef spec1 7) : S1x128.Idx → EReal) _ = _
  refine congrArg (V c (Pipeline.arrRef spec1 7) : S1x128.Idx → EReal) (funext fun a => Fin.ext ?_)
  match a with
  | ⟨0, _⟩ => show win1_7.index t (0 : Fin 2) * 1 + 1 * (x 0).val = (x 0).val; rw [e0]; omega
  | ⟨1, _⟩ => show win1_7.index t (1 : Fin 2) * 128 + 1 * (x 1).val = (x 1).val; rw [e1]; omega

/-- Window 8's block is its whole array at every point. -/
theorem blk8_eq (c : Dev nD) (t : Fin cfg1.N) :
    (iblk1 V c 8 t : S1x128.Idx → EReal) = (V c (Pipeline.arrRef spec1 8) : S1x128.Idx → EReal) := by
  obtain ⟨e0, e1⟩ := ix1_8 t
  funext x
  unfold iblk1
  rw [View.read_apply]
  show (V c (Pipeline.arrRef spec1 8) : S1x128.Idx → EReal) _ = _
  refine congrArg (V c (Pipeline.arrRef spec1 8) : S1x128.Idx → EReal) (funext fun a => Fin.ext ?_)
  match a with
  | ⟨0, _⟩ => show win1_8.index t (0 : Fin 2) * 1 + 1 * (x 0).val = (x 0).val; rw [e0]; omega
  | ⟨1, _⟩ => show win1_8.index t (1 : Fin 2) * 128 + 1 * (x 1).val = (x 1).val; rw [e1]; omega

/-- Window 9's block is its whole array at every point. -/
theorem blk9_eq (c : Dev nD) (t : Fin cfg1.N) :
    (iblk1 V c 9 t : S128x128.Idx → EReal) = (V c (Pipeline.arrRef spec1 9) : S128x128.Idx → EReal) := by
  obtain ⟨e0, e1⟩ := ix1_9 t
  funext x
  unfold iblk1
  rw [View.read_apply]
  show (V c (Pipeline.arrRef spec1 9) : S128x128.Idx → EReal) _ = _
  refine congrArg (V c (Pipeline.arrRef spec1 9) : S128x128.Idx → EReal) (funext fun a => Fin.ext ?_)
  match a with
  | ⟨0, _⟩ => show win1_9.index t (0 : Fin 2) * 128 + 1 * (x 0).val = (x 0).val; rw [e0]; omega
  | ⟨1, _⟩ => show win1_9.index t (1 : Fin 2) * 128 + 1 * (x 1).val = (x 1).val; rw [e1]; omega

/-- Window 10's block is its whole array at every point. -/
theorem blk10_eq (c : Dev nD) (t : Fin cfg1.N) :
    (iblk1 V c 10 t : S1x128.Idx → EReal) = (V c (Pipeline.arrRef spec1 10) : S1x128.Idx → EReal) := by
  obtain ⟨e0, e1⟩ := ix1_10 t
  funext x
  unfold iblk1
  rw [View.read_apply]
  show (V c (Pipeline.arrRef spec1 10) : S1x128.Idx → EReal) _ = _
  refine congrArg (V c (Pipeline.arrRef spec1 10) : S1x128.Idx → EReal) (funext fun a => Fin.ext ?_)
  match a with
  | ⟨0, _⟩ => show win1_10.index t (0 : Fin 2) * 1 + 1 * (x 0).val = (x 0).val; rw [e0]; omega
  | ⟨1, _⟩ => show win1_10.index t (1 : Fin 2) * 128 + 1 * (x 1).val = (x 1).val; rw [e1]; omega

/-- Window 11's block is its whole array at every point. -/
theorem blk11_eq (c : Dev nD) (t : Fin cfg1.N) :
    (iblk1 V c 11 t : S128x128.Idx → EReal) = (V c (Pipeline.arrRef spec1 11) : S128x128.Idx → EReal) := by
  obtain ⟨e0, e1⟩ := ix1_11 t
  funext x
  unfold iblk1
  rw [View.read_apply]
  show (V c (Pipeline.arrRef spec1 11) : S128x128.Idx → EReal) _ = _
  refine congrArg (V c (Pipeline.arrRef spec1 11) : S128x128.Idx → EReal) (funext fun a => Fin.ext ?_)
  match a with
  | ⟨0, _⟩ => show win1_11.index t (0 : Fin 2) * 128 + 1 * (x 0).val = (x 0).val; rw [e0]; omega
  | ⟨1, _⟩ => show win1_11.index t (1 : Fin 2) * 128 + 1 * (x 1).val = (x 1).val; rw [e1]; omega

/-- Window 12's block is its whole array at every point. -/
theorem blk12_eq (c : Dev nD) (t : Fin cfg1.N) :
    (iblk1 V c 12 t : S1x128.Idx → EReal) = (V c (Pipeline.arrRef spec1 12) : S1x128.Idx → EReal) := by
  obtain ⟨e0, e1⟩ := ix1_12 t
  funext x
  unfold iblk1
  rw [View.read_apply]
  show (V c (Pipeline.arrRef spec1 12) : S1x128.Idx → EReal) _ = _
  refine congrArg (V c (Pipeline.arrRef spec1 12) : S1x128.Idx → EReal) (funext fun a => Fin.ext ?_)
  match a with
  | ⟨0, _⟩ => show win1_12.index t (0 : Fin 2) * 1 + 1 * (x 0).val = (x 0).val; rw [e0]; omega
  | ⟨1, _⟩ => show win1_12.index t (1 : Fin 2) * 128 + 1 * (x 1).val = (x 1).val; rw [e1]; omega

end Cert.KernelIdeal.MainK

end
-- ==== Proof.Main1c.lean ====
/-
  The edge network's kernel: the result array after all its grid points.

  At point `t` the body leaves, in the output block, the network's layers of the input blocks at `t`.  The row-blocked
  inputs' blocks are rows `3200·t …` of their arrays and the other inputs' blocks are their whole arrays; an entry of
  the network in row `r` depends on row `r` of the row-blocked operands only.  So what point `t` writes back is rows
  `3200·t …` of the network of the WHOLE arrays.  Row `p` of the result is covered by point `p / 3200`, so the result
  array ends holding the network of the whole arrays.
-/
import proofs.«139705_j25838523252951_1_alg».proof.Proof.Main1a
import proofs.«139705_j25838523252951_1_alg».proof.Proof.Main1b

noncomputable section

namespace Cert.KernelIdeal.MainK

open Cert.KernelIdeal Cert.KernelIdeal.Gen Idealize.ShloMosaic Idealize.ShloMosaic.ValueIdx
open Idealize.ShloMosaic.TcCoe Idealize.SL.Sem
open Cert.Dense Cert.BiasRow Cert.Mpnn Cert.BnBlock

open Idealize.ShloMosaic.Pipeline (Dat)

variable (V : (c : Dev nD) → (b : Ref sig .tc) → Buf (Elt Ideal) ((c : Thread nD τ).loc b))

/-- The arrays the region finds under its windows. -/
abbrev A0 (c : Dev nD) : Mat 800000 64 := V c (Pipeline.arrRef spec1 0)
abbrev A1 (c : Dev nD) : Mat 800000 64 := V c (Pipeline.arrRef spec1 1)
abbrev A2 (c : Dev nD) : Mat 800000 16 := V c (Pipeline.arrRef spec1 2)
abbrev A3 (c : Dev nD) : Mat 144 128 := V c (Pipeline.arrRef spec1 3)
abbrev A4 (c : Dev nD) : Mat 1 128 := V c (Pipeline.arrRef spec1 4)
abbrev A5 (c : Dev nD) : Mat 1 128 := V c (Pipeline.arrRef spec1 5)
abbrev A6 (c : Dev nD) : Mat 1 128 := V c (Pipeline.arrRef spec1 6)
abbrev A7 (c : Dev nD) : Mat 1 128 := V c (Pipeline.arrRef spec1 7)
abbrev A8 (c : Dev nD) : Mat 1 128 := V c (Pipeline.arrRef spec1 8)
abbrev A9 (c : Dev nD) : Mat 128 128 := V c (Pipeline.arrRef spec1 9)
abbrev A10 (c : Dev nD) : Mat 1 128 := V c (Pipeline.arrRef spec1 10)
abbrev A11 (c : Dev nD) : Mat 128 128 := V c (Pipeline.arrRef spec1 11)
abbrev A12 (c : Dev nD) : Mat 1 128 := V c (Pipeline.arrRef spec1 12)

/-- The edge network of the whole arrays: first layer, normalisation by the given statistics, two affine layers. -/
abbrev G1 (c : Dev nD) : Mat 800000 128 :=
  tailE (pre3 (A0 V c) (A1 V c) (A2 V c) (slab (R := 144) (C := 128) 0 64 (by omega) (A3 V c))
      (slab (R := 144) (C := 128) 64 64 (by omega) (A3 V c)) (slab (R := 144) (C := 128) 128 16 (by omega) (A3 V c)) (A4 V c))
    (A5 V c) (A6 V c) (A7 V c) (A8 V c) (Ideal.ofBits .f32 0x3727C5AC#32) (A9 V c) (A10 V c) (A11 V c) (A12 V c)

/-- A block of 3200 rows that agrees, row by row, with rows `3200·t …` of an array is that array read through the
    output window's block at point `t`. -/
theorem cut_eq_read (t : Fin cfg1.N) (B : Mat 3200 128) (G : Mat 800000 128)
    (h : ∀ (r : Fin 3200) (q : Fin 128) (hr : 3200 * t.val + r.val < 800000),
      B (ix2 r q) = G (ix2 ⟨3200 * t.val + r.val, hr⟩ q)) :
    (cfg1.win 13).cut (grid1.coords t) B = ((cfg1.win 13).blk t).view.read (Elt Ideal) G := by
  have hN : cfg1.N = 250 := N_1
  obtain ⟨e0, e1⟩ := ix1_13 t
  funext j
  have hj0 : (j 0).val < 3200 := (j 0).isLt
  have hj1 : (j 1).val < 128 := (j 1).isLt
  have hr : 3200 * t.val + (j 0).val < 800000 := by have := t.isLt; omega
  rw [View.read_apply]
  show B j = G (((cfg1.win 13).blk t).view.emb j)
  have hB : B j = B (ix2 ⟨(j 0).val, hj0⟩ ⟨(j 1).val, hj1⟩) :=
    congrArg B (funext fun a => Fin.ext (by match a with | ⟨0, _⟩ => rfl | ⟨1, _⟩ => rfl))
  refine hB.trans ((h ⟨(j 0).val, hj0⟩ ⟨(j 1).val, hj1⟩ hr).trans ?_)
  refine congrArg G (funext fun a => Fin.ext ?_)
  match a with
  | ⟨0, _⟩ => show 3200 * t.val + (j 0).val = win1_13.index t (0 : Fin 2) * 3200 + 1 * (j 0).val; rw [e0]; omega
  | ⟨1, _⟩ => show (j 1).val = win1_13.index t (1 : Fin 2) * 128 + 1 * (j 1).val; rw [e1]; omega

/-- What point `t` writes back is the network of the whole arrays read through the point's block. -/
theorem flushed13 (c : Dev nD) (t : Fin cfg1.N) :
    (dat1 V c).flushed 13 t = ((cfg1.win 13).blk t).view.read (Elt Ideal) (G1 V c) := by
  show (cfg1.win 13).cut (grid1.coords t) ((dat1 V c).after 13 t) = _
  rw [after1_13,
    out_eq (iblk1 V c 0 t) (iblk1 V c 1 t) (iblk1 V c 2 t) (iblk1 V c 3 t) (iblk1 V c 4 t) (iblk1 V c 5 t) (iblk1 V c 6 t)
      (iblk1 V c 7 t) (iblk1 V c 8 t) (iblk1 V c 9 t) (iblk1 V c 10 t) (iblk1 V c 11 t) (iblk1 V c 12 t),
    blk3_eq V c t, blk4_eq V c t, blk5_eq V c t, blk6_eq V c t, blk7_eq V c t, blk8_eq V c t, blk9_eq V c t,
    blk10_eq V c t, blk11_eq V c t, blk12_eq V c t]
  refine cut_eq_read t _ (G1 V c) fun r q hr => ?_
  exact tailE_rows _ _ _ _ _ _ _ _ _ _ _ ⟨3200 * t.val + r.val, hr⟩ r
    (fun k => pre3_rows (A0 V c) (A1 V c) (A2 V c) (iblk1 V c 0 t) (iblk1 V c 1 t) (iblk1 V c 2 t) _ _ _ _
      ⟨3200 * t.val + r.val, hr⟩ r (fun k' => blk0_apply V c t r k' hr) (fun k' => blk1_apply V c t r k' hr)
      (fun k' => blk2_apply V c t r k' hr) k) q

/-- An index of the result array is in point `t`'s block iff each coordinate is in the block's range on its axis. -/
theorem mem_blk13 (t : Fin cfg1.N) (i : S800000x128.Idx) :
    i ∈ ((cfg1.win 13).blk t).view.set ↔ ∀ a : Fin 2, win1_13.index t a * S3200x128.size a ≤ (i a).val
      ∧ (i a).val < win1_13.index t a * S3200x128.size a + S3200x128.size a := by
  show i ∈ ((View.whole main_v30).slice (win1_13.rect t)).set ↔ _
  rw [View.set_slice_whole, Rect.mem_set_unit]
  exact Iff.rfl

/-- Every index of the result array is in some point's block: row `p` in that of point `p / 3200`. -/
theorem cover13 (i : S800000x128.Idx) :
    ∃ t : Fin cfg1.N, (cfg1.win 13).flush t = true ∧ i ∈ ((cfg1.win 13).blk t).view.set := by
  have hN : cfg1.N = 250 := N_1
  have hi0 : (i 0).val < 800000 := (i 0).isLt
  have hi1 : (i 1).val < 128 := (i 1).isLt
  obtain ⟨t, ht⟩ : ∃ t : Fin cfg1.N, t.val = (i 0).val / 3200 := ⟨⟨(i 0).val / 3200, by rw [hN]; omega⟩, rfl⟩
  obtain ⟨e0, e1⟩ := ix1_13 t
  refine ⟨t, flush1_13 t, ?_⟩
  rw [mem_blk13]
  intro a
  match a with
  | ⟨0, _⟩ =>
    show win1_13.index t (0 : Fin 2) * 3200 ≤ (i 0).val ∧ (i 0).val < win1_13.index t (0 : Fin 2) * 3200 + 3200
    rw [e0, ht]; omega
  | ⟨1, _⟩ =>
    show win1_13.index t (1 : Fin 2) * 128 ≤ (i 1).val ∧ (i 1).val < win1_13.index t (1 : Fin 2) * 128 + 128
    rw [e1]; omega

/-- The result array after the region is the edge network of the arrays the region found. -/
theorem out1 (c : Dev nD) : ((dat1 V c).arrAt 13 cfg1.N : S800000x128.Idx → EReal) = G1 V c :=
  (dat1 V c).arrAt_eq_of_cover 13 (G1 V c) (fun t _ => flushed13 V c t) cover13

end Cert.KernelIdeal.MainK

end
-- ==== Proof.Levels3.lean ====
/-
  The contents of the buffers at the second region's exit and, through the third stretch of host operations, at the third region's entry.
-/
import proofs.«139705_j25838523252951_1_alg».proof.Proof.Levels2
import proofs.«139705_j25838523252951_1_alg».proof.Proof.Main1c

set_option maxRecDepth 16384

noncomputable section

namespace Cert.KernelIdeal.KVal

open Idealize.ShloMosaic Idealize.ShloMosaic.TcCoe Idealize.ShloMosaic.Tactic Idealize.SL.Sem
open Cert.Dense Cert.Mpnn Cert.Mpnn.Glue Cert.KernelIdeal Cert.KernelIdeal.Gen

variable (m : (ℓ : Loc nD τ sig) → Buf (Elt Ideal) ℓ) (ρ : Dev nD → PrngReg) (c : Dev nD)

/-- The second region's result over named arrays: the block-wise kernel value with each window's array replaced by
    its name. -/
theorem G1_congr (V : (c : Dev nD) → (b : Ref sig .tc) → Buf (Elt Ideal) ((c : Thread nD τ).loc b)) (c : Dev nD)
    (a0 : Mat 800000 64) (a1 : Mat 800000 64) (a2 : Mat 800000 16) (a3 : Mat 144 128) (a4 : Mat 1 128) (a5 : Mat 1 128) (a6 : Mat 1 128) (a7 : Mat 1 128) (a8 : Mat 1 128) (a9 : Mat 128 128) (a10 : Mat 1 128) (a11 : Mat 128 128) (a12 : Mat 1 128)
    (h0 : Cert.KernelIdeal.MainK.A0 V c = a0) (h1 : Cert.KernelIdeal.MainK.A1 V c = a1) (h2 : Cert.KernelIdeal.MainK.A2 V c = a2) (h3 : Cert.KernelIdeal.MainK.A3 V c = a3) (h4 : Cert.KernelIdeal.MainK.A4 V c = a4) (h5 : Cert.KernelIdeal.MainK.A5 V c = a5) (h6 : Cert.KernelIdeal.MainK.A6 V c = a6) (h7 : Cert.KernelIdeal.MainK.A7 V c = a7) (h8 : Cert.KernelIdeal.MainK.A8 V c = a8) (h9 : Cert.KernelIdeal.MainK.A9 V c = a9) (h10 : Cert.KernelIdeal.MainK.A10 V c = a10) (h11 : Cert.KernelIdeal.MainK.A11 V c = a11) (h12 : Cert.KernelIdeal.MainK.A12 V c = a12) :
    Cert.KernelIdeal.MainK.G1 V c
      = tailE (pre3 a0 a1 a2 (slab (R := 144) (C := 128) 0 64 (by omega) a3) (slab (R := 144) (C := 128) 64 64 (by omega) a3)
          (slab (R := 144) (C := 128) 128 16 (by omega) a3) a4) a5 a6 a7 a8 (Ideal.ofBits .f32 0x3727C5AC#32) a9 a10 a11 a12 := by
  subst h0 h1 h2 h3 h4 h5 h6 h7 h8 h9 h10 h11 h12
  rfl

theorem f4_arg0 : W4 m ρ c (Proc.devRef .tc main_arg0) = arr m c main_arg0 :=
  (W4_of_ne m ρ c main_arg0 (by decide)).trans (f3_arg0 m ρ c)

theorem f4_v1 : W4 m ρ c (Proc.devRef .tc main_v1) = srcRow (arr m c main_arg1) :=
  (W4_of_ne m ρ c main_v1 (by decide)).trans (f3_v1 m ρ c)

theorem f4_v30 : W4 m ρ c (Proc.devRef .tc main_v30) = msg m c := by
  refine (W4_arr m ρ c 13).trans ?_
  exact (Cert.KernelIdeal.MainK.out1 (V3 m ρ) c).trans
    (G1_congr (V3 m ρ) c _ _ _ _ _ _ _ _ _ _ _ _ _ (v1_0 m ρ c) (v1_1 m ρ c) (v1_2 m ρ c) (v1_3 m ρ c) (v1_4 m ρ c) (v1_5 m ρ c) (v1_6 m ρ c) (v1_7 m ρ c) (v1_8 m ρ c) (v1_9 m ρ c) (v1_10 m ρ c) (v1_11 m ρ c) (v1_12 m ρ c))

theorem f4_arg11 : W4 m ρ c (Proc.devRef .tc main_arg11) = arr m c main_arg11 :=
  (W4_of_ne m ρ c main_arg11 (by decide)).trans (f3_arg11 m ρ c)

theorem f4_arg12 : W4 m ρ c (Proc.devRef .tc main_arg12) = arr m c main_arg12 :=
  (W4_of_ne m ρ c main_arg12 (by decide)).trans (f3_arg12 m ρ c)

theorem f4_arg13 : W4 m ρ c (Proc.devRef .tc main_arg13) = arr m c main_arg13 :=
  (W4_of_ne m ρ c main_arg13 (by decide)).trans (f3_arg13 m ρ c)

theorem f4_arg14 : W4 m ρ c (Proc.devRef .tc main_arg14) = arr m c main_arg14 :=
  (W4_of_ne m ρ c main_arg14 (by decide)).trans (f3_arg14 m ρ c)

theorem f4_arg15 : W4 m ρ c (Proc.devRef .tc main_arg15) = arr m c main_arg15 :=
  (W4_of_ne m ρ c main_arg15 (by decide)).trans (f3_arg15 m ρ c)

theorem f4_arg16 : W4 m ρ c (Proc.devRef .tc main_arg16) = arr m c main_arg16 :=
  (W4_of_ne m ρ c main_arg16 (by decide)).trans (f3_arg16 m ρ c)

theorem f5_arg0 : W5 m ρ c (Proc.devRef .tc main_arg0) = arr m c main_arg0 :=
  (StableHlo.after_of_forall_not_mem (b := Proc.devRef .tc main_arg0) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (f4_arg0 m ρ c)

theorem f5_v33 : W5 m ρ c (Proc.devRef .tc main_v33) = agg m c := by
  show StableHlo.after hostOps2 (W4 m ρ c) (Proc.devRef .tc main_v33) = _
  after_results_simp
  rw [f4_v1 m ρ c, f4_v30 m ρ c]
  rfl

theorem f5_arg11 : W5 m ρ c (Proc.devRef .tc main_arg11) = arr m c main_arg11 :=
  (StableHlo.after_of_forall_not_mem (b := Proc.devRef .tc main_arg11) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (f4_arg11 m ρ c)

theorem f5_v34 : W5 m ρ c (Proc.devRef .tc main_v34) = brow (arr m c main_arg12) := by
  show StableHlo.after hostOps2 (W4 m ρ c) (Proc.devRef .tc main_v34) = _
  after_results_simp
  rw [f4_arg12 m ρ c]
  rfl

theorem f5_v35 : W5 m ρ c (Proc.devRef .tc main_v35) = brow (arr m c main_arg13) := by
  show StableHlo.after hostOps2 (W4 m ρ c) (Proc.devRef .tc main_v35) = _
  after_results_simp
  rw [f4_arg13 m ρ c]
  rfl

theorem f5_v36 : W5 m ρ c (Proc.devRef .tc main_v36) = brow (arr m c main_arg14) := by
  show StableHlo.after hostOps2 (W4 m ρ c) (Proc.devRef .tc main_v36) = _
  after_results_simp
  rw [f4_arg14 m ρ c]
  rfl

theorem f5_arg15 : W5 m ρ c (Proc.devRef .tc main_arg15) = arr m c main_arg15 :=
  (StableHlo.after_of_forall_not_mem (b := Proc.devRef .tc main_arg15) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (f4_arg15 m ρ c)

theorem f5_v37 : W5 m ρ c (Proc.devRef .tc main_v37) = brow (arr m c main_arg16) := by
  show StableHlo.after hostOps2 (W4 m ρ c) (Proc.devRef .tc main_v37) = _
  after_results_simp
  rw [f4_arg16 m ρ c]
  rfl

theorem v2_0 : V5 m ρ c (Pipeline.arrRef spec2 0) = arr m c main_arg0 := f5_arg0 m ρ c

theorem v2_1 : V5 m ρ c (Pipeline.arrRef spec2 1) = agg m c := f5_v33 m ρ c

theorem v2_2 : V5 m ρ c (Pipeline.arrRef spec2 2) = arr m c main_arg11 := f5_arg11 m ρ c

theorem v2_3 : V5 m ρ c (Pipeline.arrRef spec2 3) = brow (arr m c main_arg12) := f5_v34 m ρ c

end Cert.KernelIdeal.KVal

end
-- ==== Proof.Stats2Pre.lean ====
/-
  The statistics kernel of the node network: what its body computes, on the extended reals.

  The body reads a block of 5000 nodes — their features `x0` and their summed messages `x1` —, the [192, 128] weight `w`
  and the bias row `b`, and forms the block of `Z = X·Wx + G·Wa + b` with `Wx`, `Wa` the slabs of rows 0–63 and 64–191
  of `w` (the operands are rounded to bf16 first, which on the extended reals is the identity; each product accumulates
  into zero).  It then adds to a carried one-row array the column sums of that block, and to a second one the column
  sums of the squares.  A row of the block depends on the same row of `x0`, `x1` only (`pre2_at`).
-/
import proofs.«139705_j25838523252951_1_alg».proof.Proof.Stats0Pre

noncomputable section

open scoped BigOperators

namespace Cert.KernelIdeal.Stats

open Idealize.ShloMosaic Idealize.ShloMosaic.ValueIdx Cert.Dense Cert.BiasRow Cert.KernelIdeal Cert.KernelIdeal.Gen

/-- An entry of the first layer depends on its own row of the two left operands only. -/
theorem pre2_at {E E' A B H : ℕ} (X : Mat E A) (G : Mat E B) (X' : Mat E' A) (G' : Mat E' B)
    (Wx : Mat A H) (Wa : Mat B H) (b : Mat 1 H) (p : Fin E) (p' : Fin E') (q : Fin H)
    (h0 : ∀ k, X' (ix2 p' k) = X (ix2 p k)) (h1 : ∀ k, G' (ix2 p' k) = G (ix2 p k)) :
    Cert.Mpnn.pre2 X' G' Wx Wa b (ix2 p' q) = Cert.Mpnn.pre2 X G Wx Wa b (ix2 p q) := by
  show (mm X' Wx (ix2 p' q) + mm G' Wa (ix2 p' q)) + b (ix2 (0 : Fin 1) q)
    = (mm X Wx (ix2 p q) + mm G Wa (ix2 p q)) + b (ix2 (0 : Fin 1) q)
  rw [mm_rows X X' Wx p p' h0 q, mm_rows G G' Wa p p' h1 q]

/-- The block of `Z` the body forms from its loads. -/
theorem pay3_2_eq (w : Mat 192 128) (x0 : Mat 5000 64) (x1 : Mat 5000 128) (b : Mat 1 128) :
    (k2_pay3 (F := Ideal) w x0 x1 b : Mat 5000 128)
      = Cert.Mpnn.pre2 x0 x1 (Cert.Mpnn.slab 0 64 (by omega) w) (Cert.Mpnn.slab 64 128 (by omega) w) b := by
  have e1 : shapeCast S5000x128 x1 shapeCasts_S5000x128_S5000x128 = x1 := shapeCast_self _ _
  have eb : shapeCast S1x128 b shapeCasts_S1x128_S1x128 = b := shapeCast_self _ _
  have s0 := slice_eq_slab w 0 64 (by omega) slices_S192x128_o0_0_S64x128
  have s1 := slice_eq_slab w 64 128 (by omega) slices_S192x128_o64_0_S128x128
  have m0 := matmul_zero_eq_mm (φ₁ := .bf16) (φ₂ := .bf16) dot_S5000x64_S64x128_S5000x128_1_0_0_1_n_n rfl rfl rfl rfl rfl rfl
    none x0 (Cert.Mpnn.slab 0 64 (by omega) w)
  have m1 := matmul_zero_eq_mm (φ₁ := .bf16) (φ₂ := .bf16) dot_S5000x128_S128x128_S5000x128_1_0_0_1_n_n rfl rfl rfl rfl rfl rfl
    none x1 (Cert.Mpnn.slab 64 128 (by omega) w)
  show addf (F := Ideal) (φ := .f32) (s := S5000x128)
      (addf (F := Ideal) (φ := .f32) (s := S5000x128)
        (matmul (F := Ideal) (φ₁ := .bf16) (φ₂ := .bf16) dot_S5000x64_S64x128_S5000x128_1_0_0_1_n_n none x0
          (extractStridedSlice S64x128 ![0, 0] w slices_S192x128_o0_0_S64x128)
          (constant (F := Ideal) S5000x128 .f32 0x00000000#32))
        (matmul (F := Ideal) (φ₁ := .bf16) (φ₂ := .bf16) dot_S5000x128_S128x128_S5000x128_1_0_0_1_n_n none
          (shapeCast S5000x128 x1 shapeCasts_S5000x128_S5000x128)
          (extractStridedSlice S128x128 ![64, 0] w slices_S192x128_o64_0_S128x128)
          (constant (F := Ideal) S5000x128 .f32 0x00000000#32)))
      (broadcastTo S5000x128 (shapeCast S1x128 b shapeCasts_S1x128_S1x128) broadcasts_S1x128_S5000x128) = _
  rw [e1, eb, s0, s1, m0, m1, vecAddRow]
  rfl

/-- The zero row the first point stores into the carried sums. -/
theorem pay1_2_apply (u : Fin 1) (q : Fin 128) : k2_pay1 (F := Ideal) (ix2 u q) = 0 := by
  show Ideal.ofBits .f32 0x00000000#32 = 0
  exact Ideal.ofBits_zero_f32

/-- The zero row the first point stores into the carried sums of squares. -/
theorem pay2_2_apply (u : Fin 1) (q : Fin 128) : k2_pay2 (F := Ideal) (ix2 u q) = 0 := by
  show Ideal.ofBits .f32 0x00000000#32 = 0
  exact Ideal.ofBits_zero_f32

/-- The carried sums after a point: what they held plus the column sums of the point's block of `Z`, the block's
    row `r` being row `row r` of the whole arrays. -/
theorem pay4_2_rows {E : ℕ} (w : Mat 192 128) (x0 : Mat 5000 64) (x1 : Mat 5000 128) (b acc : Mat 1 128)
    (W : Mat 192 128) (X : Mat E 64) (G : Mat E 128) (bb : Mat 1 128) (row : Fin 5000 → Fin E)
    (hw : w = W) (hb : b = bb)
    (h0 : ∀ r k, x0 (ix2 r k) = X (ix2 (row r) k)) (h1 : ∀ r k, x1 (ix2 r k) = G (ix2 (row r) k))
    (u : Fin 1) (q : Fin 128) :
    k2_pay4 (F := Ideal) w x0 x1 b acc (ix2 u q)
      = acc (ix2 u q) + ∑ r : Fin 5000,
          Cert.Mpnn.pre2 X G (Cert.Mpnn.slab 0 64 (by omega) W) (Cert.Mpnn.slab 64 128 (by omega) W) bb (ix2 (row r) q) := by
  rw [← hw, ← hb]
  refine (Cert.AccCols.row_plus_colSum acc (k2_pay3 (F := Ideal) w x0 x1 b) shapeCasts_S1x128_S1x128
    reduces_S5000x128_S128 (.inl rfl) rfl shapeCasts_S128_S1x128 u q).trans ?_
  refine congrArg (acc (ix2 u q) + ·) (Finset.sum_congr rfl fun r _ => ?_)
  rw [pay3_2_eq]
  exact pre2_at X G x0 x1 _ _ b (row r) r q (h0 r) (h1 r)

/-- The carried sums of squares after a point: what they held plus the column sums of the squares of the point's
    block of `Z`. -/
theorem pay5_2_rows {E : ℕ} (w : Mat 192 128) (x0 : Mat 5000 64) (x1 : Mat 5000 128) (b acc : Mat 1 128)
    (W : Mat 192 128) (X : Mat E 64) (G : Mat E 128) (bb : Mat 1 128) (row : Fin 5000 → Fin E)
    (hw : w = W) (hb : b = bb)
    (h0 : ∀ r k, x0 (ix2 r k) = X (ix2 (row r) k)) (h1 : ∀ r k, x1 (ix2 r k) = G (ix2 (row r) k))
    (u : Fin 1) (q : Fin 128) :
    k2_pay5 (F := Ideal) w x0 x1 b acc (ix2 u q)
      = acc (ix2 u q) + ∑ r : Fin 5000,
          Cert.Mpnn.pre2 X G (Cert.Mpnn.slab 0 64 (by omega) W) (Cert.Mpnn.slab 64 128 (by omega) W) bb (ix2 (row r) q)
            * Cert.Mpnn.pre2 X G (Cert.Mpnn.slab 0 64 (by omega) W) (Cert.Mpnn.slab 64 128 (by omega) W) bb (ix2 (row r) q) := by
  rw [← hw, ← hb]
  refine (Cert.AccCols.row_plus_colSum acc
    (mulf (F := Ideal) (φ := .f32) (s := S5000x128) (k2_pay3 (F := Ideal) w x0 x1 b) (k2_pay3 (F := Ideal) w x0 x1 b))
    shapeCasts_S1x128_S1x128 reduces_S5000x128_S128 (.inl rfl) rfl shapeCasts_S128_S1x128 u q).trans ?_
  refine congrArg (acc (ix2 u q) + ·) (Finset.sum_congr rfl fun r _ => ?_)
  show k2_pay3 (F := Ideal) w x0 x1 b (ix2 r q) * k2_pay3 (F := Ideal) w x0 x1 b (ix2 r q) = _
  rw [pay3_2_eq, pre2_at X G x0 x1 _ _ b (row r) r q (h0 r) (h1 r)]

end Cert.KernelIdeal.Stats

end
-- ==== Proof.Stats2Pieces.lean ====
/-
  The statistics kernel of the node network: what one run of its body leaves in the two carried rows.

  The body's stores into each carried row cover the whole row, so the row holds the payload of the last store.  At the
  first grid point the body first stores a zero row, loads it back, and stores that row plus the block's column sums
  (for the second carried row: plus the column sums of the squares).  At every later point it loads what the point
  before left and stores that plus the block's sums.  The loads of the inputs read their buffers whole.
-/
import proofs.«139705_j25838523252951_1_alg».proof.Proof.Gen.KernelIdeal.Frame
import Idealize.ShloMosaic.Lib.Pipeline.Value
import Idealize.ShloMosaic.Lib.Tactic
import proofs.«139705_j25838523252951_1_alg».proof.Proof.LibAccCols

noncomputable section

namespace Cert.KernelIdeal.Stats

open Idealize.ShloMosaic Idealize.ShloMosaic.TcCoe Idealize.SL.Sem Cert.KernelIdeal Cert.KernelIdeal.Gen

variable {F : FTy → Type} [FloatOps F]

/-- A later point leaves in the first carried row what it held plus the block's column sums. -/
theorem outB2_4 (c : Dev nD) (i : grid2.Coords) (arg1 : Memref sig .tc .vmem S5000x64 .f32) (harg1 : arg1.IsWhole) (arg2 : Memref sig .tc .vmem S5000x128 .f32) (harg2 : arg2.IsWhole) (arg3 : Memref sig .tc .vmem S192x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : ¬cond2_0 i)
    (x0 : Vec F S5000x64 .f32) (x1 : Vec F S5000x128 .f32) (x2 : Vec F S192x128 .f32) (x3 : Vec F S1x128 .f32) (xo4 : Vec F S1x128 .f32) (xo5 : Vec F S1x128 .f32) :
    out2_B_4 c i arg1 harg1 arg2 harg2 arg3 harg3 arg4 harg4 arg5 harg5 arg6 harg6 hc0 x0 x1 x2 x3 xo4 xo5 = k2_pay4 x2 x0 x1 x3 xo4 := by
  unfold out2_B_4
  rw [View.read_writes_eq_canon _ _ _ (cover2_B_4 c i arg1 harg1 arg2 harg2 arg3 harg3 arg4 harg4 arg5 harg5 arg6 harg6 hc0 x0 x1 x2 x3 xo4 xo5)]
  unfold kernelRun2_B
  dsimp only
  try sl_unfold_words
  rw [View.canon_unit_zero Cert.AccCols.zero_offsets]
  simp only [View.readAt_eq_ld, harg1.read_unread, harg2.read_unread, harg3.read_unread, harg4.read_unread, harg5.read_unread, harg6.read_unread, View.ld_unit_zero (S := S5000x64) Cert.AccCols.zero_offsets, View.ld_unit_zero (S := S5000x128) Cert.AccCols.zero_offsets, View.ld_unit_zero (S := S192x128) Cert.AccCols.zero_offsets, View.ld_unit_zero (S := S1x128) Cert.AccCols.zero_offsets]

/-- A later point leaves in the second carried row what it held plus the column sums of the block's squares. -/
theorem outB2_5 (c : Dev nD) (i : grid2.Coords) (arg1 : Memref sig .tc .vmem S5000x64 .f32) (harg1 : arg1.IsWhole) (arg2 : Memref sig .tc .vmem S5000x128 .f32) (harg2 : arg2.IsWhole) (arg3 : Memref sig .tc .vmem S192x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : ¬cond2_0 i)
    (x0 : Vec F S5000x64 .f32) (x1 : Vec F S5000x128 .f32) (x2 : Vec F S192x128 .f32) (x3 : Vec F S1x128 .f32) (xo4 : Vec F S1x128 .f32) (xo5 : Vec F S1x128 .f32) :
    out2_B_5 c i arg1 harg1 arg2 harg2 arg3 harg3 arg4 harg4 arg5 harg5 arg6 harg6 hc0 x0 x1 x2 x3 xo4 xo5 = k2_pay5 x2 x0 x1 x3 xo5 := by
  unfold out2_B_5
  rw [View.read_writes_eq_canon _ _ _ (cover2_B_5 c i arg1 harg1 arg2 harg2 arg3 harg3 arg4 harg4 arg5 harg5 arg6 harg6 hc0 x0 x1 x2 x3 xo4 xo5)]
  unfold kernelRun2_B
  dsimp only
  try sl_unfold_words
  rw [View.canon_unit_zero Cert.AccCols.zero_offsets]
  simp only [View.readAt_eq_ld, harg1.read_unread, harg2.read_unread, harg3.read_unread, harg4.read_unread, harg5.read_unread, harg6.read_unread, View.ld_unit_zero (S := S5000x64) Cert.AccCols.zero_offsets, View.ld_unit_zero (S := S5000x128) Cert.AccCols.zero_offsets, View.ld_unit_zero (S := S192x128) Cert.AccCols.zero_offsets, View.ld_unit_zero (S := S1x128) Cert.AccCols.zero_offsets]

/-- The first point leaves in the first carried row the zero row plus the block's column sums. -/
theorem outA2_4 (c : Dev nD) (i : grid2.Coords) (arg1 : Memref sig .tc .vmem S5000x64 .f32) (harg1 : arg1.IsWhole) (arg2 : Memref sig .tc .vmem S5000x128 .f32) (harg2 : arg2.IsWhole) (arg3 : Memref sig .tc .vmem S192x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : cond2_0 i)
    (x0 : Vec F S5000x64 .f32) (x1 : Vec F S5000x128 .f32) (x2 : Vec F S192x128 .f32) (x3 : Vec F S1x128 .f32) :
    out2_A_4 c i arg1 harg1 arg2 harg2 arg3 harg3 arg4 harg4 arg5 harg5 arg6 harg6 hc0 x0 x1 x2 x3 = k2_pay4 x2 x0 x1 x3 k2_pay1 := by
  unfold out2_A_4
  rw [View.read_writes_eq_canon _ _ _ (cover2_A_4 c i arg1 harg1 arg2 harg2 arg3 harg3 arg4 harg4 arg5 harg5 arg6 harg6 hc0 x0 x1 x2 x3)]
  unfold kernelRun2_A
  dsimp only
  try sl_unfold_words
  rw [View.canon_cons_unit_zero (S := S1x128) Cert.AccCols.zero_offsets, View.readCov_unit_zero (S := S1x128) _ Cert.AccCols.zero_offsets]
  simp only [View.readAt_eq_ld, harg1.read_unread, harg2.read_unread, harg3.read_unread, harg4.read_unread, harg5.read_unread, harg6.read_unread, View.ld_unit_zero (S := S5000x64) Cert.AccCols.zero_offsets, View.ld_unit_zero (S := S5000x128) Cert.AccCols.zero_offsets, View.ld_unit_zero (S := S192x128) Cert.AccCols.zero_offsets, View.ld_unit_zero (S := S1x128) Cert.AccCols.zero_offsets]

/-- The first point leaves in the second carried row the zero row plus the column sums of the block's squares. -/
theorem outA2_5 (c : Dev nD) (i : grid2.Coords) (arg1 : Memref sig .tc .vmem S5000x64 .f32) (harg1 : arg1.IsWhole) (arg2 : Memref sig .tc .vmem S5000x128 .f32) (harg2 : arg2.IsWhole) (arg3 : Memref sig .tc .vmem S192x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : cond2_0 i)
    (x0 : Vec F S5000x64 .f32) (x1 : Vec F S5000x128 .f32) (x2 : Vec F S192x128 .f32) (x3 : Vec F S1x128 .f32) :
    out2_A_5 c i arg1 harg1 arg2 harg2 arg3 harg3 arg4 harg4 arg5 harg5 arg6 harg6 hc0 x0 x1 x2 x3 = k2_pay5 x2 x0 x1 x3 k2_pay2 := by
  unfold out2_A_5
  rw [View.read_writes_eq_canon _ _ _ (cover2_A_5 c i arg1 harg1 arg2 harg2 arg3 harg3 arg4 harg4 arg5 harg5 arg6 harg6 hc0 x0 x1 x2 x3)]
  unfold kernelRun2_A
  dsimp only
  try sl_unfold_words
  rw [View.canon_cons_unit_zero (S := S1x128) Cert.AccCols.zero_offsets, View.readCov_unit_zero (S := S1x128) _ Cert.AccCols.zero_offsets]
  simp only [View.readAt_eq_ld, harg1.read_unread, harg2.read_unread, harg3.read_unread, harg4.read_unread, harg5.read_unread, harg6.read_unread, View.ld_unit_zero (S := S5000x64) Cert.AccCols.zero_offsets, View.ld_unit_zero (S := S5000x128) Cert.AccCols.zero_offsets, View.ld_unit_zero (S := S192x128) Cert.AccCols.zero_offsets, View.ld_unit_zero (S := S1x128) Cert.AccCols.zero_offsets]

end Cert.KernelIdeal.Stats

end
-- ==== Proof.Stats2Blocks.lean ====
/-
  The statistics kernel of the node network: its windows' blocks as parts of the arrays the region finds.

  The grid has one axis of 10 points.  At point `t` the row windows hold rows `5000·t … 5000·t + 4999` of their
  arrays (block index `(t, 0)`: an element `(r, k)` of the block is element `(5000·t + r, k)` of the array), and the
  weight and bias windows hold their whole arrays (block index `(0, 0)`, the block as large as the array).  The two
  output windows' block is their whole array at every point.
-/
import proofs.«139705_j25838523252951_1_alg».proof.Proof.Gen.KernelIdeal.Frame
import Idealize.ShloMosaic.Lib.Pipeline.Value
import Idealize.ShloMosaic.Lib.ValueIdx

noncomputable section

namespace Cert.KernelIdeal.Stats

open Idealize.ShloMosaic Idealize.ShloMosaic.TcCoe Idealize.ShloMosaic.ValueIdx Idealize.SL.Sem Cert.KernelIdeal
  Cert.KernelIdeal.Gen

variable {F : FTy → Type} [FloatOps F]
variable (V : (c : Dev nD) → (b : Ref sig .tc) → Buf (Elt F) ((c : Thread nD τ).loc b))

/-- The row windows' block index at point `t` is `(t, 0)`. -/
theorem idx_rows2 : ∀ t : Fin cfg2.N,
    win2_0.index t (0 : Fin 2) = t.val ∧ win2_0.index t (1 : Fin 2) = 0
    ∧ win2_1.index t (0 : Fin 2) = t.val ∧ win2_1.index t (1 : Fin 2) = 0 :=
  (by decide +kernel : ∀ t : Fin grid2.N,
    win2_0.index t (0 : Fin 2) = t.val ∧ win2_0.index t (1 : Fin 2) = 0
    ∧ win2_1.index t (0 : Fin 2) = t.val ∧ win2_1.index t (1 : Fin 2) = 0)

/-- The whole-array windows' blocks start at offset zero on both axes, at every point. -/
theorem off_whole2 : ∀ t : Fin cfg2.N, ∀ a : Fin 2,
    win2_2.index t a * main_arg11.ty.shape.size a = 0 ∧ win2_3.index t a * main_v34.ty.shape.size a = 0 ∧ win2_4.index t a * main_v38_0.ty.shape.size a = 0 ∧ win2_5.index t a * main_v38_1.ty.shape.size a = 0 :=
  (by decide +kernel : ∀ t : Fin grid2.N, ∀ a : Fin 2,
    win2_2.index t a * main_arg11.ty.shape.size a = 0 ∧ win2_3.index t a * main_v34.ty.shape.size a = 0 ∧ win2_4.index t a * main_v38_0.ty.shape.size a = 0 ∧ win2_5.index t a * main_v38_1.ty.shape.size a = 0)

/-- Element `(r, k)` of row window 0's block at point `t` is element `(5000·t + r, k)` of its array. -/
theorem blk2_0_apply (c : Dev nD) (t : Fin cfg2.N) (r : Fin 5000) (k : Fin 64) (p : Fin 50000)
    (hp : p.val = 5000 * t.val + r.val) :
    (iblk2 V c 0 t : Vec F S5000x64 .f32) (ix2 r k) = (V c (Pipeline.arrRef spec2 0) : Vec F S50000x64 .f32) (ix2 p k) := by
  obtain ⟨e0, e1, -, -⟩ := idx_rows2 t
  unfold iblk2
  rw [View.read_apply]
  show V c (Pipeline.arrRef spec2 0) _ = V c (Pipeline.arrRef spec2 0) _
  congr 1
  funext a
  apply Fin.ext
  match a with
  | ⟨0, _⟩ => show win2_0.index t (0 : Fin 2) * 5000 + 1 * r.val = p.val; rw [e0, hp]; omega
  | ⟨1, _⟩ => show win2_0.index t (1 : Fin 2) * 64 + 1 * k.val = k.val; rw [e1]; omega

/-- Element `(r, k)` of row window 1's block at point `t` is element `(5000·t + r, k)` of its array. -/
theorem blk2_1_apply (c : Dev nD) (t : Fin cfg2.N) (r : Fin 5000) (k : Fin 128) (p : Fin 50000)
    (hp : p.val = 5000 * t.val + r.val) :
    (iblk2 V c 1 t : Vec F S5000x128 .f32) (ix2 r k) = (V c (Pipeline.arrRef spec2 1) : Vec F S50000x128 .f32) (ix2 p k) := by
  obtain ⟨-, -, e0, e1⟩ := idx_rows2 t
  unfold iblk2
  rw [View.read_apply]
  show V c (Pipeline.arrRef spec2 1) _ = V c (Pipeline.arrRef spec2 1) _
  congr 1
  funext a
  apply Fin.ext
  match a with
  | ⟨0, _⟩ => show win2_1.index t (0 : Fin 2) * 5000 + 1 * r.val = p.val; rw [e0, hp]; omega
  | ⟨1, _⟩ => show win2_1.index t (1 : Fin 2) * 128 + 1 * k.val = k.val; rw [e1]; omega

/-- Window 2's block is its whole array, at every point. -/
theorem blk2_2_eq (c : Dev nD) (t : Fin cfg2.N) :
    (iblk2 V c 2 t : Vec F S192x128 .f32) = (V c (Pipeline.arrRef spec2 2) : Vec F S192x128 .f32) := by
  have hz' : (fun a => win2_2.index t a * main_arg11.ty.shape.size a) = fun _ => 0 := funext fun a => (off_whole2 t a).1
  exact Memref.read_access_unit_zero (Elt F) main_arg11 hz' (fun a => by rw [congrFun hz' a]; simp) (V c (Pipeline.arrRef spec2 2))

/-- Window 3's block is its whole array, at every point. -/
theorem blk2_3_eq (c : Dev nD) (t : Fin cfg2.N) :
    (iblk2 V c 3 t : Vec F S1x128 .f32) = (V c (Pipeline.arrRef spec2 3) : Vec F S1x128 .f32) := by
  have hz' : (fun a => win2_3.index t a * main_v34.ty.shape.size a) = fun _ => 0 := funext fun a => (off_whole2 t a).2.1
  exact Memref.read_access_unit_zero (Elt F) main_v34 hz' (fun a => by rw [congrFun hz' a]; simp) (V c (Pipeline.arrRef spec2 3))

/-- Read through output window 4's block, at any point, a whole array is itself. -/
theorem read_blk2_4 (t : Fin cfg2.N) (G : Vec F S1x128 .f32) :
    ((cfg2.win 4).blk t).view.read (Elt F) G = G := by
  have hz' : (fun a => win2_4.index t a * main_v38_0.ty.shape.size a) = fun _ => 0 := funext fun a => (off_whole2 t a).2.2.1
  exact Memref.read_access_unit_zero (Elt F) main_v38_0 hz' (fun a => by rw [congrFun hz' a]; simp) G

/-- Every index of output window 4's array lies in the window's block, at any point. -/
theorem mem_blk2_4 (t : Fin cfg2.N) (i : S1x128.Idx) : i ∈ ((cfg2.win 4).blk t).view.set := by
  show i ∈ ((View.whole main_v38_0).slice (win2_4.rect t)).set
  rw [View.set_slice_whole, Rect.mem_set_unit]
  intro a
  have h0 : (i 0 : Nat) < 1 := (i 0).isLt
  have h1 : (i 1 : Nat) < 128 := (i 1).isLt
  have z0 : win2_4.index t (0 : Fin 2) * 1 = 0 := (off_whole2 t 0).2.2.1
  have z1 : win2_4.index t (1 : Fin 2) * 128 = 0 := (off_whole2 t 1).2.2.1
  match a with
  | ⟨0, _⟩ =>
    show win2_4.index t (0 : Fin 2) * 1 ≤ (i 0 : Nat) ∧ (i 0 : Nat) < win2_4.index t (0 : Fin 2) * 1 + 1
    omega
  | ⟨1, _⟩ =>
    show win2_4.index t (1 : Fin 2) * 128 ≤ (i 1 : Nat) ∧ (i 1 : Nat) < win2_4.index t (1 : Fin 2) * 128 + 128
    omega

/-- Read through output window 5's block, at any point, a whole array is itself. -/
theorem read_blk2_5 (t : Fin cfg2.N) (G : Vec F S1x128 .f32) :
    ((cfg2.win 5).blk t).view.read (Elt F) G = G := by
  have hz' : (fun a => win2_5.index t a * main_v38_1.ty.shape.size a) = fun _ => 0 := funext fun a => (off_whole2 t a).2.2.2
  exact Memref.read_access_unit_zero (Elt F) main_v38_1 hz' (fun a => by rw [congrFun hz' a]; simp) G

/-- Every index of output window 5's array lies in the window's block, at any point. -/
theorem mem_blk2_5 (t : Fin cfg2.N) (i : S1x128.Idx) : i ∈ ((cfg2.win 5).blk t).view.set := by
  show i ∈ ((View.whole main_v38_1).slice (win2_5.rect t)).set
  rw [View.set_slice_whole, Rect.mem_set_unit]
  intro a
  have h0 : (i 0 : Nat) < 1 := (i 0).isLt
  have h1 : (i 1 : Nat) < 128 := (i 1).isLt
  have z0 : win2_5.index t (0 : Fin 2) * 1 = 0 := (off_whole2 t 0).2.2.2
  have z1 : win2_5.index t (1 : Fin 2) * 128 = 0 := (off_whole2 t 1).2.2.2
  match a with
  | ⟨0, _⟩ =>
    show win2_5.index t (0 : Fin 2) * 1 ≤ (i 0 : Nat) ∧ (i 0 : Nat) < win2_5.index t (0 : Fin 2) * 1 + 1
    omega
  | ⟨1, _⟩ =>
    show win2_5.index t (1 : Fin 2) * 128 ≤ (i 1 : Nat) ∧ (i 1 : Nat) < win2_5.index t (1 : Fin 2) * 128 + 128
    omega

end Cert.KernelIdeal.Stats

end
-- ==== Proof.Stats2.lean ====
/-
  The statistics kernel of the node network: its two result arrays as whole-array functions of the arrays the region
  finds.

  With `Y2` the first layer of the node network before the normalisation, over all 50000 nodes, the kernel's first result is the row of column sums of
  `Y2` and its second the row of column sums of the squares.  The grid's 10 points each take a block of 5000 consecutive
  rows; the two results are carried in their buffers from point to point — the first point starts them at zero plus its
  block's sums, every later point adds its block's sums — and are written back after the last point.  A row of a
  block's `Y2` is the same row of the whole `Y2`, and the 10 blocks' sums add up to the sum over all rows; only the
  commutativity and associativity of addition are used.
-/
import proofs.«139705_j25838523252951_1_alg».proof.Proof.Stats2Pre
import proofs.«139705_j25838523252951_1_alg».proof.Proof.Stats2Pieces
import proofs.«139705_j25838523252951_1_alg».proof.Proof.Stats2Blocks

noncomputable section

open scoped BigOperators

namespace Cert.KernelIdeal.Stats

open Idealize.ShloMosaic Idealize.ShloMosaic.TcCoe Idealize.ShloMosaic.ValueIdx Idealize.SL.Sem Cert.Dense Cert.KernelIdeal
  Cert.KernelIdeal.Gen
open Idealize.ShloMosaic.Pipeline (Dat)

variable (V : (c : Dev nD) → (b : Ref sig .tc) → Buf (Elt Ideal) ((c : Thread nD τ).loc b))

/-- The first layer of the node network before the normalisation, over the arrays the region finds. -/
def Y2 (c : Dev nD) : Mat 50000 128 :=
  Cert.Mpnn.pre2 (V c (Pipeline.arrRef spec2 0) : S50000x64.Idx → EReal) (V c (Pipeline.arrRef spec2 1) : S50000x128.Idx → EReal)
    (Cert.Mpnn.slab 0 64 (by omega) (V c (Pipeline.arrRef spec2 2) : S192x128.Idx → EReal))
    (Cert.Mpnn.slab 64 128 (by omega) (V c (Pipeline.arrRef spec2 2) : S192x128.Idx → EReal))
    (V c (Pipeline.arrRef spec2 3) : S1x128.Idx → EReal)

/-- Row `r` of the block of point `n`, as a row of the whole arrays. -/
def rowOf2 (n : ℕ) (h : n < cfg2.N) (r : Fin 5000) : Fin 50000 :=
  ⟨5000 * n + r.val, by have hN : cfg2.N = 10 := N_2; have := r.isLt; omega⟩

/-- The first point leaves in carried row 1 zero plus its block's share. -/
theorem first2_4 (c : Dev nD) (t : Fin cfg2.N) (h0 : t.val % 10 = 0) (u : Fin 1) (q : Fin 128) :
    (outsAt2 V c t.val t.isLt).1 (ix2 u q) = 0 + ∑ r : Fin 5000, Y2 V c (ix2 (rowOf2 t.val t.isLt r) q) := by
  refine (congrFun (congrArg Prod.fst (outsAt2_A V c t h0)) (ix2 u q)).trans ?_
  refine (congrFun (outA2_4 (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) ((hcond2_0 t).mpr h0) (iblk2 V c 0 t) (iblk2 V c 1 t) (iblk2 V c 2 t) (iblk2 V c 3 t)) (ix2 u q)).trans ?_
  refine (pay4_2_rows (E := 50000) (iblk2 V c 2 t) (iblk2 V c 0 t) (iblk2 V c 1 t) (iblk2 V c 3 t) (k2_pay1 (F := Ideal))
    (V c (Pipeline.arrRef spec2 2)) (V c (Pipeline.arrRef spec2 0)) (V c (Pipeline.arrRef spec2 1))
    (V c (Pipeline.arrRef spec2 3)) (rowOf2 t.val t.isLt) (blk2_2_eq V c t) (blk2_3_eq V c t)
    (fun r k => blk2_0_apply V c t r k (rowOf2 t.val t.isLt r) rfl)
    (fun r k => blk2_1_apply V c t r k (rowOf2 t.val t.isLt r) rfl) u q).trans ?_
  rw [pay1_2_apply]
  rfl

/-- A later point leaves in carried row 1 what the point before left plus its block's share. -/
theorem step2_4 (c : Dev nD) (t : Fin cfg2.N) (h0 : ¬t.val % 10 = 0) (u : Fin 1) (q : Fin 128) :
    (outsAt2 V c t.val t.isLt).1 (ix2 u q)
      = (outsAt2 V c (t.val - 1) (Nat.lt_of_le_of_lt (Nat.sub_le _ _) t.isLt)).1 (ix2 u q) + ∑ r : Fin 5000, Y2 V c (ix2 (rowOf2 t.val t.isLt r) q) := by
  refine (congrFun (congrArg Prod.fst (outsAt2_B V c t h0)) (ix2 u q)).trans ?_
  refine (congrFun (outB2_4 (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (fun h => h0 ((hcond2_0 t).mp h)) (iblk2 V c 0 t) (iblk2 V c 1 t) (iblk2 V c 2 t) (iblk2 V c 3 t)
    (outsAt2 V c (t.val - 1) (Nat.lt_of_le_of_lt (Nat.sub_le _ _) t.isLt)).1 (outsAt2 V c (t.val - 1) (Nat.lt_of_le_of_lt (Nat.sub_le _ _) t.isLt)).2) (ix2 u q)).trans ?_
  exact pay4_2_rows (E := 50000) (iblk2 V c 2 t) (iblk2 V c 0 t) (iblk2 V c 1 t) (iblk2 V c 3 t) (outsAt2 V c (t.val - 1) (Nat.lt_of_le_of_lt (Nat.sub_le _ _) t.isLt)).1
    (V c (Pipeline.arrRef spec2 2)) (V c (Pipeline.arrRef spec2 0)) (V c (Pipeline.arrRef spec2 1))
    (V c (Pipeline.arrRef spec2 3)) (rowOf2 t.val t.isLt) (blk2_2_eq V c t) (blk2_3_eq V c t)
    (fun r k => blk2_0_apply V c t r k (rowOf2 t.val t.isLt r) rfl)
    (fun r k => blk2_1_apply V c t r k (rowOf2 t.val t.isLt r) rfl) u q

/-- After the last point carried row 1 holds the column sums of `Y2` over all rows. -/
theorem total2_4 (c : Dev nD) (n : ℕ) (h : n < cfg2.N) (hlast : n + 1 = cfg2.N) (u : Fin 1) (q : Fin 128) :
    (outsAt2 V c n h).1 (ix2 u q) = ∑ p : Fin 50000, Y2 V c (ix2 p q) := by
  have hN : cfg2.N = 10 := N_2
  exact Cert.AccCols.carried_total (A := cfg2.N) (B := 5000) (N := 50000) (by omega) (fun p => Y2 V c (ix2 p q))
    rowOf2 (fun _ _ _ => rfl) (fun n h => (outsAt2 V c n h).1 (ix2 u q))
    (fun h => first2_4 V c ⟨0, h⟩ (Nat.zero_mod _) u q)
    (fun n h => step2_4 V c ⟨n + 1, h⟩
      (by have h' : n + 1 < 10 := lt_of_lt_of_eq h hN; show ¬(n + 1) % 10 = 0; omega) u q)
    n h hlast

/-- The one write-back of result 1, after the last point, writes the column sums of `Y2`. -/
theorem flushed2_4 (c : Dev nD) (t : Fin cfg2.N) (hf : (cfg2.win 4).flush t = true) :
    (dat2 V c).flushed 4 t = ((cfg2.win 4).blk t).view.read (Elt Ideal) (Cert.Mpnn.sumCols (Y2 V c)) := by
  have hN : cfg2.N = 10 := N_2
  have hmod : t.val % 10 = 9 := (flush2_4 t).mp hf
  have hlast : t.val + 1 = cfg2.N := by have := t.isLt; omega
  have hval : (outsAt2 V c t.val t.isLt).1 = Cert.Mpnn.sumCols (Y2 V c) := funext fun i => by
    obtain ⟨u, q, rfl⟩ : ∃ (u : Fin 1) (q : Fin 128), i = ix2 u q := ⟨i 0, i 1, eq_ix2 i⟩
    exact total2_4 V c t.val t.isLt hlast u q
  show (cfg2.win 4).cut (grid2.coords t) ((dat2 V c).after 4 t) = _
  rw [after2_4, hval]
  exact (read_blk2_4 (F := Ideal) t (Cert.Mpnn.sumCols (Y2 V c))).symm

/-- The first point leaves in carried row 2 zero plus its block's share. -/
theorem first2_5 (c : Dev nD) (t : Fin cfg2.N) (h0 : t.val % 10 = 0) (u : Fin 1) (q : Fin 128) :
    (outsAt2 V c t.val t.isLt).2 (ix2 u q) = 0 + ∑ r : Fin 5000, Y2 V c (ix2 (rowOf2 t.val t.isLt r) q) * Y2 V c (ix2 (rowOf2 t.val t.isLt r) q) := by
  refine (congrFun (congrArg Prod.snd (outsAt2_A V c t h0)) (ix2 u q)).trans ?_
  refine (congrFun (outA2_5 (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) ((hcond2_0 t).mpr h0) (iblk2 V c 0 t) (iblk2 V c 1 t) (iblk2 V c 2 t) (iblk2 V c 3 t)) (ix2 u q)).trans ?_
  refine (pay5_2_rows (E := 50000) (iblk2 V c 2 t) (iblk2 V c 0 t) (iblk2 V c 1 t) (iblk2 V c 3 t) (k2_pay2 (F := Ideal))
    (V c (Pipeline.arrRef spec2 2)) (V c (Pipeline.arrRef spec2 0)) (V c (Pipeline.arrRef spec2 1))
    (V c (Pipeline.arrRef spec2 3)) (rowOf2 t.val t.isLt) (blk2_2_eq V c t) (blk2_3_eq V c t)
    (fun r k => blk2_0_apply V c t r k (rowOf2 t.val t.isLt r) rfl)
    (fun r k => blk2_1_apply V c t r k (rowOf2 t.val t.isLt r) rfl) u q).trans ?_
  rw [pay2_2_apply]
  rfl

/-- A later point leaves in carried row 2 what the point before left plus its block's share. -/
theorem step2_5 (c : Dev nD) (t : Fin cfg2.N) (h0 : ¬t.val % 10 = 0) (u : Fin 1) (q : Fin 128) :
    (outsAt2 V c t.val t.isLt).2 (ix2 u q)
      = (outsAt2 V c (t.val - 1) (Nat.lt_of_le_of_lt (Nat.sub_le _ _) t.isLt)).2 (ix2 u q) + ∑ r : Fin 5000, Y2 V c (ix2 (rowOf2 t.val t.isLt r) q) * Y2 V c (ix2 (rowOf2 t.val t.isLt r) q) := by
  refine (congrFun (congrArg Prod.snd (outsAt2_B V c t h0)) (ix2 u q)).trans ?_
  refine (congrFun (outB2_5 (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (fun h => h0 ((hcond2_0 t).mp h)) (iblk2 V c 0 t) (iblk2 V c 1 t) (iblk2 V c 2 t) (iblk2 V c 3 t)
    (outsAt2 V c (t.val - 1) (Nat.lt_of_le_of_lt (Nat.sub_le _ _) t.isLt)).1 (outsAt2 V c (t.val - 1) (Nat.lt_of_le_of_lt (Nat.sub_le _ _) t.isLt)).2) (ix2 u q)).trans ?_
  exact pay5_2_rows (E := 50000) (iblk2 V c 2 t) (iblk2 V c 0 t) (iblk2 V c 1 t) (iblk2 V c 3 t) (outsAt2 V c (t.val - 1) (Nat.lt_of_le_of_lt (Nat.sub_le _ _) t.isLt)).2
    (V c (Pipeline.arrRef spec2 2)) (V c (Pipeline.arrRef spec2 0)) (V c (Pipeline.arrRef spec2 1))
    (V c (Pipeline.arrRef spec2 3)) (rowOf2 t.val t.isLt) (blk2_2_eq V c t) (blk2_3_eq V c t)
    (fun r k => blk2_0_apply V c t r k (rowOf2 t.val t.isLt r) rfl)
    (fun r k => blk2_1_apply V c t r k (rowOf2 t.val t.isLt r) rfl) u q

/-- After the last point carried row 2 holds the column sums of the squares of `Y2` over all rows. -/
theorem total2_5 (c : Dev nD) (n : ℕ) (h : n < cfg2.N) (hlast : n + 1 = cfg2.N) (u : Fin 1) (q : Fin 128) :
    (outsAt2 V c n h).2 (ix2 u q) = ∑ p : Fin 50000, Y2 V c (ix2 p q) * Y2 V c (ix2 p q) := by
  have hN : cfg2.N = 10 := N_2
  exact Cert.AccCols.carried_total (A := cfg2.N) (B := 5000) (N := 50000) (by omega) (fun p => Y2 V c (ix2 p q) * Y2 V c (ix2 p q))
    rowOf2 (fun _ _ _ => rfl) (fun n h => (outsAt2 V c n h).2 (ix2 u q))
    (fun h => first2_5 V c ⟨0, h⟩ (Nat.zero_mod _) u q)
    (fun n h => step2_5 V c ⟨n + 1, h⟩
      (by have h' : n + 1 < 10 := lt_of_lt_of_eq h hN; show ¬(n + 1) % 10 = 0; omega) u q)
    n h hlast

/-- The one write-back of result 2, after the last point, writes the column sums of the squares of `Y2`. -/
theorem flushed2_5 (c : Dev nD) (t : Fin cfg2.N) (hf : (cfg2.win 5).flush t = true) :
    (dat2 V c).flushed 5 t = ((cfg2.win 5).blk t).view.read (Elt Ideal) (Cert.Mpnn.sumSqCols (Y2 V c)) := by
  have hN : cfg2.N = 10 := N_2
  have hmod : t.val % 10 = 9 := (flush2_5 t).mp hf
  have hlast : t.val + 1 = cfg2.N := by have := t.isLt; omega
  have hval : (outsAt2 V c t.val t.isLt).2 = Cert.Mpnn.sumSqCols (Y2 V c) := funext fun i => by
    obtain ⟨u, q, rfl⟩ : ∃ (u : Fin 1) (q : Fin 128), i = ix2 u q := ⟨i 0, i 1, eq_ix2 i⟩
    exact total2_5 V c t.val t.isLt hlast u q
  show (cfg2.win 5).cut (grid2.coords t) ((dat2 V c).after 5 t) = _
  rw [after2_5, hval]
  exact (read_blk2_5 (F := Ideal) t (Cert.Mpnn.sumSqCols (Y2 V c))).symm

/-- The last grid point. -/
def last2 : Fin cfg2.N := ⟨9, by have hN : cfg2.N = 10 := N_2; omega⟩

/-- The first result array after the region: the column sums of `Y2`. -/
theorem sum2 (c : Dev nD) :
    ((dat2 V c).arrAt 4 cfg2.N : S1x128.Idx → EReal) = Cert.Mpnn.sumCols (Y2 V c) :=
  (dat2 V c).arrAt_eq_of_cover 4 (Cert.Mpnn.sumCols (Y2 V c)) (flushed2_4 V c) fun i =>
    ⟨last2, (flush2_4 last2).mpr rfl, mem_blk2_4 last2 i⟩

/-- The second result array after the region: the column sums of the squares of `Y2`. -/
theorem sumsq2 (c : Dev nD) :
    ((dat2 V c).arrAt 5 cfg2.N : S1x128.Idx → EReal) = Cert.Mpnn.sumSqCols (Y2 V c) :=
  (dat2 V c).arrAt_eq_of_cover 5 (Cert.Mpnn.sumSqCols (Y2 V c)) (flushed2_5 V c) fun i =>
    ⟨last2, (flush2_5 last2).mpr rfl, mem_blk2_5 last2 i⟩

end Cert.KernelIdeal.Stats

end
-- ==== Proof.Main3a.lean ====
/-
  The node network's kernel body, as one function of the blocks it loads.

  The body loads every input block whole, computes, and stores the output block whole.  What it stores is, on the
  extended reals: the two products of the row blocks with the two slabs of the first weight, the one-row bias, the
  normalisation by the given one-row mean and variance, the scale, the shift and the rectification, and one affine
  layer — `Cert.Mpnn.tailN` of `Cert.Mpnn.pre2` of the loaded blocks.
-/
import proofs.«139705_j25838523252951_1_alg».proof.Proof.Gen.KernelIdeal.Frame
import proofs.«139705_j25838523252951_1_alg».proof.Proof.LibBnBlock
import Idealize.ShloMosaic.Lib.Pipeline.Value

noncomputable section

namespace Cert.KernelIdeal.MainK

open Cert.KernelIdeal Cert.KernelIdeal.Gen Idealize.ShloMosaic Idealize.ShloMosaic.ValueIdx
open Cert.Dense Cert.BiasRow Cert.Mpnn Cert.BnBlock

/-- The zero offsets of a whole-buffer access. -/
theorem hz3 : (![0, 0] : Fin 2 → Nat) = fun _ => 0 := funext fun a => by fin_cases a <;> rfl

/-- The first payload: the first layer, normalised, scaled, shifted and rectified. -/
theorem pay2_eq3 (v0 : FVec Ideal S192x128 .f32) (v5 : FVec Ideal S5000x64 .f32) (v7 : FVec Ideal S5000x128 .f32)
    (v13 v17 v19 v28 v32 : FVec Ideal S1x128 .f32) :
    k3_pay2 (F := Ideal) v0 v5 v7 v13 v17 v19 v28 v32
      = bnRelu (pre2 v5 v7 (slab (R := 192) (C := 128) 0 64 (by omega) v0)
            (slab (R := 192) (C := 128) 64 128 (by omega) v0) v13)
          v17 v19 v28 v32 (Ideal.ofBits .f32 0x3727C5AC#32) := by
  unfold k3_pay2
  simp only [shapeCast_self]
  rw [matmulT_eq_mm dot_S5000x64_S64x128_S5000x128_1_0_0_1_n_n rfl rfl rfl rfl rfl rfl none v5 _ _,
    matmulT_eq_mm dot_S5000x128_S128x128_S5000x128_1_0_0_1_n_n rfl rfl rfl rfl rfl rfl none v7 _ _,
    slice_eq_slab v0 0 64 _ (by omega), slice_eq_slab v0 64 128 _ (by omega),
    vecAddRow _ v13 _, vecNormScale _ v17 v19 v28 0x3727C5AC#32 _, vecReluBias _ v32 _]
  rfl

/-- The second payload: one affine layer. -/
theorem pay1_eq3 (v37 : FVec Ideal S5000x128 .f32) (v38 : FVec Ideal S128x128 .f32) (v42 : FVec Ideal S1x128 .f32) :
    k3_pay1 (F := Ideal) v37 v38 v42 = addRow (mm v37 v38) v42 := by
  unfold k3_pay1
  simp only [shapeCast_self]
  rw [matmulT_eq_mm dot_S5000x128_S128x128_S5000x128_1_0_0_1_n_n rfl rfl rfl rfl rfl rfl none v37 v38 _,
    vecAddRow _ v42 _]

/-- What the body leaves in the output block is the network's layers of the blocks it loaded. -/
theorem out_eq3 (x0 : FVec Ideal S5000x64 .f32) (x1 : FVec Ideal S5000x128 .f32) (x2 : FVec Ideal S192x128 .f32)
    (x3 x4 x5 x6 x7 : FVec Ideal S1x128 .f32) (x8 : FVec Ideal S128x128 .f32) (x9 : FVec Ideal S1x128 .f32) :
    out3_10 (F := Ideal) x0 x1 x2 x3 x4 x5 x6 x7 x8 x9
      = tailN (pre2 x0 x1 (slab (R := 192) (C := 128) 0 64 (by omega) x2)
            (slab (R := 192) (C := 128) 64 128 (by omega) x2) x3)
          x4 x5 x6 x7 (Ideal.ofBits .f32 0x3727C5AC#32) x8 x9 := by
  unfold out3_10
  rw [View.canon_unit_zero hz3]
  simp only [View.ld_unit_zero (S := S192x128) hz3, View.ld_unit_zero (S := S5000x64) hz3,
    View.ld_unit_zero (S := S5000x128) hz3, View.ld_unit_zero (S := S1x128) hz3, View.ld_unit_zero (S := S128x128) hz3]
  rw [pay2_eq3, pay1_eq3]
  rfl

end Cert.KernelIdeal.MainK

end
-- ==== Proof.Main3b.lean ====
/-
  The node network's kernel: each window's block at a grid point, read at an index.

  The grid has 10 points.  The two row-blocked inputs and the output move with the point: block `t` is rows
  `5000·t … 5000·t + 4999`, all columns.  Every other window's block is its whole array at every point.  An element of a
  block sits in the array, on each axis, at the block index times the block's extent plus its own coordinate; the block
  indices are the printed index maps, decided once over the grid.
-/
import proofs.«139705_j25838523252951_1_alg».proof.Proof.Gen.KernelIdeal.Frame
import proofs.«139705_j25838523252951_1_alg».proof.Proof.LibDense
import Idealize.ShloMosaic.Lib.Pipeline.Value

noncomputable section

namespace Cert.KernelIdeal.MainK

open Cert.KernelIdeal Cert.KernelIdeal.Gen Idealize.ShloMosaic Idealize.ShloMosaic.ValueIdx
open Idealize.ShloMosaic.TcCoe Idealize.SL.Sem
open Cert.Dense

/-! ## The block indices -/

/-- The row-blocked windows' block index at point `t` is `(t, 0)`. -/
theorem ix3_0 : ∀ t : Fin cfg3.N, win3_0.index t (0 : Fin 2) = t.val ∧ win3_0.index t (1 : Fin 2) = 0 :=
  (by decide +kernel : ∀ t : Fin grid3.N, _)
theorem ix3_1 : ∀ t : Fin cfg3.N, win3_1.index t (0 : Fin 2) = t.val ∧ win3_1.index t (1 : Fin 2) = 0 :=
  (by decide +kernel : ∀ t : Fin grid3.N, _)
theorem ix3_10 : ∀ t : Fin cfg3.N, win3_10.index t (0 : Fin 2) = t.val ∧ win3_10.index t (1 : Fin 2) = 0 :=
  (by decide +kernel : ∀ t : Fin grid3.N, _)
/-- The other windows' block index is `(0, 0)` at every point. -/
theorem ix3_2 : ∀ t : Fin cfg3.N, win3_2.index t (0 : Fin 2) = 0 ∧ win3_2.index t (1 : Fin 2) = 0 :=
  (by decide +kernel : ∀ t : Fin grid3.N, _)
theorem ix3_3 : ∀ t : Fin cfg3.N, win3_3.index t (0 : Fin 2) = 0 ∧ win3_3.index t (1 : Fin 2) = 0 :=
  (by decide +kernel : ∀ t : Fin grid3.N, _)
theorem ix3_4 : ∀ t : Fin cfg3.N, win3_4.index t (0 : Fin 2) = 0 ∧ win3_4.index t (1 : Fin 2) = 0 :=
  (by decide +kernel : ∀ t : Fin grid3.N, _)
theorem ix3_5 : ∀ t : Fin cfg3.N, win3_5.index t (0 : Fin 2) = 0 ∧ win3_5.index t (1 : Fin 2) = 0 :=
  (by decide +kernel : ∀ t : Fin grid3.N, _)
theorem ix3_6 : ∀ t : Fin cfg3.N, win3_6.index t (0 : Fin 2) = 0 ∧ win3_6.index t (1 : Fin 2) = 0 :=
  (by decide +kernel : ∀ t : Fin grid3.N, _)
theorem ix3_7 : ∀ t : Fin cfg3.N, win3_7.index t (0 : Fin 2) = 0 ∧ win3_7.index t (1 : Fin 2) = 0 :=
  (by decide +kernel : ∀ t : Fin grid3.N, _)
theorem ix3_8 : ∀ t : Fin cfg3.N, win3_8.index t (0 : Fin 2) = 0 ∧ win3_8.index t (1 : Fin 2) = 0 :=
  (by decide +kernel : ∀ t : Fin grid3.N, _)
theorem ix3_9 : ∀ t : Fin cfg3.N, win3_9.index t (0 : Fin 2) = 0 ∧ win3_9.index t (1 : Fin 2) = 0 :=
  (by decide +kernel : ∀ t : Fin grid3.N, _)

variable (V : (c : Dev nD) → (b : Ref sig .tc) → Buf (Elt Ideal) ((c : Thread nD τ).loc b))

/-! ## The row-blocked inputs -/

/-- Window 0's block at point `t` is rows `5000·t … 5000·t + 4999` of its array. -/
theorem blk3_0_apply (c : Dev nD) (t : Fin cfg3.N) (r : Fin 5000) (k : Fin 64) (hr : 5000 * t.val + r.val < 50000) :
    (iblk3 V c 0 t : S5000x64.Idx → EReal) (ix2 r k)
      = (V c (Pipeline.arrRef spec3 0) : S50000x64.Idx → EReal) (ix2 ⟨5000 * t.val + r.val, hr⟩ k) := by
  obtain ⟨e0, e1⟩ := ix3_0 t
  unfold iblk3
  rw [View.read_apply]
  show (V c (Pipeline.arrRef spec3 0) : S50000x64.Idx → EReal) _ = _
  refine congrArg (V c (Pipeline.arrRef spec3 0) : S50000x64.Idx → EReal) (funext fun a => Fin.ext ?_)
  match a with
  | ⟨0, _⟩ => show win3_0.index t (0 : Fin 2) * 5000 + 1 * r.val = 5000 * t.val + r.val; rw [e0]; omega
  | ⟨1, _⟩ => show win3_0.index t (1 : Fin 2) * 64 + 1 * k.val = k.val; rw [e1]; omega

/-- Window 1's block at point `t` is rows `5000·t … 5000·t + 4999` of its array. -/
theorem blk3_1_apply (c : Dev nD) (t : Fin cfg3.N) (r : Fin 5000) (k : Fin 128) (hr : 5000 * t.val + r.val < 50000) :
    (iblk3 V c 1 t : S5000x128.Idx → EReal) (ix2 r k)
      = (V c (Pipeline.arrRef spec3 1) : S50000x128.Idx → EReal) (ix2 ⟨5000 * t.val + r.val, hr⟩ k) := by
  obtain ⟨e0, e1⟩ := ix3_1 t
  unfold iblk3
  rw [View.read_apply]
  show (V c (Pipeline.arrRef spec3 1) : S50000x128.Idx → EReal) _ = _
  refine congrArg (V c (Pipeline.arrRef spec3 1) : S50000x128.Idx → EReal) (funext fun a => Fin.ext ?_)
  match a with
  | ⟨0, _⟩ => show win3_1.index t (0 : Fin 2) * 5000 + 1 * r.val = 5000 * t.val + r.val; rw [e0]; omega
  | ⟨1, _⟩ => show win3_1.index t (1 : Fin 2) * 128 + 1 * k.val = k.val; rw [e1]; omega

/-! ## The whole-array inputs -/

/-- Window 2's block is its whole array at every point. -/
theorem blk3_2_eq (c : Dev nD) (t : Fin cfg3.N) :
    (iblk3 V c 2 t : S192x128.Idx → EReal) = (V c (Pipeline.arrRef spec3 2) : S192x128.Idx → EReal) := by
  obtain ⟨e0, e1⟩ := ix3_2 t
  funext x
  unfold iblk3
  rw [View.read_apply]
  show (V c (Pipeline.arrRef spec3 2) : S192x128.Idx → EReal) _ = _
  refine congrArg (V c (Pipeline.arrRef spec3 2) : S192x128.Idx → EReal) (funext fun a => Fin.ext ?_)
  match a with
  | ⟨0, _⟩ => show win3_2.index t (0 : Fin 2) * 192 + 1 * (x 0).val = (x 0).val; rw [e0]; omega
  | ⟨1, _⟩ => show win3_2.index t (1 : Fin 2) * 128 + 1 * (x 1).val = (x 1).val; rw [e1]; omega

/-- Window 3's block is its whole array at every point. -/
theorem blk3_3_eq (c : Dev nD) (t : Fin cfg3.N) :
    (iblk3 V c 3 t : S1x128.Idx → EReal) = (V c (Pipeline.arrRef spec3 3) : S1x128.Idx → EReal) := by
  obtain ⟨e0, e1⟩ := ix3_3 t
  funext x
  unfold iblk3
  rw [View.read_apply]
  show (V c (Pipeline.arrRef spec3 3) : S1x128.Idx → EReal) _ = _
  refine congrArg (V c (Pipeline.arrRef spec3 3) : S1x128.Idx → EReal) (funext fun a => Fin.ext ?_)
  match a with
  | ⟨0, _⟩ => show win3_3.index t (0 : Fin 2) * 1 + 1 * (x 0).val = (x 0).val; rw [e0]; omega
  | ⟨1, _⟩ => show win3_3.index t (1 : Fin 2) * 128 + 1 * (x 1).val = (x 1).val; rw [e1]; omega

/-- Window 4's block is its whole array at every point. -/
theorem blk3_4_eq (c : Dev nD) (t : Fin cfg3.N) :
    (iblk3 V c 4 t : S1x128.Idx → EReal) = (V c (Pipeline.arrRef spec3 4) : S1x128.Idx → EReal) := by
  obtain ⟨e0, e1⟩ := ix3_4 t
  funext x
  unfold iblk3
  rw [View.read_apply]
  show (V c (Pipeline.arrRef spec3 4) : S1x128.Idx → EReal) _ = _
  refine congrArg (V c (Pipeline.arrRef spec3 4) : S1x128.Idx → EReal) (funext fun a => Fin.ext ?_)
  match a with
  | ⟨0, _⟩ => show win3_4.index t (0 : Fin 2) * 1 + 1 * (x 0).val = (x 0).val; rw [e0]; omega
  | ⟨1, _⟩ => show win3_4.index t (1 : Fin 2) * 128 + 1 * (x 1).val = (x 1).val; rw [e1]; omega

/-- Window 5's block is its whole array at every point. -/
theorem blk3_5_eq (c : Dev nD) (t : Fin cfg3.N) :
    (iblk3 V c 5 t : S1x128.Idx → EReal) = (V c (Pipeline.arrRef spec3 5) : S1x128.Idx → EReal) := by
  obtain ⟨e0, e1⟩ := ix3_5 t
  funext x
  unfold iblk3
  rw [View.read_apply]
  show (V c (Pipeline.arrRef spec3 5) : S1x128.Idx → EReal) _ = _
  refine congrArg (V c (Pipeline.arrRef spec3 5) : S1x128.Idx → EReal) (funext fun a => Fin.ext ?_)
  match a with
  | ⟨0, _⟩ => show win3_5.index t (0 : Fin 2) * 1 + 1 * (x 0).val = (x 0).val; rw [e0]; omega
  | ⟨1, _⟩ => show win3_5.index t (1 : Fin 2) * 128 + 1 * (x 1).val = (x 1).val; rw [e1]; omega

/-- Window 6's block is its whole array at every point. -/
theorem blk3_6_eq (c : Dev nD) (t : Fin cfg3.N) :
    (iblk3 V c 6 t : S1x128.Idx → EReal) = (V c (Pipeline.arrRef spec3 6) : S1x128.Idx → EReal) := by
  obtain ⟨e0, e1⟩ := ix3_6 t
  funext x
  unfold iblk3
  rw [View.read_apply]
  show (V c (Pipeline.arrRef spec3 6) : S1x128.Idx → EReal) _ = _
  refine congrArg (V c (Pipeline.arrRef spec3 6) : S1x128.Idx → EReal) (funext fun a => Fin.ext ?_)
  match a with
  | ⟨0, _⟩ => show win3_6.index t (0 : Fin 2) * 1 + 1 * (x 0).val = (x 0).val; rw [e0]; omega
  | ⟨1, _⟩ => show win3_6.index t (1 : Fin 2) * 128 + 1 * (x 1).val = (x 1).val; rw [e1]; omega

/-- Window 7's block is its whole array at every point. -/
theorem blk3_7_eq (c : Dev nD) (t : Fin cfg3.N) :
    (iblk3 V c 7 t : S1x128.Idx → EReal) = (V c (Pipeline.arrRef spec3 7) : S1x128.Idx → EReal) := by
  obtain ⟨e0, e1⟩ := ix3_7 t
  funext x
  unfold iblk3
  rw [View.read_apply]
  show (V c (Pipeline.arrRef spec3 7) : S1x128.Idx → EReal) _ = _
  refine congrArg (V c (Pipeline.arrRef spec3 7) : S1x128.Idx → EReal) (funext fun a => Fin.ext ?_)
  match a with
  | ⟨0, _⟩ => show win3_7.index t (0 : Fin 2) * 1 + 1 * (x 0).val = (x 0).val; rw [e0]; omega
  | ⟨1, _⟩ => show win3_7.index t (1 : Fin 2) * 128 + 1 * (x 1).val = (x 1).val; rw [e1]; omega

/-- Window 8's block is its whole array at every point. -/
theorem blk3_8_eq (c : Dev nD) (t : Fin cfg3.N) :
    (iblk3 V c 8 t : S128x128.Idx → EReal) = (V c (Pipeline.arrRef spec3 8) : S128x128.Idx → EReal) := by
  obtain ⟨e0, e1⟩ := ix3_8 t
  funext x
  unfold iblk3
  rw [View.read_apply]
  show (V c (Pipeline.arrRef spec3 8) : S128x128.Idx → EReal) _ = _
  refine congrArg (V c (Pipeline.arrRef spec3 8) : S128x128.Idx → EReal) (funext fun a => Fin.ext ?_)
  match a with
  | ⟨0, _⟩ => show win3_8.index t (0 : Fin 2) * 128 + 1 * (x 0).val = (x 0).val; rw [e0]; omega
  | ⟨1, _⟩ => show win3_8.index t (1 : Fin 2) * 128 + 1 * (x 1).val = (x 1).val; rw [e1]; omega

/-- Window 9's block is its whole array at every point. -/
theorem blk3_9_eq (c : Dev nD) (t : Fin cfg3.N) :
    (iblk3 V c 9 t : S1x128.Idx → EReal) = (V c (Pipeline.arrRef spec3 9) : S1x128.Idx → EReal) := by
  obtain ⟨e0, e1⟩ := ix3_9 t
  funext x
  unfold iblk3
  rw [View.read_apply]
  show (V c (Pipeline.arrRef spec3 9) : S1x128.Idx → EReal) _ = _
  refine congrArg (V c (Pipeline.arrRef spec3 9) : S1x128.Idx → EReal) (funext fun a => Fin.ext ?_)
  match a with
  | ⟨0, _⟩ => show win3_9.index t (0 : Fin 2) * 1 + 1 * (x 0).val = (x 0).val; rw [e0]; omega
  | ⟨1, _⟩ => show win3_9.index t (1 : Fin 2) * 128 + 1 * (x 1).val = (x 1).val; rw [e1]; omega

end Cert.KernelIdeal.MainK

end
-- ==== Proof.Main3c.lean ====
/-
  The node network's kernel: the result array after all its grid points.

  At point `t` the body leaves, in the output block, the network's layers of the input blocks at `t`.  The row-blocked
  inputs' blocks are rows `5000·t …` of their arrays and the other inputs' blocks are their whole arrays; an entry of
  the network in row `r` depends on row `r` of the row-blocked operands only.  So what point `t` writes back is rows
  `5000·t …` of the network of the WHOLE arrays.  Row `p` of the result is covered by point `p / 5000`, so the result
  array ends holding the network of the whole arrays.
-/
import proofs.«139705_j25838523252951_1_alg».proof.Proof.Main3a
import proofs.«139705_j25838523252951_1_alg».proof.Proof.Main3b

noncomputable section

namespace Cert.KernelIdeal.MainK

open Cert.KernelIdeal Cert.KernelIdeal.Gen Idealize.ShloMosaic Idealize.ShloMosaic.ValueIdx
open Idealize.ShloMosaic.TcCoe Idealize.SL.Sem
open Cert.Dense Cert.BiasRow Cert.Mpnn Cert.BnBlock

open Idealize.ShloMosaic.Pipeline (Dat)

variable (V : (c : Dev nD) → (b : Ref sig .tc) → Buf (Elt Ideal) ((c : Thread nD τ).loc b))

/-- The arrays the region finds under its windows. -/
abbrev B0 (c : Dev nD) : Mat 50000 64 := V c (Pipeline.arrRef spec3 0)
abbrev B1 (c : Dev nD) : Mat 50000 128 := V c (Pipeline.arrRef spec3 1)
abbrev B2 (c : Dev nD) : Mat 192 128 := V c (Pipeline.arrRef spec3 2)
abbrev B3 (c : Dev nD) : Mat 1 128 := V c (Pipeline.arrRef spec3 3)
abbrev B4 (c : Dev nD) : Mat 1 128 := V c (Pipeline.arrRef spec3 4)
abbrev B5 (c : Dev nD) : Mat 1 128 := V c (Pipeline.arrRef spec3 5)
abbrev B6 (c : Dev nD) : Mat 1 128 := V c (Pipeline.arrRef spec3 6)
abbrev B7 (c : Dev nD) : Mat 1 128 := V c (Pipeline.arrRef spec3 7)
abbrev B8 (c : Dev nD) : Mat 128 128 := V c (Pipeline.arrRef spec3 8)
abbrev B9 (c : Dev nD) : Mat 1 128 := V c (Pipeline.arrRef spec3 9)

/-- The node network of the whole arrays: first layer, normalisation by the given statistics, one affine layer. -/
abbrev G3 (c : Dev nD) : Mat 50000 128 :=
  tailN (pre2 (B0 V c) (B1 V c) (slab (R := 192) (C := 128) 0 64 (by omega) (B2 V c))
      (slab (R := 192) (C := 128) 64 128 (by omega) (B2 V c)) (B3 V c))
    (B4 V c) (B5 V c) (B6 V c) (B7 V c) (Ideal.ofBits .f32 0x3727C5AC#32) (B8 V c) (B9 V c)

/-- A block of 5000 rows that agrees, row by row, with rows `5000·t …` of an array is that array read through the
    output window's block at point `t`. -/
theorem cut_eq_read3 (t : Fin cfg3.N) (B : Mat 5000 128) (G : Mat 50000 128)
    (h : ∀ (r : Fin 5000) (q : Fin 128) (hr : 5000 * t.val + r.val < 50000),
      B (ix2 r q) = G (ix2 ⟨5000 * t.val + r.val, hr⟩ q)) :
    (cfg3.win 10).cut (grid3.coords t) B = ((cfg3.win 10).blk t).view.read (Elt Ideal) G := by
  have hN : cfg3.N = 10 := N_3
  obtain ⟨e0, e1⟩ := ix3_10 t
  funext j
  have hj0 : (j 0).val < 5000 := (j 0).isLt
  have hj1 : (j 1).val < 128 := (j 1).isLt
  have hr : 5000 * t.val + (j 0).val < 50000 := by have := t.isLt; omega
  rw [View.read_apply]
  show B j = G (((cfg3.win 10).blk t).view.emb j)
  have hB : B j = B (ix2 ⟨(j 0).val, hj0⟩ ⟨(j 1).val, hj1⟩) :=
    congrArg B (funext fun a => Fin.ext (by match a with | ⟨0, _⟩ => rfl | ⟨1, _⟩ => rfl))
  refine hB.trans ((h ⟨(j 0).val, hj0⟩ ⟨(j 1).val, hj1⟩ hr).trans ?_)
  refine congrArg G (funext fun a => Fin.ext ?_)
  match a with
  | ⟨0, _⟩ => show 5000 * t.val + (j 0).val = win3_10.index t (0 : Fin 2) * 5000 + 1 * (j 0).val; rw [e0]; omega
  | ⟨1, _⟩ => show (j 1).val = win3_10.index t (1 : Fin 2) * 128 + 1 * (j 1).val; rw [e1]; omega

/-- What point `t` writes back is the network of the whole arrays read through the point's block. -/
theorem flushed3_10 (c : Dev nD) (t : Fin cfg3.N) :
    (dat3 V c).flushed 10 t = ((cfg3.win 10).blk t).view.read (Elt Ideal) (G3 V c) := by
  show (cfg3.win 10).cut (grid3.coords t) ((dat3 V c).after 10 t) = _
  rw [after3_10,
    out_eq3 (iblk3 V c 0 t) (iblk3 V c 1 t) (iblk3 V c 2 t) (iblk3 V c 3 t) (iblk3 V c 4 t) (iblk3 V c 5 t) (iblk3 V c 6 t)
      (iblk3 V c 7 t) (iblk3 V c 8 t) (iblk3 V c 9 t),
    blk3_2_eq V c t, blk3_3_eq V c t, blk3_4_eq V c t, blk3_5_eq V c t, blk3_6_eq V c t, blk3_7_eq V c t, blk3_8_eq V c t,
    blk3_9_eq V c t]
  refine cut_eq_read3 t _ (G3 V c) fun r q hr => ?_
  exact tailN_rows _ _ _ _ _ _ _ _ _ ⟨5000 * t.val + r.val, hr⟩ r
    (fun k => pre2_rows (B0 V c) (B1 V c) (iblk3 V c 0 t) (iblk3 V c 1 t) _ _ _
      ⟨5000 * t.val + r.val, hr⟩ r (fun k' => blk3_0_apply V c t r k' hr) (fun k' => blk3_1_apply V c t r k' hr) k) q

/-- An index of the result array is in point `t`'s block iff each coordinate is in the block's range on its axis. -/
theorem mem_blk3_10 (t : Fin cfg3.N) (i : S50000x128.Idx) :
    i ∈ ((cfg3.win 10).blk t).view.set ↔ ∀ a : Fin 2, win3_10.index t a * S5000x128.size a ≤ (i a).val
      ∧ (i a).val < win3_10.index t a * S5000x128.size a + S5000x128.size a := by
  show i ∈ ((View.whole main_v45).slice (win3_10.rect t)).set ↔ _
  rw [View.set_slice_whole, Rect.mem_set_unit]
  exact Iff.rfl

/-- Every index of the result array is in some point's block: row `p` in that of point `p / 5000`. -/
theorem cover3_out (i : S50000x128.Idx) :
    ∃ t : Fin cfg3.N, (cfg3.win 10).flush t = true ∧ i ∈ ((cfg3.win 10).blk t).view.set := by
  have hN : cfg3.N = 10 := N_3
  have hi0 : (i 0).val < 50000 := (i 0).isLt
  have hi1 : (i 1).val < 128 := (i 1).isLt
  obtain ⟨t, ht⟩ : ∃ t : Fin cfg3.N, t.val = (i 0).val / 5000 := ⟨⟨(i 0).val / 5000, by rw [hN]; omega⟩, rfl⟩
  obtain ⟨e0, e1⟩ := ix3_10 t
  refine ⟨t, flush3_10 t, ?_⟩
  rw [mem_blk3_10]
  intro a
  match a with
  | ⟨0, _⟩ =>
    show win3_10.index t (0 : Fin 2) * 5000 ≤ (i 0).val ∧ (i 0).val < win3_10.index t (0 : Fin 2) * 5000 + 5000
    rw [e0, ht]; omega
  | ⟨1, _⟩ =>
    show win3_10.index t (1 : Fin 2) * 128 ≤ (i 1).val ∧ (i 1).val < win3_10.index t (1 : Fin 2) * 128 + 128
    rw [e1]; omega

/-- The result array after the region is the node network of the arrays the region found. -/
theorem out3 (c : Dev nD) : ((dat3 V c).arrAt 10 cfg3.N : S50000x128.Idx → EReal) = G3 V c :=
  (dat3 V c).arrAt_eq_of_cover 10 (G3 V c) (fun t _ => flushed3_10 V c t) cover3_out

end Cert.KernelIdeal.MainK

end
-- ==== Proof.Levels4.lean ====
/-
  The contents of the buffers at the third region's exit, through the last stretch of host operations at the fourth region's entry, and the result at the fourth region's exit.
-/
import proofs.«139705_j25838523252951_1_alg».proof.Proof.Levels3
import proofs.«139705_j25838523252951_1_alg».proof.Proof.Stats2
import proofs.«139705_j25838523252951_1_alg».proof.Proof.Main3c

set_option maxRecDepth 16384

noncomputable section

namespace Cert.KernelIdeal.KVal

open Idealize.ShloMosaic Idealize.ShloMosaic.TcCoe Idealize.ShloMosaic.Tactic Idealize.SL.Sem
open Cert.Dense Cert.Mpnn Cert.Mpnn.Glue Cert.KernelIdeal Cert.KernelIdeal.Gen

variable (m : (ℓ : Loc nD τ sig) → Buf (Elt Ideal) ℓ) (ρ : Dev nD → PrngReg) (c : Dev nD)

/-- The third region's first layer over named arrays. -/
theorem Y2_congr (V : (c : Dev nD) → (b : Ref sig .tc) → Buf (Elt Ideal) ((c : Thread nD τ).loc b)) (c : Dev nD)
    (a0 : Mat 50000 64) (a1 : Mat 50000 128) (a2 : Mat 192 128) (a3 : Mat 1 128)
    (h0 : V c (Pipeline.arrRef spec2 0) = a0) (h1 : V c (Pipeline.arrRef spec2 1) = a1) (h2 : V c (Pipeline.arrRef spec2 2) = a2)
    (h3 : V c (Pipeline.arrRef spec2 3) = a3) :
    Cert.KernelIdeal.Stats.Y2 V c = pre2 a0 a1 (slab 0 64 (by omega) a2) (slab 64 128 (by omega) a2) a3 := by
  subst h0 h1 h2 h3
  rfl

/-- The fourth region's result over named arrays. -/
theorem G3_congr (V : (c : Dev nD) → (b : Ref sig .tc) → Buf (Elt Ideal) ((c : Thread nD τ).loc b)) (c : Dev nD)
    (a0 : Mat 50000 64) (a1 : Mat 50000 128) (a2 : Mat 192 128) (a3 : Mat 1 128) (a4 : Mat 1 128) (a5 : Mat 1 128) (a6 : Mat 1 128) (a7 : Mat 1 128) (a8 : Mat 128 128) (a9 : Mat 1 128)
    (h0 : Cert.KernelIdeal.MainK.B0 V c = a0) (h1 : Cert.KernelIdeal.MainK.B1 V c = a1) (h2 : Cert.KernelIdeal.MainK.B2 V c = a2) (h3 : Cert.KernelIdeal.MainK.B3 V c = a3) (h4 : Cert.KernelIdeal.MainK.B4 V c = a4) (h5 : Cert.KernelIdeal.MainK.B5 V c = a5) (h6 : Cert.KernelIdeal.MainK.B6 V c = a6) (h7 : Cert.KernelIdeal.MainK.B7 V c = a7) (h8 : Cert.KernelIdeal.MainK.B8 V c = a8) (h9 : Cert.KernelIdeal.MainK.B9 V c = a9) :
    Cert.KernelIdeal.MainK.G3 V c
      = tailN (pre2 a0 a1 (slab (R := 192) (C := 128) 0 64 (by omega) a2) (slab (R := 192) (C := 128) 64 128 (by omega) a2) a3)
          a4 a5 a6 a7 (Ideal.ofBits .f32 0x3727C5AC#32) a8 a9 := by
  subst h0 h1 h2 h3 h4 h5 h6 h7 h8 h9
  rfl

theorem f6_arg0 : W6 m ρ c (Proc.devRef .tc main_arg0) = arr m c main_arg0 :=
  (W6_arr m ρ c 0).trans (((dat2 (V5 m ρ) c).arrAt_in 0 rfl _).trans ((A_eq2 (V5 m ρ) c 0).trans (f5_arg0 m ρ c)))

theorem f6_v33 : W6 m ρ c (Proc.devRef .tc main_v33) = agg m c :=
  (W6_arr m ρ c 1).trans (((dat2 (V5 m ρ) c).arrAt_in 1 rfl _).trans ((A_eq2 (V5 m ρ) c 1).trans (f5_v33 m ρ c)))

theorem f6_arg11 : W6 m ρ c (Proc.devRef .tc main_arg11) = arr m c main_arg11 :=
  (W6_arr m ρ c 2).trans (((dat2 (V5 m ρ) c).arrAt_in 2 rfl _).trans ((A_eq2 (V5 m ρ) c 2).trans (f5_arg11 m ρ c)))

theorem f6_v34 : W6 m ρ c (Proc.devRef .tc main_v34) = brow (arr m c main_arg12) :=
  (W6_arr m ρ c 3).trans (((dat2 (V5 m ρ) c).arrAt_in 3 rfl _).trans ((A_eq2 (V5 m ρ) c 3).trans (f5_v34 m ρ c)))

theorem f6_v38_0 : W6 m ρ c (Proc.devRef .tc main_v38_0) = sumCols (y2 m c) := by
  refine (W6_arr m ρ c 4).trans ?_
  refine (Cert.KernelIdeal.Stats.sum2 (V5 m ρ) c).trans ?_
  rw [Y2_congr (V5 m ρ) c _ _ _ _ (v2_0 m ρ c) (v2_1 m ρ c) (v2_2 m ρ c) (v2_3 m ρ c)]
  rfl

theorem f6_v38_1 : W6 m ρ c (Proc.devRef .tc main_v38_1) = sumSqCols (y2 m c) := by
  refine (W6_arr m ρ c 5).trans ?_
  refine (Cert.KernelIdeal.Stats.sumsq2 (V5 m ρ) c).trans ?_
  rw [Y2_congr (V5 m ρ) c _ _ _ _ (v2_0 m ρ c) (v2_1 m ρ c) (v2_2 m ρ c) (v2_3 m ρ c)]
  rfl

theorem f6_v35 : W6 m ρ c (Proc.devRef .tc main_v35) = brow (arr m c main_arg13) :=
  (W6_of_ne m ρ c main_v35 (by decide)).trans (f5_v35 m ρ c)

theorem f6_v36 : W6 m ρ c (Proc.devRef .tc main_v36) = brow (arr m c main_arg14) :=
  (W6_of_ne m ρ c main_v36 (by decide)).trans (f5_v36 m ρ c)

theorem f6_arg15 : W6 m ρ c (Proc.devRef .tc main_arg15) = arr m c main_arg15 :=
  (W6_of_ne m ρ c main_arg15 (by decide)).trans (f5_arg15 m ρ c)

theorem f6_v37 : W6 m ρ c (Proc.devRef .tc main_v37) = brow (arr m c main_arg16) :=
  (W6_of_ne m ρ c main_v37 (by decide)).trans (f5_v37 m ρ c)

theorem f7_arg0 : W7 m ρ c (Proc.devRef .tc main_arg0) = arr m c main_arg0 :=
  (StableHlo.after_of_forall_not_mem (b := Proc.devRef .tc main_arg0) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (f6_arg0 m ρ c)

theorem f7_v33 : W7 m ρ c (Proc.devRef .tc main_v33) = agg m c :=
  (StableHlo.after_of_forall_not_mem (b := Proc.devRef .tc main_v33) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (f6_v33 m ρ c)

theorem f7_arg11 : W7 m ρ c (Proc.devRef .tc main_arg11) = arr m c main_arg11 :=
  (StableHlo.after_of_forall_not_mem (b := Proc.devRef .tc main_arg11) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (f6_arg11 m ρ c)

theorem f7_v34 : W7 m ρ c (Proc.devRef .tc main_v34) = brow (arr m c main_arg12) :=
  (StableHlo.after_of_forall_not_mem (b := Proc.devRef .tc main_v34) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (f6_v34 m ρ c)

theorem f7_v40 : W7 m ρ c (Proc.devRef .tc main_v40) = mu2 m c := by
  show StableHlo.after hostOps3 (W6 m ρ c) (Proc.devRef .tc main_v40) = _
  after_results_simp
  rw [f6_v38_0 m ρ c]
  rfl

theorem f7_v44 : W7 m ρ c (Proc.devRef .tc main_v44) = var2 m c := by
  show StableHlo.after hostOps3 (W6 m ρ c) (Proc.devRef .tc main_v44) = _
  after_results_simp
  rw [f6_v38_1 m ρ c, f6_v38_0 m ρ c]
  rfl

theorem f7_v35 : W7 m ρ c (Proc.devRef .tc main_v35) = brow (arr m c main_arg13) :=
  (StableHlo.after_of_forall_not_mem (b := Proc.devRef .tc main_v35) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (f6_v35 m ρ c)

theorem f7_v36 : W7 m ρ c (Proc.devRef .tc main_v36) = brow (arr m c main_arg14) :=
  (StableHlo.after_of_forall_not_mem (b := Proc.devRef .tc main_v36) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (f6_v36 m ρ c)

theorem f7_arg15 : W7 m ρ c (Proc.devRef .tc main_arg15) = arr m c main_arg15 :=
  (StableHlo.after_of_forall_not_mem (b := Proc.devRef .tc main_arg15) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (f6_arg15 m ρ c)

theorem f7_v37 : W7 m ρ c (Proc.devRef .tc main_v37) = brow (arr m c main_arg16) :=
  (StableHlo.after_of_forall_not_mem (b := Proc.devRef .tc main_v37) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (f6_v37 m ρ c)

theorem v3_0 : V7 m ρ c (Pipeline.arrRef spec3 0) = arr m c main_arg0 := f7_arg0 m ρ c

theorem v3_1 : V7 m ρ c (Pipeline.arrRef spec3 1) = agg m c := f7_v33 m ρ c

theorem v3_2 : V7 m ρ c (Pipeline.arrRef spec3 2) = arr m c main_arg11 := f7_arg11 m ρ c

theorem v3_3 : V7 m ρ c (Pipeline.arrRef spec3 3) = brow (arr m c main_arg12) := f7_v34 m ρ c

theorem v3_4 : V7 m ρ c (Pipeline.arrRef spec3 4) = mu2 m c := f7_v40 m ρ c

theorem v3_5 : V7 m ρ c (Pipeline.arrRef spec3 5) = var2 m c := f7_v44 m ρ c

theorem v3_6 : V7 m ρ c (Pipeline.arrRef spec3 6) = brow (arr m c main_arg13) := f7_v35 m ρ c

theorem v3_7 : V7 m ρ c (Pipeline.arrRef spec3 7) = brow (arr m c main_arg14) := f7_v36 m ρ c

theorem v3_8 : V7 m ρ c (Pipeline.arrRef spec3 8) = arr m c main_arg15 := f7_arg15 m ρ c

theorem v3_9 : V7 m ρ c (Pipeline.arrRef spec3 9) = brow (arr m c main_arg16) := f7_v37 m ρ c

theorem f8_v45 : W8 m ρ c (Proc.devRef .tc main_v45) = kout m c := by
  refine (W8_arr m ρ c 10).trans ?_
  exact (Cert.KernelIdeal.MainK.out3 (V7 m ρ) c).trans
    (G3_congr (V7 m ρ) c _ _ _ _ _ _ _ _ _ _ (v3_0 m ρ c) (v3_1 m ρ c) (v3_2 m ρ c) (v3_3 m ρ c) (v3_4 m ρ c) (v3_5 m ρ c) (v3_6 m ρ c) (v3_7 m ρ c) (v3_8 m ρ c) (v3_9 m ρ c))

end Cert.KernelIdeal.KVal

end
-- ==== Proof.KernelRun.lean ====
/-
  The run of the four-region program with its result NAMED.

  Every weakly fair execution of the program terminates without a fault; in the final state the result array holds what
  the last region's write-backs leave (the contents `W8` of the last segment boundary, read at the result's buffer) and
  every argument array is as launched.  The segments, their proof data and the chain of boundary contents are the frame
  certificate's; only the final reading differs: it keeps the result's buffer beside the arguments'.
-/
import proofs.«139705_j25838523252951_1_alg».proof.Proof.Gen.KernelIdeal.Frame

set_option maxRecDepth 16384

noncomputable section

namespace Cert.KernelIdeal.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result's buffer ends at the last boundary's contents, the arguments as launched. -/
theorem run : θ_run defs (onTc (τ := τ) (main (F := F))) ⟨m, fun _ => 0, ρ⟩ (fun r => ∀ c : Dev nD,
      r.2.mem ((c.tc : Thread nD τ).loc main_v45) = W8 m ρ c (Proc.devRef .tc main_v45)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v45 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c),
       (h c _ (mem_uc main_arg10 (by decide))).trans (W8_main_arg10 m ρ c),
       (h c _ (mem_uc main_arg11 (by decide))).trans (W8_main_arg11 m ρ c),
       (h c _ (mem_uc main_arg12 (by decide))).trans (W8_main_arg12 m ρ c),
       (h c _ (mem_uc main_arg13 (by decide))).trans (W8_main_arg13 m ρ c),
       (h c _ (mem_uc main_arg14 (by decide))).trans (W8_main_arg14 m ρ c),
       (h c _ (mem_uc main_arg15 (by decide))).trans (W8_main_arg15 m ρ c),
       (h c _ (mem_uc main_arg16 (by decide))).trans (W8_main_arg16 m ρ c)⟩)

end Cert.KernelIdeal.KRun

end
-- ==== Proof.KernelValue.lean ====
/-
  The result array of the four-region program is the network of the specification with the ONE-PASS variances.

  The named arrays of the program's run unfold to the specification: a one-row array divided by the broadcast count is
  `divRow`, so the means are `colMean`; `s2 − μ·μ` over them is `varOne`; a vector reshaped to one row is `row`.
-/
import proofs.«139705_j25838523252951_1_alg».proof.Proof.Levels4
import proofs.«139705_j25838523252951_1_alg».proof.Proof.KernelRun

set_option maxRecDepth 16384

noncomputable section

namespace Cert.KernelIdeal.KVal

open Idealize.ShloMosaic Idealize.ShloMosaic.TcCoe Idealize.SL.Sem
open Cert.Dense Cert.Mpnn Cert.Mpnn.Glue Cert.KernelIdeal Cert.KernelIdeal.Gen

variable (m : (ℓ : Loc nD τ sig) → Buf (Elt Ideal) ℓ) (ρ : Dev nD → PrngReg) (c : Dev nD)

theorem overE_eq (S : F32 S1x128) : overE S = divRow S nE := divf_bcast S _

theorem overN_eq (S : F32 S1x128) : overN S = divRow S nN := divf_bcast S _

theorem brow_eq (v : F32 S128) : brow v = row v := reshape_row v

theorem mu1_eq : mu1 m c = colMean nE (y1 m c) := overE_eq _

theorem var1_eq : var1 m c = varOne nE (y1 m c) := by
  unfold var1
  rw [sub_sq, overE_eq, mu1_eq]
  rfl

theorem mu2_eq : mu2 m c = colMean nN (y2 m c) := overN_eq _

theorem var2_eq : var2 m c = varOne nN (y2 m c) := by
  unfold var2
  rw [sub_sq, overN_eq, mu2_eq]
  rfl

theorem kout_eq : kout m c = netOf m c (varOne nE) (varOne nN) := by
  unfold kout
  rw [mu2_eq, var2_eq]
  unfold y2 agg msg
  rw [mu1_eq, var1_eq]
  unfold y1
  simp only [brow_eq]
  rfl

/-- The run with the result named by the specification. -/
theorem run : θ_run defs (onTc (τ := τ) (main (F := Ideal))) ⟨m, fun _ => 0, ρ⟩ (fun r => ∀ c : Dev nD,
      r.2.mem ((c.tc : Thread nD τ).loc main_v45) = netOf m c (varOne nE) (varOne nN)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun r h c => ⟨((h c).1.trans (f8_v45 m ρ c)).trans (kout_eq m c), (h c).2⟩) (Cert.KernelIdeal.KRun.run m ρ)

end Cert.KernelIdeal.KVal

end
-- ==== Proof.VarLaw.lean ====
/-
  The one-pass and the two-pass column variances agree on columns of real numbers.

  For one column `y` of `M ≥ 1` real numbers, with `n = M` and `μ = (∑ y)/n`, both `(∑ y²)/n − μ·μ` and
  `(∑ (y − μ)²)/n` are coercions of real expressions: every sum of coercions is the coercion of the real sum, the
  quotient by the nonzero real `n` is the product with `1/n`, and products and differences of coercions are coercions.
  Over the reals `∑ (y − μ)² = ∑ y² − 2μ ∑ y + M μ² = ∑ y² − M μ²`, so the two real expressions are one number, and it
  is a mean of squares, hence nonnegative.  Nothing of this survives an infinite entry (then `∞ − ∞` appears in the
  one-pass form only), which is why every entry is asked to be a real number.
-/
import proofs.«139705_j25838523252951_1_alg».proof.Proof.Spec

noncomputable section

open scoped BigOperators

namespace Cert.Mpnn

open Idealize.ShloMosaic Idealize.ShloMosaic.ValueIdx Cert.Dense Cert.BiasRow Cert.GcnStats

/-- One column: both variances of `M ≥ 1` real numbers about their mean `μ = (∑ y)/M` are the coercion of one
    nonnegative real number. -/
theorem var_column {M : ℕ} (hpos : 0 < M) (n : EReal) (hn : n = ((M : ℝ) : EReal)) (y : Fin M → EReal)
    (hy : ∀ p, IsReal (y p)) (mu : EReal) (hmu : mu = Ideal.div (∑ p : Fin M, y p) n) :
    ∃ r : ℝ, 0 ≤ r ∧ Ideal.div (∑ p : Fin M, y p * y p) n - mu * mu = (r : EReal) ∧
      Ideal.div (∑ p : Fin M, (y p - mu) * (y p - mu)) n = (r : EReal) := by
  have hNr : (M : ℝ) ≠ 0 := by exact_mod_cast hpos.ne'
  choose z hz using hy
  have hmu' : mu = (((∑ p : Fin M, z p) * (1 / (M : ℝ)) : ℝ) : EReal) := by
    rw [hmu, hn, Ideal.div_coe hNr]
    simp only [hz, ← Cert.MeanAffine.coe_sum, ← EReal.coe_mul]
  refine ⟨(∑ p : Fin M, (z p - (∑ p : Fin M, z p) * (1 / (M : ℝ))) * (z p - (∑ p : Fin M, z p) * (1 / (M : ℝ))))
      * (1 / (M : ℝ)), mul_nonneg (Finset.sum_nonneg fun p _ => mul_self_nonneg _) (by positivity), ?_, ?_⟩
  · rw [hn, Ideal.div_coe hNr, hmu']
    simp only [hz, ← EReal.coe_mul, ← EReal.coe_sub, ← Cert.MeanAffine.coe_sum]
    rw [real_var hpos z _ rfl]
  · rw [hn, Ideal.div_coe hNr, hmu']
    simp only [hz, ← EReal.coe_mul, ← EReal.coe_sub, ← Cert.MeanAffine.coe_sum]

/-- The one-pass variance is the two-pass variance when every entry is a real number and `n` is the number of rows. -/
theorem varOne_eq_varTwo {M K : ℕ} (hpos : 0 < M) (n : EReal) (hn : n = ((M : ℝ) : EReal)) (Y : Mat M K)
    (hY : ∀ i, IsReal (Y i)) : varOne n Y = varTwo n Y := by
  funext i
  obtain ⟨r, _, h1, h2⟩ := var_column hpos n hn (fun p => Y (ix2 p (c1 i))) (fun p => hY _) (colMean n Y i) rfl
  exact h1.trans h2.symm

/-- The two-pass variance of real entries is a nonnegative real number in every column. -/
theorem varTwo_nonneg_real {M K : ℕ} (hpos : 0 < M) (n : EReal) (hn : n = ((M : ℝ) : EReal)) (Y : Mat M K)
    (hY : ∀ i, IsReal (Y i)) : ∀ i, ∃ r : ℝ, 0 ≤ r ∧ varTwo n Y i = (r : EReal) := by
  intro i
  obtain ⟨r, hr, _, h2⟩ := var_column hpos n hn (fun p => Y (ix2 p (c1 i))) (fun p => hY _) (colMean n Y i) rfl
  exact ⟨r, hr, h2⟩

end Cert.Mpnn

end
-- ==== Proof.RealNet.lean ====
/-
  Every stage of the network maps arrays of real numbers to arrays of real numbers, and on such arrays the network
  built on the one-pass variance is the network built on the two-pass variance.

  Sums, products and differences of real numbers are real; a maximum of two real numbers is one of them; a quotient by
  a nonzero real number is a product with a real number; the reciprocal square root of a positive real number is a
  real number, and `variance + ε` is positive because the two-pass variance is a nonnegative real number and `ε` a
  positive one.  So the first layer of the edge network is real, there the two variances agree, hence the messages are
  real (this uses the two-pass form, whose nonnegativity is known), hence so is what the node network normalises, and
  there the two variances agree again.
-/
import proofs.«139705_j25838523252951_1_alg».proof.Proof.Spec
import proofs.«139705_j25838523252951_1_alg».proof.Proof.VarLaw

noncomputable section

open scoped BigOperators

namespace Cert.Mpnn

open Idealize.ShloMosaic Idealize.ShloMosaic.ValueIdx Cert.Dense Cert.BiasRow Cert.GcnStats

/-- Every entry of an array is a real number. -/
abbrev RealArr {ι : Type} (X : ι → EReal) : Prop := ∀ i, IsReal (X i)

/-- The larger of two real numbers is a real number. -/
theorem isReal_max {a b : EReal} (ha : IsReal a) (hb : IsReal b) : IsReal (max a b) := by
  rcases max_choice a b with h | h
  · rw [h]; exact ha
  · rw [h]; exact hb

theorem real_mm {M K N : ℕ} (A : Mat M K) (B : Mat K N) (hA : RealArr A) (hB : RealArr B) : RealArr (mm A B) := by
  intro i
  show IsReal (∑ k : Fin K, A (ix2 (c0 i) k) * B (ix2 k (c1 i)))
  exact isReal_sum _ _ fun k _ => (hA _).mul (hB _)

theorem real_addRow {M N : ℕ} (X : Mat M N) (b : Mat 1 N) (hX : RealArr X) (hb : RealArr b) : RealArr (addRow X b) :=
  fun i => (hX i).add (hb _)

theorem real_slab {R C : ℕ} (o r : ℕ) (h : o + r ≤ R) (W : Mat R C) (hW : RealArr W) : RealArr (slab o r h W) :=
  fun _ => hW _

theorem real_pre3 {E A B H : ℕ} (XR XC : Mat E A) (EA : Mat E B) (Wr Wc : Mat A H) (We : Mat B H) (b : Mat 1 H)
    (hXR : RealArr XR) (hXC : RealArr XC) (hEA : RealArr EA) (hWr : RealArr Wr) (hWc : RealArr Wc) (hWe : RealArr We)
    (hb : RealArr b) : RealArr (pre3 XR XC EA Wr Wc We b) :=
  real_addRow _ b
    (fun i => ((real_mm XR Wr hXR hWr i).add (real_mm XC Wc hXC hWc i)).add (real_mm EA We hEA hWe i)) hb

theorem real_pre2 {N A B H : ℕ} (X : Mat N A) (G : Mat N B) (Wx : Mat A H) (Wa : Mat B H) (b : Mat 1 H)
    (hX : RealArr X) (hG : RealArr G) (hWx : RealArr Wx) (hWa : RealArr Wa) (hb : RealArr b) :
    RealArr (pre2 X G Wx Wa b) :=
  real_addRow _ b (fun i => (real_mm X Wx hX hWx i).add (real_mm G Wa hG hWa i)) hb

theorem real_sumCols {M K : ℕ} (Y : Mat M K) (hY : RealArr Y) : RealArr (sumCols Y) := by
  intro i
  show IsReal (∑ p : Fin M, Y (ix2 p (c1 i)))
  exact isReal_sum _ _ fun p _ => hY _

/-- The column means of real entries over a nonzero real count are real numbers. -/
theorem real_colMean {M K : ℕ} (n : EReal) (hn : ∃ r : ℝ, r ≠ 0 ∧ n = (r : EReal)) (Y : Mat M K) (hY : RealArr Y) :
    RealArr (colMean n Y) := by
  intro i
  obtain ⟨r, hr, rfl⟩ := hn
  show IsReal (Ideal.div (sumCols Y i) (r : EReal))
  exact isReal_div_coe (real_sumCols Y hY i) hr

theorem real_varTwo {M K : ℕ} (hpos : 0 < M) (n : EReal) (hn : n = ((M : ℝ) : EReal)) (Y : Mat M K) (hY : RealArr Y) :
    RealArr (varTwo n Y) := by
  intro i
  obtain ⟨r, _, h⟩ := varTwo_nonneg_real hpos n hn Y hY i
  exact ⟨r, h⟩

/-- A nonnegative real variance shifted by a positive real number has a real reciprocal square root. -/
theorem real_rsqrt_shift {K : ℕ} (var : Mat 1 K) (hv : ∀ i, ∃ r : ℝ, 0 ≤ r ∧ var i = (r : EReal)) (eps : EReal)
    (heps : ∃ r : ℝ, 0 < r ∧ eps = (r : EReal)) : ∀ i, IsReal (Ideal.rsqrt (var i + eps)) := by
  intro i
  obtain ⟨v, hv0, hve⟩ := hv i
  obtain ⟨e, he0, rfl⟩ := heps
  rw [hve, ← EReal.coe_add]
  exact isReal_rsqrt_pos (isReal_coe _) (EReal.coe_pos.mpr (add_pos_of_nonneg_of_pos hv0 he0))

theorem real_bnRelu {M K : ℕ} (Y : Mat M K) (mu var ga be : Mat 1 K) (eps : EReal) (hY : RealArr Y) (hmu : RealArr mu)
    (hga : RealArr ga) (hbe : RealArr be) (hrs : ∀ i, IsReal (Ideal.rsqrt (var i + eps))) :
    RealArr (bnRelu Y mu var ga be eps) :=
  fun i => isReal_max (((((hY i).sub (hmu _)).mul (hrs _)).mul (hga _)).add (hbe _)) isReal_zero

theorem real_relu {M K : ℕ} (X : Mat M K) (hX : RealArr X) : RealArr (relu X) :=
  fun i => isReal_max (hX i) isReal_zero

theorem real_tailE {E H : ℕ} (Y : Mat E H) (mu var ga be : Mat 1 H) (eps : EReal) (W2 : Mat H H) (b2 : Mat 1 H)
    (Wm : Mat H H) (bm : Mat 1 H) (hY : RealArr Y) (hmu : RealArr mu) (hga : RealArr ga) (hbe : RealArr be)
    (hrs : ∀ i, IsReal (Ideal.rsqrt (var i + eps))) (hW2 : RealArr W2) (hb2 : RealArr b2) (hWm : RealArr Wm)
    (hbm : RealArr bm) : RealArr (tailE Y mu var ga be eps W2 b2 Wm bm) :=
  real_relu _ (real_addRow _ bm (real_mm _ Wm (real_addRow _ b2
    (real_mm _ W2 (real_bnRelu Y mu var ga be eps hY hmu hga hbe hrs) hW2) hb2) hWm) hbm)

theorem real_tailN {N H : ℕ} (Y : Mat N H) (mu var ga be : Mat 1 H) (eps : EReal) (W2 : Mat H H) (b2 : Mat 1 H)
    (hY : RealArr Y) (hmu : RealArr mu) (hga : RealArr ga) (hbe : RealArr be)
    (hrs : ∀ i, IsReal (Ideal.rsqrt (var i + eps))) (hW2 : RealArr W2) (hb2 : RealArr b2) :
    RealArr (tailN Y mu var ga be eps W2 b2) :=
  real_addRow _ b2 (real_mm _ W2 (real_bnRelu Y mu var ga be eps hY hmu hga hbe hrs) hW2) hb2

/-- On real arguments, with `nE`, `nN` the two row counts, `ε` a positive real number and a segment sum that keeps
    real arrays real, the network over the one-pass variances is the network over the two-pass variances. -/
theorem net_one_eq_two {E N : ℕ} (hE : 0 < E) (hN : 0 < N)
    (XR XC : Mat E 64) (EA : Mat E 16) (scat : Mat E 128 → Mat N 128) (x : Mat N 64)
    (We1 : Mat 144 128) (be1 ge bbe : Mat 1 128) (We2 : Mat 128 128) (be2 : Mat 1 128) (Wm : Mat 128 128) (bm : Mat 1 128)
    (Wn1 : Mat 192 128) (bn1 gn bbn : Mat 1 128) (Wn2 : Mat 128 128) (bn2 : Mat 1 128) (nE nN eps : EReal)
    (hnE : nE = ((E : ℝ) : EReal)) (hnN : nN = ((N : ℝ) : EReal)) (heps : ∃ r : ℝ, 0 < r ∧ eps = (r : EReal))
    (hXR : RealArr XR) (hXC : RealArr XC) (hEA : RealArr EA) (hx : RealArr x)
    (hWe1 : RealArr We1) (hbe1 : RealArr be1) (hge : RealArr ge) (hbbe : RealArr bbe) (hWe2 : RealArr We2)
    (hbe2 : RealArr be2) (hWm : RealArr Wm) (hbm : RealArr bm)
    (hWn1 : RealArr Wn1) (hbn1 : RealArr bn1)
    (hscat : ∀ M : Mat E 128, RealArr M → RealArr (scat M)) :
    net (varOne nE) (varOne nN) XR XC EA scat x We1 be1 ge bbe We2 be2 Wm bm Wn1 bn1 gn bbn Wn2 bn2 nE nN eps
      = net (varTwo nE) (varTwo nN) XR XC EA scat x We1 be1 ge bbe We2 be2 Wm bm Wn1 bn1 gn bbn Wn2 bn2 nE nN eps := by
  have hY := real_pre3 XR XC EA _ _ _ be1 hXR hXC hEA (real_slab 0 64 (by omega) We1 hWe1)
    (real_slab 64 64 (by omega) We1 hWe1) (real_slab 128 16 (by omega) We1 hWe1) hbe1
  have e1 := varOne_eq_varTwo hE nE hnE _ hY
  have hmuE := real_colMean nE ⟨(E : ℝ), Nat.cast_ne_zero.mpr hE.ne', hnE⟩ _ hY
  have hrsE := real_rsqrt_shift _ (varTwo_nonneg_real hE nE hnE _ hY) eps heps
  have hT := real_tailE _ _ _ ge bbe eps We2 be2 Wm bm hY hmuE hge hbbe hrsE hWe2 hbe2 hWm hbm
  have hZ := real_pre2 x _ _ _ bn1 hx (hscat _ hT) (real_slab 0 64 (by omega) Wn1 hWn1)
    (real_slab 64 128 (by omega) Wn1 hWn1) hbn1
  have e2 := varOne_eq_varTwo hN nN hnN _ hZ
  unfold net
  rw [e1, e2]

end Cert.Mpnn

end
-- ==== Proof.LibFiniteReal.lean ====
/-
  Real numbers among the extended reals: what a finiteness test says, and which host operations keep arrays real.

  A float precondition of the form `all (|x| < +∞)` reaches a proof as a reduction by `and`, from the constant one, of
  the comparison of `|x|` (the host's `max x (−x)`) with the broadcast pattern of `+∞`, stated to be one.  Then every
  comparison is one; a comparison `a < b` that is one means `a < b`; and `max x (−x) < ⊤` excludes both infinities, so
  `x` is the coercion of a real number.

  A gather only re-reads entries of its operand, so it keeps a real array real whatever its indices are.  An
  accumulating scatter is, entry by entry, the operand's entry plus a finite sum of update entries, so it keeps real
  arrays real.  A broadcast of the zero pattern is the real number zero everywhere.
-/
import Idealize.ShloMosaic.PureOps
import Idealize.ShloMosaic.PureOps.Ideal
import Idealize.ShloMosaic.PureOps.Ideal.Laws
import Idealize.ShloMosaic.Lib.ValueIdx
import Idealize.ShloMosaic.Lib.ReduceAll
import proofs.«139705_j25838523252951_1_alg».proof.Proof.LibGcnStats

noncomputable section

open scoped BigOperators

namespace Cert.FiniteReal

open Idealize.ShloMosaic Idealize.ShloMosaic.ValueIdx Cert.GcnStats

/-- The scalar shape has one index. -/
instance : Subsingleton (⟨0, ![]⟩ : Shape).Idx := ⟨fun a b => funext fun d => d.elim0⟩

/-- The pattern with all exponent bits set and a zero significand denotes `+∞`. -/
theorem ofBits_inf : Ideal.ofBits .f32 0x7F800000#32 = ⊤ := by
  simp [Ideal.ofBits, Ideal.ieee]

/-- An ordered `less than` whose word is one says `a < b`. -/
theorem lt_of_cmp_olt {a b : EReal} (h : Ideal.cmp .olt a b = 1#1) : a < b := by
  by_contra hn
  have h' : BitVec.ofBool (decide (a < b)) = 1#1 := h
  rw [decide_eq_false hn] at h'
  exact absurd h' (by decide)

/-- An extended real whose absolute value tests below the pattern of `+∞` is a real number. -/
theorem isReal_of_abs_lt_inf (x : EReal)
    (h : Ideal.cmp .olt (max x (-x)) (Ideal.ofBits .f32 0x7F800000#32) = 1#1) : IsReal x := by
  rw [ofBits_inf] at h
  obtain ⟨h1, h2⟩ := max_lt_iff.mp (lt_of_cmp_olt h)
  have hb : x ≠ ⊥ := by
    intro hx
    rw [hx, EReal.neg_bot] at h2
    exact lt_irrefl _ h2
  exact ⟨x.toReal, (EReal.coe_toReal h1.ne hb).symm⟩

/-- `all (|X| < +∞)` stated as one makes every entry of `X` a real number. -/
theorem real_of_all_finite {s : Shape} {axes : List (Fin s.rank)} (X : FVec Ideal s .f32)
    (hb : (⟨0, ![]⟩ : Shape).BroadcastsInDim s (![] : Fin 0 → Fin s.rank))
    (hr : s.ReducesTo axes ⟨0, ![]⟩) (hu : 0 < (⟨0, ![]⟩ : Shape).numel)
    (h : Host.reduce IntOp.andi
        (cmpf (F := Ideal) .olt (Host.absf (F := Ideal) X)
          (broadcastInDim s ![] hb (constant (F := Ideal) ⟨0, ![]⟩ .f32 0x7F800000#32)))
        (constantI ⟨0, ![]⟩ 1 1#1) hr hu ix0 = 1#1) : ∀ i, IsReal (X i) := by
  intro i
  have hi := Host.reduce_andi_all _ _ hr hu ix0 h i
  exact isReal_of_abs_lt_inf (X i) hi

/-- A conjunction of two scalar truth values that is one has both conjuncts one. -/
theorem and_ix0 (x y : IVec ⟨0, ![]⟩ 1) (h : andi x y ix0 = 1#1) : x ix0 = 1#1 ∧ y ix0 = 1#1 :=
  IntOp.andi_eq_one.mp h

/-- A gather of a real array is real. -/
theorem real_gather {s si t : Shape} {w : ℕ} (d : GatherDims s si t) (x : s.Idx → EReal) (idx : IVec si w)
    (hx : ∀ i, IsReal (x i)) : ∀ j, IsReal (Host.gather d x idx j) := by
  intro j
  show IsReal (x (d.operandIdx j idx))
  exact hx _

/-- An accumulating scatter of real updates into a real operand is real. -/
theorem real_scatterAdd {s si u : Shape} {w : ℕ} (d : ScatterDims s si u) (x : FVec Ideal s .f32) (idx : IVec si w)
    (upd : FVec Ideal u .f32) (hx : ∀ i, IsReal (x i)) (hu : ∀ i, IsReal (upd i)) :
    ∀ j, IsReal (Host.scatterAdd (F := Ideal) d x idx upd j) := by
  intro j
  show IsReal (Ideal.hostScatterAdd d x idx upd j)
  unfold Ideal.hostScatterAdd
  exact (hx j).add (isReal_sum _ _ fun k _ => hu k)

/-- The zero pattern broadcast to any shape is the real number zero everywhere. -/
theorem real_bcast_zero {t : Shape} (hb : (⟨0, ![]⟩ : Shape).BroadcastsInDim t (![] : Fin 0 → Fin t.rank)) :
    ∀ j, IsReal (broadcastInDim t ![] hb (constant (F := Ideal) ⟨0, ![]⟩ .f32 0x00000000#32) j) := by
  intro j
  show IsReal (Ideal.ofBits .f32 0x00000000#32)
  rw [Ideal.ofBits_zero_f32]
  exact isReal_zero

end Cert.FiniteReal

end
-- ==== Proof.Consts.lean ====
/-
  The three float constants of the network as the extended reals their single-precision patterns denote.

  A normal pattern with exponent field `E` and trailing significand `T` denotes `(2^23 + T) · 2^(E − 127 − 23)`.
  The two row counts: `0x49435000` has `E = 146`, `T = 0x435000`, so `12800000 · 2^(−4) = 800000`; `0x47435000` has
  `E = 142` and the same significand, so `12800000 · 2^(−8) = 50000`.  The shift under the square root, `0x3727C5AC`,
  has `E = 110`, `T = 0x27C5AC`, so it denotes `10995116 · 2^(−40)` (the single nearest `10^(−5)`): of it only that it is a
  positive real number is used.
-/
import proofs.«139705_j25838523252951_1_alg».proof.Proof.LibFiniteReal

noncomputable section

namespace Cert.Mpnn

open Idealize.ShloMosaic

/-- The pattern of `800000.0`. -/
theorem ofBits_800000 : Ideal.ofBits .f32 0x49435000#32 = ((800000 : ℝ) : EReal) := by
  simp [Ideal.ofBits, Ideal.ieee, -EReal.coe_mul]; norm_num

/-- The pattern of `50000.0`. -/
theorem ofBits_50000 : Ideal.ofBits .f32 0x47435000#32 = ((50000 : ℝ) : EReal) := by
  simp [Ideal.ofBits, Ideal.ieee, -EReal.coe_mul]; norm_num

/-- The edge count as the cast of the natural number `800000`. -/
theorem ofBits_800000_nat : Ideal.ofBits .f32 0x49435000#32 = (((800000 : ℕ) : ℝ) : EReal) := by
  rw [ofBits_800000, Nat.cast_ofNat]

/-- The node count as the cast of the natural number `50000`. -/
theorem ofBits_50000_nat : Ideal.ofBits .f32 0x47435000#32 = (((50000 : ℕ) : ℝ) : EReal) := by
  rw [ofBits_50000, Nat.cast_ofNat]

/-- The shift under the square root denotes a positive real number. -/
theorem ofBits_eps_pos : ∃ r : ℝ, 0 < r ∧ Ideal.ofBits .f32 0x3727C5AC#32 = (r : EReal) := by
  refine ⟨(10995116 : ℝ) * (2 : ℝ) ^ (-40 : ℤ), by positivity, ?_⟩
  simp [Ideal.ofBits, Ideal.ieee, -EReal.coe_mul]

end Cert.Mpnn

end
-- ==== Proof.Finite.lean ====
/-
  Under the precondition every float argument array holds real numbers only.

  The precondition is the conjunction, over the sixteen float arguments, of `all (|X| < +∞)`, stated to be one on every
  device.  A conjunction that is one has every conjunct one, and each conjunct makes every entry of its array a real
  number.  The integer edge index is not constrained.
-/
import proofs.«139705_j25838523252951_1_alg».proof.Defs
import proofs.«139705_j25838523252951_1_alg».proof.Pre_finite_inputs
import proofs.«139705_j25838523252951_1_alg».proof.Proof.LibFiniteReal

noncomputable section

namespace Cert.Mpnn

open Idealize.ShloMosaic Idealize.ShloMosaic.ValueIdx Cert.GcnStats Cert.FiniteReal

variable [Cert.Pre_finite_inputs.Facts]

section
open Cert.Pre_finite_inputs

/-- The precondition over any seventeen arrays: all sixteen float arrays are real. -/
theorem fn_real (a0 : FVec Ideal S50000x64 .f32) (a1 : IVec S2x800000 32) (a2 : FVec Ideal S800000x16 .f32)
    (a3 : FVec Ideal S144x128 .f32) (a4 a5 a6 : FVec Ideal S128 .f32) (a7 : FVec Ideal S128x128 .f32)
    (a8 : FVec Ideal S128 .f32) (a9 : FVec Ideal S128x128 .f32) (a10 : FVec Ideal S128 .f32)
    (a11 : FVec Ideal S192x128 .f32) (a12 a13 a14 : FVec Ideal S128 .f32) (a15 : FVec Ideal S128x128 .f32)
    (a16 : FVec Ideal S128 .f32)
    (h : Cert.Pre_finite_inputs.fn (F := Ideal) a0 a1 a2 a3 a4 a5 a6 a7 a8 a9 a10 a11 a12 a13 a14 a15 a16 = fun _ => 1#1) :
    (∀ i, IsReal (a0 i)) ∧ (∀ i, IsReal (a2 i)) ∧ (∀ i, IsReal (a3 i)) ∧ (∀ i, IsReal (a4 i)) ∧ (∀ i, IsReal (a5 i)) ∧
      (∀ i, IsReal (a6 i)) ∧ (∀ i, IsReal (a7 i)) ∧ (∀ i, IsReal (a8 i)) ∧ (∀ i, IsReal (a9 i)) ∧
      (∀ i, IsReal (a10 i)) ∧ (∀ i, IsReal (a11 i)) ∧ (∀ i, IsReal (a12 i)) ∧ (∀ i, IsReal (a13 i)) ∧
      (∀ i, IsReal (a14 i)) ∧ (∀ i, IsReal (a15 i)) ∧ (∀ i, IsReal (a16 i)) := by
  have h0 := congrFun h ix0
  dsimp only [Cert.Pre_finite_inputs.fn, Cert.Pre_finite_inputs.fn_part1, Cert.Pre_finite_inputs.fn_part2,
    Cert.Pre_finite_inputs.fn_part3, Cert.Pre_finite_inputs.fn_part4] at h0
  obtain ⟨h0, h16⟩ := and_ix0 _ _ h0
  obtain ⟨h0, h15⟩ := and_ix0 _ _ h0
  obtain ⟨h0, h14⟩ := and_ix0 _ _ h0
  obtain ⟨h0, h13⟩ := and_ix0 _ _ h0
  obtain ⟨h0, h12⟩ := and_ix0 _ _ h0
  obtain ⟨h0, h11⟩ := and_ix0 _ _ h0
  obtain ⟨h0, h10⟩ := and_ix0 _ _ h0
  obtain ⟨h0, h9⟩ := and_ix0 _ _ h0
  obtain ⟨h0, h8⟩ := and_ix0 _ _ h0
  obtain ⟨h0, h7⟩ := and_ix0 _ _ h0
  obtain ⟨h0, h6⟩ := and_ix0 _ _ h0
  obtain ⟨h0, h5⟩ := and_ix0 _ _ h0
  obtain ⟨h0, h4⟩ := and_ix0 _ _ h0
  obtain ⟨h0, h3⟩ := and_ix0 _ _ h0
  obtain ⟨h0, h2⟩ := and_ix0 _ _ h0
  exact ⟨real_of_all_finite a0 _ _ _ h0, real_of_all_finite a2 _ _ _ h2, real_of_all_finite a3 _ _ _ h3,
    real_of_all_finite a4 _ _ _ h4, real_of_all_finite a5 _ _ _ h5, real_of_all_finite a6 _ _ _ h6,
    real_of_all_finite a7 _ _ _ h7, real_of_all_finite a8 _ _ _ h8, real_of_all_finite a9 _ _ _ h9,
    real_of_all_finite a10 _ _ _ h10, real_of_all_finite a11 _ _ _ h11, real_of_all_finite a12 _ _ _ h12,
    real_of_all_finite a13 _ _ _ h13, real_of_all_finite a14 _ _ _ h14, real_of_all_finite a15 _ _ _ h15,
    real_of_all_finite a16 _ _ _ h16⟩

end

/-- Every float argument array of the idealized kernel, on device `c`, holds real numbers only. -/
structure RealArgs (m : (ℓ : Loc Cert.KernelIdeal.nD Cert.KernelIdeal.τ Cert.KernelIdeal.sig) → Buf (Elt Ideal) ℓ)
    (c : Dev Cert.KernelIdeal.nD) : Prop where
  arg0 : ∀ i, IsReal ((m ((c.tc : Thread Cert.KernelIdeal.nD Cert.KernelIdeal.τ).loc Cert.KernelIdeal.main_arg0)) i)
  arg2 : ∀ i, IsReal ((m ((c.tc : Thread Cert.KernelIdeal.nD Cert.KernelIdeal.τ).loc Cert.KernelIdeal.main_arg2)) i)
  arg3 : ∀ i, IsReal ((m ((c.tc : Thread Cert.KernelIdeal.nD Cert.KernelIdeal.τ).loc Cert.KernelIdeal.main_arg3)) i)
  arg4 : ∀ i, IsReal ((m ((c.tc : Thread Cert.KernelIdeal.nD Cert.KernelIdeal.τ).loc Cert.KernelIdeal.main_arg4)) i)
  arg5 : ∀ i, IsReal ((m ((c.tc : Thread Cert.KernelIdeal.nD Cert.KernelIdeal.τ).loc Cert.KernelIdeal.main_arg5)) i)
  arg6 : ∀ i, IsReal ((m ((c.tc : Thread Cert.KernelIdeal.nD Cert.KernelIdeal.τ).loc Cert.KernelIdeal.main_arg6)) i)
  arg7 : ∀ i, IsReal ((m ((c.tc : Thread Cert.KernelIdeal.nD Cert.KernelIdeal.τ).loc Cert.KernelIdeal.main_arg7)) i)
  arg8 : ∀ i, IsReal ((m ((c.tc : Thread Cert.KernelIdeal.nD Cert.KernelIdeal.τ).loc Cert.KernelIdeal.main_arg8)) i)
  arg9 : ∀ i, IsReal ((m ((c.tc : Thread Cert.KernelIdeal.nD Cert.KernelIdeal.τ).loc Cert.KernelIdeal.main_arg9)) i)
  arg10 : ∀ i, IsReal ((m ((c.tc : Thread Cert.KernelIdeal.nD Cert.KernelIdeal.τ).loc Cert.KernelIdeal.main_arg10)) i)
  arg11 : ∀ i, IsReal ((m ((c.tc : Thread Cert.KernelIdeal.nD Cert.KernelIdeal.τ).loc Cert.KernelIdeal.main_arg11)) i)
  arg12 : ∀ i, IsReal ((m ((c.tc : Thread Cert.KernelIdeal.nD Cert.KernelIdeal.τ).loc Cert.KernelIdeal.main_arg12)) i)
  arg13 : ∀ i, IsReal ((m ((c.tc : Thread Cert.KernelIdeal.nD Cert.KernelIdeal.τ).loc Cert.KernelIdeal.main_arg13)) i)
  arg14 : ∀ i, IsReal ((m ((c.tc : Thread Cert.KernelIdeal.nD Cert.KernelIdeal.τ).loc Cert.KernelIdeal.main_arg14)) i)
  arg15 : ∀ i, IsReal ((m ((c.tc : Thread Cert.KernelIdeal.nD Cert.KernelIdeal.τ).loc Cert.KernelIdeal.main_arg15)) i)
  arg16 : ∀ i, IsReal ((m ((c.tc : Thread Cert.KernelIdeal.nD Cert.KernelIdeal.τ).loc Cert.KernelIdeal.main_arg16)) i)

/-- The precondition makes every float argument real, on every device. -/
theorem real_args (m : (ℓ : Loc Cert.KernelIdeal.nD Cert.KernelIdeal.τ Cert.KernelIdeal.sig) → Buf (Elt Ideal) ℓ)
    (hm : Cert.Pre_KernelIdeal m) (c : Dev Cert.KernelIdeal.nD) : RealArgs m c := by
  obtain ⟨h0, h2, h3, h4, h5, h6, h7, h8, h9, h10, h11, h12, h13, h14, h15, h16⟩ :=
    fn_real _ _ _ _ _ _ _ _ _ _ _ _ _ _ _ _ _ (hm c)
  exact ⟨h0, h2, h3, h4, h5, h6, h7, h8, h9, h10, h11, h12, h13, h14, h15, h16⟩

end Cert.Mpnn

end
-- ==== Proof.RealHost.lean ====
/-
  The two host operations around the kernels keep real arrays real.

  The gathered end-node rows are entries of `x` again, whatever the node numbers are; the per-node sums are, entry by
  entry, zero plus a finite sum of message entries.
-/
import proofs.«139705_j25838523252951_1_alg».proof.Proof.Glue
import proofs.«139705_j25838523252951_1_alg».proof.Proof.LibFiniteReal

noncomputable section

namespace Cert.Mpnn

open Idealize.ShloMosaic Idealize.ShloMosaic.ValueIdx Cert.GcnStats Cert.KernelIdeal

variable [Cert.KernelIdeal.Facts]

/-- The rows gathered from a real array are real. -/
theorem real_gath (x : Glue.F32 S50000x64) (hx : ∀ i, IsReal (x i)) (v : Glue.I32 S800000) :
    ∀ i, IsReal (Glue.gath x v i) := by
  intro i
  unfold Glue.gath
  exact Cert.FiniteReal.real_gather _ x _ hx i

/-- The per-node sums of real messages are real. -/
theorem real_scat (v : Glue.I32 S800000) (M : Glue.F32 S800000x128) (hM : ∀ i, IsReal (M i)) :
    ∀ i, IsReal (Glue.scat v M i) := by
  intro i
  unfold Glue.scat
  exact Cert.FiniteReal.real_scatterAdd _ _ _ M (Cert.FiniteReal.real_bcast_zero _) hM i

end Cert.Mpnn

end
-- ==== Proof.NetLaw.lean ====
/-
  On the launch memory of a core, under the precondition, the network over the one-pass variances is the network over
  the two-pass variances.

  The precondition makes every float argument array real.  The gathered end-node rows are entries of a real array, a
  vector laid out as one row has the vector's entries, the per-node sums of real messages are real, the two printed
  counts are the numbers of edges and of nodes, and the shift under the square root is a positive real number: these
  are the hypotheses of the law for the whole network.
-/
import proofs.«139705_j25838523252951_1_alg».proof.Proof.KArrays
import proofs.«139705_j25838523252951_1_alg».proof.Proof.RealNet
import proofs.«139705_j25838523252951_1_alg».proof.Proof.Consts
import proofs.«139705_j25838523252951_1_alg».proof.Proof.Finite
import proofs.«139705_j25838523252951_1_alg».proof.Proof.RealHost

noncomputable section

namespace Cert.KernelIdeal.KVal

open Idealize.ShloMosaic Idealize.ShloMosaic.TcCoe Idealize.ShloMosaic.ValueIdx Idealize.SL.Sem
open Cert.Dense Cert.Mpnn Cert.Mpnn.Glue Cert.KernelIdeal Cert.KernelIdeal.Gen Cert.GcnStats

/-- A real vector laid out as one row is a real row. -/
theorem real_row {N : ℕ} (b : Row N) (hb : ∀ i, IsReal (b i)) : RealArr (row b) := fun _ => hb _

/-- The network over the launch memory does not depend on which of the two variances it is built on. -/
theorem netOf_one_eq_two [Cert.Pre_finite_inputs.Facts] (m : (ℓ : Loc nD τ sig) → Buf (Elt Ideal) ℓ)
    (hm : Cert.Pre_KernelIdeal m) (c : Dev nD) :
    netOf m c (varOne nE) (varOne nN) = netOf m c (varTwo nE) (varTwo nN) := by
  have R := Cert.Mpnn.real_args m hm c
  have h0 : RealArr (arr m c main_arg0) := R.arg0
  have h2 : RealArr (arr m c main_arg2) := R.arg2
  have h3 : RealArr (arr m c main_arg3) := R.arg3
  have h4 : RealArr (arr m c main_arg4) := R.arg4
  have h5 : RealArr (arr m c main_arg5) := R.arg5
  have h6 : RealArr (arr m c main_arg6) := R.arg6
  have h7 : RealArr (arr m c main_arg7) := R.arg7
  have h8 : RealArr (arr m c main_arg8) := R.arg8
  have h9 : RealArr (arr m c main_arg9) := R.arg9
  have h10 : RealArr (arr m c main_arg10) := R.arg10
  have h11 : RealArr (arr m c main_arg11) := R.arg11
  have h12 : RealArr (arr m c main_arg12) := R.arg12
  have hxr : RealArr (xr m c) := real_gath _ h0 _
  have hxc : RealArr (xc m c) := real_gath _ h0 _
  unfold netOf
  exact net_one_eq_two (E := 800000) (N := 50000) (by norm_num) (by norm_num) _ _ _ _ _ _ _ _ _ _ _ _ _ _ _ _ _ _ _
    nE nN eps ofBits_800000_nat ofBits_50000_nat ofBits_eps_pos hxr hxc h2 h0 h3 (real_row _ h4) (real_row _ h5)
    (real_row _ h6) h7 (real_row _ h8) h9 (real_row _ h10) h11 (real_row _ h12)
    (fun M hM => real_scat _ M hM)

end Cert.KernelIdeal.KVal

end
-- ==== Proof.LibHostNorm.lean ====
/-
  Column-wise normalisation of a rank-2 array in the host's spelling, on the extended reals, at any extents.

  The host forms the column sums by a sum along the rows from a zero, lays the vector of sums out as one row, and divides
  by a broadcast count: the one-row array of column means.  It subtracts the means, broadcast back along the rows, squares,
  sums and divides again: the two-pass column variances.  It then multiplies the deviations by the broadcast reciprocal
  square root of variance plus epsilon, scales and shifts by two vectors laid along the rows, and takes the maximum with
  a broadcast zero.  Each of these whole-array terms is the corresponding function of `Cert.Mpnn`; a dot product plus a
  bias vector laid along the rows is the matrix product with the bias row added.
-/
import proofs.«139705_j25838523252951_1_alg».proof.Proof.Spec
import proofs.«139705_j25838523252951_1_alg».proof.Proof.LibHostLayout

noncomputable section

open scoped BigOperators

namespace Cert.HostNorm

open Idealize.ShloMosaic Idealize.ShloMosaic.ValueIdx Cert.Dense Cert.BiasRow Cert.Mpnn

section Layout

variable {α : Type}

/-- A vector `[K]` broadcast to one row `[1, K]` reads, at `(u, q)`, the vector at `q`. -/
theorem bcast_vec_row {K : ℕ} (b : (⟨1, ![K]⟩ : Shape).Idx → α)
    (h : (⟨1, ![K]⟩ : Shape).BroadcastsInDim ⟨2, ![1, K]⟩ ![1]) (u : Fin 1) (q : Fin K) :
    broadcastInDim ⟨2, ![1, K]⟩ ![1] h b (ix2 u q) = b (ix1 q) :=
  broadcastInDim_apply ![1] h b (ix2 u q) (ix1 q) fun a => by
    match a with
    | ⟨0, _⟩ =>
      show q.val = if K = 1 then 0 else q.val
      split
      · have := q.isLt; omega
      · rfl

/-- One row `[1, K]` broadcast to every row of `[M, K]` reads, at `(p, q)`, the row at column `q`. -/
theorem bcast_row_mat {M K : ℕ} (x : (⟨2, ![1, K]⟩ : Shape).Idx → α)
    (h : (⟨2, ![1, K]⟩ : Shape).BroadcastsInDim ⟨2, ![M, K]⟩ ![0, 1]) (p : Fin M) (q : Fin K) :
    broadcastInDim ⟨2, ![M, K]⟩ ![0, 1] h x (ix2 p q) = x (ix2 (0 : Fin 1) q) :=
  broadcastInDim_apply ![0, 1] h x (ix2 p q) (ix2 (0 : Fin 1) q) fun a => by
    match a with
    | ⟨0, _⟩ => rfl
    | ⟨1, _⟩ =>
      show q.val = if K = 1 then 0 else q.val
      split
      · have := q.isLt; omega
      · rfl

end Layout

section Host

variable {M K : ℕ} (X : FVec Ideal ⟨2, ![M, K]⟩ .f32) (cw ew : BitVec 32)
  (hr' : (⟨2, ![M, K]⟩ : Shape).ReducesTo [0] ⟨1, ![K]⟩)
  (hu : 0 < (⟨0, ![]⟩ : Shape).numel)
  (hv : (⟨1, ![K]⟩ : Shape).BroadcastsInDim ⟨2, ![1, K]⟩ ![1])
  (h0 : (⟨0, ![]⟩ : Shape).BroadcastsInDim ⟨2, ![1, K]⟩ ![])
  (hb : (⟨2, ![1, K]⟩ : Shape).BroadcastsInDim ⟨2, ![M, K]⟩ ![0, 1])
  (hz : (⟨0, ![]⟩ : Shape).BroadcastsInDim ⟨2, ![M, K]⟩ ![])

/-- The host's sum of an `[M, K]` array along its first axis reads, at column `q`, the initial value plus the sum of the
    column's entries. -/
theorem hostColSum (init : FVec Ideal ⟨0, ![]⟩ .f32) (hr : (⟨2, ![M, K]⟩ : Shape).Reduces [0] ⟨1, ![K]⟩) (q : Fin K) :
    Host.reduceAdd X init hr' hu (ix1 q) = init (Shape.Idx.first hu) + ∑ p : Fin M, X (ix2 p q) := by
  refine (Ideal.hostReduceAdd_single hr' hr X (init (Shape.Idx.first hu)) (ix1 q)).trans ?_
  refine congrArg (init (Shape.Idx.first hu) + ·) (Finset.sum_congr rfl fun k _ => congrArg X (funext fun ax => Fin.ext ?_))
  match ax with
  | ⟨0, _⟩ => rfl
  | ⟨1, _⟩ => rfl

/-- The host's column sums from a zero, laid out as one row, over the broadcast count: the row of column means. -/
theorem hostColMean (hr : (⟨2, ![M, K]⟩ : Shape).Reduces [0] ⟨1, ![K]⟩) :
    Host.divf (F := Ideal) (φ := .f32)
        (broadcastInDim ⟨2, ![1, K]⟩ ![1] hv
          (Host.reduceAdd X (constant (F := Ideal) ⟨0, ![]⟩ .f32 0x00000000#32) hr' hu))
        (broadcastInDim ⟨2, ![1, K]⟩ ![] h0 (constant (F := Ideal) ⟨0, ![]⟩ .f32 cw))
      = colMean (Ideal.ofBits .f32 cw) X := by
  funext i
  obtain ⟨u, q, rfl⟩ : ∃ (u : Fin 1) (q : Fin K), i = ix2 u q := ⟨i 0, i 1, eq_ix2 i⟩
  simp only [Host.divf]
  rw [bcast_vec_row, Cert.HostLayout.bcast_scalar_mat, hostColSum X hr' hu _ hr q]
  show Ideal.div (Ideal.ofBits .f32 0x00000000#32 + _) (Ideal.ofBits .f32 cw) = _
  rw [Ideal.ofBits_zero_f32, zero_add]
  rfl

/-- The host's column sums of the squared deviations from the broadcast means, laid out as one row, over the broadcast
    count: the row of two-pass column variances. -/
theorem hostVarTwo (hr : (⟨2, ![M, K]⟩ : Shape).Reduces [0] ⟨1, ![K]⟩) :
    Host.divf (F := Ideal) (φ := .f32)
        (broadcastInDim ⟨2, ![1, K]⟩ ![1] hv
          (Host.reduceAdd (F := Ideal) (φ := .f32)
            (mulf (F := Ideal) (φ := .f32)
              (subf (F := Ideal) (φ := .f32) X
                (broadcastInDim ⟨2, ![M, K]⟩ ![0, 1] hb (colMean (Ideal.ofBits .f32 cw) X)))
              (subf (F := Ideal) (φ := .f32) X
                (broadcastInDim ⟨2, ![M, K]⟩ ![0, 1] hb (colMean (Ideal.ofBits .f32 cw) X))))
            (constant (F := Ideal) ⟨0, ![]⟩ .f32 0x00000000#32) hr' hu))
        (broadcastInDim ⟨2, ![1, K]⟩ ![] h0 (constant (F := Ideal) ⟨0, ![]⟩ .f32 cw))
      = varTwo (Ideal.ofBits .f32 cw) X := by
  funext i
  obtain ⟨u, q, rfl⟩ : ∃ (u : Fin 1) (q : Fin K), i = ix2 u q := ⟨i 0, i 1, eq_ix2 i⟩
  simp only [Host.divf]
  rw [bcast_vec_row, Cert.HostLayout.bcast_scalar_mat, hostColSum _ hr' hu _ hr q]
  show Ideal.div (Ideal.ofBits .f32 0x00000000#32 + _) (Ideal.ofBits .f32 cw) = _
  rw [Ideal.ofBits_zero_f32, zero_add]
  show Ideal.div _ _ = Ideal.div _ _
  refine congrArg (Ideal.div · (Ideal.ofBits .f32 cw)) (Finset.sum_congr rfl fun p _ => ?_)
  show (X (ix2 p q) - broadcastInDim ⟨2, ![M, K]⟩ ![0, 1] hb (colMean (Ideal.ofBits .f32 cw) X) (ix2 p q))
      * (X (ix2 p q) - broadcastInDim ⟨2, ![M, K]⟩ ![0, 1] hb (colMean (Ideal.ofBits .f32 cw) X) (ix2 p q)) = _
  rw [bcast_row_mat]
  rfl

/-- The deviations from a broadcast row `mu`, times the broadcast reciprocal square root of a row `var` plus the broadcast
    epsilon, times a vector laid along the rows, plus another, and the maximum with a broadcast zero. -/
theorem hostBnRelu (mu var : FVec Ideal ⟨2, ![1, K]⟩ .f32) (g b : FVec Ideal ⟨1, ![K]⟩ .f32) :
    maximumf (F := Ideal) (φ := .f32)
        (addf (F := Ideal) (φ := .f32)
          (mulf (F := Ideal) (φ := .f32)
            (mulf (F := Ideal) (φ := .f32)
              (subf (F := Ideal) (φ := .f32) X (broadcastInDim ⟨2, ![M, K]⟩ ![0, 1] hb mu))
              (broadcastInDim ⟨2, ![M, K]⟩ ![0, 1] hb
                (Host.rsqrt (F := Ideal) (φ := .f32)
                  (addf (F := Ideal) (φ := .f32) var
                    (broadcastInDim ⟨2, ![1, K]⟩ ![] h0 (constant (F := Ideal) ⟨0, ![]⟩ .f32 ew))))))
            (broadcastInDim ⟨2, ![M, K]⟩ ![0, 1] hb (broadcastInDim ⟨2, ![1, K]⟩ ![1] hv g)))
          (broadcastInDim ⟨2, ![M, K]⟩ ![0, 1] hb (broadcastInDim ⟨2, ![1, K]⟩ ![1] hv b)))
        (broadcastInDim ⟨2, ![M, K]⟩ ![] hz (constant (F := Ideal) ⟨0, ![]⟩ .f32 0x00000000#32))
      = bnRelu X mu var (row g) (row b) (Ideal.ofBits .f32 ew) := by
  funext i
  obtain ⟨p, q, rfl⟩ : ∃ (p : Fin M) (q : Fin K), i = ix2 p q := ⟨i 0, i 1, eq_ix2 i⟩
  show max ((((X (ix2 p q) - broadcastInDim ⟨2, ![M, K]⟩ ![0, 1] hb mu (ix2 p q))
        * broadcastInDim ⟨2, ![M, K]⟩ ![0, 1] hb
            (Host.rsqrt (F := Ideal) (φ := .f32)
              (addf (F := Ideal) (φ := .f32) var
                (broadcastInDim ⟨2, ![1, K]⟩ ![] h0 (constant (F := Ideal) ⟨0, ![]⟩ .f32 ew)))) (ix2 p q))
        * broadcastInDim ⟨2, ![M, K]⟩ ![0, 1] hb (broadcastInDim ⟨2, ![1, K]⟩ ![1] hv g) (ix2 p q))
        + broadcastInDim ⟨2, ![M, K]⟩ ![0, 1] hb (broadcastInDim ⟨2, ![1, K]⟩ ![1] hv b) (ix2 p q))
      (broadcastInDim ⟨2, ![M, K]⟩ ![] hz (constant (F := Ideal) ⟨0, ![]⟩ .f32 0x00000000#32) (ix2 p q)) = _
  rw [Cert.HostLayout.bcast_vec_mat g hv hb p q, Cert.HostLayout.bcast_vec_mat b hv hb p q, bcast_row_mat mu hb p q,
    bcast_row_mat _ hb p q, Cert.HostLayout.bcast_scalar_mat _ hz p q]
  show max ((((X (ix2 p q) - mu (ix2 (0 : Fin 1) q))
        * Ideal.rsqrt (var (ix2 (0 : Fin 1) q)
            + broadcastInDim ⟨2, ![1, K]⟩ ![] h0 (constant (F := Ideal) ⟨0, ![]⟩ .f32 ew) (ix2 (0 : Fin 1) q)))
        * g (ix1 q)) + b (ix1 q)) (Ideal.ofBits .f32 0x00000000#32) = _
  rw [Cert.HostLayout.bcast_scalar_mat _ h0 (0 : Fin 1) q, Ideal.ofBits_zero_f32]
  rfl

/-- The maximum with a broadcast zero is the rectification. -/
theorem hostRelu :
    maximumf (F := Ideal) (φ := .f32) X
        (broadcastInDim ⟨2, ![M, K]⟩ ![] hz (constant (F := Ideal) ⟨0, ![]⟩ .f32 0x00000000#32))
      = relu X := by
  funext i
  obtain ⟨p, q, rfl⟩ : ∃ (p : Fin M) (q : Fin K), i = ix2 p q := ⟨i 0, i 1, eq_ix2 i⟩
  show max (X (ix2 p q))
      (broadcastInDim ⟨2, ![M, K]⟩ ![] hz (constant (F := Ideal) ⟨0, ![]⟩ .f32 0x00000000#32) (ix2 p q)) = _
  rw [Cert.HostLayout.bcast_scalar_mat _ hz p q]
  show max (X (ix2 p q)) (Ideal.ofBits .f32 0x00000000#32) = _
  rw [Ideal.ofBits_zero_f32]
  rfl

end Host

/-- The host's plain dot product plus a bias vector laid along the rows: the matrix product with the bias row added. -/
theorem hostDense {M K N : ℕ} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (prec : Option ContractPrecision) (A : FVec Ideal ⟨2, ![M, K]⟩ .f32) (W : FVec Ideal ⟨2, ![K, N]⟩ .f32)
    (b : FVec Ideal ⟨1, ![N]⟩ .f32)
    (hv : (⟨1, ![N]⟩ : Shape).BroadcastsInDim ⟨2, ![1, N]⟩ ![1])
    (hb : (⟨2, ![1, N]⟩ : Shape).BroadcastsInDim ⟨2, ![M, N]⟩ ![0, 1]) :
    addf (F := Ideal) (φ := .f32) (Host.dotGeneral (F := Ideal) D prec A W)
        (broadcastInDim ⟨2, ![M, N]⟩ ![0, 1] hb (broadcastInDim ⟨2, ![1, N]⟩ ![1] hv b))
      = addRow (mm A W) (row b) := by
  rw [hostDot_eq_mm D h1 h2 h3 h4 h5 h6 prec A W]
  exact hostAddRow (mm A W) b hv hb

/-- A slab of rows cut by a unit-stride slice is the slab read entry by entry. -/
theorem slice_eq_slab {R C : ℕ} (W : Mat R C) (o r : ℕ) (h : o + r ≤ R)
    (hs : (⟨2, ![R, C]⟩ : Shape).Slices ![o, 0] ⟨2, ![r, C]⟩) :
    extractStridedSlice ⟨2, ![r, C]⟩ ![o, 0] W hs = slab o r h W := by
  funext i
  obtain ⟨k, q, rfl⟩ : ∃ (k : Fin r) (q : Fin C), i = ix2 k q := ⟨i 0, i 1, eq_ix2 i⟩
  exact extractStridedSlice_apply ![o, 0] W hs (ix2 k q) (ix2 ⟨o + k.val, by have := k.isLt; omega⟩ q) (fun d => match d with
    | ⟨0, _⟩ => rfl
    | ⟨1, _⟩ => by show q.val = 0 + q.val; omega)

end Cert.HostNorm

end
-- ==== Proof.RefValue1.lean ====
/-
  The edge network of the reference, read as whole-array functions.

  Every edge carries the rows of `x` at its two end nodes (`XR`, `XC`: one gather each, at row 0 and row 1 of the edge
  index, a negative node number wrapped around once) and its own attributes.  The three pieces are laid side by side
  and multiplied by `We1`; a product with a concatenation along the columns is the sum of the pieces' products with the
  matching row slabs of `We1`, so the first layer is `pre3`.  The column means are sums along the rows over the count, the
  variances are the two-pass ones (sums of squared deviations over the count), the normalised, scaled, shifted and
  rectified array is `bnRelu`, and two further affine layers, the last one rectified, give the messages: `tailE`.
  The gathers themselves are never opened.
-/
import proofs.«139705_j25838523252951_1_alg».proof.Proof.Gen.ReferenceIdeal.Read
import proofs.«139705_j25838523252951_1_alg».proof.Proof.Spec
import proofs.«139705_j25838523252951_1_alg».proof.Proof.LibHostNorm
import proofs.«139705_j25838523252951_1_alg».proof.Proof.LibConcatDot

noncomputable section

open scoped BigOperators

namespace Cert.ReferenceIdeal.RefValue

open Cert.ReferenceIdeal Cert.ReferenceIdeal.Gen Idealize.ShloMosaic Idealize.ShloMosaic.ValueIdx
open Cert.Dense Cert.BiasRow Cert.Mpnn Cert.HostNorm

/-- A float array on the extended reals. -/
abbrev F32 (S : Shape) : Type := (⟨S, .f32⟩ : BufTy).Contents (Elt Ideal)
/-- An array of 32-bit integer words. -/
abbrev I32 (S : Shape) : Type := (⟨S, .i32⟩ : BufTy).Contents (Elt Ideal)

/-- The rows of `x` at the edges' source nodes: row 0 of the edge index, a negative node number wrapped around once. -/
def XR (x : F32 S50000x64) (ei : I32 S2x800000) : F32 S800000x64 :=
  Host.gather gather_S50000x64_S800000x1_S800000x64_1_0_n_n_0_1_164 x
    (broadcastInDim S800000x1 ![0] bcast_S800000_S800000x1_0
      (select
        (cmpi .slt (shapeCast S800000 (extractStridedSlice S1x800000 ![0, 0] ei slices_S2x800000_S1x800000_0_0) shapeCasts_S1x800000_S800000)
          (broadcastInDim S800000 ![] bcast_S_S800000 (constantI S_ 32 0#32)))
        (addi (shapeCast S800000 (extractStridedSlice S1x800000 ![0, 0] ei slices_S2x800000_S1x800000_0_0) shapeCasts_S1x800000_S800000)
          (broadcastInDim S800000 ![] bcast_S_S800000 (constantI S_ 32 50000#32)))
        (shapeCast S800000 (extractStridedSlice S1x800000 ![0, 0] ei slices_S2x800000_S1x800000_0_0) shapeCasts_S1x800000_S800000)))

/-- The rows of `x` at the edges' destination nodes: row 1 of the edge index, wrapped likewise. -/
def XC (x : F32 S50000x64) (ei : I32 S2x800000) : F32 S800000x64 :=
  Host.gather gather_S50000x64_S800000x1_S800000x64_1_0_n_n_0_1_164 x
    (broadcastInDim S800000x1 ![0] bcast_S800000_S800000x1_0
      (select
        (cmpi .slt (shapeCast S800000 (extractStridedSlice S1x800000 ![1, 0] ei slices_S2x800000_S1x800000_1_0) shapeCasts_S1x800000_S800000)
          (broadcastInDim S800000 ![] bcast_S_S800000 (constantI S_ 32 0#32)))
        (addi (shapeCast S800000 (extractStridedSlice S1x800000 ![1, 0] ei slices_S2x800000_S1x800000_1_0) shapeCasts_S1x800000_S800000)
          (broadcastInDim S800000 ![] bcast_S_S800000 (constantI S_ 32 50000#32)))
        (shapeCast S800000 (extractStridedSlice S1x800000 ![1, 0] ei slices_S2x800000_S1x800000_1_0) shapeCasts_S1x800000_S800000)))

/-- The per-node sums of the edges' rows `M`: edge `e` is added to the node that row 0 of the edge index names, into a
    zero array. -/
def scat (ei : I32 S2x800000) (M : F32 S800000x128) : F32 S50000x128 :=
  Host.scatterAdd (F := Ideal) (φ := .f32) scatter_S50000x128_S800000x1_S800000x128_1_0_0_1
    (broadcastInDim S50000x128 ![] bcast_S_S50000x128 (constant (F := Ideal) S_ .f32 0x00000000#32))
    (broadcastInDim S800000x1 ![0] bcast_S800000_S800000x1_0
      (shapeCast S800000 (extractStridedSlice S1x800000 ![0, 0] ei slices_S2x800000_S1x800000_0_0) shapeCasts_S1x800000_S800000))
    M

local notation "nE" => (Ideal.ofBits FTy.f32 0x49435000#32 : EReal)
local notation "epsB" => (Ideal.ofBits FTy.f32 0x3727C5AC#32 : EReal)

section Edge

variable (x : F32 S50000x64) (ei : I32 S2x800000) (ea : F32 S800000x16) (We1 : F32 S144x128) (be1 ge bbe : F32 S128)
  (We2 : F32 S128x128) (be2 : F32 S128) (Wm : F32 S128x128) (bm : F32 S128)

theorem XR_eq : Read.val_main_v10 (F := Ideal) x ei = XR x ei := rfl

theorem XC_eq : Read.val_main_v17 (F := Ideal) x ei = XC x ei := rfl

/-- The first layer: the three pieces side by side times `We1`, plus the bias, is `pre3` over the three row slabs. -/
theorem v22_eq :
    Read.val_main_v22 (F := Ideal) x ei ea We1 be1
      = pre3 (XR x ei) (XC x ei) ea (slab 0 64 (by omega) We1) (slab 64 64 (by omega) We1) (slab 128 16 (by omega) We1)
          (row be1) := by
  unfold Read.val_main_v22 Read.val_main_v21 Read.val_main_v20 Read.val_main_v19 Read.val_main_v18
  rw [XR_eq, XC_eq]
  refine (hostAddRow _ be1 bcast_S128_S1x128_1 bcast_S1x128_S800000x128_0_1).trans ?_
  refine congrArg (fun Z : Mat 800000 128 => addRow Z (row be1)) ?_
  refine (Cert.ConcatDot.hostDot_concat3 (φ₁ := .f32) (φ₂ := .f32) (a := 64) (b := 64) (c := 16) (d := 144) rfl
    dot_S800000x144_S144x128_S800000x128_1_0_0_1_n_n rfl rfl rfl rfl rfl rfl none (XR x ei) (XC x ei) ea We1
    concatenates_S800000x64_S800000x64_S800000x16_S800000x144_d1 64 128 rfl rfl
    (by decide) (by decide) (by decide)).trans ?_
  rw [slice_eq_slab We1 0 64 (by omega), slice_eq_slab We1 64 64 (by omega), slice_eq_slab We1 128 16 (by omega)]
  rfl

local notation "Y22" => Read.val_main_v22 (F := Ideal) x ei ea We1 be1

/-- The row of column means of the first layer. -/
theorem v26_eq : Read.val_main_v26 (F := Ideal) x ei ea We1 be1 = colMean nE Y22 := by
  unfold Read.val_main_v26 Read.val_main_v25 Read.val_main_v24 Read.val_main_v23 Read.val_main_cst_3 Read.val_main_cst
  exact hostColMean Y22 0x49435000#32 reducesTo_S800000x128_S128_d0 h_S_ bcast_S128_S1x128_1 bcast_S_S1x128 (by decide)

/-- The row of two-pass column variances of the first layer. -/
theorem v33_eq : Read.val_main_v33 (F := Ideal) x ei ea We1 be1 = varTwo nE Y22 := by
  unfold Read.val_main_v33 Read.val_main_v32 Read.val_main_v31 Read.val_main_v30 Read.val_main_v29 Read.val_main_v28
    Read.val_main_v27 Read.val_main_cst_5 Read.val_main_cst_4
  rw [v26_eq]
  exact hostVarTwo Y22 0x49435000#32 reducesTo_S800000x128_S128_d0 h_S_ bcast_S128_S1x128_1 bcast_S_S1x128
    bcast_S1x128_S800000x128_0_1 (by decide)

/-- The first layer normalised by its column statistics, scaled, shifted and rectified. -/
theorem v47_eq :
    Read.val_main_v47 (F := Ideal) x ei ea We1 be1 ge bbe
      = bnRelu Y22 (colMean nE Y22) (varTwo nE Y22) (row ge) (row bbe) epsB := by
  unfold Read.val_main_v47 Read.val_main_v46 Read.val_main_v45 Read.val_main_v44 Read.val_main_v43 Read.val_main_v42
    Read.val_main_v41 Read.val_main_v40 Read.val_main_v39 Read.val_main_v38 Read.val_main_v37 Read.val_main_v36
    Read.val_main_v35 Read.val_main_v34 Read.val_main_call0_v0 Read.val_main_call0_cst Read.val_main_cst_6
  rw [v33_eq, v26_eq]
  exact hostBnRelu Y22 0x3727C5AC#32 bcast_S128_S1x128_1 bcast_S_S1x128 bcast_S1x128_S800000x128_0_1
    bcast_S_S800000x128 (colMean nE Y22) (varTwo nE Y22) ge bbe

local notation "Y47" => Read.val_main_v47 (F := Ideal) x ei ea We1 be1 ge bbe

/-- The second affine layer. -/
theorem v51_eq :
    Read.val_main_v51 (F := Ideal) x ei ea We1 be1 ge bbe We2 be2 = addRow (mm Y47 We2) (row be2) := by
  unfold Read.val_main_v51 Read.val_main_v50 Read.val_main_v49 Read.val_main_v48
  exact hostDense dot_S800000x128_S128x128_S800000x128_1_0_0_1_n_n rfl rfl rfl rfl rfl rfl none Y47 We2 be2
    bcast_S128_S1x128_1 bcast_S1x128_S800000x128_0_1

local notation "Y51" => Read.val_main_v51 (F := Ideal) x ei ea We1 be1 ge bbe We2 be2

/-- The message layer before its rectification. -/
theorem v55_eq :
    Read.val_main_v55 (F := Ideal) x ei ea We1 be1 ge bbe We2 be2 Wm bm = addRow (mm Y51 Wm) (row bm) := by
  unfold Read.val_main_v55 Read.val_main_v54 Read.val_main_v53 Read.val_main_v52
  exact hostDense dot_S800000x128_S128x128_S800000x128_1_0_0_1_n_n rfl rfl rfl rfl rfl rfl none Y51 Wm bm
    bcast_S128_S1x128_1 bcast_S1x128_S800000x128_0_1

/-- The messages. -/
theorem v56_eq :
    Read.val_main_v56 (F := Ideal) x ei ea We1 be1 ge bbe We2 be2 Wm bm
      = relu (Read.val_main_v55 (F := Ideal) x ei ea We1 be1 ge bbe We2 be2 Wm bm) := by
  unfold Read.val_main_v56 Read.val_main_call1_v0 Read.val_main_call1_cst
  exact hostRelu (Read.val_main_v55 (F := Ideal) x ei ea We1 be1 ge bbe We2 be2 Wm bm) bcast_S_S800000x128

/-- The first layer of the edge network as the specification writes it. -/
def preE (x : F32 S50000x64) (ei : I32 S2x800000) (ea : F32 S800000x16) (We1 : F32 S144x128) (be1 : F32 S128) :
    Mat 800000 128 :=
  pre3 (XR x ei) (XC x ei) ea (slab 0 64 (by omega) We1) (slab 64 64 (by omega) We1) (slab 128 16 (by omega) We1)
    (row be1)

/-- The messages are the edge network of the specification with the two-pass variances. -/
theorem edge_eq :
    Read.val_main_v56 (F := Ideal) x ei ea We1 be1 ge bbe We2 be2 Wm bm
      = tailE (preE x ei ea We1 be1) (colMean nE (preE x ei ea We1 be1)) (varTwo nE (preE x ei ea We1 be1))
          (row ge) (row bbe) epsB We2 (row be2) Wm (row bm) := by
  rw [v56_eq, v55_eq, v51_eq, v47_eq, v22_eq]
  rfl

end Edge

end Cert.ReferenceIdeal.RefValue

end
-- ==== Proof.RefValue2.lean ====
/-
  The node network of the reference, and the whole reference as the specification's network.

  The messages are added up per source node by one scatter-add into a zero array (`scat`, never opened).  The node rows
  `x` and the sums are laid side by side and multiplied by `Wn1`: the sum of the two pieces' products with the matching
  row slabs, so the node network's first layer is `pre2`.  Its column means, two-pass column variances, normalisation,
  scale, shift and rectification, and the last affine layer are read exactly as for the edge network, over the node
  count.  Chaining the stages gives the reference's result as `net` with the two-pass variance on both sides.
-/
import proofs.«139705_j25838523252951_1_alg».proof.Proof.RefValue1

noncomputable section

open scoped BigOperators

namespace Cert.ReferenceIdeal.RefValue

open Cert.ReferenceIdeal Cert.ReferenceIdeal.Gen Idealize.ShloMosaic Idealize.ShloMosaic.ValueIdx
open Cert.Dense Cert.BiasRow Cert.Mpnn Cert.HostNorm

local notation "nE" => (Ideal.ofBits FTy.f32 0x49435000#32 : EReal)
local notation "nN" => (Ideal.ofBits FTy.f32 0x47435000#32 : EReal)
local notation "epsB" => (Ideal.ofBits FTy.f32 0x3727C5AC#32 : EReal)

section Node

variable (x : F32 S50000x64) (ei : I32 S2x800000) (ea : F32 S800000x16) (We1 : F32 S144x128) (be1 ge bbe : F32 S128)
  (We2 : F32 S128x128) (be2 : F32 S128) (Wm : F32 S128x128) (bm : F32 S128)
  (Wn1 : F32 S192x128) (bn1 gn bbn : F32 S128) (Wn2 : F32 S128x128) (bn2 : F32 S128)

/-- The per-node sums of the messages. -/
theorem v59_eq :
    Read.val_main_v59 (F := Ideal) x ei ea We1 be1 ge bbe We2 be2 Wm bm = scat ei (Read.val_main_v56 (F := Ideal) x ei ea We1 be1 ge bbe We2 be2 Wm bm) := rfl

local notation "G59" => Read.val_main_v59 (F := Ideal) x ei ea We1 be1 ge bbe We2 be2 Wm bm

/-- The first layer: the node rows and the sums side by side times `Wn1`, plus the bias, is `pre2` over the two row
    slabs. -/
theorem v64_eq :
    Read.val_main_v64 (F := Ideal) x ei ea We1 be1 ge bbe We2 be2 Wm bm Wn1 bn1
      = pre2 x G59 (slab 0 64 (by omega) Wn1) (slab 64 128 (by omega) Wn1) (row bn1) := by
  unfold Read.val_main_v64 Read.val_main_v63 Read.val_main_v62 Read.val_main_v61 Read.val_main_v60
  refine (hostAddRow _ bn1 bcast_S128_S1x128_1 bcast_S1x128_S50000x128_0_1).trans ?_
  refine congrArg (fun Z : Mat 50000 128 => addRow Z (row bn1)) ?_
  refine (Cert.ConcatDot.hostDot_concat2 (φ₁ := .f32) (φ₂ := .f32) (a := 64) (b := 128) (c := 192) rfl
    dot_S50000x192_S192x128_S50000x128_1_0_0_1_n_n rfl rfl rfl rfl rfl rfl none x G59 Wn1
    concatenates_S50000x64_S50000x128_S50000x192_d1 64 rfl (by decide) (by decide)).trans ?_
  rw [slice_eq_slab Wn1 0 64 (by omega), slice_eq_slab Wn1 64 128 (by omega)]
  rfl

local notation "Z64" => Read.val_main_v64 (F := Ideal) x ei ea We1 be1 ge bbe We2 be2 Wm bm Wn1 bn1

/-- The row of column means of the first layer. -/
theorem v68_eq : Read.val_main_v68 (F := Ideal) x ei ea We1 be1 ge bbe We2 be2 Wm bm Wn1 bn1 = colMean nN Z64 := by
  unfold Read.val_main_v68 Read.val_main_v67 Read.val_main_v66 Read.val_main_v65 Read.val_main_cst_9 Read.val_main_cst_8
  exact hostColMean Z64 0x47435000#32 reducesTo_S50000x128_S128_d0 h_S_ bcast_S128_S1x128_1 bcast_S_S1x128 (by decide)

/-- The row of two-pass column variances of the first layer. -/
theorem v75_eq : Read.val_main_v75 (F := Ideal) x ei ea We1 be1 ge bbe We2 be2 Wm bm Wn1 bn1 = varTwo nN Z64 := by
  unfold Read.val_main_v75 Read.val_main_v74 Read.val_main_v73 Read.val_main_v72 Read.val_main_v71 Read.val_main_v70
    Read.val_main_v69 Read.val_main_cst_11 Read.val_main_cst_10
  rw [v68_eq]
  exact hostVarTwo Z64 0x47435000#32 reducesTo_S50000x128_S128_d0 h_S_ bcast_S128_S1x128_1 bcast_S_S1x128
    bcast_S1x128_S50000x128_0_1 (by decide)

/-- The first layer normalised by its column statistics, scaled, shifted and rectified. -/
theorem v89_eq :
    Read.val_main_v89 (F := Ideal) x ei ea We1 be1 ge bbe We2 be2 Wm bm Wn1 bn1 gn bbn
      = bnRelu Z64 (colMean nN Z64) (varTwo nN Z64) (row gn) (row bbn) epsB := by
  unfold Read.val_main_v89 Read.val_main_v88 Read.val_main_v87 Read.val_main_v86 Read.val_main_v85 Read.val_main_v84
    Read.val_main_v83 Read.val_main_v82 Read.val_main_v81 Read.val_main_v80 Read.val_main_v79 Read.val_main_v78
    Read.val_main_v77 Read.val_main_v76 Read.val_main_call2_v0 Read.val_main_call2_cst Read.val_main_cst_12
  rw [v75_eq, v68_eq]
  exact hostBnRelu Z64 0x3727C5AC#32 bcast_S128_S1x128_1 bcast_S_S1x128 bcast_S1x128_S50000x128_0_1
    bcast_S_S50000x128 (colMean nN Z64) (varTwo nN Z64) gn bbn

local notation "Z89" => Read.val_main_v89 (F := Ideal) x ei ea We1 be1 ge bbe We2 be2 Wm bm Wn1 bn1 gn bbn

/-- The last affine layer. -/
theorem v93_eq : Read.val_main_v93 (F := Ideal) x ei ea We1 be1 ge bbe We2 be2 Wm bm Wn1 bn1 gn bbn Wn2 bn2 = addRow (mm Z89 Wn2) (row bn2) := by
  unfold Read.val_main_v93 Read.val_main_v92 Read.val_main_v91 Read.val_main_v90
  exact hostDense dot_S50000x128_S128x128_S50000x128_1_0_0_1_n_n rfl rfl rfl rfl rfl rfl none Z89 Wn2 bn2
    bcast_S128_S1x128_1 bcast_S1x128_S50000x128_0_1

end Node

/-- The reference's result is the specification's network over the gathered rows, the scatter-add and the two-pass
    variances, with the counts and the epsilon as the printed words. -/
theorem result_eq_own (x : FVec Ideal S50000x64 .f32) (ei : IVec S2x800000 32) (ea : FVec Ideal S800000x16 .f32)
    (We1 : FVec Ideal S144x128 .f32) (be1 ge bbe : FVec Ideal S128 .f32) (We2 : FVec Ideal S128x128 .f32)
    (be2 : FVec Ideal S128 .f32) (Wm : FVec Ideal S128x128 .f32) (bm : FVec Ideal S128 .f32)
    (Wn1 : FVec Ideal S192x128 .f32) (bn1 gn bbn : FVec Ideal S128 .f32) (Wn2 : FVec Ideal S128x128 .f32)
    (bn2 : FVec Ideal S128 .f32) :
    Read.val_main_v93 (F := Ideal) x ei ea We1 be1 ge bbe We2 be2 Wm bm Wn1 bn1 gn bbn Wn2 bn2
      = Cert.Mpnn.net (E := 800000) (N := 50000) (varTwo (Ideal.ofBits .f32 0x49435000#32))
          (varTwo (Ideal.ofBits .f32 0x47435000#32)) (XR x ei) (XC x ei) ea (scat ei) x
          We1 (row be1) (row ge) (row bbe) We2 (row be2) Wm (row bm) Wn1 (row bn1) (row gn) (row bbn) Wn2 (row bn2)
          (Ideal.ofBits .f32 0x49435000#32) (Ideal.ofBits .f32 0x47435000#32) (Ideal.ofBits .f32 0x3727C5AC#32) := by
  rw [v93_eq, v89_eq, v64_eq, v59_eq, edge_eq]
  rfl

end Cert.ReferenceIdeal.RefValue

end
-- ==== Proof.RefValue.lean ====
/-
  The reference's result over the shared host terms.

  The gathers at the edges' end nodes and the scatter-add of the messages are the same host operations in both
  programs; written once (`Cert.Mpnn.Glue`), the reference's own terms are those by unfolding, and the reference's
  result is the specification's network over them.
-/
import proofs.«139705_j25838523252951_1_alg».proof.Proof.RefValue2
import proofs.«139705_j25838523252951_1_alg».proof.Proof.Glue

noncomputable section

open scoped BigOperators

namespace Cert.ReferenceIdeal.RefValue

open Cert.ReferenceIdeal Cert.ReferenceIdeal.Gen Idealize.ShloMosaic Idealize.ShloMosaic.ValueIdx
open Cert.Dense Cert.BiasRow Cert.Mpnn Cert.HostNorm

variable [Cert.KernelIdeal.Facts]

theorem XR_glue (x : FVec Ideal S50000x64 .f32) (ei : IVec S2x800000 32) :
    XR x ei = Cert.Mpnn.Glue.gath x (Cert.Mpnn.Glue.srcRow ei) := rfl

theorem XC_glue (x : FVec Ideal S50000x64 .f32) (ei : IVec S2x800000 32) :
    XC x ei = Cert.Mpnn.Glue.gath x (Cert.Mpnn.Glue.dstRow ei) := rfl

theorem scat_glue (ei : IVec S2x800000 32) : scat ei = Cert.Mpnn.Glue.scat (Cert.Mpnn.Glue.srcRow ei) := rfl

/-- The reference's result is the specification's network over the shared gathers and scatter-add, with the two-pass
    variance for both normalisations, and the counts and the epsilon as the printed words. -/
theorem result_eq (x : FVec Ideal S50000x64 .f32) (ei : IVec S2x800000 32) (ea : FVec Ideal S800000x16 .f32)
    (We1 : FVec Ideal S144x128 .f32) (be1 ge bbe : FVec Ideal S128 .f32) (We2 : FVec Ideal S128x128 .f32)
    (be2 : FVec Ideal S128 .f32) (Wm : FVec Ideal S128x128 .f32) (bm : FVec Ideal S128 .f32)
    (Wn1 : FVec Ideal S192x128 .f32) (bn1 gn bbn : FVec Ideal S128 .f32) (Wn2 : FVec Ideal S128x128 .f32)
    (bn2 : FVec Ideal S128 .f32) :
    Read.val_main_v93 (F := Ideal) x ei ea We1 be1 ge bbe We2 be2 Wm bm Wn1 bn1 gn bbn Wn2 bn2
      = Cert.Mpnn.net (E := 800000) (N := 50000) (varTwo (Ideal.ofBits .f32 0x49435000#32))
          (varTwo (Ideal.ofBits .f32 0x47435000#32))
          (Cert.Mpnn.Glue.gath x (Cert.Mpnn.Glue.srcRow ei)) (Cert.Mpnn.Glue.gath x (Cert.Mpnn.Glue.dstRow ei)) ea
          (Cert.Mpnn.Glue.scat (Cert.Mpnn.Glue.srcRow ei)) x
          We1 (row be1) (row ge) (row bbe) We2 (row be2) Wm (row bm) Wn1 (row bn1) (row gn) (row bbn) Wn2 (row bn2)
          (Ideal.ofBits .f32 0x49435000#32) (Ideal.ofBits .f32 0x47435000#32) (Ideal.ofBits .f32 0x3727C5AC#32) := by
  rw [← XR_glue x ei, ← XC_glue x ei, ← scat_glue ei]
  exact result_eq_own x ei ea We1 be1 ge bbe We2 be2 Wm bm Wn1 bn1 gn bbn Wn2 bn2

end Cert.ReferenceIdeal.RefValue

end
-- ==== Proof.Algebraic.lean ====
/-
  The two idealized programs compute one function.

  The kernel's result is the specification's network with the one-pass variances `(∑ y²)/n − μ·μ` (the run of the four
  regions, read back segment by segment); the reference's result is the same network with the two-pass variances
  `(∑ (y − μ)²)/n` (its generated run, read operation by operation).  Under the precondition every float argument is a
  real number, hence so is every entry of the two layers that are normalised, and over the reals the two variances
  are one number: the two results agree entry by entry.
-/
import proofs.«139705_j25838523252951_1_alg».proof.Defs
import proofs.«139705_j25838523252951_1_alg».proof.Proof.Gen.Pre_finite_inputs
import proofs.«139705_j25838523252951_1_alg».proof.Proof.Gen.ReferenceIdeal.Run
import proofs.«139705_j25838523252951_1_alg».proof.Proof.Gen.ReferenceIdeal.Read
import proofs.«139705_j25838523252951_1_alg».proof.Proof.KernelValue
import proofs.«139705_j25838523252951_1_alg».proof.Proof.NetLaw
import proofs.«139705_j25838523252951_1_alg».proof.Proof.RefValue

noncomputable section

namespace Cert.Proof.Claims

open Idealize.ShloMosaic Idealize.SL.Sem Cert.Mpnn

theorem algebraic : Cert.algebraic_KernelIdeal_ReferenceIdeal := by
  intro m ρ m' ρ' hpre hagree
  refine ⟨fun c => Cert.KernelIdeal.KVal.netOf m c (varOne Cert.KernelIdeal.KVal.nE) (varOne Cert.KernelIdeal.KVal.nN),
    Cert.KernelIdeal.KVal.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v93_eq, Cert.ReferenceIdeal.RefValue.result_eq]
  obtain ⟨a0, a1, a2, a3, a4, a5, a6, a7, a8, a9, a10, a11, a12, a13, a14, a15, a16⟩ := hagree c
  rw [a0, a1, a2, a3, a4, a5, a6, a7, a8, a9, a10, a11, a12, a13, a14, a15, a16]
  exact (Cert.KernelIdeal.KVal.netOf_one_eq_two m hpre c).symm

end Cert.Proof.Claims

end
-- ==== Proof.lean ====
/- The proof of `Cert.Claim`: a message-passing layer — gather the end nodes' rows per edge, an edge network with a batch
   normalisation, a segment sum of the messages per node, a node network with a second batch normalisation — computed by
   four kernels among host operations, against the same layer written with plain array operations.
   The three frames are the programs' runs (the two kernels' generated frame certificates; the reference's generated run
   with its result dropped).  No operation was rewritten by the idealization, so `preserves` holds trivially.  The two
   idealized programs agree because they differ only in how the normalisation's variance is written, one pass against two
   passes, which is one number when every entry is real (Proof/Algebraic.lean; the specification is Proof/Spec.lean). -/
import proofs.«139705_j25838523252951_1_alg».proof.Defs
import proofs.«139705_j25838523252951_1_alg».proof.Proof.Gen.Kernel
import proofs.«139705_j25838523252951_1_alg».proof.Proof.Gen.Kernel.Skeleton
import proofs.«139705_j25838523252951_1_alg».proof.Proof.Gen.Kernel.Launch
import proofs.«139705_j25838523252951_1_alg».proof.Proof.Gen.Kernel.Points
import proofs.«139705_j25838523252951_1_alg».proof.Proof.Gen.Kernel.Frame
import proofs.«139705_j25838523252951_1_alg».proof.Proof.Gen.KernelIdeal
import proofs.«139705_j25838523252951_1_alg».proof.Proof.Gen.KernelIdeal.Skeleton
import proofs.«139705_j25838523252951_1_alg».proof.Proof.Gen.KernelIdeal.Launch
import proofs.«139705_j25838523252951_1_alg».proof.Proof.Gen.KernelIdeal.Points
import proofs.«139705_j25838523252951_1_alg».proof.Proof.Gen.KernelIdeal.Frame
import proofs.«139705_j25838523252951_1_alg».proof.Proof.Gen.ReferenceIdeal
import proofs.«139705_j25838523252951_1_alg».proof.Proof.Gen.Pre_finite_inputs
import proofs.«139705_j25838523252951_1_alg».proof.Proof.Gen.ReferenceIdeal.Run
import proofs.«139705_j25838523252951_1_alg».proof.Proof.Gen.ReferenceIdeal.Read
import proofs.«139705_j25838523252951_1_alg».proof.Proof.Algebraic
import Idealize.ShloMosaic.Adequacy
import Idealize.ShloMosaic.Init

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Pre_finite_inputs.Gen.facts,
    fun m ρ _ => Cert.Kernel.Gen.frame m ρ,
    fun m ρ _ => Cert.KernelIdeal.Gen.frame m ρ,
    fun m ρ _ => (θ_run Cert.ReferenceIdeal.defs _ _).mono (fun _ h c => (h c).2)
      (Cert.ReferenceIdeal.Value.run (F := Ideal) m ρ),
    trivial, Claims.algebraic⟩

end Cert.Proof

end
